-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S100x32 : Shape := ⟨2, ![100, 32]⟩
abbrev S2x256x256 : Shape := ⟨3, ![2, 256, 256]⟩
abbrev S2x256 : Shape := ⟨2, ![2, 256]⟩
abbrev S2x256x1024 : Shape := ⟨3, ![2, 256, 1024]⟩
abbrev S2x1024 : Shape := ⟨2, ![2, 1024]⟩
abbrev S2x1024x256 : Shape := ⟨3, ![2, 1024, 256]⟩
abbrev S640000 : Shape := ⟨1, ![640000]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S100x32 : S_.BroadcastsInDim S100x32 (![] : Fin 0 → Fin S100x32.rank)
  reducesTo_S100x32_S_d0_1 : S100x32.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S2x256x1024 : S_.BroadcastsInDim S2x256x1024 (![] : Fin 0 → Fin S2x256x1024.rank)
  reducesTo_S2x256x1024_S_d0_1_2 : S2x256x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S2x1024x256 : S_.BroadcastsInDim S2x1024x256 (![] : Fin 0 → Fin S2x1024x256.rank)
  reducesTo_S2x1024x256_S_d0_1_2 : S2x1024x256.ReducesTo [0, 1, 2] S_

variable [Facts]

def fn_part4 {F : FTy → Type} [FloatOps F] (main_arg14 : FVec F S2x256 .f32) (main_arg15 : FVec F S2x256 .f32) (main_v63 : IVec S_ 1) (main_v67 : IVec S_ 1) : IVec S_ 1 :=
  let main_v68 : IVec S_ 1 := andi main_v63 main_v67
  let main_v69 : FVec F S2x256 .f32 := Host.absf main_arg14
  let main_cst_26 : FVec F S_ .f32 := constant S_ .f32 0x7F800000#32
  let main_v70 : FVec F S2x256 .f32 := broadcastInDim S2x256 ![] bcast_S_S2x256 main_cst_26
  let main_v71 : IVec S2x256 1 := cmpf .olt main_v69 main_v70
  let main_c_27 : IVec S_ 1 := constantI S_ 1 1#1
  let main_v72 : IVec S_ 1 := (fun x v => Host.reduce IntOp.andi x v reducesTo_S2x256_S_d0_1 h_S_) main_v71 main_c_27
  let main_v73 : IVec S_ 1 := andi main_v68 main_v72
  let main_v74 : FVec F S2x256 .f32 := Host.absf main_arg15
  let main_cst_28 : FVec F S_ .f32 := constant S_ .f32 0x7F800000#32
  let main_v75 : FVec F S2x256 .f32 := broadcastInDim S2x256 ![] bcast_S_S2x256 main_cst_28
  let main_v76 : IVec S2x256 1 := cmpf .olt main_v74 main_v75
  let main_c_29 : IVec S_ 1 := constantI S_ 1 1#1
  let main_v77 : IVec S_ 1 := (fun x v => Host.reduce IntOp.andi x v reducesTo_S2x256_S_d0_1 h_S_) main_v76 main_c_29
  let main_v78 : IVec S_ 1 := andi main_v73 main_v77
  main_v78

def fn_part3 {F : FTy → Type} [FloatOps F] (main_arg11 : FVec F S2x1024 .f32) (main_arg12 : FVec F S2x1024x256 .f32) (main_arg13 : FVec F S2x256 .f32) (main_arg14 : FVec F S2x256 .f32) (main_arg15 : FVec F S2x256 .f32) (main_v48 : IVec S_ 1) (main_v49 : FVec F S2x256x1024 .f32) (main_v50 : FVec F S2x256x1024 .f32) : IVec S_ 1 :=
  let main_v51 : IVec S2x256x1024 1 := cmpf .olt main_v49 main_v50
  let main_c_19 : IVec S_ 1 := constantI S_ 1 1#1
  let main_v52 : IVec S_ 1 := (fun x v => Host.reduce IntOp.andi x v reducesTo_S2x256x1024_S_d0_1_2 h_S_) main_v51 main_c_19
  let main_v53 : IVec S_ 1 := andi main_v48 main_v52
  let main_v54 : FVec F S2x1024 .f32 := Host.absf main_arg11
  let main_cst_20 : FVec F S_ .f32 := constant S_ .f32 0x7F800000#32
  let main_v55 : FVec F S2x1024 .f32 := broadcastInDim S2x1024 ![] bcast_S_S2x1024 main_cst_20
  let main_v56 : IVec S2x1024 1 := cmpf .olt main_v54 main_v55
  let main_c_21 : IVec S_ 1 := constantI S_ 1 1#1
  let main_v57 : IVec S_ 1 := (fun x v => Host.reduce IntOp.andi x v reducesTo_S2x1024_S_d0_1 h_S_) main_v56 main_c_21
  let main_v58 : IVec S_ 1 := andi main_v53 main_v57
  let main_v59 : FVec F S2x1024x256 .f32 := Host.absf main_arg12
  let main_cst_22 : FVec F S_ .f32 := constant S_ .f32 0x7F800000#32
  let main_v60 : FVec F S2x1024x256 .f32 := broadcastInDim S2x1024x256 ![] bcast_S_S2x1024x256 main_cst_22
  let main_v61 : IVec S2x1024x256 1 := cmpf .olt main_v59 main_v60
  let main_c_23 : IVec S_ 1 := constantI S_ 1 1#1
  let main_v62 : IVec S_ 1 := (fun x v => Host.reduce IntOp.andi x v reducesTo_S2x1024x256_S_d0_1_2 h_S_) main_v61 main_c_23
  let main_v63 : IVec S_ 1 := andi main_v58 main_v62
  let main_v64 : FVec F S2x256 .f32 := Host.absf main_arg13
  let main_cst_24 : FVec F S_ .f32 := constant S_ .f32 0x7F800000#32
  let main_v65 : FVec F S2x256 .f32 := broadcastInDim S2x256 ![] bcast_S_S2x256 main_cst_24
  let main_v66 : IVec S2x256 1 := cmpf .olt main_v64 main_v65
  let main_c_25 : IVec S_ 1 := constantI S_ 1 1#1
  let main_v67 : IVec S_ 1 := (fun x v => Host.reduce IntOp.andi x v reducesTo_S2x256_S_d0_1 h_S_) main_v66 main_c_25
  fn_part4 (F := F) main_arg14 main_arg15 main_v63 main_v67

def fn_part2 {F : FTy → Type} [FloatOps F] (main_arg7 : FVec F S2x256 .f32) (main_arg8 : FVec F S2x256 .f32) (main_arg9 : FVec F S2x256 .f32) (main_arg10 : FVec F S2x256x1024 .f32) (main_arg11 : FVec F S2x1024 .f32) (main_arg12 : FVec F S2x1024x256 .f32) (main_arg13 : FVec F S2x256 .f32) (main_arg14 : FVec F S2x256 .f32) (main_arg15 : FVec F S2x256 .f32) (main_v33 : IVec S_ 1) : IVec S_ 1 :=
  let main_v34 : FVec F S2x256 .f32 := Host.absf main_arg7
  let main_cst_12 : FVec F S_ .f32 := constant S_ .f32 0x7F800000#32
  let main_v35 : FVec F S2x256 .f32 := broadcastInDim S2x256 ![] bcast_S_S2x256 main_cst_12
  let main_v36 : IVec S2x256 1 := cmpf .olt main_v34 main_v35
  let main_c_13 : IVec S_ 1 := constantI S_ 1 1#1
  let main_v37 : IVec S_ 1 := (fun x v => Host.reduce IntOp.andi x v reducesTo_S2x256_S_d0_1 h_S_) main_v36 main_c_13
  let main_v38 : IVec S_ 1 := andi main_v33 main_v37
  let main_v39 : FVec F S2x256 .f32 := Host.absf main_arg8
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  let main_v44 : FVec F S2x256 .f32 := Host.absf main_arg9
  let main_cst_16 : FVec F S_ .f32 := constant S_ .f32 0x7F800000#32
  let main_v45 : FVec F S2x256 .f32 := broadcastInDim S2x256 ![] bcast_S_S2x256 main_cst_16
  let main_v46 : IVec S2x256 1 := cmpf .olt main_v44 main_v45
  let main_c_17 : IVec S_ 1 := constantI S_ 1 1#1
  let main_v47 : IVec S_ 1 := (fun x v => Host.reduce IntOp.andi x v reducesTo_S2x256_S_d0_1 h_S_) main_v46 main_c_17
  let main_v48 : IVec S_ 1 := andi main_v43 main_v47
  let main_v49 : FVec F S2x256x1024 .f32 := Host.absf main_arg10
  let main_cst_18 : FVec F S_ .f32 := constant S_ .f32 0x7F800000#32
  let main_v50 : FVec F S2x256x1024 .f32 := broadcastInDim S2x256x1024 ![] bcast_S_S2x256x1024 main_cst_18
  fn_part3 (F := F) main_arg11 main_arg12 main_arg13 main_arg14 main_arg15 main_v48 main_v49 main_v50

def fn_part1 {F : FTy → Type} [FloatOps F] (main_arg4 : FVec F S2x256x256 .f32) (main_arg5 : FVec F S2x256x256 .f32) (main_arg6 : FVec F S2x256x256 .f32) (main_arg7 : FVec F S2x256 .f32) (main_arg8 : FVec F S2x256 .f32) (main_arg9 : FVec F S2x256 .f32) (main_arg10 : FVec F S2x256x1024 .f32) (main_arg11 : FVec F S2x1024 .f32) (main_arg12 : FVec F S2x1024x256 .f32) (main_arg13 : FVec F S2x256 .f32) (main_arg14 : FVec F S2x256 .f32) (main_arg15 : FVec F S2x256 .f32) (main_v13 : IVec S_ 1) (main_v16 : IVec S2x256 1) : IVec S_ 1 :=
  let main_c_5 : IVec S_ 1 := constantI S_ 1 1#1
  let main_v17 : IVec S_ 1 := (fun x v => Host.reduce IntOp.andi x v reducesTo_S2x256_S_d0_1 h_S_) main_v16 main_c_5
  let main_v18 : IVec S_ 1 := andi main_v13 main_v17
  let main_v19 : FVec F S2x256x256 .f32 := Host.absf main_arg4
  let main_cst_6 : FVec F S_ .f32 := constant S_ .f32 0x7F800000#32
  let main_v20 : FVec F S2x256x256 .f32 := broadcastInDim S2x256x256 ![] bcast_S_S2x256x256 main_cst_6
  let main_v21 : IVec S2x256x256 1 := cmpf .olt main_v19 main_v20
  let main_c_7 : IVec S_ 1 := constantI S_ 1 1#1
  let main_v22 : IVec S_ 1 := (fun x v => Host.reduce IntOp.andi x v reducesTo_S2x256x256_S_d0_1_2 h_S_) main_v21 main_c_7
  let main_v23 : IVec S_ 1 := andi main_v18 main_v22
  let main_v24 : FVec F S2x256x256 .f32 := Host.absf main_arg5
  let main_cst_8 : FVec F S_ .f32 := constant S_ .f32 0x7F800000#32
  let main_v25 : FVec F S2x256x256 .f32 := broadcastInDim S2x256x256 ![] bcast_S_S2x256x256 main_cst_8
  let main_v26 : IVec S2x256x256 1 := cmpf .olt main_v24 main_v25
  let main_c_9 : IVec S_ 1 := constantI S_ 1 1#1
  let main_v27 : IVec S_ 1 := (fun x v => Host.reduce IntOp.andi x v reducesTo_S2x256x256_S_d0_1_2 h_S_) main_v26 main_c_9
  let main_v28 : IVec S_ 1 := andi main_v23 main_v27
  let main_v29 : FVec F S2x256x256 .f32 := Host.absf main_arg6
  let main_cst_10 : FVec F S_ .f32 := constant S_ .f32 0x7F800000#32
  let main_v30 : FVec F S2x256x256 .f32 := broadcastInDim S2x256x256 ![] bcast_S_S2x256x256 main_cst_10
  let main_v31 : IVec S2x256x256 1 := cmpf .olt main_v29 main_v30
  let main_c_11 : IVec S_ 1 := constantI S_ 1 1#1
  let main_v32 : IVec S_ 1 := (fun x v => Host.reduce IntOp.andi x v reducesTo_S2x256x256_S_d0_1_2 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S20000x256 .f32) (main_arg1 : FVec F S100x32 .f32) (main_arg2 : FVec F S2x256x256 .f32) (main_arg3 : FVec F S2x256 .f32) (main_arg4 : FVec F S2x256x256 .f32) (main_arg5 : FVec F S2x256x256 .f32) (main_arg6 : FVec F S2x256x256 .f32) (main_arg7 : FVec F S2x256 .f32) (main_arg8 : FVec F S2x256 .f32) (main_arg9 : FVec F S2x256 .f32) (main_arg10 : FVec F S2x256x1024 .f32) (main_arg11 : FVec F S2x1024 .f32) (main_arg12 : FVec F S2x1024x256 .f32) (main_arg13 : FVec F S2x256 .f32) (main_arg14 : FVec F S2x256 .f32) (main_arg15 : FVec F S2x256 .f32) (main_arg16 : IVec S640000 32) (main_arg17 : IVec S640000 32) (main_arg18 : IVec S640000 32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S100x32 .f32 := Host.absf main_arg1
  let main_cst_0 : FVec F S_ .f32 := constant S_ .f32 0x7F800000#32
  let main_v5 : FVec F S100x32 .f32 := broadcastInDim S100x32 ![] bcast_S_S100x32 main_cst_0
  let main_v6 : IVec S100x32 1 := cmpf .olt main_v4 main_v5
  let main_c_1 : IVec S_ 1 := constantI S_ 1 1#1
  let main_v7 : IVec S_ 1 := (fun x v => Host.reduce IntOp.andi x v reducesTo_S100x32_S_d0_1 h_S_) main_v6 main_c_1
  let main_v8 : IVec S_ 1 := andi main_v3 main_v7
  let main_v9 : FVec F S2x256x256 .f32 := Host.absf main_arg2
  let main_cst_2 : FVec F S_ .f32 := constant S_ .f32 0x7F800000#32
  let main_v10 : FVec F S2x256x256 .f32 := broadcastInDim S2x256x256 ![] bcast_S_S2x256x256 main_cst_2
  let main_v11 : IVec S2x256x256 1 := cmpf .olt main_v9 main_v10
  let main_c_3 : IVec S_ 1 := constantI S_ 1 1#1
  let main_v12 : IVec S_ 1 := (fun x v => Host.reduce IntOp.andi x v reducesTo_S2x256x256_S_d0_1_2 h_S_) main_v11 main_c_3
  let main_v13 : IVec S_ 1 := andi main_v8 main_v12
  let main_v14 : FVec F S2x256 .f32 := Host.absf main_arg3
  let main_cst_4 : FVec F S_ .f32 := constant S_ .f32 0x7F800000#32
  let main_v15 : FVec F S2x256 .f32 := broadcastInDim S2x256 ![] bcast_S_S2x256 main_cst_4
  let main_v16 : IVec S2x256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S20000x256 : Shape := ⟨2, ![20000, 256]⟩
abbrev S100x32 : Shape := ⟨2, ![100, 32]⟩
abbrev S2x256x256 : Shape := ⟨3, ![2, 256, 256]⟩
abbrev S2x256 : Shape := ⟨2, ![2, 256]⟩
abbrev S2x256x1024 : Shape := ⟨3, ![2, 256, 1024]⟩
abbrev S2x1024 : Shape := ⟨2, ![2, 1024]⟩
abbrev S2x1024x256 : Shape := ⟨3, ![2, 1024, 256]⟩
abbrev S640000 : Shape := ⟨1, ![640000]⟩
abbrev S_ : Shape := ⟨0, ![]⟩
abbrev S640000x1 : Shape := ⟨2, ![640000, 1]⟩
abbrev S640000x32 : Shape := ⟨2, ![640000, 32]⟩
abbrev S1x640000x1x32 : Shape := ⟨4, ![1, 640000, 1, 32]⟩
abbrev S1x640000x8x32 : Shape := ⟨4, ![1, 640000, 8, 32]⟩
abbrev S640000x256 : Shape := ⟨2, ![640000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S2000x256 : Shape := ⟨2, ![2000, 256]⟩
abbrev S640000x8 : Shape := ⟨2, ![640000, 8]⟩
abbrev S2000x8 : Shape := ⟨2, ![2000, 8]⟩
abbrev S2000x32 : Shape := ⟨2, ![2000, 32]⟩
abbrev S2000 : Shape := ⟨1, ![2000]⟩
abbrev S2000x1 : Shape := ⟨2, ![2000, 1]⟩
abbrev S20000x8 : Shape := ⟨2, ![20000, 8]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S1x1024x256 : Shape := ⟨3, ![1, 1024, 256]⟩
abbrev S1024x256 : Shape := ⟨2, ![1024, 256]⟩
abbrev S1000x256 : Shape := ⟨2, ![1000, 256]⟩
abbrev S1000x8 : Shape := ⟨2, ![1000, 8]⟩
abbrev S1000x1 : Shape := ⟨2, ![1000, 1]⟩
abbrev S1000x32 : Shape := ⟨2, ![1000, 32]⟩
abbrev S1000 : Shape := ⟨1, ![1000]⟩
abbrev S1000x1024 : Shape := ⟨2, ![1000, 1024]⟩

abbrev nBuf : Space → Nat
  | .hbm => 170
  | .vmem => 84
  | .smem => 0
  | _ => 0

abbrev hbmTy0_0 (i : Nat) : BufTy := match i % 128 with
  | 0 => ⟨S20000x256, .f32⟩
  | 1 => ⟨S100x32, .f32⟩
  | 2 => ⟨S2x256x256, .f32⟩
  | 3 => ⟨S2x256, .f32⟩
  | 4 => ⟨S2x256x256, .f32⟩
  | 5 => ⟨S2x256x256, .f32⟩
  | 6 => ⟨S2x256x256, .f32⟩
  | 7 => ⟨S2x256, .f32⟩
  | 8 => ⟨S2x256, .f32⟩
  | 9 => ⟨S2x256, .f32⟩
  | 10 => ⟨S2x256x1024, .f32⟩
  | 11 => ⟨S2x1024, .f32⟩
  | 12 => ⟨S2x1024x256, .f32⟩
  | 13 => ⟨S2x256, .f32⟩
  | 14 => ⟨S2x256, .f32⟩
  | 15 => ⟨S2x256, .f32⟩
  | 16 => ⟨S640000, .i32⟩
  | 17 => ⟨S640000, .i32⟩
  | 18 => ⟨S640000, .i32⟩
  | 19 => ⟨S100x32, .bf16⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x32, .bf16⟩
  | 29 => ⟨S1x640000x1x32, .bf16⟩
  | 30 => ⟨S1x640000x8x32, .bf16⟩
  | 31 => ⟨S640000x256, .bf16⟩
  | 32 => ⟨S1x256x256, .f32⟩
  | 33 => ⟨S256x256, .f32⟩
  | 34 => ⟨S1x256x256, .f32⟩
  | 35 => ⟨S256x256, .f32⟩
  | 36 => ⟨S1x256x256, .f32⟩
  | 37 => ⟨S256x256, .f32⟩
  | 38 => ⟨S1x256, .f32⟩
  | 39 => ⟨S256, .f32⟩
  | 40 => ⟨S20000x256, .bf16⟩
  | 41 => ⟨S20000x256, .bf16⟩
  | 42 => ⟨S20000x256, .bf16⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S640000x256, .bf16⟩
  | 52 => ⟨S_, .i32⟩
  | 53 => ⟨S640000, .i32⟩
  | 54 => ⟨S640000, .i1⟩
  | 55 => ⟨S_, .i32⟩
  | 56 => ⟨S640000, .i32⟩
  | 57 => ⟨S640000, .i32⟩
  | 58 => ⟨S640000, .i32⟩
  | 59 => ⟨S640000x1, .i32⟩
  | 60 => ⟨S640000x256, .bf16⟩
  | 61 => ⟨S_, .i32⟩
  | 62 => ⟨S640000, .i32⟩
  | 63 => ⟨S640000, .i1⟩
  | 64 => ⟨S_, .i32⟩
  | 65 => ⟨S640000, .i32⟩
  | 66 => ⟨S640000, .i32⟩
  | 67 => ⟨S640000, .i32⟩
  | 68 => ⟨S640000x1, .i32⟩
  | 69 => ⟨S640000x256, .bf16⟩
  | 70 => ⟨S640000x256, .f32⟩
  | 71 => ⟨S640000x8, .f32⟩
  | 72 => ⟨S_, .f32⟩
  | 73 => ⟨S20000x256, .f32⟩
  | 74 => ⟨S640000x1, .i32⟩
  | 75 => ⟨S20000x256, .f32⟩
  | 76 => ⟨S_, .f32⟩
  | 77 => ⟨S20000x8, .f32⟩
  | 78 => ⟨S640000x1, .i32⟩
  | 79 => ⟨S20000x8, .f32⟩
  | 80 => ⟨S1x256x256, .f32⟩
  | 81 => ⟨S256x256, .f32⟩
  | 82 => ⟨S1x256, .f32⟩
  | 83 => ⟨S256, .f32⟩
  | 84 => ⟨S1x256, .f32⟩
  | 85 => ⟨S256, .f32⟩
  | 86 => ⟨S1x256, .f32⟩
  | 87 => ⟨S256, .f32⟩
  | 88 => ⟨S1x256x1024, .f32⟩
  | 89 => ⟨S256x1024, .f32⟩
  | 90 => ⟨S1x1024, .f32⟩
  | 91 => ⟨S1024, .f32⟩
  | 92 => ⟨S1x1024x256, .f32⟩
  | 93 => ⟨S1024x256, .f32⟩
  | 94 => ⟨S1x256, .f32⟩
  | 95 => ⟨S256, .f32⟩
  | 96 => ⟨S1x256, .f32⟩
  | 97 => ⟨S256, .f32⟩
  | 98 => ⟨S1x256, .f32⟩
  | 99 => ⟨S256, .f32⟩
  | 100 => ⟨S20000x256, .f32⟩
  | 101 => ⟨S1x256x256, .f32⟩
  | 102 => ⟨S256x256, .f32⟩
  | 103 => ⟨S1x256x256, .f32⟩
  | 104 => ⟨S256x256, .f32⟩
  | 105 => ⟨S1x256x256, .f32⟩
  | 106 => ⟨S256x256, .f32⟩
  | 107 => ⟨S1x256, .f32⟩
  | 108 => ⟨S256, .f32⟩
  | 109 => ⟨S20000x256, .bf16⟩
  | 110 => ⟨S20000x256, .bf16⟩
  | 111 => ⟨S20000x256, .bf16⟩
  | 112 => ⟨S_, .i32⟩
  | 113 => ⟨S640000, .i32⟩
  | 114 => ⟨S640000, .i1⟩
  | 115 => ⟨S_, .i32⟩
  | 116 => ⟨S640000, .i32⟩
  | 117 => ⟨S640000, .i32⟩
  | 118 => ⟨S640000, .i32⟩
  | 119 => ⟨S640000x1, .i32⟩
  | 120 => ⟨S640000x256, .bf16⟩
  | 121 => ⟨S_, .i32⟩
  | 122 => ⟨S640000, .i32⟩
  | 123 => ⟨S640000, .i1⟩
  | 124 => ⟨S_, .i32⟩
  | 125 => ⟨S640000, .i32⟩
  | 126 => ⟨S640000, .i32⟩
  | 127 => ⟨S640000, .i32⟩
  | _ => ⟨S20000x256, .f32⟩

abbrev hbmTy0_1 (i : Nat) : BufTy := match i % 128 with
  | 0 => ⟨S640000x1, .i32⟩
  | 1 => ⟨S640000x256, .bf16⟩
  | 2 => ⟨S_, .i32⟩
  | 3 => ⟨S640000, .i32⟩
  | 4 => ⟨S640000, .i1⟩
  | 5 => ⟨S_, .i32⟩
  | 6 => ⟨S640000, .i32⟩
  | 7 => ⟨S640000, .i32⟩
  | 8 => ⟨S640000, .i32⟩
  | 9 => ⟨S640000x1, .i32⟩
  | 10 => ⟨S640000x256, .bf16⟩
  | 11 => ⟨S640000x256, .f32⟩
  | 12 => ⟨S640000x8, .f32⟩
  | 13 => ⟨S_, .f32⟩
  | 14 => ⟨S20000x256, .f32⟩
  | 15 => ⟨S640000x1, .i32⟩
  | 16 => ⟨S20000x256, .f32⟩
  | 17 => ⟨S_, .f32⟩
  | 18 => ⟨S20000x8, .f32⟩
  | 19 => ⟨S640000x1, .i32⟩
  | 20 => ⟨S20000x8, .f32⟩
  | 21 => ⟨S1x256x256, .f32⟩
  | 22 => ⟨S256x256, .f32⟩
  | 23 => ⟨S1x256, .f32⟩
  | 24 => ⟨S256, .f32⟩
  | 25 => ⟨S1x256, .f32⟩
  | 26 => ⟨S256, .f32⟩
  | 27 => ⟨S1x256, .f32⟩
  | 28 => ⟨S256, .f32⟩
  | 29 => ⟨S1x256x1024, .f32⟩
  | 30 => ⟨S256x1024, .f32⟩
  | 31 => ⟨S1x1024, .f32⟩
  | 32 => ⟨S1024, .f32⟩
  | 33 => ⟨S1x1024x256, .f32⟩
  | 34 => ⟨S1024x256, .f32⟩
  | 35 => ⟨S1x256, .f32⟩
  | 36 => ⟨S256, .f32⟩
  | 37 => ⟨S1x256, .f32⟩
  | 38 => ⟨S256, .f32⟩
  | 39 => ⟨S1x256, .f32⟩
  | 40 => ⟨S256, .f32⟩
  | 41 => ⟨S20000x256, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256, .f32⟩
  | .local _ .vmem, ⟨6, _⟩ => ⟨S2000x256, .bf16⟩
  | .local _ .vmem, ⟨7, _⟩ => ⟨S2000x256, .bf16⟩
  | .local _ .vmem, ⟨8, _⟩ => ⟨S2000x256, .bf16⟩
  | .local _ .vmem, ⟨9, _⟩ => ⟨S2000x256, .bf16⟩
  | .local _ .vmem, ⟨10, _⟩ => ⟨S2000x256, .bf16⟩
  | .local _ .vmem, ⟨11, _⟩ => ⟨S2000x256, .bf16⟩
  | .local _ .vmem, ⟨12, _⟩ => ⟨S2000x256, .bf16⟩
  | .local _ .vmem, ⟨13, _⟩ => ⟨S2000x256, .bf16⟩
  | .local _ .vmem, ⟨14, _⟩ => ⟨S2000x256, .bf16⟩
  | .local _ .vmem, ⟨15, _⟩ => ⟨S2000x256, .bf16⟩
  | .local _ .vmem, ⟨16, _⟩ => ⟨S2000x256, .bf16⟩
  | .local _ .vmem, ⟨17, _⟩ => ⟨S2000x256, .bf16⟩
  | .local _ .vmem, ⟨18, _⟩ => ⟨S2000x256, .bf16⟩
  | .local _ .vmem, ⟨19, _⟩ => ⟨S2000x256, .bf16⟩
  | .local _ .vmem, ⟨20, _⟩ => ⟨S2000x256, .f32⟩
  | .local _ .vmem, ⟨21, _⟩ => ⟨S2000x256, .f32⟩
  | .local _ .vmem, ⟨22, _⟩ => ⟨S2000x8, .f32⟩
  | .local _ .vmem, ⟨23, _⟩ => ⟨S2000x8, .f32⟩
  | .local _ .vmem, ⟨24, _⟩ => ⟨S1000x256, .f32⟩
  | .local _ .vmem, ⟨25, _⟩ => ⟨S1000x256, .f32⟩
  | .local _ .vmem, ⟨26, _⟩ => ⟨S1000x256, .f32⟩
  | .local _ .vmem, ⟨27, _⟩ => ⟨S1000x256, .f32⟩
  | .local _ .vmem, ⟨28, _⟩ => ⟨S1000x8, .f32⟩
  | .local _ .vmem, ⟨29, _⟩ => ⟨S1000x8, .f32⟩
  | .local _ .vmem, ⟨30, _⟩ => ⟨S256x256, .f32⟩
  | .local _ .vmem, ⟨31, _⟩ => ⟨S256, .f32⟩
  | .local _ .vmem, ⟨32, _⟩ => ⟨S256, .f32⟩
  | .local _ .vmem, ⟨33, _⟩ => ⟨S256, .f32⟩
  | .local _ .vmem, ⟨34, _⟩ => ⟨S256x1024, .f32⟩
  | .local _ .vmem, ⟨35, _⟩ => ⟨S1024, .f32⟩
  | .local _ .vmem, ⟨36, _⟩ => ⟨S1024x256, .f32⟩
  | .local _ .vmem, ⟨37, _⟩ => ⟨S256, .f32⟩
  | .local _ .vmem, ⟨38, _⟩ => ⟨S256, .f32⟩
  | .local _ .vmem, ⟨39, _⟩ => ⟨S256, .f32⟩
  | .local _ .vmem, ⟨40, _⟩ => ⟨S1000x256, .f32⟩
  | .local _ .vmem, ⟨41, _⟩ => ⟨S1000x256, .f32⟩
  | .local _ .vmem, ⟨42, _⟩ => ⟨S2000x256, .f32⟩
  | .local _ .vmem, ⟨43, _⟩ => ⟨S2000x256, .f32⟩
  | .local _ .vmem, ⟨44, _⟩ => ⟨S256x256, .f32⟩
  | .local _ .vmem, ⟨45, _⟩ => ⟨S256x256, .f32⟩
  | .local _ .vmem, ⟨46, _⟩ => ⟨S256x256, .f32⟩
  | .local _ .vmem, ⟨47, _⟩ => ⟨S256, .f32⟩
  | .local _ .vmem, ⟨48, _⟩ => ⟨S2000x256, .bf16⟩
  | .local _ .vmem, ⟨49, _⟩ => ⟨S2000x256, .bf16⟩
  | .local _ .vmem, ⟨50, _⟩ => ⟨S2000x256, .bf16⟩
  | .local _ .vmem, ⟨51, _⟩ => ⟨S2000x256, .bf16⟩
  | .local _ .vmem, ⟨52, _⟩ => ⟨S2000x256, .bf16⟩
  | .local _ .vmem, ⟨53, _⟩ => ⟨S2000x256, .bf16⟩
  | .local _ .vmem, ⟨54, _⟩ => ⟨S2000x256, .bf16⟩
  | .local _ .vmem, ⟨55, _⟩ => ⟨S2000x256, .bf16⟩
  | .local _ .vmem, ⟨56, _⟩ => ⟨S2000x256, .bf16⟩
  | .local _ .vmem, ⟨57, _⟩ => ⟨S2000x256, .bf16⟩
  | .local _ .vmem, ⟨58, _⟩ => ⟨S2000x256, .bf16⟩
  | .local _ .vmem, ⟨59, _⟩ => ⟨S2000x256, .bf16⟩
  | .local _ .vmem, ⟨60, _⟩ => ⟨S2000x256, .bf16⟩
  | .local _ .vmem, ⟨61, _⟩ => ⟨S2000x256, .bf16⟩
  | .local _ .vmem, ⟨62, _⟩ => ⟨S2000x256, .f32⟩
  | .local _ .vmem, ⟨63, _⟩ => ⟨S2000x256, .f32⟩
  | .local _ .vmem, ⟨64, _⟩ => ⟨S2000x8, .f32⟩
  | .local _ .vmem, ⟨65, _⟩ => ⟨S2000x8, .f32⟩
  | .local _ .vmem, ⟨66, _⟩ => ⟨S1000x256, .f32⟩
  | .local _ .vmem, ⟨67, _⟩ => ⟨S1000x256, .f32⟩
  | .local _ .vmem, ⟨68, _⟩ => ⟨S1000x256, .f32⟩
  | .local _ .vmem, ⟨69, _⟩ => ⟨S1000x256, .f32⟩
  | .local _ .vmem, ⟨70, _⟩ => ⟨S1000x8, .f32⟩
  | .local _ .vmem, ⟨71, _⟩ => ⟨S1000x8, .f32⟩
  | .local _ .vmem, ⟨72, _⟩ => ⟨S256x256, .f32⟩
  | .local _ .vmem, ⟨73, _⟩ => ⟨S256, .f32⟩
  | .local _ .vmem, ⟨74, _⟩ => ⟨S256, .f32⟩
  | .local _ .vmem, ⟨75, _⟩ => ⟨S256, .f32⟩
  | .local _ .vmem, ⟨76, _⟩ => ⟨S256x1024, .f32⟩
  | .local _ .vmem, ⟨77, _⟩ => ⟨S1024, .f32⟩
  | .local _ .vmem, ⟨78, _⟩ => ⟨S1024x256, .f32⟩
  | .local _ .vmem, ⟨79, _⟩ => ⟨S256, .f32⟩
  | .local _ .vmem, ⟨80, _⟩ => ⟨S256, .f32⟩
  | .local _ .vmem, ⟨81, _⟩ => ⟨S256, .f32⟩
  | .local _ .vmem, ⟨82, _⟩ => ⟨S1000x256, .f32⟩
  | .local _ .vmem, ⟨83, _⟩ => ⟨S1000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19_0 : Ref sig .tc := ⟨.hbm, 40, rfl⟩
abbrev main_v19_1 : Ref sig .tc := ⟨.hbm, 41, rfl⟩
abbrev main_v19_2 : Ref sig .tc := ⟨.hbm, 42, rfl⟩
abbrev main_c_1 : Ref sig .tc := ⟨.hbm, 43, rfl⟩
abbrev main_v20 : Ref sig .tc := ⟨.hbm, 44, rfl⟩
abbrev main_v21 : Ref sig .tc := ⟨.hbm, 45, rfl⟩
abbrev main_c_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_3 : Ref sig .tc := ⟨.hbm, 52, rfl⟩
abbrev main_v27 : Ref sig .tc := ⟨.hbm, 53, rfl⟩
abbrev main_v28 : Ref sig .tc := ⟨.hbm, 54, rfl⟩
abbrev main_c_4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_5 : Ref sig .tc := ⟨.hbm, 61, rfl⟩
abbrev main_v34 : Ref sig .tc := ⟨.hbm, 62, rfl⟩
abbrev main_v35 : Ref sig .tc := ⟨.hbm, 63, rfl⟩
abbrev main_c_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41_0 : Ref sig .tc := ⟨.hbm, 70, rfl⟩
abbrev main_v41_1 : Ref sig .tc := ⟨.hbm, 71, rfl⟩
abbrev main_cst : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_7 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77_0 : Ref sig .tc := ⟨.hbm, 109, rfl⟩
abbrev main_v77_1 : Ref sig .tc := ⟨.hbm, 110, rfl⟩
abbrev main_v77_2 : Ref sig .tc := ⟨.hbm, 111, rfl⟩
abbrev main_c_8 : Ref sig .tc := ⟨.hbm, 112, rfl⟩
abbrev main_v78 : Ref sig .tc := ⟨.hbm, 113, rfl⟩
abbrev main_v79 : Ref sig .tc := ⟨.hbm, 114, rfl⟩
abbrev main_c_9 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_10 : Ref sig .tc := ⟨.hbm, 121, rfl⟩
abbrev main_v85 : Ref sig .tc := ⟨.hbm, 122, rfl⟩
abbrev main_v86 : Ref sig .tc := ⟨.hbm, 123, rfl⟩
abbrev main_c_11 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_c_12 : Ref sig .tc := ⟨.hbm, 130, rfl⟩
abbrev main_v92 : Ref sig .tc := ⟨.hbm, 131, rfl⟩
abbrev main_v93 : Ref sig .tc := ⟨.hbm, 132, rfl⟩
abbrev main_c_13 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99_0 : Ref sig .tc := ⟨.hbm, 139, rfl⟩
abbrev main_v99_1 : Ref sig .tc := ⟨.hbm, 140, rfl⟩
abbrev main_cst_14 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_15 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg10_0 : Ref sig .tc := ⟨.vmem, 37, rfl⟩
abbrev cc2_stg11_0 : Ref sig .tc := ⟨.vmem, 38, rfl⟩
abbrev cc2_stg12_0 : Ref sig .tc := ⟨.vmem, 39, rfl⟩
abbrev cc2_stg13_0 : Ref sig .tc := ⟨.vmem, 40, rfl⟩
abbrev cc2_stg13_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg2_0 : Ref sig .tc := ⟨.vmem, 45, rfl⟩
abbrev cc3_stg3_0 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg5_1 : Ref sig .tc := ⟨.vmem, 49, rfl⟩
abbrev cc3_stg6_0 : Ref sig .tc := ⟨.vmem, 50, rfl⟩
abbrev cc3_stg6_1 : Ref sig .tc := ⟨.vmem, 51, rfl⟩
abbrev cc3_stg7_0 : Ref sig .tc := ⟨.vmem, 52, rfl⟩
abbrev cc3_stg7_1 : Ref sig .tc := ⟨.vmem, 53, rfl⟩
abbrev cc4_stg0_0 : Ref sig .tc := ⟨.vmem, 54, rfl⟩
abbrev cc4_stg0_1 : Ref sig .tc := ⟨.vmem, 55, rfl⟩
abbrev cc4_stg1_0 : Ref sig .tc := ⟨.vmem, 56, rfl⟩
abbrev cc4_stg1_1 : Ref sig .tc := ⟨.vmem, 57, rfl⟩
abbrev cc4_stg2_0 : Ref sig .tc := ⟨.vmem, 58, rfl⟩
abbrev cc4_stg2_1 : Ref sig .tc := ⟨.vmem, 59, rfl⟩
abbrev cc4_stg3_0 : Ref sig .tc := ⟨.vmem, 60, rfl⟩
abbrev cc4_stg3_1 : Ref sig .tc := ⟨.vmem, 61, rfl⟩
abbrev cc4_stg4_0 : Ref sig .tc := ⟨.vmem, 62, rfl⟩
abbrev cc4_stg4_1 : Ref sig .tc := ⟨.vmem, 63, rfl⟩
abbrev cc4_stg5_0 : Ref sig .tc := ⟨.vmem, 64, rfl⟩
abbrev cc4_stg5_1 : Ref sig .tc := ⟨.vmem, 65, rfl⟩
abbrev cc5_stg0_0 : Ref sig .tc := ⟨.vmem, 66, rfl⟩
abbrev cc5_stg0_1 : Ref sig .tc := ⟨.vmem, 67, rfl⟩
abbrev cc5_stg1_0 : Ref sig .tc := ⟨.vmem, 68, rfl⟩
abbrev cc5_stg1_1 : Ref sig .tc := ⟨.vmem, 69, rfl⟩
abbrev cc5_stg2_0 : Ref sig .tc := ⟨.vmem, 70, rfl⟩
abbrev cc5_stg2_1 : Ref sig .tc := ⟨.vmem, 71, rfl⟩
abbrev cc5_stg3_0 : Ref sig .tc := ⟨.vmem, 72, rfl⟩
abbrev cc5_stg4_0 : Ref sig .tc := ⟨.vmem, 73, rfl⟩
abbrev cc5_stg5_0 : Ref sig .tc := ⟨.vmem, 74, rfl⟩
abbrev cc5_stg6_0 : Ref sig .tc := ⟨.vmem, 75, rfl⟩
abbrev cc5_stg7_0 : Ref sig .tc := ⟨.vmem, 76, rfl⟩
abbrev cc5_stg8_0 : Ref sig .tc := ⟨.vmem, 77, rfl⟩
abbrev cc5_stg9_0 : Ref sig .tc := ⟨.vmem, 78, rfl⟩
abbrev cc5_stg10_0 : Ref sig .tc := ⟨.vmem, 79, rfl⟩
abbrev cc5_stg11_0 : Ref sig .tc := ⟨.vmem, 80, rfl⟩
abbrev cc5_stg12_0 : Ref sig .tc := ⟨.vmem, 81, rfl⟩
abbrev cc5_stg13_0 : Ref sig .tc := ⟨.vmem, 82, rfl⟩
abbrev cc5_stg13_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem10_0 : DmaSem sig := 37
abbrev cc2_sem11_0 : DmaSem sig := 38
abbrev cc2_sem12_0 : DmaSem sig := 39
abbrev cc2_sem13_0 : DmaSem sig := 40
abbrev cc2_sem13_1 : DmaSem sig := 41
abbrev cc3_sem0_0 : DmaSem sig := 42
abbrev cc3_sem0_1 : DmaSem sig := 43
abbrev cc3_sem1_0 : DmaSem sig := 44
abbrev cc3_sem2_0 : DmaSem sig := 45
abbrev cc3_sem3_0 : DmaSem sig := 46
abbrev cc3_sem4_0 : DmaSem sig := 47
abbrev cc3_sem5_0 : DmaSem sig := 48
abbrev cc3_sem5_1 : DmaSem sig := 49
abbrev cc3_sem6_0 : DmaSem sig := 50
abbrev cc3_sem6_1 : DmaSem sig := 51
abbrev cc3_sem7_0 : DmaSem sig := 52
abbrev cc3_sem7_1 : DmaSem sig := 53
abbrev cc4_sem0_0 : DmaSem sig := 54
abbrev cc4_sem0_1 : DmaSem sig := 55
abbrev cc4_sem1_0 : DmaSem sig := 56
abbrev cc4_sem1_1 : DmaSem sig := 57
abbrev cc4_sem2_0 : DmaSem sig := 58
abbrev cc4_sem2_1 : DmaSem sig := 59
abbrev cc4_sem3_0 : DmaSem sig := 60
abbrev cc4_sem3_1 : DmaSem sig := 61
abbrev cc4_sem4_0 : DmaSem sig := 62
abbrev cc4_sem4_1 : DmaSem sig := 63
abbrev cc4_sem5_0 : DmaSem sig := 64
abbrev cc4_sem5_1 : DmaSem sig := 65
abbrev cc5_sem0_0 : DmaSem sig := 66
abbrev cc5_sem0_1 : DmaSem sig := 67
abbrev cc5_sem1_0 : DmaSem sig := 68
abbrev cc5_sem1_1 : DmaSem sig := 69
abbrev cc5_sem2_0 : DmaSem sig := 70
abbrev cc5_sem2_1 : DmaSem sig := 71
abbrev cc5_sem3_0 : DmaSem sig := 72
abbrev cc5_sem4_0 : DmaSem sig := 73
abbrev cc5_sem5_0 : DmaSem sig := 74
abbrev cc5_sem6_0 : DmaSem sig := 75
abbrev cc5_sem7_0 : DmaSem sig := 76
abbrev cc5_sem8_0 : DmaSem sig := 77
abbrev cc5_sem9_0 : DmaSem sig := 78
abbrev cc5_sem10_0 : DmaSem sig := 79
abbrev cc5_sem11_0 : DmaSem sig := 80
abbrev cc5_sem12_0 : DmaSem sig := 81
abbrev cc5_sem13_0 : DmaSem sig := 82
abbrev cc5_sem13_1 : DmaSem sig := 83

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![320], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1024x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S1000x256 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x256 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S2000x256 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![320], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x8 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_11 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_12 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_13 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1000x8 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S256x1024 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1024 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1024x256 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S256 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S256 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S256 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 2 → Memref sig .tc .vmem S1000x256 .f32 := fun | 0 => Memref.whole cc5_stg13_0 | 1 => Memref.whole cc5_stg13_1 | ⟨_ + 2, h⟩ => absurd h (Nat.not_lt.2 (Nat.le_add_left _ _))
abbrev sem5_13 : Fin 2 → DmaSem sig := fun | 0 => cc5_sem13_0 | 1 => cc5_sem13_1 | ⟨_ + 2, h⟩ => absurd h (Nat.not_lt.2 (Nat.le_add_left _ _))
abbrev reads5_13 : Fin grid5.rank → Bool := ![true]

class Facts₀ : Prop where
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  shapeCasts_S640000x32_S1x640000x1x32 : S640000x32.ShapeCasts S1x640000x1x32
  bcast_S1x640000x1x32_S1x640000x8x32_0_1_2_3 : S1x640000x1x32.BroadcastsInDim S1x640000x8x32 (![0, 1, 2, 3] : Fin 4 → Fin S1x640000x8x32.rank)
  shapeCasts_S1x640000x8x32_S640000x256 : S1x640000x8x32.ShapeCasts S640000x256
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2000x256 : S1x256.Broadcasts S2000x256
  packedbf16_S2000x256_S2000x256_0_0 : (Rect.unit (s := S2000x256) ![0, 0] S2000x256.size inb_S2000x256_S2000x256_0_0).PackedRows (EltTy.packing .bf16)
  shapeCasts_S2000x256_S2000x256 : S2000x256.ShapeCasts S2000x256
  slices_S2000x256_o0_0_S2000x32 : S2000x256.Slices ![0, 0] S2000x32
  reduces_S2000x32_S2000 : S2000x32.Reduces [1] S2000
  shapeCasts_S2000_S2000x1 : S2000.ShapeCasts S2000x1
  slices_S2000x256_o0_32_S2000x32 : S2000x256.Slices ![0, 32] S2000x32
  slices_S2000x256_o0_64_S2000x32 : S2000x256.Slices ![0, 64] S2000x32
  slices_S2000x256_o0_96_S2000x32 : S2000x256.Slices ![0, 96] S2000x32
  slices_S2000x256_o0_128_S2000x32 : S2000x256.Slices ![0, 128] S2000x32
  slices_S2000x256_o0_160_S2000x32 : S2000x256.Slices ![0, 160] S2000x32
  slices_S2000x256_o0_192_S2000x32 : S2000x256.Slices ![0, 192] S2000x32
  slices_S2000x256_o0_224_S2000x32 : S2000x256.Slices ![0, 224] S2000x32
  concatenates_S2000x1_S2000x1_S2000x1_S2000x1_S2000x1_S2000x1_S2000x1_S2000x1_S2000x8_d1 : Shape.Concatenates [S2000x1, S2000x1, S2000x1, S2000x1, S2000x1, S2000x1, S2000x1, S2000x1] S2000x8 1
  slices_S2000x8_o0_0_S2000x1 : S2000x8.Slices ![0, 0] S2000x1
  shapeCasts_S2000x1_S2000x1 : S2000x1.ShapeCasts S2000x1
  broadcasts_S2000x1_S2000x32 : S2000x1.Broadcasts S2000x32
  slices_S2000x8_o0_1_S2000x1 : S2000x8.Slices ![0, 1] S2000x1
  slices_S2000x8_o0_2_S2000x1 : S2000x8.Slices ![0, 2] S2000x1
  slices_S2000x8_o0_3_S2000x1 : S2000x8.Slices ![0, 3] S2000x1
  slices_S2000x8_o0_4_S2000x1 : S2000x8.Slices ![0, 4] S2000x1
  slices_S2000x8_o0_5_S2000x1 : S2000x8.Slices ![0, 5] S2000x1
  slices_S2000x8_o0_6_S2000x1 : S2000x8.Slices ![0, 6] S2000x1
  slices_S2000x8_o0_7_S2000x1 : S2000x8.Slices ![0, 7] S2000x1
  concatenates_S2000x32_S2000x32_S2000x32_S2000x32_S2000x32_S2000x32_S2000x32_S2000x32_S2000x256_d1 : Shape.Concatenates [S2000x32, S2000x32, S2000x32, S2000x32, S2000x32, S2000x32, S2000x32, S2000x32] S2000x256 1
  inb_S2000x8_S2000x8_0_0 : ∀ a, (![0, 0] : Fin 2 → Nat) a + S2000x8.size a ≤ S2000x8.size a
  h_S2000x8 : 0 < S2000x8.numel
  bcast_S_S20000x256 : S_.BroadcastsInDim S20000x256 (![] : Fin 0 → Fin S20000x256.rank)
  bcast_S_S20000x8 : S_.BroadcastsInDim S20000x8 (![] : Fin 0 → Fin S20000x8.rank)
  slices_S2x256x1024_S1x256x1024_0_0_0 : S2x256x1024.Slices ![0, 0, 0] S1x256x1024
  shapeCasts_S1x256x1024_S256x1024 : S1x256x1024.ShapeCasts S256x1024
  slices_S2x1024_S1x1024_0_0 : S2x1024.Slices ![0, 0] S1x1024
  shapeCasts_S1x1024_S1024 : S1x1024.ShapeCasts S1024
  slices_S2x1024x256_S1x1024x256_0_0_0 : S2x1024x256.Slices ![0, 0, 0] S1x1024x256
  shapeCasts_S1x1024x256_S1024x256 : S1x1024x256.ShapeCasts S1024x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S1000x8_S1000x8_0_0 : ∀ a, (![0, 0] : Fin 2 → Nat) a + S1000x8.size a ≤ S1000x8.size a
  h_S1000x8 : 0 < S1000x8.numel
  shapeCasts_S1000x8_S1000x8 : S1000x8.ShapeCasts S1000x8
  slices_S1000x8_o0_0_S1000x1 : S1000x8.Slices ![0, 0] S1000x1
  shapeCasts_S1000x1_S1000x1 : S1000x1.ShapeCasts S1000x1
  broadcasts_S1000x1_S1000x32 : S1000x1.Broadcasts S1000x32
  slices_S1000x8_o0_1_S1000x1 : S1000x8.Slices ![0, 1] S1000x1
  slices_S1000x8_o0_2_S1000x1 : S1000x8.Slices ![0, 2] S1000x1
  slices_S1000x8_o0_3_S1000x1 : S1000x8.Slices ![0, 3] S1000x1
  slices_S1000x8_o0_4_S1000x1 : S1000x8.Slices ![0, 4] S1000x1
  slices_S1000x8_o0_5_S1000x1 : S1000x8.Slices ![0, 5] S1000x1
  slices_S1000x8_o0_6_S1000x1 : S1000x8.Slices ![0, 6] S1000x1
  slices_S1000x8_o0_7_S1000x1 : S1000x8.Slices ![0, 7] S1000x1
  concatenates_S1000x32_S1000x32_S1000x32_S1000x32_S1000x32_S1000x32_S1000x32_S1000x32_S1000x256_d1 : Shape.Concatenates [S1000x32, S1000x32, S1000x32, S1000x32, S1000x32, S1000x32, S1000x32, S1000x32] S1000x256 1
  broadcasts_S1x256_S1000x256 : S1x256.Broadcasts S1000x256
  reduces_S1000x256_S1000 : S1000x256.Reduces [1] S1000
  shapeCasts_S1000_S1000x1 : S1000.ShapeCasts S1000x1
  broadcasts_S1000x1_S1000x256 : S1000x1.Broadcasts S1000x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S1000x1024 : S1x1024.Broadcasts S1000x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  slices_S2x256x256_S1x256x256_1_0_0 : S2x256x256.Slices ![1, 0, 0] S1x256x256
  slices_S2x256_S1x256_1_0 : S2x256.Slices ![1, 0] S1x256
  slices_S2x256x1024_S1x256x1024_1_0_0 : S2x256x1024.Slices ![1, 0, 0] S1x256x1024
  slices_S2x1024_S1x1024_1_0 : S2x1024.Slices ![1, 0] S1x1024
  slices_S2x1024x256_S1x1024x256_1_0_0 : S2x1024x256.Slices ![1, 0, 0] S1x1024x256
  gather_S100x32_S640000x1_S640000x32_1_0_n_n_0_1_132_wf : GatherDims.WF S100x32 S640000x1 S640000x32 [1] [0] [] [0] [] 1 ![1, 32]
  dot_S2000x256_S256x256_S2000x256_1_0_0_1_n_n_wf : DotDims.WF S2000x256 S256x256 S2000x256 [1] [0] [0] [1] [] []
  gather_S20000x256_S640000x1_S640000x256_1_0_n_n_0_1_1256_wf : GatherDims.WF S20000x256 S640000x1 S640000x256 [1] [0] [] [0] [] 1 ![1, 256]
  scatter_S20000x256_S640000x1_S640000x256_1_0_0_1_wf : ScatterDims.WF S20000x256 S640000x1 S640000x256 [1] [0] [0] 1
  scatter_S20000x8_S640000x1_S640000x8_1_0_0_1_wf : ScatterDims.WF S20000x8 S640000x1 S640000x8 [1] [0] [0] 1
  dot_S1000x256_S256x256_S1000x256_1_0_0_1_n_n_wf : DotDims.WF S1000x256 S256x256 S1000x256 [1] [0] [0] [1] [] []
  dot_S1000x256_S256x1024_S1000x1024_1_0_0_1_n_n_wf : DotDims.WF S1000x256 S256x1024 S1000x1024 [1] [0] [0] [1] [] []
  dot_S1000x1024_S1024x256_S1000x256_1_0_0_1_n_n_wf : DotDims.WF S1000x1024 S1024x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S20000x256.size a
  hwx0_5 : ∀ i : grid0.Coords, EltTy.bits .bf16 = 32 ∨ (Rect.block (s := S20000x256) S2000x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S20000x256.size a
  hwx0_6 : ∀ i : grid0.Coords, EltTy.bits .bf16 = 32 ∨ (Rect.block (s := S20000x256) S2000x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S20000x256.size a
  hwx0_7 : ∀ i : grid0.Coords, EltTy.bits .bf16 = 32 ∨ (Rect.block (s := S20000x256) S2000x256.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S640000x256.size a
  hwx1_0 : ∀ i : grid1.Coords, EltTy.bits .bf16 = 32 ∨ (Rect.block (s := S640000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S640000x256.size a
  hwx1_1 : ∀ i : grid1.Coords, EltTy.bits .bf16 = 32 ∨ (Rect.block (s := S640000x256) S2000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S640000x256.size a
  hwx1_2 : ∀ i : grid1.Coords, EltTy.bits .bf16 = 32 ∨ (Rect.block (s := S640000x256) S2000x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S640000x256.size a
  hwx1_3 : ∀ i : grid1.Coords, EltTy.bits .bf16 = 32 ∨ (Rect.block (s := S640000x256) S2000x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S640000x256.size a
  hwx1_4 : ∀ i : grid1.Coords, EltTy.bits .f32 = 32 ∨ (Rect.block (s := S640000x256) S2000x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x8.size a ≤ S640000x8.size a
  hwx1_5 : ∀ i : grid1.Coords, EltTy.bits .f32 = 32 ∨ (Rect.block (s := S640000x8) S2000x8.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S20000x256.size a
  hwx2_0 : ∀ i : grid2.Coords, EltTy.bits .f32 = 32 ∨ (Rect.block (s := S20000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S20000x256.size a
  hwx2_1 : ∀ i : grid2.Coords, EltTy.bits .f32 = 32 ∨ (Rect.block (s := S20000x256) S1000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x8.size a ≤ S20000x8.size a
  hwx2_2 : ∀ i : grid2.Coords, EltTy.bits .f32 = 32 ∨ (Rect.block (s := S20000x8) S1000x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256.size a ≤ S256.size a
  hwx2_6 : ∀ i : grid2.Coords, EltTy.bits .f32 = 32 ∨ (Rect.block (s := S256) S256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x1024.size a ≤ S256x1024.size a
  hwx2_7 : ∀ i : grid2.Coords, EltTy.bits .f32 = 32 ∨ (Rect.block (s := S256x1024) S256x1024.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1024.size a ≤ S1024.size a
  hwx2_8 : ∀ i : grid2.Coords, EltTy.bits .f32 = 32 ∨ (Rect.block (s := S1024) S1024.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1024x256.size a ≤ S1024x256.size a
  hwx2_9 : ∀ i : grid2.Coords, EltTy.bits .f32 = 32 ∨ (Rect.block (s := S1024x256) S1024x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S256.size a ≤ S256.size a
  hwx2_10 : ∀ i : grid2.Coords, EltTy.bits .f32 = 32 ∨ (Rect.block (s := S256) S256.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S256.size a ≤ S256.size a
  hwx2_11 : ∀ i : grid2.Coords, EltTy.bits .f32 = 32 ∨ (Rect.block (s := S256) S256.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S256.size a ≤ S256.size a
  hwx2_12 : ∀ i : grid2.Coords, EltTy.bits .f32 = 32 ∨ (Rect.block (s := S256) S256.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S1000x256.size a ≤ S20000x256.size a
  hwx2_13 : ∀ i : grid2.Coords, EltTy.bits .f32 = 32 ∨ (Rect.block (s := S20000x256) S1000x256.size (cc2_transform_13 i) (hinb2_13 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S20000x256.size a
  hwx3_5 : ∀ i : grid3.Coords, EltTy.bits .bf16 = 32 ∨ (Rect.block (s := S20000x256) S2000x256.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S20000x256.size a
  hwx3_6 : ∀ i : grid3.Coords, EltTy.bits .bf16 = 32 ∨ (Rect.block (s := S20000x256) S2000x256.size (cc3_transform_6 i) (hinb3_6 i)).WholeWords (EltTy.packing .bf16)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x256.size a ≤ S20000x256.size a
  hwx3_7 : ∀ i : grid3.Coords, EltTy.bits .bf16 = 32 ∨ (Rect.block (s := S20000x256) S2000x256.size (cc3_transform_7 i) (hinb3_7 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S640000x256.size a
  hwx4_0 : ∀ i : grid4.Coords, EltTy.bits .bf16 = 32 ∨ (Rect.block (s := S640000x256) S2000x256.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S640000x256.size a
  hwx4_1 : ∀ i : grid4.Coords, EltTy.bits .bf16 = 32 ∨ (Rect.block (s := S640000x256) S2000x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S640000x256.size a
  hwx4_2 : ∀ i : grid4.Coords, EltTy.bits .bf16 = 32 ∨ (Rect.block (s := S640000x256) S2000x256.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S640000x256.size a
  hwx4_3 : ∀ i : grid4.Coords, EltTy.bits .bf16 = 32 ∨ (Rect.block (s := S640000x256) S2000x256.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S640000x256.size a
  hwx4_4 : ∀ i : grid4.Coords, EltTy.bits .f32 = 32 ∨ (Rect.block (s := S640000x256) S2000x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x8.size a ≤ S640000x8.size a
  hwx4_5 : ∀ i : grid4.Coords, EltTy.bits .f32 = 32 ∨ (Rect.block (s := S640000x8) S2000x8.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x256.size a ≤ S20000x256.size a
  hwx5_0 : ∀ i : grid5.Coords, EltTy.bits .f32 = 32 ∨ (Rect.block (s := S20000x256) S1000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x256.size a ≤ S20000x256.size a
  hwx5_1 : ∀ i : grid5.Coords, EltTy.bits .f32 = 32 ∨ (Rect.block (s := S20000x256) S1000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x8.size a ≤ S20000x8.size a
  hwx5_2 : ∀ i : grid5.Coords, EltTy.bits .f32 = 32 ∨ (Rect.block (s := S20000x8) S1000x8.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256.size a ≤ S256.size a
  hwx5_4 : ∀ i : grid5.Coords, EltTy.bits .f32 = 32 ∨ (Rect.block (s := S256) S256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256.size a ≤ S256.size a
  hwx5_5 : ∀ i : grid5.Coords, EltTy.bits .f32 = 32 ∨ (Rect.block (s := S256) S256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S256.size a ≤ S256.size a
  hwx5_6 : ∀ i : grid5.Coords, EltTy.bits .f32 = 32 ∨ (Rect.block (s := S256) S256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S256x1024.size a ≤ S256x1024.size a
  hwx5_7 : ∀ i : grid5.Coords, EltTy.bits .f32 = 32 ∨ (Rect.block (s := S256x1024) S256x1024.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1024.size a ≤ S1024.size a
  hwx5_8 : ∀ i : grid5.Coords, EltTy.bits .f32 = 32 ∨ (Rect.block (s := S1024) S1024.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1024x256.size a ≤ S1024x256.size a
  hwx5_9 : ∀ i : grid5.Coords, EltTy.bits .f32 = 32 ∨ (Rect.block (s := S1024x256) S1024x256.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S256.size a ≤ S256.size a
  hwx5_10 : ∀ i : grid5.Coords, EltTy.bits .f32 = 32 ∨ (Rect.block (s := S256) S256.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S256.size a ≤ S256.size a
  hwx5_11 : ∀ i : grid5.Coords, EltTy.bits .f32 = 32 ∨ (Rect.block (s := S256) S256.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S256.size a ≤ S256.size a
  hwx5_12 : ∀ i : grid5.Coords, EltTy.bits .f32 = 32 ∨ (Rect.block (s := S256) S256.size (cc5_transform_12 i) (hinb5_12 i)).WholeWords (EltTy.packing .f32)
  hstage5_13 : ∀ j, (stage5_13 j).IsWhole
  nbuf5_13 : grid5.bufCount reads5_13 false = 2
  hreads5_13 : ∀ i i' : grid5.Coords, (∀ a, reads5_13 a = true → i a = i' a) → cc5_transform_13 i = cc5_transform_13 i'
  hinb5_13 : ∀ (i : grid5.Coords) a, (cc5_transform_13 i a + 1) * S1000x256.size a ≤ S20000x256.size a
  hwx5_13 : ∀ i : grid5.Coords, EltTy.bits .f32 = 32 ∨ (Rect.block (s := S20000x256) S1000x256.size (cc5_transform_13 i) (hinb5_13 i)).WholeWords (EltTy.packing .f32)

variable [Facts₀]

def gather_S100x32_S640000x1_S640000x32_1_0_n_n_0_1_132 : GatherDims S100x32 S640000x1 S640000x32 where
  offsetDims := [1]
  collapsedSliceDims := [0]
  operandBatchingDims := []
  startIndicesBatchingDims := []
  startIndexMap := [0]
  indexVectorDim := 1
  sliceSizes := ![1, 32]
  wf := gather_S100x32_S640000x1_S640000x32_1_0_n_n_0_1_132_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S640000x1_S640000x256_1_0_n_n_0_1_1256 : GatherDims S20000x256 S640000x1 S640000x256 where
  offsetDims := [1]
  collapsedSliceDims := [0]
  operandBatchingDims := []
  startIndicesBatchingDims := []
  startIndexMap := [0]
  indexVectorDim := 1
  sliceSizes := ![1, 256]
  wf := gather_S20000x256_S640000x1_S640000x256_1_0_n_n_0_1_1256_wf
def scatter_S20000x256_S640000x1_S640000x256_1_0_0_1 : ScatterDims S20000x256 S640000x1 S640000x256 where
  updateWindowDims := [1]
  insertedWindowDims := [0]
  scatterDimsToOperandDims := [0]
  indexVectorDim := 1
  wf := scatter_S20000x256_S640000x1_S640000x256_1_0_0_1_wf
def scatter_S20000x8_S640000x1_S640000x8_1_0_0_1 : ScatterDims S20000x8 S640000x1 S640000x8 where
  updateWindowDims := [1]
  insertedWindowDims := [0]
  scatterDimsToOperandDims := [0]
  indexVectorDim := 1
  wf := scatter_S20000x8_S640000x1_S640000x8_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x1024_S1000x1024_1_0_0_1_n_n : DotDims S1000x256 S256x1024 S1000x1024 where
  lhsContracting := [1]
  rhsContracting := [0]
  lhsNonContracting := [0]
  rhsNonContracting := [1]
  lhsBatch := []
  rhsBatch := []
  wf := dot_S1000x256_S256x1024_S1000x1024_1_0_0_1_n_n_wf
def dot_S1000x1024_S1024x256_S1000x256_1_0_0_1_n_n : DotDims S1000x1024 S1024x256 S1000x256 where
  lhsContracting := [1]
  rhsContracting := [0]
  lhsNonContracting := [0]
  rhsNonContracting := [1]
  lhsBatch := []
  rhsBatch := []
  wf := dot_S1000x1024_S1024x256_S1000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19_1) S2000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19_2) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v41_0) S2000x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v41_1) S2000x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1000x8.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S256x1024.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v59) S1024.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v61) S1024x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v63) S256.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v65) S256.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v67) S256.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v68) S1000x256.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev win3_0 : Pipeline.Window sig grid3 :=
  Pipeline.Window.ofSpec (Memref.whole main_v68) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77_0) S2000x256.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v77_1) S2000x256.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v77_2) S2000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v84) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v98) S2000x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v10) S2000x256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v99_0) S2000x256.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v99_1) S2000x8.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v68) S1000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v102) S1000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v105) S1000x8.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v107) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v109) S256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v111) S256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v113) S256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v115) S256x1024.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v117) S1024.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v119) S1024x256.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v121) S256.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v123) S256.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v125) S256.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v126) S1000x256.size cc5_transform_13 reads5_13 true false 2 stage5_13 sem5_13
    hrank5 hreads5_13 hinb5_13 nbuf5_13 (Memref.isWhole_whole _) hwx5_13 hstage5_13

abbrev win5 : Fin 14 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | ⟨_ + 14, h⟩ => absurd h (Nat.not_lt.2 (Nat.le_add_left _ _))
abbrev spec5 : Fin 14 → Pipeline.WinSpec sig grid5.rank := fun w => (win5 w).toWinSpec

class Facts : Prop extends Facts₀ where

variable [Facts]
-- ==== ReferenceIdeal.lean ====
abbrev S20000x256 : Shape := ⟨2, ![20000, 256]⟩
abbrev S100x32 : Shape := ⟨2, ![100, 32]⟩
abbrev S2x256x256 : Shape := ⟨3, ![2, 256, 256]⟩
abbrev S2x256 : Shape := ⟨2, ![2, 256]⟩
abbrev S2x256x1024 : Shape := ⟨3, ![2, 256, 1024]⟩
abbrev S2x1024 : Shape := ⟨2, ![2, 1024]⟩
abbrev S2x1024x256 : Shape := ⟨3, ![2, 1024, 256]⟩
abbrev S640000 : Shape := ⟨1, ![640000]⟩
abbrev S_ : Shape := ⟨0, ![]⟩
abbrev S640000x1 : Shape := ⟨2, ![640000, 1]⟩
abbrev S640000x32 : Shape := ⟨2, ![640000, 32]⟩
abbrev S640000x1x32 : Shape := ⟨3, ![640000, 1, 32]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S20000x8x32 : Shape := ⟨3, ![20000, 8, 32]⟩
abbrev S640000x8x32 : Shape := ⟨3, ![640000, 8, 32]⟩
abbrev S640000x8 : Shape := ⟨2, ![640000, 8]⟩
abbrev S640000x8x1 : Shape := ⟨3, ![640000, 8, 1]⟩
abbrev S20000x8 : Shape := ⟨2, ![20000, 8]⟩
abbrev S20000x8x1 : Shape := ⟨3, ![20000, 8, 1]⟩
abbrev S20000 : Shape := ⟨1, ![20000]⟩
abbrev S20000x1 : Shape := ⟨2, ![20000, 1]⟩
abbrev S1x256x1024 : Shape := ⟨3, ![1, 256, 1024]⟩
abbrev S256x1024 : Shape := ⟨2, ![256, 1024]⟩
abbrev S20000x1024 : Shape := ⟨2, ![20000, 1024]⟩
abbrev S1x1024 : Shape := ⟨2, ![1, 1024]⟩
abbrev S1024 : Shape := ⟨1, ![1024]⟩
abbrev S1x1024x256 : Shape := ⟨3, ![1, 1024, 256]⟩
abbrev S1024x256 : Shape := ⟨2, ![1024, 256]⟩

abbrev nBuf : Space → Nat
  | .hbm => 441
  | .vmem => 0
  | .smem => 0
  | _ => 0

abbrev hbmTy0_0 (i : Nat) : BufTy := match i % 128 with
  | 0 => ⟨S20000x256, .f32⟩
  | 1 => ⟨S100x32, .f32⟩
  | 2 => ⟨S2x256x256, .f32⟩
  | 3 => ⟨S2x256, .f32⟩
  | 4 => ⟨S2x256x256, .f32⟩
  | 5 => ⟨S2x256x256, .f32⟩
  | 6 => ⟨S2x256x256, .f32⟩
  | 7 => ⟨S2x256, .f32⟩
  | 8 => ⟨S2x256, .f32⟩
  | 9 => ⟨S2x256, .f32⟩
  | 10 => ⟨S2x256x1024, .f32⟩
  | 11 => ⟨S2x1024, .f32⟩
  | 12 => ⟨S2x1024x256, .f32⟩
  | 13 => ⟨S2x256, .f32⟩
  | 14 => ⟨S2x256, .f32⟩
  | 15 => ⟨S2x256, .f32⟩
  | 16 => ⟨S640000, .i32⟩
  | 17 => ⟨S640000, .i32⟩
  | 18 => ⟨S640000, .i32⟩
  | 19 => ⟨S_, .i32⟩
  | 20 => ⟨S640000, .i32⟩
  | 21 => ⟨S640000, .i1⟩
  | 22 => ⟨S_, .i32⟩
  | 23 => ⟨S640000, .i32⟩
  | 24 => ⟨S640000, .i32⟩
  | 25 => ⟨S640000, .i32⟩
  | 26 => ⟨S640000x1, .i32⟩
  | 27 => ⟨S640000x32, .f32⟩
  | 28 => ⟨S640000x1x32, .f32⟩
  | 29 => ⟨S1x256x256, .f32⟩
  | 30 => ⟨S256x256, .f32⟩
  | 31 => ⟨S20000x256, .f32⟩
  | 32 => ⟨S1x256, .f32⟩
  | 33 => ⟨S256, .f32⟩
  | 34 => ⟨S1x256, .f32⟩
  | 35 => ⟨S20000x256, .f32⟩
  | 36 => ⟨S20000x256, .f32⟩
  | 37 => ⟨S20000x8x32, .f32⟩
  | 38 => ⟨S1x256x256, .f32⟩
  | 39 => ⟨S256x256, .f32⟩
  | 40 => ⟨S20000x256, .f32⟩
  | 41 => ⟨S20000x8x32, .f32⟩
  | 42 => ⟨S1x256x256, .f32⟩
  | 43 => ⟨S256x256, .f32⟩
  | 44 => ⟨S20000x256, .f32⟩
  | 45 => ⟨S20000x8x32, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S640000x8x32, .f32⟩
  | 55 => ⟨S640000x8x32, .f32⟩
  | 56 => ⟨S640000x8x32, .f32⟩
  | 57 => ⟨S_, .i32⟩
  | 58 => ⟨S640000, .i32⟩
  | 59 => ⟨S640000, .i1⟩
  | 60 => ⟨S_, .i32⟩
  | 61 => ⟨S640000, .i32⟩
  | 62 => ⟨S640000, .i32⟩
  | 63 => ⟨S640000, .i32⟩
  | 64 => ⟨S640000x1, .i32⟩
  | 65 => ⟨S640000x8x32, .f32⟩
  | 66 => ⟨S640000x8x32, .f32⟩
  | 67 => ⟨S_, .f32⟩
  | 68 => ⟨S640000x8, .f32⟩
  | 69 => ⟨S_, .f32⟩
  | 70 => ⟨S640000x8, .f32⟩
  | 71 => ⟨S640000x8, .f32⟩
  | 72 => ⟨S_, .f32⟩
  | 73 => ⟨S_, .f32⟩
  | 74 => ⟨S_, .f32⟩
  | 75 => ⟨S640000x8, .f32⟩
  | 76 => ⟨S640000x8, .f32⟩
  | 77 => ⟨S_, .f32⟩
  | 78 => ⟨S640000x8, .f32⟩
  | 79 => ⟨S640000x8, .f32⟩
  | 80 => ⟨S640000x8, .f32⟩
  | 81 => ⟨S_, .i32⟩
  | 82 => ⟨S640000, .i32⟩
  | 83 => ⟨S640000, .i1⟩
  | 84 => ⟨S_, .i32⟩
  | 85 => ⟨S640000, .i32⟩
  | 86 => ⟨S640000, .i32⟩
  | 87 => ⟨S640000, .i32⟩
  | 88 => ⟨S640000x1, .i32⟩
  | 89 => ⟨S640000x8x32, .f32⟩
  | 90 => ⟨S640000x8x32, .f32⟩
  | 91 => ⟨S640000x8x32, .f32⟩
  | 92 => ⟨S640000x8x1, .f32⟩
  | 93 => ⟨S640000x8x32, .f32⟩
  | 94 => ⟨S640000x8x32, .f32⟩
  | 95 => ⟨S_, .f32⟩
  | 96 => ⟨S20000x8x32, .f32⟩
  | 97 => ⟨S640000x1, .i32⟩
  | 98 => ⟨S20000x8x32, .f32⟩
  | 99 => ⟨S_, .f32⟩
  | 100 => ⟨S20000x8, .f32⟩
  | 101 => ⟨S640000x1, .i32⟩
  | 102 => ⟨S20000x8, .f32⟩
  | 103 => ⟨S_, .f32⟩
  | 104 => ⟨S20000x8, .f32⟩
  | 105 => ⟨S20000x8, .f32⟩
  | 106 => ⟨S20000x8x1, .f32⟩
  | 107 => ⟨S20000x8x32, .f32⟩
  | 108 => ⟨S20000x8x32, .f32⟩
  | 109 => ⟨S20000x256, .f32⟩
  | 110 => ⟨S1x256x256, .f32⟩
  | 111 => ⟨S256x256, .f32⟩
  | 112 => ⟨S20000x256, .f32⟩
  | 113 => ⟨S20000x256, .f32⟩
  | 114 => ⟨S1x256, .f32⟩
  | 115 => ⟨S256, .f32⟩
  | 116 => ⟨S1x256, .f32⟩
  | 117 => ⟨S20000x256, .f32⟩
  | 118 => ⟨S20000x256, .f32⟩
  | 119 => ⟨S1x256, .f32⟩
  | 120 => ⟨S256, .f32⟩
  | 121 => ⟨S1x256, .f32⟩
  | 122 => ⟨S256, .f32⟩
  | 123 => ⟨S_, .f32⟩
  | 124 => ⟨S20000, .f32⟩
  | 125 => ⟨S20000x1, .f32⟩
  | 126 => ⟨S_, .f32⟩
  | 127 => ⟨S20000x1, .f32⟩
  | _ => ⟨S20000x256, .f32⟩

abbrev hbmTy0_1 (i : Nat) : BufTy := match i % 128 with
  | 0 => ⟨S20000x1, .f32⟩
  | 1 => ⟨S_, .i32⟩
  | 2 => ⟨S_, .f32⟩
  | 3 => ⟨S20000, .f32⟩
  | 4 => ⟨S20000x1, .f32⟩
  | 5 => ⟨S_, .f32⟩
  | 6 => ⟨S20000x1, .f32⟩
  | 7 => ⟨S20000x1, .f32⟩
  | 8 => ⟨S20000x256, .f32⟩
  | 9 => ⟨S20000x256, .f32⟩
  | 10 => ⟨S20000x256, .f32⟩
  | 11 => ⟨S_, .f32⟩
  | 12 => ⟨S_, .f32⟩
  | 13 => ⟨S_, .f32⟩
  | 14 => ⟨S_, .f32⟩
  | 15 => ⟨S20000, .f32⟩
  | 16 => ⟨S20000x1, .f32⟩
  | 17 => ⟨S20000x1, .f32⟩
  | 18 => ⟨S20000x1, .f32⟩
  | 19 => ⟨S_, .f32⟩
  | 20 => ⟨S_, .i1⟩
  | 21 => ⟨S_, .f32⟩
  | 22 => ⟨S_, .f32⟩
  | 23 => ⟨S20000x1, .f32⟩
  | 24 => ⟨S20000x1, .f32⟩
  | 25 => ⟨S20000x256, .f32⟩
  | 26 => ⟨S20000x256, .f32⟩
  | 27 => ⟨S_, .f32⟩
  | 28 => ⟨S20000x1, .f32⟩
  | 29 => ⟨S20000x1, .f32⟩
  | 30 => ⟨S20000x1, .f32⟩
  | 31 => ⟨S20000x256, .f32⟩
  | 32 => ⟨S20000x256, .f32⟩
  | 33 => ⟨S1x256, .f32⟩
  | 34 => ⟨S20000x256, .f32⟩
  | 35 => ⟨S20000x256, .f32⟩
  | 36 => ⟨S1x256, .f32⟩
  | 37 => ⟨S20000x256, .f32⟩
  | 38 => ⟨S20000x256, .f32⟩
  | 39 => ⟨S1x256x1024, .f32⟩
  | 40 => ⟨S256x1024, .f32⟩
  | 41 => ⟨S20000x1024, .f32⟩
  | 42 => ⟨S1x1024, .f32⟩
  | 43 => ⟨S1024, .f32⟩
  | 44 => ⟨S1x1024, .f32⟩
  | 45 => ⟨S20000x1024, .f32⟩
  | 46 => ⟨S20000x1024, .f32⟩
  | 47 => ⟨S_, .f32⟩
  | 48 => ⟨S20000x1024, .f32⟩
  | 49 => ⟨S20000x1024, .f32⟩
  | 50 => ⟨S1x1024x256, .f32⟩
  | 51 => ⟨S1024x256, .f32⟩
  | 52 => ⟨S20000x256, .f32⟩
  | 53 => ⟨S20000x256, .f32⟩
  | 54 => ⟨S1x256, .f32⟩
  | 55 => ⟨S256, .f32⟩
  | 56 => ⟨S1x256, .f32⟩
  | 57 => ⟨S20000x256, .f32⟩
  | 58 => ⟨S20000x256, .f32⟩
  | 59 => ⟨S1x256, .f32⟩
  | 60 => ⟨S256, .f32⟩
  | 61 => ⟨S1x256, .f32⟩
  | 62 => ⟨S256, .f32⟩
  | 63 => ⟨S_, .f32⟩
  | 64 => ⟨S20000, .f32⟩
  | 65 => ⟨S20000x1, .f32⟩
  | 66 => ⟨S_, .f32⟩
  | 67 => ⟨S20000x1, .f32⟩
  | 68 => ⟨S20000x1, .f32⟩
  | 69 => ⟨S_, .i32⟩
  | 70 => ⟨S_, .f32⟩
  | 71 => ⟨S20000, .f32⟩
  | 72 => ⟨S20000x1, .f32⟩
  | 73 => ⟨S_, .f32⟩
  | 74 => ⟨S20000x1, .f32⟩
  | 75 => ⟨S20000x1, .f32⟩
  | 76 => ⟨S20000x256, .f32⟩
  | 77 => ⟨S20000x256, .f32⟩
  | 78 => ⟨S20000x256, .f32⟩
  | 79 => ⟨S_, .f32⟩
  | 80 => ⟨S_, .f32⟩
  | 81 => ⟨S_, .f32⟩
  | 82 => ⟨S_, .f32⟩
  | 83 => ⟨S20000, .f32⟩
  | 84 => ⟨S20000x1, .f32⟩
  | 85 => ⟨S20000x1, .f32⟩
  | 86 => ⟨S20000x1, .f32⟩
  | 87 => ⟨S_, .f32⟩
  | 88 => ⟨S_, .i1⟩
  | 89 => ⟨S_, .f32⟩
  | 90 => ⟨S_, .f32⟩
  | 91 => ⟨S20000x1, .f32⟩
  | 92 => ⟨S20000x1, .f32⟩
  | 93 => ⟨S20000x256, .f32⟩
  | 94 => ⟨S20000x256, .f32⟩
  | 95 => ⟨S_, .f32⟩
  | 96 => ⟨S20000x1, .f32⟩
  | 97 => ⟨S20000x1, .f32⟩
  | 98 => ⟨S20000x1, .f32⟩
  | 99 => ⟨S20000x256, .f32⟩
  | 100 => ⟨S20000x256, .f32⟩
  | 101 => ⟨S1x256, .f32⟩
  | 102 => ⟨S20000x256, .f32⟩
  | 103 => ⟨S20000x256, .f32⟩
  | 104 => ⟨S1x256, .f32⟩
  | 105 => ⟨S20000x256, .f32⟩
  | 106 => ⟨S20000x256, .f32⟩
  | 107 => ⟨S1x256x256, .f32⟩
  | 108 => ⟨S256x256, .f32⟩
  | 109 => ⟨S20000x256, .f32⟩
  | 110 => ⟨S1x256, .f32⟩
  | 111 => ⟨S256, .f32⟩
  | 112 => ⟨S1x256, .f32⟩
  | 113 => ⟨S20000x256, .f32⟩
  | 114 => ⟨S20000x256, .f32⟩
  | 115 => ⟨S20000x8x32, .f32⟩
  | 116 => ⟨S1x256x256, .f32⟩
  | 117 => ⟨S256x256, .f32⟩
  | 118 => ⟨S20000x256, .f32⟩
  | 119 => ⟨S20000x8x32, .f32⟩
  | 120 => ⟨S1x256x256, .f32⟩
  | 121 => ⟨S256x256, .f32⟩
  | 122 => ⟨S20000x256, .f32⟩
  | 123 => ⟨S20000x8x32, .f32⟩
  | 124 => ⟨S_, .i32⟩
  | 125 => ⟨S640000, .i32⟩
  | 126 => ⟨S640000, .i1⟩
  | 127 => ⟨S_, .i32⟩
  | _ => ⟨S20000x256, .f32⟩

abbrev hbmTy0_2 (i : Nat) : BufTy := match i % 128 with
  | 0 => ⟨S640000, .i32⟩
  | 1 => ⟨S640000, .i32⟩
  | 2 => ⟨S640000, .i32⟩
  | 3 => ⟨S640000x1, .i32⟩
  | 4 => ⟨S640000x8x32, .f32⟩
  | 5 => ⟨S640000x8x32, .f32⟩
  | 6 => ⟨S640000x8x32, .f32⟩
  | 7 => ⟨S_, .i32⟩
  | 8 => ⟨S640000, .i32⟩
  | 9 => ⟨S640000, .i1⟩
  | 10 => ⟨S_, .i32⟩
  | 11 => ⟨S640000, .i32⟩
  | 12 => ⟨S640000, .i32⟩
  | 13 => ⟨S640000, .i32⟩
  | 14 => ⟨S640000x1, .i32⟩
  | 15 => ⟨S640000x8x32, .f32⟩
  | 16 => ⟨S640000x8x32, .f32⟩
  | 17 => ⟨S_, .f32⟩
  | 18 => ⟨S640000x8, .f32⟩
  | 19 => ⟨S_, .f32⟩
  | 20 => ⟨S640000x8, .f32⟩
  | 21 => ⟨S640000x8, .f32⟩
  | 22 => ⟨S_, .f32⟩
  | 23 => ⟨S_, .f32⟩
  | 24 => ⟨S_, .f32⟩
  | 25 => ⟨S640000x8, .f32⟩
  | 26 => ⟨S640000x8, .f32⟩
  | 27 => ⟨S_, .f32⟩
  | 28 => ⟨S640000x8, .f32⟩
  | 29 => ⟨S640000x8, .f32⟩
  | 30 => ⟨S640000x8, .f32⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000x8x32, .f32⟩
  | 40 => ⟨S640000x8x32, .f32⟩
  | 41 => ⟨S640000x8x32, .f32⟩
  | 42 => ⟨S640000x8x1, .f32⟩
  | 43 => ⟨S640000x8x32, .f32⟩
  | 44 => ⟨S640000x8x32, .f32⟩
  | 45 => ⟨S_, .f32⟩
  | 46 => ⟨S20000x8x32, .f32⟩
  | 47 => ⟨S640000x1, .i32⟩
  | 48 => ⟨S20000x8x32, .f32⟩
  | 49 => ⟨S_, .f32⟩
  | 50 => ⟨S20000x8, .f32⟩
  | 51 => ⟨S640000x1, .i32⟩
  | 52 => ⟨S20000x8, .f32⟩
  | 53 => ⟨S_, .f32⟩
  | 54 => ⟨S20000x8, .f32⟩
  | 55 => ⟨S20000x8, .f32⟩
  | 56 => ⟨S20000x8x1, .f32⟩
  | 57 => ⟨S20000x8x32, .f32⟩
  | 58 => ⟨S20000x8x32, .f32⟩
  | 59 => ⟨S20000x256, .f32⟩
  | 60 => ⟨S1x256x256, .f32⟩
  | 61 => ⟨S256x256, .f32⟩
  | 62 => ⟨S20000x256, .f32⟩
  | 63 => ⟨S20000x256, .f32⟩
  | 64 => ⟨S1x256, .f32⟩
  | 65 => ⟨S256, .f32⟩
  | 66 => ⟨S1x256, .f32⟩
  | 67 => ⟨S20000x256, .f32⟩
  | 68 => ⟨S20000x256, .f32⟩
  | 69 => ⟨S1x256, .f32⟩
  | 70 => ⟨S256, .f32⟩
  | 71 => ⟨S1x256, .f32⟩
  | 72 => ⟨S256, .f32⟩
  | 73 => ⟨S_, .f32⟩
  | 74 => ⟨S20000, .f32⟩
  | 75 => ⟨S20000x1, .f32⟩
  | 76 => ⟨S_, .f32⟩
  | 77 => ⟨S20000x1, .f32⟩
  | 78 => ⟨S20000x1, .f32⟩
  | 79 => ⟨S_, .i32⟩
  | 80 => ⟨S_, .f32⟩
  | 81 => ⟨S20000, .f32⟩
  | 82 => ⟨S20000x1, .f32⟩
  | 83 => ⟨S_, .f32⟩
  | 84 => ⟨S20000x1, .f32⟩
  | 85 => ⟨S20000x1, .f32⟩
  | 86 => ⟨S20000x256, .f32⟩
  | 87 => ⟨S20000x256, .f32⟩
  | 88 => ⟨S20000x256, .f32⟩
  | 89 => ⟨S_, .f32⟩
  | 90 => ⟨S_, .f32⟩
  | 91 => ⟨S_, .f32⟩
  | 92 => ⟨S_, .f32⟩
  | 93 => ⟨S20000, .f32⟩
  | 94 => ⟨S20000x1, .f32⟩
  | 95 => ⟨S20000x1, .f32⟩
  | 96 => ⟨S20000x1, .f32⟩
  | 97 => ⟨S_, .f32⟩
  | 98 => ⟨S_, .i1⟩
  | 99 => ⟨S_, .f32⟩
  | 100 => ⟨S_, .f32⟩
  | 101 => ⟨S20000x1, .f32⟩
  | 102 => ⟨S20000x1, .f32⟩
  | 103 => ⟨S20000x256, .f32⟩
  | 104 => ⟨S20000x256, .f32⟩
  | 105 => ⟨S_, .f32⟩
  | 106 => ⟨S20000x1, .f32⟩
  | 107 => ⟨S20000x1, .f32⟩
  | 108 => ⟨S20000x1, .f32⟩
  | 109 => ⟨S20000x256, .f32⟩
  | 110 => ⟨S20000x256, .f32⟩
  | 111 => ⟨S1x256, .f32⟩
  | 112 => ⟨S20000x256, .f32⟩
  | 113 => ⟨S20000x256, .f32⟩
  | 114 => ⟨S1x256, .f32⟩
  | 115 => ⟨S20000x256, .f32⟩
  | 116 => ⟨S20000x256, .f32⟩
  | 117 => ⟨S1x256x1024, .f32⟩
  | 118 => ⟨S256x1024, .f32⟩
  | 119 => ⟨S20000x1024, .f32⟩
  | 120 => ⟨S1x1024, .f32⟩
  | 121 => ⟨S1024, .f32⟩
  | 122 => ⟨S1x1024, .f32⟩
  | 123 => ⟨S20000x1024, .f32⟩
  | 124 => ⟨S20000x1024, .f32⟩
  | 125 => ⟨S_, .f32⟩
  | 126 => ⟨S20000x1024, .f32⟩
  | 127 => ⟨S20000x1024, .f32⟩
  | _ => ⟨S20000x256, .f32⟩

abbrev hbmTy0_3 (i : Nat) : BufTy := match i % 128 with
  | 0 => ⟨S1x1024x256, .f32⟩
  | 1 => ⟨S1024x256, .f32⟩
  | 2 => ⟨S20000x256, .f32⟩
  | 3 => ⟨S20000x256, .f32⟩
  | 4 => ⟨S1x256, .f32⟩
  | 5 => ⟨S256, .f32⟩
  | 6 => ⟨S1x256, .f32⟩
  | 7 => ⟨S20000x256, .f32⟩
  | 8 => ⟨S20000x256, .f32⟩
  | 9 => ⟨S1x256, .f32⟩
  | 10 => ⟨S256, .f32⟩
  | 11 => ⟨S1x256, .f32⟩
  | 12 => ⟨S256, .f32⟩
  | 13 => ⟨S_, .f32⟩
  | 14 => ⟨S20000, .f32⟩
  | 15 => ⟨S20000x1, .f32⟩
  | 16 => ⟨S_, .f32⟩
  | 17 => ⟨S20000x1, .f32⟩
  | 18 => ⟨S20000x1, .f32⟩
  | 19 => ⟨S_, .i32⟩
  | 20 => ⟨S_, .f32⟩
  | 21 => ⟨S20000, .f32⟩
  | 22 => ⟨S20000x1, .f32⟩
  | 23 => ⟨S_, .f32⟩
  | 24 => ⟨S20000x1, .f32⟩
  | 25 => ⟨S20000x1, .f32⟩
  | 26 => ⟨S20000x256, .f32⟩
  | 27 => ⟨S20000x256, .f32⟩
  | 28 => ⟨S20000x256, .f32⟩
  | 29 => ⟨S_, .f32⟩
  | 30 => ⟨S_, .f32⟩
  | 31 => ⟨S_, .f32⟩
  | 32 => ⟨S_, .f32⟩
  | 33 => ⟨S20000, .f32⟩
  | 34 => ⟨S20000x1, .f32⟩
  | 35 => ⟨S20000x1, .f32⟩
  | 36 => ⟨S20000x1, .f32⟩
  | 37 => ⟨S_, .f32⟩
  | 38 => ⟨S_, .i1⟩
  | 39 => ⟨S_, .f32⟩
  | 40 => ⟨S_, .f32⟩
  | 41 => ⟨S20000x1, .f32⟩
  | 42 => ⟨S20000x1, .f32⟩
  | 43 => ⟨S20000x256, .f32⟩
  | 44 => ⟨S20000x256, .f32⟩
  | 45 => ⟨S_, .f32⟩
  | 46 => ⟨S20000x1, .f32⟩
  | 47 => ⟨S20000x1, .f32⟩
  | 48 => ⟨S20000x1, .f32⟩
  | 49 => ⟨S20000x256, .f32⟩
  | 50 => ⟨S20000x256, .f32⟩
  | 51 => ⟨S1x256, .f32⟩
  | 52 => ⟨S20000x256, .f32⟩
  | 53 => ⟨S20000x256, .f32⟩
  | 54 => ⟨S1x256, .f32⟩
  | 55 => ⟨S20000x256, .f32⟩
  | 56 => ⟨S20000x256, .f32⟩
  | _ => ⟨S20000x256, .f32⟩

abbrev hbmTy (i : Nat) : BufTy := match i / 128 with
  | 0 => hbmTy0_0 i
  | 1 => hbmTy0_1 i
  | 2 => hbmTy0_2 i
  | 3 => hbmTy0_3 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_1 : Ref sig .tc := ⟨.hbm, 46, rfl⟩
abbrev main_v25 : Ref sig .tc := ⟨.hbm, 47, rfl⟩
abbrev main_v26 : Ref sig .tc := ⟨.hbm, 48, rfl⟩
abbrev main_c_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_3 : Ref sig .tc := ⟨.hbm, 57, rfl⟩
abbrev main_v34 : Ref sig .tc := ⟨.hbm, 58, rfl⟩
abbrev main_v35 : Ref sig .tc := ⟨.hbm, 59, rfl⟩
abbrev main_c_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_cst_7 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v45 : Ref sig .tc := ⟨.hbm, 79, rfl⟩
abbrev main_v46 : Ref sig .tc := ⟨.hbm, 80, rfl⟩
abbrev main_c_8 : Ref sig .tc := ⟨.hbm, 81, rfl⟩
abbrev main_v47 : Ref sig .tc := ⟨.hbm, 82, rfl⟩
abbrev main_v48 : Ref sig .tc := ⟨.hbm, 83, rfl⟩
abbrev main_c_9 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_10 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_11 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_12 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_13 : Ref sig .tc := ⟨.hbm, 123, rfl⟩
abbrev main_v84 : Ref sig .tc := ⟨.hbm, 124, rfl⟩
abbrev main_v85 : Ref sig .tc := ⟨.hbm, 125, rfl⟩
abbrev main_cst_14 : Ref sig .tc := ⟨.hbm, 126, rfl⟩
abbrev main_v86 : Ref sig .tc := ⟨.hbm, 127, rfl⟩
abbrev main_v87 : Ref sig .tc := ⟨.hbm, 128, rfl⟩
abbrev main_c_15 : Ref sig .tc := ⟨.hbm, 129, rfl⟩
abbrev main_call1_cst : Ref sig .tc := ⟨.hbm, 130, rfl⟩
abbrev main_call1_v0 : Ref sig .tc := ⟨.hbm, 131, rfl⟩
abbrev main_call1_v1 : Ref sig .tc := ⟨.hbm, 132, rfl⟩
abbrev main_call1_cst_0 : Ref sig .tc := ⟨.hbm, 133, rfl⟩
abbrev main_call1_v2 : Ref sig .tc := ⟨.hbm, 134, rfl⟩
abbrev main_call1_v3 : Ref sig .tc := ⟨.hbm, 135, rfl⟩
abbrev main_call1_v4 : Ref sig .tc := ⟨.hbm, 136, rfl⟩
abbrev main_call1_v5 : Ref sig .tc := ⟨.hbm, 137, rfl⟩
abbrev main_call1_v6 : Ref sig .tc := ⟨.hbm, 138, rfl⟩
abbrev main_call1_v7 : Ref sig .tc := ⟨.hbm, 139, rfl⟩
abbrev main_call1_cst_1 : Ref sig .tc := ⟨.hbm, 140, rfl⟩
abbrev main_call1_v8 : Ref sig .tc := ⟨.hbm, 141, rfl⟩
abbrev main_call1_cst_2 : Ref sig .tc := ⟨.hbm, 142, rfl⟩
abbrev main_call1_v9 : Ref sig .tc := ⟨.hbm, 143, rfl⟩
abbrev main_call1_v10 : Ref sig .tc := ⟨.hbm, 144, rfl⟩
abbrev main_call1_v11 : Ref sig .tc := ⟨.hbm, 145, rfl⟩
abbrev main_call1_v12 : Ref sig .tc := ⟨.hbm, 146, rfl⟩
abbrev main_call1_cst_3 : Ref sig .tc := ⟨.hbm, 147, rfl⟩
abbrev main_call1_v13 : Ref sig .tc := ⟨.hbm, 148, rfl⟩
abbrev main_call1_cst_4 : Ref sig .tc := ⟨.hbm, 149, rfl⟩
abbrev main_call1_call0_v0 : Ref sig .tc := ⟨.hbm, 150, rfl⟩
abbrev main_call1_call0_v1 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_cst_16 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_call2_cst : Ref sig .tc := ⟨.hbm, 175, rfl⟩
abbrev main_call2_v0 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_cst_17 : Ref sig .tc := ⟨.hbm, 191, rfl⟩
abbrev main_v124 : Ref sig .tc := ⟨.hbm, 192, rfl⟩
abbrev main_v125 : Ref sig .tc := ⟨.hbm, 193, rfl⟩
abbrev main_cst_18 : Ref sig .tc := ⟨.hbm, 194, rfl⟩
abbrev main_v126 : Ref sig .tc := ⟨.hbm, 195, rfl⟩
abbrev main_v127 : Ref sig .tc := ⟨.hbm, 196, rfl⟩
abbrev main_c_19 : Ref sig .tc := ⟨.hbm, 197, rfl⟩
abbrev main_call3_cst : Ref sig .tc := ⟨.hbm, 198, rfl⟩
abbrev main_call3_v0 : Ref sig .tc := ⟨.hbm, 199, rfl⟩
abbrev main_call3_v1 : Ref sig .tc := ⟨.hbm, 200, rfl⟩
abbrev main_call3_cst_0 : Ref sig .tc := ⟨.hbm, 201, rfl⟩
abbrev main_call3_v2 : Ref sig .tc := ⟨.hbm, 202, rfl⟩
abbrev main_call3_v3 : Ref sig .tc := ⟨.hbm, 203, rfl⟩
abbrev main_call3_v4 : Ref sig .tc := ⟨.hbm, 204, rfl⟩
abbrev main_call3_v5 : Ref sig .tc := ⟨.hbm, 205, rfl⟩
abbrev main_call3_v6 : Ref sig .tc := ⟨.hbm, 206, rfl⟩
abbrev main_call3_v7 : Ref sig .tc := ⟨.hbm, 207, rfl⟩
abbrev main_call3_cst_1 : Ref sig .tc := ⟨.hbm, 208, rfl⟩
abbrev main_call3_v8 : Ref sig .tc := ⟨.hbm, 209, rfl⟩
abbrev main_call3_cst_2 : Ref sig .tc := ⟨.hbm, 210, rfl⟩
abbrev main_call3_v9 : Ref sig .tc := ⟨.hbm, 211, rfl⟩
abbrev main_call3_v10 : Ref sig .tc := ⟨.hbm, 212, rfl⟩
abbrev main_call3_v11 : Ref sig .tc := ⟨.hbm, 213, rfl⟩
abbrev main_call3_v12 : Ref sig .tc := ⟨.hbm, 214, rfl⟩
abbrev main_call3_cst_3 : Ref sig .tc := ⟨.hbm, 215, rfl⟩
abbrev main_call3_v13 : Ref sig .tc := ⟨.hbm, 216, rfl⟩
abbrev main_call3_cst_4 : Ref sig .tc := ⟨.hbm, 217, rfl⟩
abbrev main_call3_call0_v0 : Ref sig .tc := ⟨.hbm, 218, rfl⟩
abbrev main_call3_call0_v1 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_cst_20 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_c_21 : Ref sig .tc := ⟨.hbm, 252, rfl⟩
abbrev main_v159 : Ref sig .tc := ⟨.hbm, 253, rfl⟩
abbrev main_v160 : Ref sig .tc := ⟨.hbm, 254, rfl⟩
abbrev main_c_22 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_c_23 : Ref sig .tc := ⟨.hbm, 263, rfl⟩
abbrev main_v168 : Ref sig .tc := ⟨.hbm, 264, rfl⟩
abbrev main_v169 : Ref sig .tc := ⟨.hbm, 265, rfl⟩
abbrev main_c_24 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_v173 : Ref sig .tc := ⟨.hbm, 270, rfl⟩
abbrev main_v174 : Ref sig .tc := ⟨.hbm, 271, rfl⟩
abbrev main_v175 : Ref sig .tc := ⟨.hbm, 272, rfl⟩
abbrev main_cst_25 : Ref sig .tc := ⟨.hbm, 273, rfl⟩
abbrev main_v176 : Ref sig .tc := ⟨.hbm, 274, rfl⟩
abbrev main_cst_26 : Ref sig .tc := ⟨.hbm, 275, rfl⟩
abbrev main_v177 : Ref sig .tc := ⟨.hbm, 276, rfl⟩
abbrev main_v178 : Ref sig .tc := ⟨.hbm, 277, rfl⟩
abbrev main_cst_27 : Ref sig .tc := ⟨.hbm, 278, rfl⟩
abbrev main_cst_28 : Ref sig .tc := ⟨.hbm, 279, rfl⟩
abbrev main_call4_v0 : Ref sig .tc := ⟨.hbm, 280, rfl⟩
abbrev main_call4_v1 : Ref sig .tc := ⟨.hbm, 281, rfl⟩
abbrev main_call4_v2 : Ref sig .tc := ⟨.hbm, 282, rfl⟩
abbrev main_call4_v3 : Ref sig .tc := ⟨.hbm, 283, rfl⟩
abbrev main_call4_v4 : Ref sig .tc := ⟨.hbm, 284, rfl⟩
abbrev main_v179 : Ref sig .tc := ⟨.hbm, 285, rfl⟩
abbrev main_v180 : Ref sig .tc := ⟨.hbm, 286, rfl⟩
abbrev main_c_29 : Ref sig .tc := ⟨.hbm, 287, rfl⟩
abbrev main_v181 : Ref sig .tc := ⟨.hbm, 288, rfl⟩
abbrev main_v182 : Ref sig .tc := ⟨.hbm, 289, rfl⟩
abbrev main_c_30 : Ref sig .tc := ⟨.hbm, 290, rfl⟩
abbrev main_v183 : Ref sig .tc := ⟨.hbm, 291, rfl⟩
abbrev main_v184 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_v189 : Ref sig .tc := ⟨.hbm, 297, rfl⟩
abbrev main_v190 : Ref sig .tc := ⟨.hbm, 298, rfl⟩
abbrev main_v191 : Ref sig .tc := ⟨.hbm, 299, rfl⟩
abbrev main_v192 : Ref sig .tc := ⟨.hbm, 300, rfl⟩
abbrev main_cst_31 : Ref sig .tc := ⟨.hbm, 301, rfl⟩
abbrev main_v193 : Ref sig .tc := ⟨.hbm, 302, rfl⟩
abbrev main_v194 : Ref sig .tc := ⟨.hbm, 303, rfl⟩
abbrev main_v195 : Ref sig .tc := ⟨.hbm, 304, rfl⟩
abbrev main_cst_32 : Ref sig .tc := ⟨.hbm, 305, rfl⟩
abbrev main_v196 : Ref sig .tc := ⟨.hbm, 306, rfl⟩
abbrev main_v197 : Ref sig .tc := ⟨.hbm, 307, rfl⟩
abbrev main_v198 : Ref sig .tc := ⟨.hbm, 308, rfl⟩
abbrev main_cst_33 : Ref sig .tc := ⟨.hbm, 309, rfl⟩
abbrev main_v199 : Ref sig .tc := ⟨.hbm, 310, rfl⟩
abbrev main_v200 : Ref sig .tc := ⟨.hbm, 311, rfl⟩
abbrev main_v201 : Ref sig .tc := ⟨.hbm, 312, rfl⟩
abbrev main_v202 : Ref sig .tc := ⟨.hbm, 313, rfl⟩
abbrev main_v203 : Ref sig .tc := ⟨.hbm, 314, rfl⟩
abbrev main_v204 : Ref sig .tc := ⟨.hbm, 315, rfl⟩
abbrev main_v205 : Ref sig .tc := ⟨.hbm, 316, rfl⟩
abbrev main_v206 : Ref sig .tc := ⟨.hbm, 317, rfl⟩
abbrev main_v207 : Ref sig .tc := ⟨.hbm, 318, rfl⟩
abbrev main_v208 : Ref sig .tc := ⟨.hbm, 319, rfl⟩
abbrev main_v209 : Ref sig .tc := ⟨.hbm, 320, rfl⟩
abbrev main_v210 : Ref sig .tc := ⟨.hbm, 321, rfl⟩
abbrev main_v211 : Ref sig .tc := ⟨.hbm, 322, rfl⟩
abbrev main_v212 : Ref sig .tc := ⟨.hbm, 323, rfl⟩
abbrev main_v213 : Ref sig .tc := ⟨.hbm, 324, rfl⟩
abbrev main_v214 : Ref sig .tc := ⟨.hbm, 325, rfl⟩
abbrev main_v215 : Ref sig .tc := ⟨.hbm, 326, rfl⟩
abbrev main_v216 : Ref sig .tc := ⟨.hbm, 327, rfl⟩
abbrev main_v217 : Ref sig .tc := ⟨.hbm, 328, rfl⟩
abbrev main_cst_34 : Ref sig .tc := ⟨.hbm, 329, rfl⟩
abbrev main_v218 : Ref sig .tc := ⟨.hbm, 330, rfl⟩
abbrev main_v219 : Ref sig .tc := ⟨.hbm, 331, rfl⟩
abbrev main_cst_35 : Ref sig .tc := ⟨.hbm, 332, rfl⟩
abbrev main_v220 : Ref sig .tc := ⟨.hbm, 333, rfl⟩
abbrev main_v221 : Ref sig .tc := ⟨.hbm, 334, rfl⟩
abbrev main_c_36 : Ref sig .tc := ⟨.hbm, 335, rfl⟩
abbrev main_call5_cst : Ref sig .tc := ⟨.hbm, 336, rfl⟩
abbrev main_call5_v0 : Ref sig .tc := ⟨.hbm, 337, rfl⟩
abbrev main_call5_v1 : Ref sig .tc := ⟨.hbm, 338, rfl⟩
abbrev main_call5_cst_0 : Ref sig .tc := ⟨.hbm, 339, rfl⟩
abbrev main_call5_v2 : Ref sig .tc := ⟨.hbm, 340, rfl⟩
abbrev main_call5_v3 : Ref sig .tc := ⟨.hbm, 341, rfl⟩
abbrev main_call5_v4 : Ref sig .tc := ⟨.hbm, 342, rfl⟩
abbrev main_call5_v5 : Ref sig .tc := ⟨.hbm, 343, rfl⟩
abbrev main_call5_v6 : Ref sig .tc := ⟨.hbm, 344, rfl⟩
abbrev main_call5_v7 : Ref sig .tc := ⟨.hbm, 345, rfl⟩
abbrev main_call5_cst_1 : Ref sig .tc := ⟨.hbm, 346, rfl⟩
abbrev main_call5_v8 : Ref sig .tc := ⟨.hbm, 347, rfl⟩
abbrev main_call5_cst_2 : Ref sig .tc := ⟨.hbm, 348, rfl⟩
abbrev main_call5_v9 : Ref sig .tc := ⟨.hbm, 349, rfl⟩
abbrev main_call5_v10 : Ref sig .tc := ⟨.hbm, 350, rfl⟩
abbrev main_call5_v11 : Ref sig .tc := ⟨.hbm, 351, rfl⟩
abbrev main_call5_v12 : Ref sig .tc := ⟨.hbm, 352, rfl⟩
abbrev main_call5_cst_3 : Ref sig .tc := ⟨.hbm, 353, rfl⟩
abbrev main_call5_v13 : Ref sig .tc := ⟨.hbm, 354, rfl⟩
abbrev main_call5_cst_4 : Ref sig .tc := ⟨.hbm, 355, rfl⟩
abbrev main_call5_call0_v0 : Ref sig .tc := ⟨.hbm, 356, rfl⟩
abbrev main_call5_call0_v1 : Ref sig .tc := ⟨.hbm, 357, rfl⟩
abbrev main_v222 : Ref sig .tc := ⟨.hbm, 358, rfl⟩
abbrev main_v223 : Ref sig .tc := ⟨.hbm, 359, rfl⟩
abbrev main_v224 : Ref sig .tc := ⟨.hbm, 360, rfl⟩
abbrev main_cst_37 : Ref sig .tc := ⟨.hbm, 361, rfl⟩
abbrev main_v225 : Ref sig .tc := ⟨.hbm, 362, rfl⟩
abbrev main_v226 : Ref sig .tc := ⟨.hbm, 363, rfl⟩
abbrev main_v227 : Ref sig .tc := ⟨.hbm, 364, rfl⟩
abbrev main_v228 : Ref sig .tc := ⟨.hbm, 365, rfl⟩
abbrev main_v229 : Ref sig .tc := ⟨.hbm, 366, rfl⟩
abbrev main_v230 : Ref sig .tc := ⟨.hbm, 367, rfl⟩
abbrev main_v231 : Ref sig .tc := ⟨.hbm, 368, rfl⟩
abbrev main_v232 : Ref sig .tc := ⟨.hbm, 369, rfl⟩
abbrev main_v233 : Ref sig .tc := ⟨.hbm, 370, rfl⟩
abbrev main_v234 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_v238 : Ref sig .tc := ⟨.hbm, 375, rfl⟩
abbrev main_v239 : Ref sig .tc := ⟨.hbm, 376, rfl⟩
abbrev main_v240 : Ref sig .tc := ⟨.hbm, 377, rfl⟩
abbrev main_v241 : Ref sig .tc := ⟨.hbm, 378, rfl⟩
abbrev main_v242 : Ref sig .tc := ⟨.hbm, 379, rfl⟩
abbrev main_v243 : Ref sig .tc := ⟨.hbm, 380, rfl⟩
abbrev main_call6_cst : Ref sig .tc := ⟨.hbm, 381, rfl⟩
abbrev main_call6_v0 : Ref sig .tc := ⟨.hbm, 382, rfl⟩
abbrev main_v244 : Ref sig .tc := ⟨.hbm, 383, rfl⟩
abbrev main_v245 : Ref sig .tc := ⟨.hbm, 384, rfl⟩
abbrev main_v246 : Ref sig .tc := ⟨.hbm, 385, rfl⟩
abbrev main_v247 : Ref sig .tc := ⟨.hbm, 386, rfl⟩
abbrev main_v248 : Ref sig .tc := ⟨.hbm, 387, rfl⟩
abbrev main_v249 : Ref sig .tc := ⟨.hbm, 388, rfl⟩
abbrev main_v250 : Ref sig .tc := ⟨.hbm, 389, rfl⟩
abbrev main_v251 : Ref sig .tc := ⟨.hbm, 390, rfl⟩
abbrev main_v252 : Ref sig .tc := ⟨.hbm, 391, rfl⟩
abbrev main_v253 : Ref sig .tc := ⟨.hbm, 392, rfl⟩
abbrev main_v254 : Ref sig .tc := ⟨.hbm, 393, rfl⟩
abbrev main_v255 : Ref sig .tc := ⟨.hbm, 394, rfl⟩
abbrev main_v256 : Ref sig .tc := ⟨.hbm, 395, rfl⟩
abbrev main_v257 : Ref sig .tc := ⟨.hbm, 396, rfl⟩
abbrev main_cst_38 : Ref sig .tc := ⟨.hbm, 397, rfl⟩
abbrev main_v258 : Ref sig .tc := ⟨.hbm, 398, rfl⟩
abbrev main_v259 : Ref sig .tc := ⟨.hbm, 399, rfl⟩
abbrev main_cst_39 : Ref sig .tc := ⟨.hbm, 400, rfl⟩
abbrev main_v260 : Ref sig .tc := ⟨.hbm, 401, rfl⟩
abbrev main_v261 : Ref sig .tc := ⟨.hbm, 402, rfl⟩
abbrev main_c_40 : Ref sig .tc := ⟨.hbm, 403, rfl⟩
abbrev main_call7_cst : Ref sig .tc := ⟨.hbm, 404, rfl⟩
abbrev main_call7_v0 : Ref sig .tc := ⟨.hbm, 405, rfl⟩
abbrev main_call7_v1 : Ref sig .tc := ⟨.hbm, 406, rfl⟩
abbrev main_call7_cst_0 : Ref sig .tc := ⟨.hbm, 407, rfl⟩
abbrev main_call7_v2 : Ref sig .tc := ⟨.hbm, 408, rfl⟩
abbrev main_call7_v3 : Ref sig .tc := ⟨.hbm, 409, rfl⟩
abbrev main_call7_v4 : Ref sig .tc := ⟨.hbm, 410, rfl⟩
abbrev main_call7_v5 : Ref sig .tc := ⟨.hbm, 411, rfl⟩
abbrev main_call7_v6 : Ref sig .tc := ⟨.hbm, 412, rfl⟩
abbrev main_call7_v7 : Ref sig .tc := ⟨.hbm, 413, rfl⟩
abbrev main_call7_cst_1 : Ref sig .tc := ⟨.hbm, 414, rfl⟩
abbrev main_call7_v8 : Ref sig .tc := ⟨.hbm, 415, rfl⟩
abbrev main_call7_cst_2 : Ref sig .tc := ⟨.hbm, 416, rfl⟩
abbrev main_call7_v9 : Ref sig .tc := ⟨.hbm, 417, rfl⟩
abbrev main_call7_v10 : Ref sig .tc := ⟨.hbm, 418, rfl⟩
abbrev main_call7_v11 : Ref sig .tc := ⟨.hbm, 419, rfl⟩
abbrev main_call7_v12 : Ref sig .tc := ⟨.hbm, 420, rfl⟩
abbrev main_call7_cst_3 : Ref sig .tc := ⟨.hbm, 421, rfl⟩
abbrev main_call7_v13 : Ref sig .tc := ⟨.hbm, 422, rfl⟩
abbrev main_call7_cst_4 : Ref sig .tc := ⟨.hbm, 423, rfl⟩
abbrev main_call7_call0_v0 : Ref sig .tc := ⟨.hbm, 424, rfl⟩
abbrev main_call7_call0_v1 : Ref sig .tc := ⟨.hbm, 425, rfl⟩
abbrev main_v262 : Ref sig .tc := ⟨.hbm, 426, rfl⟩
abbrev main_v263 : Ref sig .tc := ⟨.hbm, 427, rfl⟩
abbrev main_v264 : Ref sig .tc := ⟨.hbm, 428, rfl⟩
abbrev main_cst_41 : Ref sig .tc := ⟨.hbm, 429, rfl⟩
abbrev main_v265 : Ref sig .tc := ⟨.hbm, 430, rfl⟩
abbrev main_v266 : Ref sig .tc := ⟨.hbm, 431, rfl⟩
abbrev main_v267 : Ref sig .tc := ⟨.hbm, 432, rfl⟩
abbrev main_v268 : Ref sig .tc := ⟨.hbm, 433, rfl⟩
abbrev main_v269 : Ref sig .tc := ⟨.hbm, 434, rfl⟩
abbrev main_v270 : Ref sig .tc := ⟨.hbm, 435, rfl⟩
abbrev main_v271 : Ref sig .tc := ⟨.hbm, 436, rfl⟩
abbrev main_v272 : Ref sig .tc := ⟨.hbm, 437, rfl⟩
abbrev main_v273 : Ref sig .tc := ⟨.hbm, 438, rfl⟩
abbrev main_v274 : Ref sig .tc := ⟨.hbm, 439, rfl⟩
abbrev main_v275 : Ref sig .tc := ⟨.hbm, 440, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S640000x32_S640000x1x32_0_2 : S640000x32.BroadcastsInDim S640000x1x32 (![0, 2] : Fin 2 → Fin S640000x1x32.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  shapeCasts_S20000x256_S20000x8x32 : S20000x256.ShapeCasts S20000x8x32
  bcast_S640000x1x32_S640000x8x32_0_1_2 : S640000x1x32.BroadcastsInDim S640000x8x32 (![0, 1, 2] : Fin 3 → Fin S640000x8x32.rank)
  reducesTo_S640000x8x32_S640000x8_d2 : S640000x8x32.ReducesTo [2] S640000x8
  h_S_ : 0 < S_.numel
  bcast_S_S640000x8 : S_.BroadcastsInDim S640000x8 (![] : Fin 0 → Fin S640000x8.rank)
  bcast_S640000x8_S640000x8x1_0_1 : S640000x8.BroadcastsInDim S640000x8x1 (![0, 1] : Fin 2 → Fin S640000x8x1.rank)
  bcast_S640000x8x1_S640000x8x32_0_1_2 : S640000x8x1.BroadcastsInDim S640000x8x32 (![0, 1, 2] : Fin 3 → Fin S640000x8x32.rank)
  bcast_S_S20000x8x32 : S_.BroadcastsInDim S20000x8x32 (![] : Fin 0 → Fin S20000x8x32.rank)
  bcast_S_S20000x8 : S_.BroadcastsInDim S20000x8 (![] : Fin 0 → Fin S20000x8.rank)
  bcast_S20000x8_S20000x8x1_0_1 : S20000x8.BroadcastsInDim S20000x8x1 (![0, 1] : Fin 2 → Fin S20000x8x1.rank)
  bcast_S20000x8x1_S20000x8x32_0_1_2 : S20000x8x1.BroadcastsInDim S20000x8x32 (![0, 1, 2] : Fin 3 → Fin S20000x8x32.rank)
  shapeCasts_S20000x8x32_S20000x256 : S20000x8x32.ShapeCasts S20000x256
  reducesTo_S20000x256_S20000_d1 : S20000x256.ReducesTo [1] S20000
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x256_0_1 : S20000x1.BroadcastsInDim S20000x256 (![0, 1] : Fin 2 → Fin S20000x256.rank)
  slices_S2x256x1024_S1x256x1024_0_0_0 : S2x256x1024.Slices ![0, 0, 0] S1x256x1024
  shapeCasts_S1x256x1024_S256x1024 : S1x256x1024.ShapeCasts S256x1024
  slices_S2x1024_S1x1024_0_0 : S2x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  bcast_S_S20000x1024 : S_.BroadcastsInDim S20000x1024 (![] : Fin 0 → Fin S20000x1024.rank)
  slices_S2x1024x256_S1x1024x256_0_0_0 : S2x1024x256.Slices ![0, 0, 0] S1x1024x256
  shapeCasts_S1x1024x256_S1024x256 : S1x1024x256.ShapeCasts S1024x256
  slices_S2x256x256_S1x256x256_1_0_0 : S2x256x256.Slices ![1, 0, 0] S1x256x256
  slices_S2x256_S1x256_1_0 : S2x256.Slices ![1, 0] S1x256
  slices_S2x256x1024_S1x256x1024_1_0_0 : S2x256x1024.Slices ![1, 0, 0] S1x256x1024
  slices_S2x1024_S1x1024_1_0 : S2x1024.Slices ![1, 0] S1x1024
  slices_S2x1024x256_S1x1024x256_1_0_0 : S2x1024x256.Slices ![1, 0, 0] S1x1024x256
  gather_S100x32_S640000x1_S640000x32_1_0_n_n_0_1_132_wf : GatherDims.WF S100x32 S640000x1 S640000x32 [1] [0] [] [0] [] 1 ![1, 32]
  dot_S20000x256_S256x256_S20000x256_1_0_0_1_n_n_wf : DotDims.WF S20000x256 S256x256 S20000x256 [1] [0] [0] [1] [] []
  gather_S20000x8x32_S640000x1_S640000x8x32_12_0_n_n_0_1_1832_wf : GatherDims.WF S20000x8x32 S640000x1 S640000x8x32 [1, 2] [0] [] [0] [] 1 ![1, 8, 32]
  scatter_S20000x8x32_S640000x1_S640000x8x32_12_0_0_1_wf : ScatterDims.WF S20000x8x32 S640000x1 S640000x8x32 [1, 2] [0] [0] 1
  scatter_S20000x8_S640000x1_S640000x8_1_0_0_1_wf : ScatterDims.WF S20000x8 S640000x1 S640000x8 [1] [0] [0] 1
  dot_S20000x256_S256x1024_S20000x1024_1_0_0_1_n_n_wf : DotDims.WF S20000x256 S256x1024 S20000x1024 [1] [0] [0] [1] [] []
  dot_S20000x1024_S1024x256_S20000x256_1_0_0_1_n_n_wf : DotDims.WF S20000x1024 S1024x256 S20000x256 [1] [0] [0] [1] [] []

variable [Facts₀]

def gather_S100x32_S640000x1_S640000x32_1_0_n_n_0_1_132 : GatherDims S100x32 S640000x1 S640000x32 where
  offsetDims := [1]
  collapsedSliceDims := [0]
  operandBatchingDims := []
  startIndicesBatchingDims := []
  startIndexMap := [0]
  indexVectorDim := 1
  sliceSizes := ![1, 32]
  wf := gather_S100x32_S640000x1_S640000x32_1_0_n_n_0_1_132_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x8x32_S640000x1_S640000x8x32_12_0_n_n_0_1_1832 : GatherDims S20000x8x32 S640000x1 S640000x8x32 where
  offsetDims := [1, 2]
  collapsedSliceDims := [0]
  operandBatchingDims := []
  startIndicesBatchingDims := []
  startIndexMap := [0]
  indexVectorDim := 1
  sliceSizes := ![1, 8, 32]
  wf := gather_S20000x8x32_S640000x1_S640000x8x32_12_0_n_n_0_1_1832_wf
def scatter_S20000x8x32_S640000x1_S640000x8x32_12_0_0_1 : ScatterDims S20000x8x32 S640000x1 S640000x8x32 where
  updateWindowDims := [1, 2]
  insertedWindowDims := [0]
  scatterDimsToOperandDims := [0]
  indexVectorDim := 1
  wf := scatter_S20000x8x32_S640000x1_S640000x8x32_12_0_0_1_wf
def scatter_S20000x8_S640000x1_S640000x8_1_0_0_1 : ScatterDims S20000x8 S640000x1 S640000x8 where
  updateWindowDims := [1]
  insertedWindowDims := [0]
  scatterDimsToOperandDims := [0]
  indexVectorDim := 1
  wf := scatter_S20000x8_S640000x1_S640000x8_1_0_0_1_wf
def dot_S20000x256_S256x1024_S20000x1024_1_0_0_1_n_n : DotDims S20000x256 S256x1024 S20000x1024 where
  lhsContracting := [1]
  rhsContracting := [0]
  lhsNonContracting := [0]
  rhsNonContracting := [1]
  lhsBatch := []
  rhsBatch := []
  wf := dot_S20000x256_S256x1024_S20000x1024_1_0_0_1_n_n_wf
def dot_S20000x1024_S1024x256_S20000x256_1_0_0_1_n_n : DotDims S20000x1024 S1024x256 S20000x256 where
  lhsContracting := [1]
  rhsContracting := [0]
  lhsNonContracting := [0]
  rhsNonContracting := [1]
  lhsBatch := []
  rhsBatch := []
  wf := dot_S20000x1024_S1024x256_S20000x256_1_0_0_1_n_n_wf

class Facts : Prop extends Facts₀ where

variable [Facts]
-- ==== Proof.KRun.lean ====
/-
  The kernel program's run, with its result named.

  The program is six kernel regions among stretches of host operations.  Launched from any memory with zero
  counters, every weakly fair execution terminates without a fault; at the end every unscoped buffer of a core
  holds the contents the last segment boundary names, a fold through the program from the launch memory.  Read at
  the result buffer this gives the result as that fold's value there; read at the nineteen argument buffers, the
  launch contents.
-/
import proofs.«175432_j21457656611019_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument arrays as launched. -/
theorem run_result : θ_run defs (onTc (τ := τ) (main (F := F))) ⟨m, fun _ => 0, ρ⟩ (fun r => ∀ c : Dev nD,
      r.2.mem ((c.tc : Thread nD τ).loc main_v126) = W12 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v126 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c)⟩)

end Cert.KernelIdeal.KRun

end
-- ==== Proof.KFold.lean ====
/-
  The kernel program's buffer contents at its segment boundaries, read back.

  The contents at each boundary are a fold through the program from the launch memory: a stretch of host operations
  rewrites the buffers its operations write, a region rewrites its output arrays.  No host operation and no region
  writes an argument array, so at every boundary each argument array holds its launch contents; the relation rows
  built before the first region and the first layer's result persist until the regions that read them again.
-/
import proofs.«175432_j21457656611019_1_alg».proof.Proof.Gen.KernelIdeal.Frame
import Idealize.ShloMosaic.Lib.StableHlo.Run

set_option maxRecDepth 16384

noncomputable section

namespace Cert.KernelIdeal.KFold

open Idealize.ShloMosaic Idealize.ShloMosaic.TcCoe Idealize.ShloMosaic.StableHlo Idealize.SL.Sem
open Idealize.ShloMosaic.Pipeline (Dat)
open Cert.KernelIdeal Cert.KernelIdeal.Gen

variable {F : FTy → Type} [FloatOps F]

/-- An operation that writes one buffer of a list writes within the list. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references stretch 0's operations write. -/
abbrev wr0 : List (Ref sig .tc) := [main_v0, main_c, main_v1, main_v2, main_c_0, main_v3, main_v4, main_v5, main_v6, main_v7, main_v8, main_v9, main_v10, main_v11, main_v12, main_v13, main_v14, main_v15, main_v16, main_v17, main_v18]

theorem hW0 : (hostOps0 : List (HloOp τ sig (Elt F))).Forall fun op => op.writes ⊆ (wr0.map (Proc.devRef (τ := τ) .tc)).toFinset :=
  ⟨sub_of_mem (y := main_v0) (by decide),
   sub_of_mem (y := main_c) (by decide),
   sub_of_mem (y := main_v1) (by decide),
   sub_of_mem (y := main_v2) (by decide),
   sub_of_mem (y := main_c_0) (by decide),
   sub_of_mem (y := main_v3) (by decide),
   sub_of_mem (y := main_v4) (by decide),
   sub_of_mem (y := main_v5) (by decide),
   sub_of_mem (y := main_v6) (by decide),
   sub_of_mem (y := main_v7) (by decide),
   sub_of_mem (y := main_v8) (by decide),
   sub_of_mem (y := main_v9) (by decide),
   sub_of_mem (y := main_v10) (by decide),
   sub_of_mem (y := main_v11) (by decide),
   sub_of_mem (y := main_v12) (by decide),
   sub_of_mem (y := main_v13) (by decide),
   sub_of_mem (y := main_v14) (by decide),
   sub_of_mem (y := main_v15) (by decide),
   sub_of_mem (y := main_v16) (by decide),
   sub_of_mem (y := main_v17) (by decide),
   sub_of_mem (y := main_v18) (by decide)⟩

/-- A buffer stretch 0 does not write keeps its contents through it. -/
theorem keep0 (V : Valuation τ sig (Elt F)) (r : Ref sig .tc) (hr : r ∉ wr0) :
    StableHlo.after hostOps0 V (Proc.devRef .tc r) = V (Proc.devRef .tc r) :=
  StableHlo.after_of_writes_sub hostOps0 V hW0 hr

/-- The references stretch 1's operations write. -/
abbrev wr1 : List (Ref sig .tc) := [main_c_1, main_v20, main_v21, main_c_2, main_v22, main_v23, main_v24, main_v25, main_v26, main_c_3, main_v27, main_v28, main_c_4, main_v29, main_v30, main_v31, main_v32, main_v33, main_c_5, main_v34, main_v35, main_c_6, main_v36, main_v37, main_v38, main_v39, main_v40]

theorem hW1 : (hostOps1 : List (HloOp τ sig (Elt F))).Forall fun op => op.writes ⊆ (wr1.map (Proc.devRef (τ := τ) .tc)).toFinset :=
  ⟨sub_of_mem (y := main_c_1) (by decide),
   sub_of_mem (y := main_v20) (by decide),
   sub_of_mem (y := main_v21) (by decide),
   sub_of_mem (y := main_c_2) (by decide),
   sub_of_mem (y := main_v22) (by decide),
   sub_of_mem (y := main_v23) (by decide),
   sub_of_mem (y := main_v24) (by decide),
   sub_of_mem (y := main_v25) (by decide),
   sub_of_mem (y := main_v26) (by decide),
   sub_of_mem (y := main_c_3) (by decide),
   sub_of_mem (y := main_v27) (by decide),
   sub_of_mem (y := main_v28) (by decide),
   sub_of_mem (y := main_c_4) (by decide),
   sub_of_mem (y := main_v29) (by decide),
   sub_of_mem (y := main_v30) (by decide),
   sub_of_mem (y := main_v31) (by decide),
   sub_of_mem (y := main_v32) (by decide),
   sub_of_mem (y := main_v33) (by decide),
   sub_of_mem (y := main_c_5) (by decide),
   sub_of_mem (y := main_v34) (by decide),
   sub_of_mem (y := main_v35) (by decide),
   sub_of_mem (y := main_c_6) (by decide),
   sub_of_mem (y := main_v36) (by decide),
   sub_of_mem (y := main_v37) (by decide),
   sub_of_mem (y := main_v38) (by decide),
   sub_of_mem (y := main_v39) (by decide),
   sub_of_mem (y := main_v40) (by decide)⟩

/-- A buffer stretch 1 does not write keeps its contents through it. -/
theorem keep1 (V : Valuation τ sig (Elt F)) (r : Ref sig .tc) (hr : r ∉ wr1) :
    StableHlo.after hostOps1 V (Proc.devRef .tc r) = V (Proc.devRef .tc r) :=
  StableHlo.after_of_writes_sub hostOps1 V hW1 hr

/-- The references stretch 2's operations write. -/
abbrev wr2 : List (Ref sig .tc) := [main_cst, main_v42, main_v43, main_v44, main_cst_7, main_v45, main_v46, main_v47, main_v48, main_v49, main_v50, main_v51, main_v52, main_v53, main_v54, main_v55, main_v56, main_v57, main_v58, main_v59, main_v60, main_v61, main_v62, main_v63, main_v64, main_v65, main_v66, main_v67]

theorem hW2 : (hostOps2 : List (HloOp τ sig (Elt F))).Forall fun op => op.writes ⊆ (wr2.map (Proc.devRef (τ := τ) .tc)).toFinset :=
  ⟨sub_of_mem (y := main_cst) (by decide),
   sub_of_mem (y := main_v42) (by decide),
   sub_of_mem (y := main_v43) (by decide),
   sub_of_mem (y := main_v44) (by decide),
   sub_of_mem (y := main_cst_7) (by decide),
   sub_of_mem (y := main_v45) (by decide),
   sub_of_mem (y := main_v46) (by decide),
   sub_of_mem (y := main_v47) (by decide),
   sub_of_mem (y := main_v48) (by decide),
   sub_of_mem (y := main_v49) (by decide),
   sub_of_mem (y := main_v50) (by decide),
   sub_of_mem (y := main_v51) (by decide),
   sub_of_mem (y := main_v52) (by decide),
   sub_of_mem (y := main_v53) (by decide),
   sub_of_mem (y := main_v54) (by decide),
   sub_of_mem (y := main_v55) (by decide),
   sub_of_mem (y := main_v56) (by decide),
   sub_of_mem (y := main_v57) (by decide),
   sub_of_mem (y := main_v58) (by decide),
   sub_of_mem (y := main_v59) (by decide),
   sub_of_mem (y := main_v60) (by decide),
   sub_of_mem (y := main_v61) (by decide),
   sub_of_mem (y := main_v62) (by decide),
   sub_of_mem (y := main_v63) (by decide),
   sub_of_mem (y := main_v64) (by decide),
   sub_of_mem (y := main_v65) (by decide),
   sub_of_mem (y := main_v66) (by decide),
   sub_of_mem (y := main_v67) (by decide)⟩

/-- A buffer stretch 2 does not write keeps its contents through it. -/
theorem keep2 (V : Valuation τ sig (Elt F)) (r : Ref sig .tc) (hr : r ∉ wr2) :
    StableHlo.after hostOps2 V (Proc.devRef .tc r) = V (Proc.devRef .tc r) :=
  StableHlo.after_of_writes_sub hostOps2 V hW2 hr

/-- The references stretch 3's operations write. -/
abbrev wr3 : List (Ref sig .tc) := [main_v69, main_v70, main_v71, main_v72, main_v73, main_v74, main_v75, main_v76]

theorem hW3 : (hostOps3 : List (HloOp τ sig (Elt F))).Forall fun op => op.writes ⊆ (wr3.map (Proc.devRef (τ := τ) .tc)).toFinset :=
  ⟨sub_of_mem (y := main_v69) (by decide),
   sub_of_mem (y := main_v70) (by decide),
   sub_of_mem (y := main_v71) (by decide),
   sub_of_mem (y := main_v72) (by decide),
   sub_of_mem (y := main_v73) (by decide),
   sub_of_mem (y := main_v74) (by decide),
   sub_of_mem (y := main_v75) (by decide),
   sub_of_mem (y := main_v76) (by decide)⟩

/-- A buffer stretch 3 does not write keeps its contents through it. -/
theorem keep3 (V : Valuation τ sig (Elt F)) (r : Ref sig .tc) (hr : r ∉ wr3) :
    StableHlo.after hostOps3 V (Proc.devRef .tc r) = V (Proc.devRef .tc r) :=
  StableHlo.after_of_writes_sub hostOps3 V hW3 hr

/-- The references stretch 4's operations write. -/
abbrev wr4 : List (Ref sig .tc) := [main_c_8, main_v78, main_v79, main_c_9, main_v80, main_v81, main_v82, main_v83, main_v84, main_c_10, main_v85, main_v86, main_c_11, main_v87, main_v88, main_v89, main_v90, main_v91, main_c_12, main_v92, main_v93, main_c_13, main_v94, main_v95, main_v96, main_v97, main_v98]

theorem hW4 : (hostOps4 : List (HloOp τ sig (Elt F))).Forall fun op => op.writes ⊆ (wr4.map (Proc.devRef (τ := τ) .tc)).toFinset :=
  ⟨sub_of_mem (y := main_c_8) (by decide),
   sub_of_mem (y := main_v78) (by decide),
   sub_of_mem (y := main_v79) (by decide),
   sub_of_mem (y := main_c_9) (by decide),
   sub_of_mem (y := main_v80) (by decide),
   sub_of_mem (y := main_v81) (by decide),
   sub_of_mem (y := main_v82) (by decide),
   sub_of_mem (y := main_v83) (by decide),
   sub_of_mem (y := main_v84) (by decide),
   sub_of_mem (y := main_c_10) (by decide),
   sub_of_mem (y := main_v85) (by decide),
   sub_of_mem (y := main_v86) (by decide),
   sub_of_mem (y := main_c_11) (by decide),
   sub_of_mem (y := main_v87) (by decide),
   sub_of_mem (y := main_v88) (by decide),
   sub_of_mem (y := main_v89) (by decide),
   sub_of_mem (y := main_v90) (by decide),
   sub_of_mem (y := main_v91) (by decide),
   sub_of_mem (y := main_c_12) (by decide),
   sub_of_mem (y := main_v92) (by decide),
   sub_of_mem (y := main_v93) (by decide),
   sub_of_mem (y := main_c_13) (by decide),
   sub_of_mem (y := main_v94) (by decide),
   sub_of_mem (y := main_v95) (by decide),
   sub_of_mem (y := main_v96) (by decide),
   sub_of_mem (y := main_v97) (by decide),
   sub_of_mem (y := main_v98) (by decide)⟩

/-- A buffer stretch 4 does not write keeps its contents through it. -/
theorem keep4 (V : Valuation τ sig (Elt F)) (r : Ref sig .tc) (hr : r ∉ wr4) :
    StableHlo.after hostOps4 V (Proc.devRef .tc r) = V (Proc.devRef .tc r) :=
  StableHlo.after_of_writes_sub hostOps4 V hW4 hr

/-- The references stretch 5's operations write. -/
abbrev wr5 : List (Ref sig .tc) := [main_cst_14, main_v100, main_v101, main_v102, main_cst_15, main_v103, main_v104, main_v105, main_v106, main_v107, main_v108, main_v109, main_v110, main_v111, main_v112, main_v113, main_v114, main_v115, main_v116, main_v117, main_v118, main_v119, main_v120, main_v121, main_v122, main_v123, main_v124, main_v125]

theorem hW5 : (hostOps5 : List (HloOp τ sig (Elt F))).Forall fun op => op.writes ⊆ (wr5.map (Proc.devRef (τ := τ) .tc)).toFinset :=
  ⟨sub_of_mem (y := main_cst_14) (by decide),
   sub_of_mem (y := main_v100) (by decide),
   sub_of_mem (y := main_v101) (by decide),
   sub_of_mem (y := main_v102) (by decide),
   sub_of_mem (y := main_cst_15) (by decide),
   sub_of_mem (y := main_v103) (by decide),
   sub_of_mem (y := main_v104) (by decide),
   sub_of_mem (y := main_v105) (by decide),
   sub_of_mem (y := main_v106) (by decide),
   sub_of_mem (y := main_v107) (by decide),
   sub_of_mem (y := main_v108) (by decide),
   sub_of_mem (y := main_v109) (by decide),
   sub_of_mem (y := main_v110) (by decide),
   sub_of_mem (y := main_v111) (by decide),
   sub_of_mem (y := main_v112) (by decide),
   sub_of_mem (y := main_v113) (by decide),
   sub_of_mem (y := main_v114) (by decide),
   sub_of_mem (y := main_v115) (by decide),
   sub_of_mem (y := main_v116) (by decide),
   sub_of_mem (y := main_v117) (by decide),
   sub_of_mem (y := main_v118) (by decide),
   sub_of_mem (y := main_v119) (by decide),
   sub_of_mem (y := main_v120) (by decide),
   sub_of_mem (y := main_v121) (by decide),
   sub_of_mem (y := main_v122) (by decide),
   sub_of_mem (y := main_v123) (by decide),
   sub_of_mem (y := main_v124) (by decide),
   sub_of_mem (y := main_v125) (by decide)⟩

/-- A buffer stretch 5 does not write keeps its contents through it. -/
theorem keep5 (V : Valuation τ sig (Elt F)) (r : Ref sig .tc) (hr : r ∉ wr5) :
    StableHlo.after hostOps5 V (Proc.devRef .tc r) = V (Proc.devRef .tc r) :=
  StableHlo.after_of_writes_sub hostOps5 V hW5 hr

variable (m : (ℓ : Loc nD τ sig) → Buf (Elt F) ℓ) (ρ : Dev nD → PrngReg)

/-- The nineteen argument arrays. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-- Splits membership among the arguments into the nineteen cases. -/
macro "arg_cases" hb:ident : tactic =>
  `(tactic| (simp only [args, List.mem_cons, List.not_mem_nil, or_false] at $hb:ident
             rcases $hb:ident with h | h | h | h | h | h | h | h | h | h | h | h | h | h | h | h | h | h | h <;> subst h))

theorem W1_arg (c : Dev nD) (b : Ref sig .tc) (hb : b ∈ args) : W1 m ρ c (Proc.devRef .tc b) = m ((c : Thread nD τ).loc b) := by
  arg_cases hb <;> exact (keep0 (W0 m ρ c) _ (by decide)).trans rfl

theorem W2_arg (c : Dev nD) (b : Ref sig .tc) (hb : b ∈ args) : W2 m ρ c (Proc.devRef .tc b) = m ((c : Thread nD τ).loc b) := by
  refine Eq.trans ?_ (W1_arg m ρ c b hb)
  arg_cases hb
  · exact (W2_arr m ρ c 0).trans (((dat0 (V1 m ρ) c).arrAt_in 0 rfl _).trans (A_eq0 (V1 m ρ) c 0))
  all_goals (refine W2_of_ne m ρ c _ ?_; decide)

theorem W3_arg (c : Dev nD) (b : Ref sig .tc) (hb : b ∈ args) : W3 m ρ c (Proc.devRef .tc b) = m ((c : Thread nD τ).loc b) := by
  refine Eq.trans ?_ (W2_arg m ρ c b hb)
  arg_cases hb <;> exact keep1 (W2 m ρ c) _ (by decide)

theorem W4_arg (c : Dev nD) (b : Ref sig .tc) (hb : b ∈ args) : W4 m ρ c (Proc.devRef .tc b) = m ((c : Thread nD τ).loc b) := by
  refine Eq.trans ?_ (W3_arg m ρ c b hb)
  arg_cases hb
  all_goals (refine W4_of_ne m ρ c _ ?_; decide)

theorem W5_arg (c : Dev nD) (b : Ref sig .tc) (hb : b ∈ args) : W5 m ρ c (Proc.devRef .tc b) = m ((c : Thread nD τ).loc b) := by
  refine Eq.trans ?_ (W4_arg m ρ c b hb)
  arg_cases hb <;> exact keep2 (W4 m ρ c) _ (by decide)

theorem W6_arg (c : Dev nD) (b : Ref sig .tc) (hb : b ∈ args) : W6 m ρ c (Proc.devRef .tc b) = m ((c : Thread nD τ).loc b) := by
  refine Eq.trans ?_ (W5_arg m ρ c b hb)
  arg_cases hb
  · exact (W6_arr m ρ c 0).trans (((dat2 (V5 m ρ) c).arrAt_in 0 rfl _).trans (A_eq2 (V5 m ρ) c 0))
  all_goals (refine W6_of_ne m ρ c _ ?_; decide)

theorem W7_arg (c : Dev nD) (b : Ref sig .tc) (hb : b ∈ args) : W7 m ρ c (Proc.devRef .tc b) = m ((c : Thread nD τ).loc b) := by
  refine Eq.trans ?_ (W6_arg m ρ c b hb)
  arg_cases hb <;> exact keep3 (W6 m ρ c) _ (by decide)

theorem W8_arg (c : Dev nD) (b : Ref sig .tc) (hb : b ∈ args) : W8 m ρ c (Proc.devRef .tc b) = m ((c : Thread nD τ).loc b) := by
  refine Eq.trans ?_ (W7_arg m ρ c b hb)
  arg_cases hb
  all_goals (refine W8_of_ne m ρ c _ ?_; decide)

theorem W9_arg (c : Dev nD) (b : Ref sig .tc) (hb : b ∈ args) : W9 m ρ c (Proc.devRef .tc b) = m ((c : Thread nD τ).loc b) := by
  refine Eq.trans ?_ (W8_arg m ρ c b hb)
  arg_cases hb <;> exact keep4 (W8 m ρ c) _ (by decide)

theorem W10_arg (c : Dev nD) (b : Ref sig .tc) (hb : b ∈ args) : W10 m ρ c (Proc.devRef .tc b) = m ((c : Thread nD τ).loc b) := by
  refine Eq.trans ?_ (W9_arg m ρ c b hb)
  arg_cases hb
  all_goals (refine W10_of_ne m ρ c _ ?_; decide)

/-! ## The relation rows and the first layer's result persist -/

/-- The relation rows as the second region finds them are those the first stretch built. -/
theorem W3_v10 (c : Dev nD) : W3 m ρ c (Proc.devRef .tc main_v10) = W1 m ρ c (Proc.devRef .tc main_v10) :=
  (keep1 (W2 m ρ c) main_v10 (by decide)).trans (W2_of_ne m ρ c main_v10 (by decide))

/-- The relation rows as the fifth region finds them are those the first stretch built. -/
theorem W9_v10 (c : Dev nD) : W9 m ρ c (Proc.devRef .tc main_v10) = W1 m ρ c (Proc.devRef .tc main_v10) := by
  have h9 : W9 m ρ c (Proc.devRef .tc main_v10) = W8 m ρ c (Proc.devRef .tc main_v10) := keep4 (W8 m ρ c) main_v10 (by decide)
  have h8 : W8 m ρ c (Proc.devRef .tc main_v10) = W7 m ρ c (Proc.devRef .tc main_v10) := W8_of_ne m ρ c main_v10 (by decide)
  have h7 : W7 m ρ c (Proc.devRef .tc main_v10) = W6 m ρ c (Proc.devRef .tc main_v10) := keep3 (W6 m ρ c) main_v10 (by decide)
  have h6 : W6 m ρ c (Proc.devRef .tc main_v10) = W5 m ρ c (Proc.devRef .tc main_v10) := W6_of_ne m ρ c main_v10 (by decide)
  have h5 : W5 m ρ c (Proc.devRef .tc main_v10) = W4 m ρ c (Proc.devRef .tc main_v10) := keep2 (W4 m ρ c) main_v10 (by decide)
  have h4 : W4 m ρ c (Proc.devRef .tc main_v10) = W3 m ρ c (Proc.devRef .tc main_v10) :=
    (W4_arr m ρ c 3).trans (((dat1 (V3 m ρ) c).arrAt_in 3 rfl _).trans (A_eq1 (V3 m ρ) c 3))
  exact h9.trans (h8.trans (h7.trans (h6.trans (h5.trans (h4.trans (W3_v10 m ρ c))))))

/-- The first layer's result as the fourth region finds it. -/
theorem W7_v68 (c : Dev nD) : W7 m ρ c (Proc.devRef .tc main_v68) = W6 m ρ c (Proc.devRef .tc main_v68) :=
  keep3 (W6 m ρ c) main_v68 (by decide)

/-- The first layer's result as the sixth region finds it. -/
theorem W11_v68 (c : Dev nD) : W11 m ρ c (Proc.devRef .tc main_v68) = W6 m ρ c (Proc.devRef .tc main_v68) := by
  have h11 : W11 m ρ c (Proc.devRef .tc main_v68) = W10 m ρ c (Proc.devRef .tc main_v68) := keep5 (W10 m ρ c) main_v68 (by decide)
  have h10 : W10 m ρ c (Proc.devRef .tc main_v68) = W9 m ρ c (Proc.devRef .tc main_v68) := W10_of_ne m ρ c main_v68 (by decide)
  have h9 : W9 m ρ c (Proc.devRef .tc main_v68) = W8 m ρ c (Proc.devRef .tc main_v68) := keep4 (W8 m ρ c) main_v68 (by decide)
  have h8 : W8 m ρ c (Proc.devRef .tc main_v68) = W7 m ρ c (Proc.devRef .tc main_v68) :=
    (W8_arr m ρ c 0).trans (((dat3 (V7 m ρ) c).arrAt_in 0 rfl _).trans (A_eq3 (V7 m ρ) c 0))
  exact h11.trans (h10.trans (h9.trans (h8.trans (W7_v68 m ρ c))))

end Cert.KernelIdeal.KFold

end
-- ==== Proof.Spec.lean ====
/-
  The mathematics of one graph-attention layer, stage by stage, over the extended reals.

  Arrays are functions on the index sets of literal shapes.  A layer takes node features x : [20000, 256], one set of
  weights, a relation table [100, 32] and four index columns [640000, 1] (relation, source, destination as a gather
  reads them; destination as a scatter reads it).  Its stages:
    * three linear maps of x (the query map has a bias);
    * row gathers: an edge reads the key and value rows of its source node, the query row of its destination node
      (a gather reads a start index signed and clamps it into the table), and its relation's row, repeated over the
      eight heads of width 32;
    * per edge and head, the score  Σ_d (k + r)·q  over the head's 32 lanes, divided by a constant, clamped to
      [-10, 10] and exponentiated; the message (v + r)·s, the head's weight repeated over its lanes;
    * per node, the sums of the messages and of the weights of the edges that land on it (a scatter reads its index
      signed and drops an edge that lands outside), and their quotient, the weight sum bounded below by a constant;
    * a linear map of that with a bias, added to x; a normalisation over the 256 columns (mean, mean of squared
      deviations, inverse square root with an additive constant, scale and shift); a two-layer perceptron with a
      rectifier, added on; a second normalisation.
  Constants are kept as their 32-bit patterns; the same pattern is never evaluated.
-/
import Idealize.ShloMosaic.PureOps.Ideal
import Idealize.ShloMosaic.Lib.ValueIdx

noncomputable section

open scoped BigOperators

namespace Cert.Spec

open Idealize.ShloMosaic Idealize.ShloMosaic.ValueIdx

/-- A two-axis array of extended reals. -/
abbrev Arr2 (a b : Nat) := (⟨2, ![a, b]⟩ : Shape).Idx → EReal
/-- A one-axis array of extended reals. -/
abbrev Arr1 (a : Nat) := (⟨1, ![a]⟩ : Shape).Idx → EReal
/-- A column of 640000 index words. -/
abbrev IdxCol := (⟨2, ![640000, 1]⟩ : Shape).Idx → BitVec 32

/-- The first coordinate of a two-axis index. -/
def r0 {a b : Nat} (i : (⟨2, ![a, b]⟩ : Shape).Idx) : Fin a := ⟨(i 0).val, idx2_lt0 i⟩
/-- The second coordinate of a two-axis index. -/
def r1 {a b : Nat} (i : (⟨2, ![a, b]⟩ : Shape).Idx) : Fin b := ⟨(i 1).val, idx2_lt1 i⟩
@[simp] theorem r0_ix2 {a b : Nat} (p : Fin a) (q : Fin b) : r0 (ix2 p q) = p := rfl
@[simp] theorem r1_ix2 {a b : Nat} (p : Fin a) (q : Fin b) : r1 (ix2 p q) = q := rfl
theorem ix2_r {a b : Nat} (i : (⟨2, ![a, b]⟩ : Shape).Idx) : ix2 (r0 i) (r1 i) = i := (eq_ix2 i).symm

/-- The head of a column: column 32·h + d belongs to head h. -/
def hd (j : Fin 256) : Fin 8 := ⟨j.val / 32, by omega⟩
/-- The lane of a column inside its head. -/
def lane (j : Fin 256) : Fin 32 := ⟨j.val % 32, Nat.mod_lt _ (by omega)⟩
/-- Column 32·h + d. -/
def col (h : Fin 8) (d : Fin 32) : Fin 256 := ⟨32 * h.val + d.val, by omega⟩
@[simp] theorem hd_col (h : Fin 8) (d : Fin 32) : hd (col h d) = h := Fin.ext (by simp only [hd, col]; omega)
@[simp] theorem lane_col (h : Fin 8) (d : Fin 32) : lane (col h d) = d := Fin.ext (by simp only [lane, col]; omega)
theorem col_hd_lane (j : Fin 256) : col (hd j) (lane j) = j := Fin.ext (by simp only [hd, lane, col]; omega)

/-- The row of a table of N rows that edge e's gather reads: the index word read signed, clamped into [0, N − 1]. -/
def row (N : Nat) (hN : 0 < N) (I : IdxCol) (e : Fin 640000) : Fin N :=
  ⟨min (I (ix2 e (0 : Fin 1))).toInt.toNat (N - 1), by omega⟩

/-- Edge e's scatter lands on node n: the index word read signed IS n (an edge whose word is outside lands nowhere). -/
def lands (I : IdxCol) (e : Fin 640000) (n : Fin 20000) : Prop := (I (ix2 e (0 : Fin 1))).toInt = (n.val : Int)

instance (I : IdxCol) (e : Fin 640000) (n : Fin 20000) : Decidable (lands I e n) := by unfold lands; infer_instance

/-- One layer's weights. -/
structure Params where
  Wq : Arr2 256 256
  Wk : Arr2 256 256
  Wv : Arr2 256 256
  Wo : Arr2 256 256
  bq : Arr1 256
  bo : Arr1 256
  g1 : Arr1 256
  b1 : Arr1 256
  W1 : Arr2 256 1024
  c1 : Arr1 1024
  W2 : Arr2 1024 256
  c2 : Arr1 256
  g2 : Arr1 256
  b2 : Arr1 256

/-- The relation table and the four index columns. -/
structure Graph where
  rel : Arr2 100 32
  relI : IdxCol
  srcI : IdxCol
  dstI : IdxCol
  dstS : IdxCol

/-! ## The stages -/

/-- x · W, entry (n, j): Σ_k x[n, k] · W[k, j]. -/
def linArr {K M : Nat} (x : Arr2 20000 K) (W : Arr2 K M) : Arr2 20000 M :=
  fun i => ∑ k : Fin K, x (ix2 (r0 i) k) * W (ix2 k (r1 i))

/-- x · W + b. -/
def linBiasArr {K M : Nat} (x : Arr2 20000 K) (W : Arr2 K M) (b : Arr1 M) : Arr2 20000 M :=
  fun i => linArr x W i + b (ix1 (r1 i))

/-- The rows of a node table that the edges read. -/
def gathRows (A : Arr2 20000 256) (I : IdxCol) : Arr2 640000 256 :=
  fun i => A (ix2 (row 20000 (by omega) I (r0 i)) (r1 i))

/-- Each edge's relation row, repeated over the eight heads. -/
def relRows (rel : Arr2 100 32) (I : IdxCol) : Arr2 640000 256 :=
  fun i => rel (ix2 (row 100 (by omega) I (r0 i)) (lane (r1 i)))

/-- The weight of edge e in head h: exp of the clamped scaled score. -/
def sAt (ks qd eh : Arr2 640000 256) (e : Fin 640000) (h : Fin 8) : EReal :=
  Ideal.exp (min (Ideal.ofBits .f32 0x41200000#32) (max (Ideal.ofBits .f32 0xC1200000#32)
    (Ideal.div (∑ d : Fin 32, (ks (ix2 e (col h d)) + eh (ix2 e (col h d))) * qd (ix2 e (col h d)))
      (Ideal.ofBits .f32 0x40B504F3#32))))

/-- The edge weights as an array [640000, 8]. -/
def sArr (ks qd eh : Arr2 640000 256) : Arr2 640000 8 := fun i => sAt ks qd eh (r0 i) (r1 i)

/-- The edge messages as an array [640000, 256]. -/
def msgArr (ks vs qd eh : Arr2 640000 256) : Arr2 640000 256 :=
  fun i => (vs i + eh i) * sAt ks qd eh (r0 i) (hd (r1 i))

/-- Per node, the sum over the edges that land on it. -/
def scat {C : Nat} (U : Arr2 640000 C) (I : IdxCol) : Arr2 20000 C :=
  fun i => ∑ e ∈ Finset.univ.filter (fun e : Fin 640000 => lands I e (r0 i)), U (ix2 e (r1 i))

/-- The aggregated message over the aggregated weight of its head, the weight bounded below. -/
def oOf (wv : Arr2 20000 256) (z : Arr2 20000 8) : Arr2 20000 256 :=
  fun i => Ideal.div (wv i) (max (z (ix2 (r0 i) (hd (r1 i)))) (Ideal.ofBits .f32 0x322BCC77#32))

/-- The normalisation of a row a over its 256 columns, at column j. -/
def norm (a : Fin 256 → EReal) (g b : Arr1 256) (j : Fin 256) : EReal :=
  ((a j - Ideal.div (∑ t : Fin 256, a t) (Ideal.ofBits .f32 0x43800000#32))
      * Ideal.rsqrt (Ideal.div (∑ t : Fin 256,
            (a t - Ideal.div (∑ t : Fin 256, a t) (Ideal.ofBits .f32 0x43800000#32))
              * (a t - Ideal.div (∑ t : Fin 256, a t) (Ideal.ofBits .f32 0x43800000#32)))
          (Ideal.ofBits .f32 0x43800000#32) + Ideal.ofBits .f32 0x3727C5AC#32))
    * g (ix1 j) + b (ix1 j)

/-- x + (o · Wo + bo), row n. -/
def hpre (x o : Arr2 20000 256) (P : Params) (n : Fin 20000) (j : Fin 256) : EReal :=
  x (ix2 n j) + ((∑ k : Fin 256, o (ix2 n k) * P.Wo (ix2 k j)) + P.bo (ix1 j))

/-- The first normalisation. -/
def h1 (x o : Arr2 20000 256) (P : Params) (n : Fin 20000) (j : Fin 256) : EReal :=
  norm (hpre x o P n) P.g1 P.b1 j

/-- The rectified hidden layer of the perceptron. -/
def up (x o : Arr2 20000 256) (P : Params) (n : Fin 20000) (t : Fin 1024) : EReal :=
  max ((∑ k : Fin 256, h1 x o P n k * P.W1 (ix2 k t)) + P.c1 (ix1 t)) 0

/-- h + (up · W2 + c2), row n. -/
def ypre (x o : Arr2 20000 256) (P : Params) (n : Fin 20000) (j : Fin 256) : EReal :=
  h1 x o P n j + ((∑ t : Fin 1024, up x o P n t * P.W2 (ix2 t j)) + P.c2 (ix1 j))

/-- Everything after the attention quotient o: projection and residual, normalisation, perceptron and residual,
    normalisation. -/
def postO (x o : Arr2 20000 256) (P : Params) : Arr2 20000 256 :=
  fun i => norm (ypre x o P (r0 i)) P.g2 P.b2 (r1 i)

/-- The same from the aggregated messages and weights. -/
def postArr (x wv : Arr2 20000 256) (z : Arr2 20000 8) (P : Params) : Arr2 20000 256 := postO x (oOf wv z) P

/-- ONE LAYER. -/
def layer (x : Arr2 20000 256) (P : Params) (G : Graph) : Arr2 20000 256 :=
  postArr x
    (scat (msgArr (gathRows (linArr x P.Wk) G.srcI) (gathRows (linArr x P.Wv) G.srcI)
      (gathRows (linBiasArr x P.Wq P.bq) G.dstI) (relRows G.rel G.relI)) G.dstS)
    (scat (sArr (gathRows (linArr x P.Wk) G.srcI) (gathRows (linBiasArr x P.Wq P.bq) G.dstI)
      (relRows G.rel G.relI)) G.dstS)
    P

end Cert.Spec

end
-- ==== Proof.KDefs.lean ====
/-
  The kernel program's pieces as functions of its argument arrays: the index columns the gathers and the scatters
  read, and each layer's weights as slices of the stacked weight arrays.
-/
import proofs.«175432_j21457656611019_1_alg».proof.Proof.Gen.KernelIdeal.Frame
import Idealize.ShloMosaic.PureOps.Ideal
import proofs.«175432_j21457656611019_1_alg».proof.Proof.Spec

noncomputable section

namespace Cert.KernelIdeal.KDefs

open Idealize.ShloMosaic Idealize.ShloMosaic.TcCoe Idealize.SL.Sem
open Cert.KernelIdeal Cert.KernelIdeal.Gen

/-- A gather's start-index column from an index array: a negative word wrapped by the table's length `N`, the array
    as a column. -/
def normCol (N : BitVec 32) (a : IVec S640000 32) : IVec S640000x1 32 :=
  broadcastInDim S640000x1 ![0] bcast_S640000_S640000x1_0
    (select (cmpi CmpIPredicate.slt a (broadcastInDim S640000 ![] bcast_S_S640000 (constantI S_ 32 0#32)))
      (addi a (broadcastInDim S640000 ![] bcast_S_S640000 (constantI S_ 32 N))) a)

/-- A scatter's index column: the index array as a column, as it is. -/
def rawCol (a : IVec S640000 32) : IVec S640000x1 32 := broadcastInDim S640000x1 ![0] bcast_S640000_S640000x1_0 a

/-- Layer 0's [256, 256] slice of a stacked weight array. -/
def m0 (a : FVec Ideal S2x256x256 .f32) : FVec Ideal S256x256 .f32 :=
  shapeCast S256x256 (extractStridedSlice S1x256x256 ![0, 0, 0] a slices_S2x256x256_S1x256x256_0_0_0) shapeCasts_S1x256x256_S256x256
/-- Layer 1's. -/
def m1 (a : FVec Ideal S2x256x256 .f32) : FVec Ideal S256x256 .f32 :=
  shapeCast S256x256 (extractStridedSlice S1x256x256 ![1, 0, 0] a slices_S2x256x256_S1x256x256_1_0_0) shapeCasts_S1x256x256_S256x256
/-- Layer 0's [256] slice of a stacked vector array. -/
def v0 (a : FVec Ideal S2x256 .f32) : FVec Ideal S256 .f32 :=
  shapeCast S256 (extractStridedSlice S1x256 ![0, 0] a slices_S2x256_S1x256_0_0) shapeCasts_S1x256_S256
/-- Layer 1's. -/
def v1 (a : FVec Ideal S2x256 .f32) : FVec Ideal S256 .f32 :=
  shapeCast S256 (extractStridedSlice S1x256 ![1, 0] a slices_S2x256_S1x256_1_0) shapeCasts_S1x256_S256
/-- Layer 0's [256, 1024] slice. -/
def u0 (a : FVec Ideal S2x256x1024 .f32) : FVec Ideal S256x1024 .f32 :=
  shapeCast S256x1024 (extractStridedSlice S1x256x1024 ![0, 0, 0] a slices_S2x256x1024_S1x256x1024_0_0_0) shapeCasts_S1x256x1024_S256x1024
/-- Layer 1's. -/
def u1 (a : FVec Ideal S2x256x1024 .f32) : FVec Ideal S256x1024 .f32 :=
  shapeCast S256x1024 (extractStridedSlice S1x256x1024 ![1, 0, 0] a slices_S2x256x1024_S1x256x1024_1_0_0) shapeCasts_S1x256x1024_S256x1024
/-- Layer 0's [1024] slice. -/
def w0 (a : FVec Ideal S2x1024 .f32) : FVec Ideal S1024 .f32 :=
  shapeCast S1024 (extractStridedSlice S1x1024 ![0, 0] a slices_S2x1024_S1x1024_0_0) shapeCasts_S1x1024_S1024
/-- Layer 1's. -/
def w1 (a : FVec Ideal S2x1024 .f32) : FVec Ideal S1024 .f32 :=
  shapeCast S1024 (extractStridedSlice S1x1024 ![1, 0] a slices_S2x1024_S1x1024_1_0) shapeCasts_S1x1024_S1024
/-- Layer 0's [1024, 256] slice. -/
def d0 (a : FVec Ideal S2x1024x256 .f32) : FVec Ideal S1024x256 .f32 :=
  shapeCast S1024x256 (extractStridedSlice S1x1024x256 ![0, 0, 0] a slices_S2x1024x256_S1x1024x256_0_0_0) shapeCasts_S1x1024x256_S1024x256
/-- Layer 1's. -/
def d1 (a : FVec Ideal S2x1024x256 .f32) : FVec Ideal S1024x256 .f32 :=
  shapeCast S1024x256 (extractStridedSlice S1x1024x256 ![1, 0, 0] a slices_S2x1024x256_S1x1024x256_1_0_0) shapeCasts_S1x1024x256_S1024x256

variable (m : (ℓ : Loc nD τ sig) → Buf (Elt Ideal) ℓ)

/-- Argument array `b` on core `c` as launched. -/
abbrev A (c : Dev nD) (b : Ref sig .tc) : Buf (Elt Ideal) ((c : Thread nD τ).loc b) := m ((c : Thread nD τ).loc b)

/-- The relation table and the index columns. -/
def G (c : Dev nD) : Cert.Spec.Graph where
  rel := A m c main_arg1
  relI := normCol 100#32 (A m c main_arg16)
  srcI := normCol 20000#32 (A m c main_arg17)
  dstI := normCol 20000#32 (A m c main_arg18)
  dstS := rawCol (A m c main_arg18)

/-- Layer 0's weights. -/
def P0 (c : Dev nD) : Cert.Spec.Params where
  Wq := m0 (A m c main_arg2)
  bq := v0 (A m c main_arg3)
  Wk := m0 (A m c main_arg4)
  Wv := m0 (A m c main_arg5)
  Wo := m0 (A m c main_arg6)
  bo := v0 (A m c main_arg7)
  g1 := v0 (A m c main_arg8)
  b1 := v0 (A m c main_arg9)
  W1 := u0 (A m c main_arg10)
  c1 := w0 (A m c main_arg11)
  W2 := d0 (A m c main_arg12)
  c2 := v0 (A m c main_arg13)
  g2 := v0 (A m c main_arg14)
  b2 := v0 (A m c main_arg15)

/-- Layer 1's weights. -/
def P1 (c : Dev nD) : Cert.Spec.Params where
  Wq := m1 (A m c main_arg2)
  bq := v1 (A m c main_arg3)
  Wk := m1 (A m c main_arg4)
  Wv := m1 (A m c main_arg5)
  Wo := m1 (A m c main_arg6)
  bo := v1 (A m c main_arg7)
  g1 := v1 (A m c main_arg8)
  b1 := v1 (A m c main_arg9)
  W1 := u1 (A m c main_arg10)
  c1 := w1 (A m c main_arg11)
  W2 := d1 (A m c main_arg12)
  c2 := v1 (A m c main_arg13)
  g2 := v1 (A m c main_arg14)
  b2 := v1 (A m c main_arg15)

end Cert.KernelIdeal.KDefs

end
-- ==== Proof.LibGatherRows.lean ====
/-
  A row gather read at an index.

  `x[idx]` of a matrix `x : [N, C]` at a vector of row numbers lowers to a gather whose start indices are the
  column `idx : [E, 1]`, with the row axis collapsed, the column axis the one offset axis, and slices of one whole
  row.  Result element `(e, c)` is `x` at row `idx[e, 0]` — read as a signed integer and clamped into
  `[0, N − 1]`, as the gather clamps every start index — and column `c`.
-/
import Idealize.ShloMosaic.PureOps.ShapeOps
import Idealize.ShloMosaic.Lib.ValueIdx

noncomputable section

namespace Idealize.ShloMosaic.GatherRows

open Idealize.ShloMosaic Idealize.ShloMosaic.ValueIdx

variable {α : Type}

/-- The dimension numbers of a row gather for an operand `[N, C]`, start indices `[E, 1]` and result `[E, C]`;
    their conditions `wf` are decided on a program's literal shapes. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at the row `idx[e, 0]`, read signed and clamped into
    `[0, N − 1]`, and the column `c`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N C E wf) x idx (ix2 e c)
      = x (ix2 ⟨min (idx (ix2 e (0 : Fin 1))).toInt.toNat (N - 1), by omega⟩ c) := by
  have h0 : ((rowsDims N C E wf).operandIdx (ix2 e c) idx (0 : Fin 2)).val
      = min (idx (ix2 e (0 : Fin 1))).toInt.toNat (N - 1) := by
    show (rowsDims N C E wf).start (ix2 e c) idx (0 : Fin 2) + (rowsDims N C E wf).batchCoord (ix2 e c) (0 : Fin 2)
        + (rowsDims N C E wf).offCoord (ix2 e c) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowsDims N C E wf).startIndexMap from List.mem_singleton.mpr rfl)]
    have hsi : (rowsDims N C E wf).siIdx (ix2 e c) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : ((rowsDims N C E wf).operandIdx (ix2 e c) idx (1 : Fin 2)).val = c.val := by
    show (rowsDims N C E wf).start (ix2 e c) idx (1 : Fin 2) + (rowsDims N C E wf).batchCoord (ix2 e c) (1 : Fin 2)
        + (rowsDims N C E wf).offCoord (ix2 e c) (1 : Fin 2) = _
    have hs : (rowsDims N C E wf).start (ix2 e c) idx (1 : Fin 2) = 0 := by
      unfold GatherDims.start
      rw [dif_neg (show ¬ (1 : Fin 2) ∈ ([0] : List (Fin 2)) by decide)]
    have hk : (1 : Fin 2) ∈ (rowsDims N C E wf).sKept :=
      (GatherDims.mem_sKept _ _).mpr ⟨(show ¬ (1 : Fin 2) ∈ ([0] : List (Fin 2)) by decide), List.not_mem_nil⟩
    rw [hs, GatherDims.batchCoord_eq_zero _ _ _ List.not_mem_nil, Nat.add_zero, Nat.zero_add]
    unfold GatherDims.offCoord
    rw [dif_pos hk]
    rfl
  unfold Host.gather
  congr 1
  funext a
  refine Fin.ext ?_
  match a with
  | ⟨0, _⟩ => exact h0
  | ⟨1, _⟩ => exact h1

end Idealize.ShloMosaic.GatherRows

end
-- ==== Proof.LibScatterRows.lean ====
/-
  An accumulating row scatter read at an index.

  `segment_sum` of updates `u : [E, C]` into an operand `x : [N, C]` at a column of row numbers `idx : [E, 1]` lowers
  to a scatter whose one scattered axis is the row axis (inserted, named by the index vector's one component) and
  whose column axis is the one window axis.  Update element `(e, c)` lands on operand element `(n, c')` exactly when
  the index word of `e`, read as a signed integer and not clamped, is `n`, and `c = c'`; an update whose word is
  outside `[0, N)` lands nowhere.  At the exact-real instance the result at `(n, c)` is therefore the operand's
  entry plus the sum, over the edges `e` whose word is `n`, of `u[e, c]`.
-/
import Idealize.ShloMosaic.PureOps.Ideal
import Idealize.ShloMosaic.PureOps.Contract
import Idealize.ShloMosaic.Lib.ValueIdx

noncomputable section

open scoped BigOperators

namespace Idealize.ShloMosaic.ScatterRows

open Idealize.ShloMosaic Idealize.ShloMosaic.ValueIdx

/-- The dimension numbers of a row scatter for an operand `[N, C]`, scatter indices `[E, 1]` and updates `[E, C]`;
    their conditions `wf` are decided on a program's literal shapes. -/
abbrev rowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)

/-- On the row axis the window of update `(e, c)` starts at the index word of `e`, read signed. -/
theorem start_row (idx : IVec ⟨2, ![E, 1]⟩ w) (e : Fin E) (c : Fin C) :
    (rowsDims N C E wf).start (ix2 e c) idx (0 : Fin 2) = (idx (ix2 e (0 : Fin 1))).toInt := by
  unfold ScatterDims.start
  rw [dif_pos (show (0 : Fin 2) ∈ (rowsDims N C E wf).scatterDimsToOperandDims from List.mem_singleton.mpr rfl)]
  have hsi : (rowsDims N C E wf).siIdx (ix2 e c) ⟨List.idxOf (0 : Fin 2) (rowsDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero. -/
theorem start_col (idx : IVec ⟨2, ![E, 1]⟩ w) (e : Fin E) (c : Fin C) :
    (rowsDims N C E wf).start (ix2 e c) idx (1 : Fin 2) = 0 := by
  unfold ScatterDims.start
  rw [dif_neg (show ¬ (1 : Fin 2) ∈ ([0] : List (Fin 2)) by decide)]

/-- The row axis is inserted: no window coordinate. -/
theorem window_row (e : Fin E) (c : Fin C) : (rowsDims N C E wf).window (ix2 e c) (0 : Fin 2) = 0 := by
  unfold ScatterDims.window
  rw [dif_neg (show ¬ (0 : Fin 2) ∈ (rowsDims N C E wf).sKept from (show ¬ (0 : Fin 2) ∈ ([1] : List (Fin 2)) by decide))]

/-- The column axis is the window axis: the update's own column. -/
theorem window_col (e : Fin E) (c : Fin C) : (rowsDims N C E wf).window (ix2 e c) (1 : Fin 2) = c.val := by
  unfold ScatterDims.window
  rw [dif_pos (show (1 : Fin 2) ∈ (rowsDims N C E wf).sKept from (show (1 : Fin 2) ∈ ([1] : List (Fin 2)) by decide))]
  rfl

/-- WHERE AN UPDATE LANDS: update `(e, c)` lands on `(n, c')` exactly when the index word of `e`, read signed, is
    `n`, and `c = c'`. -/
theorem resultIdx?_eq_some_iff (idx : IVec ⟨2, ![E, 1]⟩ w) (e : Fin E) (c c' : Fin C) (n : Fin N) :
    (rowsDims N C E wf).resultIdx? (ix2 e c) idx = some (ix2 n c')
      ↔ (idx (ix2 e (0 : Fin 1))).toInt = (n.val : Int) ∧ c = c' := by
  unfold ScatterDims.resultIdx?
  by_cases h : ∀ a, 0 ≤ (rowsDims N C E wf).start (ix2 e c) idx a + (rowsDims N C E wf).window (ix2 e c) a
      ∧ (rowsDims N C E wf).start (ix2 e c) idx a + (rowsDims N C E wf).window (ix2 e c) a < (⟨2, ![N, C]⟩ : Shape).size a
  · rw [dif_pos h]
    have h0 := h (0 : Fin 2)
    rw [start_row, window_row] at h0
    constructor
    · intro hs
      have hf := Option.some.inj hs
      have e0 := congrArg (fun f => (f (0 : Fin 2)).val) hf
      have e1 := congrArg (fun f => (f (1 : Fin 2)).val) hf
      simp only [start_row, start_col, window_row, window_col] at e0 e1
      refine ⟨?_, Fin.ext ?_⟩
      · have : ((idx (ix2 e (0 : Fin 1))).toInt + ((0 : Nat) : Int)).toNat = n.val := e0
        omega
      · have : ((0 : Int) + (c.val : Int)).toNat = c'.val := e1
        omega
    · rintro ⟨hn, rfl⟩
      refine congrArg some (funext fun a => Fin.ext ?_)
      match a with
      | ⟨0, _⟩ =>
        show ((rowsDims N C E wf).start (ix2 e c) idx (0 : Fin 2) + (rowsDims N C E wf).window (ix2 e c) (0 : Fin 2)).toNat = n.val
        rw [start_row, window_row, hn]; omega
      | ⟨1, _⟩ =>
        show ((rowsDims N C E wf).start (ix2 e c) idx (1 : Fin 2) + (rowsDims N C E wf).window (ix2 e c) (1 : Fin 2)).toNat = c.val
        rw [start_col, window_col]; omega
  · rw [dif_neg h]
    constructor
    · intro hs; exact absurd hs (by simp)
    · rintro ⟨hn, rfl⟩
      exfalso; apply h
      intro a
      match a with
      | ⟨0, _⟩ =>
        show 0 ≤ (rowsDims N C E wf).start (ix2 e c) idx (0 : Fin 2) + (rowsDims N C E wf).window (ix2 e c) (0 : Fin 2)
          ∧ (rowsDims N C E wf).start (ix2 e c) idx (0 : Fin 2) + (rowsDims N C E wf).window (ix2 e c) (0 : Fin 2) < (N : Int)
        rw [start_row, window_row, hn]
        have := n.isLt; omega
      | ⟨1, _⟩ =>
        show 0 ≤ (rowsDims N C E wf).start (ix2 e c) idx (1 : Fin 2) + (rowsDims N C E wf).window (ix2 e c) (1 : Fin 2)
          ∧ (rowsDims N C E wf).start (ix2 e c) idx (1 : Fin 2) + (rowsDims N C E wf).window (ix2 e c) (1 : Fin 2) < (C : Int)
        rw [start_col, window_col]
        have := c.isLt; omega

/-- THE ACCUMULATING ROW SCATTER READ AT `(n, c)`: the operand's entry plus the sum of column `c` of the updates whose
    index word, read signed, is `n`. -/
theorem hostScatterAdd_rows_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowsDims N C E wf) x idx upd (ix2 n c)
      = x (ix2 n c) + ∑ e ∈ Finset.univ.filter (fun e : Fin E => (idx (ix2 e (0 : Fin 1))).toInt = (n.val : Int)),
          upd (ix2 e c) := by
  unfold Ideal.hostScatterAdd
  refine congrArg (x (ix2 n c) + ·) (Eq.symm ?_)
  refine Finset.sum_bij (fun e _ => ix2 e c) ?_ ?_ ?_ ?_
  · intro e he
    rw [Finset.mem_filter] at he ⊢
    exact ⟨Finset.mem_univ _, (resultIdx?_eq_some_iff wf idx e c c n).mpr ⟨he.2, rfl⟩⟩
  · intro e₁ _ e₂ _ h
    exact Fin.ext (congrArg (fun f => (f (0 : Fin 2)).val) h)
  · intro j hj
    rw [Finset.mem_filter] at hj
    obtain ⟨e, c'', rfl⟩ : ∃ (e : Fin E) (c'' : Fin C), j = ix2 e c'' := ⟨j 0, j 1, eq_ix2 j⟩
    obtain ⟨hn, rfl⟩ := (resultIdx?_eq_some_iff wf idx e c'' c n).mp hj.2
    exact ⟨e, Finset.mem_filter.mpr ⟨Finset.mem_univ _, hn⟩, rfl⟩
  · intro e _; rfl

end Idealize.ShloMosaic.ScatterRows

end
-- ==== Proof.KHost.lean ====
/-
  The kernel program's host operations between its regions, read as the specification's stages.

  * The relation rows: a row gather from the relation table, [640000, 32], recast as [1, 640000, 1, 32], broadcast
    over a new axis of eight heads to [1, 640000, 8, 32] and recast as [640000, 256]: entry (e, j) is the gathered
    row's entry (e, j mod 32), since the row-major position of (0, e, h, d) among [1, 640000, 8, 32] is
    e·256 + 32h + d.
  * A row gather from a node table [20000, 256] reads, for edge e, the row its index word names, read signed and
    clamped into the table.
-/
import Idealize.ShloMosaic.Lib.Pipeline.Value
import Idealize.ShloMosaic.Lib.ValueIdx
import Idealize.ShloMosaic.PureOps.Ideal.Laws
import proofs.«175432_j21457656611019_1_alg».proof.Proof.Spec
import proofs.«175432_j21457656611019_1_alg».proof.Proof.LibGatherRows
import proofs.«175432_j21457656611019_1_alg».proof.Proof.LibScatterRows

noncomputable section

namespace Cert.HostLayout

open Idealize.ShloMosaic Idealize.ShloMosaic.ValueIdx Idealize.ShloMosaic.GatherRows Cert.Spec

/-- A row of 32 entries repeated over eight heads, read at (e, j): the row's entry j mod 32. -/
theorem tile_apply {α : Type} (g : (⟨2, ![640000, 32]⟩ : Shape).Idx → α)
    (h1 : (⟨2, ![640000, 32]⟩ : Shape).ShapeCasts ⟨4, ![1, 640000, 1, 32]⟩)
    (h2 : (⟨4, ![1, 640000, 1, 32]⟩ : Shape).BroadcastsInDim ⟨4, ![1, 640000, 8, 32]⟩ ![0, 1, 2, 3])
    (h3 : (⟨4, ![1, 640000, 8, 32]⟩ : Shape).ShapeCasts ⟨2, ![640000, 256]⟩) (e : Fin 640000) (j : Fin 256) :
    shapeCast ⟨2, ![640000, 256]⟩
        (broadcastInDim ⟨4, ![1, 640000, 8, 32]⟩ ![0, 1, 2, 3] h2 (shapeCast ⟨4, ![1, 640000, 1, 32]⟩ g h1)) h3 (ix2 e j)
      = g (ix2 e (lane j)) := by
  rw [shapeCast_apply _ h3 (ix2 e j) (ix4 (0 : Fin 1) e (hd j) (lane j)) (by
    rw [Shape.rowMajor_val_four, Shape.rowMajor_val_two]
    show (((0 : Nat) * 640000 + e.val) * 8 + j.val / 32) * 32 + j.val % 32 = e.val * 256 + j.val
    omega)]
  rw [broadcastInDim_apply _ h2 _ (ix4 (0 : Fin 1) e (hd j) (lane j)) (ix4 (0 : Fin 1) e (0 : Fin 1) (lane j)) (by
    intro a
    match a with
    | ⟨0, _⟩ => rfl
    | ⟨1, _⟩ => rfl
    | ⟨2, _⟩ => rfl
    | ⟨3, _⟩ => rfl)]
  rw [shapeCast_apply _ h1 (ix4 (0 : Fin 1) e (0 : Fin 1) (lane j)) (ix2 e (lane j)) (by
    rw [Shape.rowMajor_val_four, Shape.rowMajor_val_two]
    show e.val * 32 + j.val % 32 = (((0 : Nat) * 640000 + e.val) * 1 + 0) * 32 + j.val % 32
    omega)]

/-- The relation rows are the specification's. -/
theorem relRows_eq (rel : (⟨2, ![100, 32]⟩ : Shape).Idx → EReal) (I : IVec ⟨2, ![640000, 1]⟩ 32)
    (wf : GatherDims.WF ⟨2, ![100, 32]⟩ ⟨2, ![640000, 1]⟩ ⟨2, ![640000, 32]⟩ [1] [0] [] [0] [] 1 ![1, 32])
    (h1 : (⟨2, ![640000, 32]⟩ : Shape).ShapeCasts ⟨4, ![1, 640000, 1, 32]⟩)
    (h2 : (⟨4, ![1, 640000, 1, 32]⟩ : Shape).BroadcastsInDim ⟨4, ![1, 640000, 8, 32]⟩ ![0, 1, 2, 3])
    (h3 : (⟨4, ![1, 640000, 8, 32]⟩ : Shape).ShapeCasts ⟨2, ![640000, 256]⟩) :
    shapeCast ⟨2, ![640000, 256]⟩ (broadcastInDim ⟨4, ![1, 640000, 8, 32]⟩ ![0, 1, 2, 3] h2
        (shapeCast ⟨4, ![1, 640000, 1, 32]⟩ (Host.gather (rowsDims 100 32 640000 wf) rel I) h1)) h3
      = relRows rel I := by
  funext i
  obtain ⟨e, j, rfl⟩ : ∃ (e : Fin 640000) (j : Fin 256), i = ix2 e j := ⟨i 0, i 1, eq_ix2 i⟩
  rw [tile_apply, gather_rows_apply (by omega)]
  rfl

/-- A row gather from a node table is the specification's. -/
theorem gathRows_eq (A : (⟨2, ![20000, 256]⟩ : Shape).Idx → EReal) (I : IVec ⟨2, ![640000, 1]⟩ 32)
    (wf : GatherDims.WF ⟨2, ![20000, 256]⟩ ⟨2, ![640000, 1]⟩ ⟨2, ![640000, 256]⟩ [1] [0] [] [0] [] 1 ![1, 256]) :
    Host.gather (rowsDims 20000 256 640000 wf) A I = gathRows A I := by
  funext i
  obtain ⟨e, j, rfl⟩ : ∃ (e : Fin 640000) (j : Fin 256), i = ix2 e j := ⟨i 0, i 1, eq_ix2 i⟩
  rw [gather_rows_apply (by omega)]
  rfl

/-- A zero constant broadcast to any shape is zero everywhere. -/
theorem zero_bcast {t : Shape} (h : (⟨0, ![]⟩ : Shape).BroadcastsInDim t ![]) (i : t.Idx) :
    broadcastInDim t ![] h (constant (F := Ideal) ⟨0, ![]⟩ .f32 0x00000000#32) i = 0 := by
  rw [broadcastInDim_apply ![] h _ i ix0 (fun a => a.elim0)]
  exact Ideal.ofBits_zero_f32

/-- An accumulating row scatter into a zero table is the specification's sum over the edges that land on a node. -/
theorem scat_eq {C : Nat} (Z : (⟨2, ![20000, C]⟩ : Shape).Idx → EReal) (hZ : ∀ i, Z i = 0) (I : IVec ⟨2, ![640000, 1]⟩ 32)
    (U : (⟨2, ![640000, C]⟩ : Shape).Idx → EReal)
    (wf : ScatterDims.WF ⟨2, ![20000, C]⟩ ⟨2, ![640000, 1]⟩ ⟨2, ![640000, C]⟩ [1] [0] [0] 1) :
    Ideal.hostScatterAdd (ScatterRows.rowsDims 20000 C 640000 wf) Z I U = scat U I := by
  funext i
  obtain ⟨n, c, rfl⟩ : ∃ (n : Fin 20000) (c : Fin C), i = ix2 n c := ⟨i 0, i 1, eq_ix2 i⟩
  rw [ScatterRows.hostScatterAdd_rows_apply, hZ, zero_add]
  rfl

end Cert.HostLayout

end
-- ==== Proof.KStage3.lean ====
/-
  What the fourth stretch of host operations leaves for the fourth region: layer 1's query, key and value weights.
-/
import proofs.«175432_j21457656611019_1_alg».proof.Proof.KFold
import proofs.«175432_j21457656611019_1_alg».proof.Proof.KDefs
import proofs.«175432_j21457656611019_1_alg».proof.Proof.KHost

set_option maxRecDepth 16384
set_option maxHeartbeats 4000000

noncomputable section

namespace Cert.KernelIdeal.KStage3

open Idealize.ShloMosaic Idealize.ShloMosaic.TcCoe Idealize.ShloMosaic.StableHlo Idealize.SL.Sem
open Cert.KernelIdeal Cert.KernelIdeal.Gen Cert.KernelIdeal.KFold Cert.KernelIdeal.KDefs

variable (m : (ℓ : Loc nD τ sig) → Buf (Elt Ideal) ℓ) (ρ : Dev nD → PrngReg)

theorem W7_v70 (c : Dev nD) : W7 m ρ c (Proc.devRef .tc main_v70) = m1 (A m c main_arg2) := by
  show StableHlo.after hostOps3 (W6 m ρ c) _ = _
  dsimp only [hostOps3]; after_results_simp
  rw [W6_arg m ρ c main_arg2 (by decide)]
  rfl

theorem W7_v72 (c : Dev nD) : W7 m ρ c (Proc.devRef .tc main_v72) = m1 (A m c main_arg4) := by
  show StableHlo.after hostOps3 (W6 m ρ c) _ = _
  dsimp only [hostOps3]; after_results_simp
  rw [W6_arg m ρ c main_arg4 (by decide)]
  rfl

theorem W7_v74 (c : Dev nD) : W7 m ρ c (Proc.devRef .tc main_v74) = m1 (A m c main_arg5) := by
  show StableHlo.after hostOps3 (W6 m ρ c) _ = _
  dsimp only [hostOps3]; after_results_simp
  rw [W6_arg m ρ c main_arg5 (by decide)]
  rfl

theorem W7_v76 (c : Dev nD) : W7 m ρ c (Proc.devRef .tc main_v76) = v1 (A m c main_arg3) := by
  show StableHlo.after hostOps3 (W6 m ρ c) _ = _
  dsimp only [hostOps3]; after_results_simp
  rw [W6_arg m ρ c main_arg3 (by decide)]
  rfl

end Cert.KernelIdeal.KStage3

end
-- ==== Proof.KStage4.lean ====
/-
  What the fifth stretch of host operations leaves for the fifth region: the gathered rows of layer 1.
-/
import proofs.«175432_j21457656611019_1_alg».proof.Proof.KFold
import proofs.«175432_j21457656611019_1_alg».proof.Proof.KDefs
import proofs.«175432_j21457656611019_1_alg».proof.Proof.KHost

set_option maxRecDepth 16384
set_option maxHeartbeats 4000000

noncomputable section

namespace Cert.KernelIdeal.KStage4

open Idealize.ShloMosaic Idealize.ShloMosaic.TcCoe Idealize.ShloMosaic.StableHlo Idealize.SL.Sem
open Cert.KernelIdeal Cert.KernelIdeal.Gen Cert.KernelIdeal.KFold Cert.KernelIdeal.KDefs

variable (m : (ℓ : Loc nD τ sig) → Buf (Elt Ideal) ℓ) (ρ : Dev nD → PrngReg)

theorem W9_v84 (c : Dev nD) : W9 m ρ c (Proc.devRef .tc main_v84) = Cert.Spec.gathRows (W8 m ρ c (Proc.devRef .tc main_v77_1)) (normCol 20000#32 (A m c main_arg17)) := by
  show StableHlo.after hostOps4 (W8 m ρ c) _ = _
  dsimp only [hostOps4]; after_results_simp
  rw [W8_arg m ρ c main_arg17 (by decide)]
  exact Cert.HostLayout.gathRows_eq _ _ _

theorem W9_v91 (c : Dev nD) : W9 m ρ c (Proc.devRef .tc main_v91) = Cert.Spec.gathRows (W8 m ρ c (Proc.devRef .tc main_v77_2)) (normCol 20000#32 (A m c main_arg17)) := by
  show StableHlo.after hostOps4 (W8 m ρ c) _ = _
  dsimp only [hostOps4]; after_results_simp
  rw [W8_arg m ρ c main_arg17 (by decide)]
  exact Cert.HostLayout.gathRows_eq _ _ _

theorem W9_v98 (c : Dev nD) : W9 m ρ c (Proc.devRef .tc main_v98) = Cert.Spec.gathRows (W8 m ρ c (Proc.devRef .tc main_v77_0)) (normCol 20000#32 (A m c main_arg18)) := by
  show StableHlo.after hostOps4 (W8 m ρ c) _ = _
  dsimp only [hostOps4]; after_results_simp
  rw [W8_arg m ρ c main_arg18 (by decide)]
  exact Cert.HostLayout.gathRows_eq _ _ _

end Cert.KernelIdeal.KStage4

end
-- ==== Proof.KStage5a.lean ====
/-
  What the sixth stretch of host operations leaves for the sixth region: the per-node sums of layer 1.
-/
import proofs.«175432_j21457656611019_1_alg».proof.Proof.KFold
import proofs.«175432_j21457656611019_1_alg».proof.Proof.KDefs
import proofs.«175432_j21457656611019_1_alg».proof.Proof.KHost

set_option maxRecDepth 16384
set_option maxHeartbeats 4000000

noncomputable section

namespace Cert.KernelIdeal.KStage5a

open Idealize.ShloMosaic Idealize.ShloMosaic.TcCoe Idealize.ShloMosaic.StableHlo Idealize.SL.Sem
open Cert.KernelIdeal Cert.KernelIdeal.Gen Cert.KernelIdeal.KFold Cert.KernelIdeal.KDefs

variable (m : (ℓ : Loc nD τ sig) → Buf (Elt Ideal) ℓ) (ρ : Dev nD → PrngReg)

theorem W11_v102 (c : Dev nD) : W11 m ρ c (Proc.devRef .tc main_v102) = Cert.Spec.scat (W10 m ρ c (Proc.devRef .tc main_v99_0)) (rawCol (A m c main_arg18)) := by
  show StableHlo.after hostOps5 (W10 m ρ c) _ = _
  dsimp only [hostOps5]; after_results_simp
  rw [W10_arg m ρ c main_arg18 (by decide)]
  exact Cert.HostLayout.scat_eq _ (fun i => Cert.HostLayout.zero_bcast _ i) _ _ _

theorem W11_v105 (c : Dev nD) : W11 m ρ c (Proc.devRef .tc main_v105) = Cert.Spec.scat (W10 m ρ c (Proc.devRef .tc main_v99_1)) (rawCol (A m c main_arg18)) := by
  show StableHlo.after hostOps5 (W10 m ρ c) _ = _
  dsimp only [hostOps5]; after_results_simp
  rw [W10_arg m ρ c main_arg18 (by decide)]
  exact Cert.HostLayout.scat_eq _ (fun i => Cert.HostLayout.zero_bcast _ i) _ _ _

end Cert.KernelIdeal.KStage5a

end
-- ==== Proof.KStage5b.lean ====
/-
  What the sixth stretch of host operations leaves for the sixth region: layer 1's remaining weights.
-/
import proofs.«175432_j21457656611019_1_alg».proof.Proof.KFold
import proofs.«175432_j21457656611019_1_alg».proof.Proof.KDefs
import proofs.«175432_j21457656611019_1_alg».proof.Proof.KHost

set_option maxRecDepth 16384
set_option maxHeartbeats 4000000

noncomputable section

namespace Cert.KernelIdeal.KStage5b

open Idealize.ShloMosaic Idealize.ShloMosaic.TcCoe Idealize.ShloMosaic.StableHlo Idealize.SL.Sem
open Cert.KernelIdeal Cert.KernelIdeal.Gen Cert.KernelIdeal.KFold Cert.KernelIdeal.KDefs

variable (m : (ℓ : Loc nD τ sig) → Buf (Elt Ideal) ℓ) (ρ : Dev nD → PrngReg)

theorem W11_v107 (c : Dev nD) : W11 m ρ c (Proc.devRef .tc main_v107) = m1 (A m c main_arg6) := by
  show StableHlo.after hostOps5 (W10 m ρ c) _ = _
  dsimp only [hostOps5]; after_results_simp
  rw [W10_arg m ρ c main_arg6 (by decide)]
  rfl

theorem W11_v109 (c : Dev nD) : W11 m ρ c (Proc.devRef .tc main_v109) = v1 (A m c main_arg7) := by
  show StableHlo.after hostOps5 (W10 m ρ c) _ = _
  dsimp only [hostOps5]; after_results_simp
  rw [W10_arg m ρ c main_arg7 (by decide)]
  rfl

theorem W11_v111 (c : Dev nD) : W11 m ρ c (Proc.devRef .tc main_v111) = v1 (A m c main_arg8) := by
  show StableHlo.after hostOps5 (W10 m ρ c) _ = _
  dsimp only [hostOps5]; after_results_simp
  rw [W10_arg m ρ c main_arg8 (by decide)]
  rfl

theorem W11_v113 (c : Dev nD) : W11 m ρ c (Proc.devRef .tc main_v113) = v1 (A m c main_arg9) := by
  show StableHlo.after hostOps5 (W10 m ρ c) _ = _
  dsimp only [hostOps5]; after_results_simp
  rw [W10_arg m ρ c main_arg9 (by decide)]
  rfl

theorem W11_v115 (c : Dev nD) : W11 m ρ c (Proc.devRef .tc main_v115) = u1 (A m c main_arg10) := by
  show StableHlo.after hostOps5 (W10 m ρ c) _ = _
  dsimp only [hostOps5]; after_results_simp
  rw [W10_arg m ρ c main_arg10 (by decide)]
  rfl

theorem W11_v117 (c : Dev nD) : W11 m ρ c (Proc.devRef .tc main_v117) = w1 (A m c main_arg11) := by
  show StableHlo.after hostOps5 (W10 m ρ c) _ = _
  dsimp only [hostOps5]; after_results_simp
  rw [W10_arg m ρ c main_arg11 (by decide)]
  rfl

theorem W11_v119 (c : Dev nD) : W11 m ρ c (Proc.devRef .tc main_v119) = d1 (A m c main_arg12) := by
  show StableHlo.after hostOps5 (W10 m ρ c) _ = _
  dsimp only [hostOps5]; after_results_simp
  rw [W10_arg m ρ c main_arg12 (by decide)]
  rfl

theorem W11_v121 (c : Dev nD) : W11 m ρ c (Proc.devRef .tc main_v121) = v1 (A m c main_arg13) := by
  show StableHlo.after hostOps5 (W10 m ρ c) _ = _
  dsimp only [hostOps5]; after_results_simp
  rw [W10_arg m ρ c main_arg13 (by decide)]
  rfl

theorem W11_v123 (c : Dev nD) : W11 m ρ c (Proc.devRef .tc main_v123) = v1 (A m c main_arg14) := by
  show StableHlo.after hostOps5 (W10 m ρ c) _ = _
  dsimp only [hostOps5]; after_results_simp
  rw [W10_arg m ρ c main_arg14 (by decide)]
  rfl

theorem W11_v125 (c : Dev nD) : W11 m ρ c (Proc.devRef .tc main_v125) = v1 (A m c main_arg15) := by
  show StableHlo.after hostOps5 (W10 m ρ c) _ = _
  dsimp only [hostOps5]; after_results_simp
  rw [W10_arg m ρ c main_arg15 (by decide)]
  rfl

end Cert.KernelIdeal.KStage5b

end
-- ==== Proof.KStage0.lean ====
/-
  What the first stretch of host operations leaves for the first region: layer 0's query, key and value weights as
  slices of the stacked arrays, and the relation rows.
-/
import proofs.«175432_j21457656611019_1_alg».proof.Proof.KFold
import proofs.«175432_j21457656611019_1_alg».proof.Proof.KDefs
import proofs.«175432_j21457656611019_1_alg».proof.Proof.KHost

set_option maxRecDepth 16384
set_option maxHeartbeats 4000000

noncomputable section

namespace Cert.KernelIdeal.KStage0

open Idealize.ShloMosaic Idealize.ShloMosaic.TcCoe Idealize.ShloMosaic.StableHlo Idealize.SL.Sem
open Cert.KernelIdeal Cert.KernelIdeal.Gen Cert.KernelIdeal.KFold Cert.KernelIdeal.KDefs

variable (m : (ℓ : Loc nD τ sig) → Buf (Elt Ideal) ℓ) (ρ : Dev nD → PrngReg)

theorem W1_v12 (c : Dev nD) : W1 m ρ c (Proc.devRef .tc main_v12) = m0 (A m c main_arg2) := by
  show StableHlo.after hostOps0 (W0 m ρ c) _ = _
  dsimp only [hostOps0]; after_results_simp
  rfl

theorem W1_v14 (c : Dev nD) : W1 m ρ c (Proc.devRef .tc main_v14) = m0 (A m c main_arg4) := by
  show StableHlo.after hostOps0 (W0 m ρ c) _ = _
  dsimp only [hostOps0]; after_results_simp
  rfl

theorem W1_v16 (c : Dev nD) : W1 m ρ c (Proc.devRef .tc main_v16) = m0 (A m c main_arg5) := by
  show StableHlo.after hostOps0 (W0 m ρ c) _ = _
  dsimp only [hostOps0]; after_results_simp
  rfl

theorem W1_v18 (c : Dev nD) : W1 m ρ c (Proc.devRef .tc main_v18) = v0 (A m c main_arg3) := by
  show StableHlo.after hostOps0 (W0 m ρ c) _ = _
  dsimp only [hostOps0]; after_results_simp
  rfl

theorem W1_v10 (c : Dev nD) : W1 m ρ c (Proc.devRef .tc main_v10) = Cert.Spec.relRows (A m c main_arg1) (normCol 100#32 (A m c main_arg16)) := by
  show StableHlo.after hostOps0 (W0 m ρ c) _ = _
  dsimp only [hostOps0]; after_results_simp
  exact Cert.HostLayout.relRows_eq (A m c main_arg1) (normCol 100#32 (A m c main_arg16)) _ _ _ _

end Cert.KernelIdeal.KStage0

end
-- ==== Proof.KStage1.lean ====
/-
  What the second stretch of host operations leaves for the second region: the key and value rows of each edge's
  source node and the query row of its destination node.
-/
import proofs.«175432_j21457656611019_1_alg».proof.Proof.KFold
import proofs.«175432_j21457656611019_1_alg».proof.Proof.KDefs
import proofs.«175432_j21457656611019_1_alg».proof.Proof.KHost

set_option maxRecDepth 16384
set_option maxHeartbeats 4000000

noncomputable section

namespace Cert.KernelIdeal.KStage1

open Idealize.ShloMosaic Idealize.ShloMosaic.TcCoe Idealize.ShloMosaic.StableHlo Idealize.SL.Sem
open Cert.KernelIdeal Cert.KernelIdeal.Gen Cert.KernelIdeal.KFold Cert.KernelIdeal.KDefs

variable (m : (ℓ : Loc nD τ sig) → Buf (Elt Ideal) ℓ) (ρ : Dev nD → PrngReg)

theorem W3_v26 (c : Dev nD) : W3 m ρ c (Proc.devRef .tc main_v26) = Cert.Spec.gathRows (W2 m ρ c (Proc.devRef .tc main_v19_1)) (normCol 20000#32 (A m c main_arg17)) := by
  show StableHlo.after hostOps1 (W2 m ρ c) _ = _
  dsimp only [hostOps1]; after_results_simp
  rw [W2_arg m ρ c main_arg17 (by decide)]
  exact Cert.HostLayout.gathRows_eq _ _ _

theorem W3_v33 (c : Dev nD) : W3 m ρ c (Proc.devRef .tc main_v33) = Cert.Spec.gathRows (W2 m ρ c (Proc.devRef .tc main_v19_2)) (normCol 20000#32 (A m c main_arg17)) := by
  show StableHlo.after hostOps1 (W2 m ρ c) _ = _
  dsimp only [hostOps1]; after_results_simp
  rw [W2_arg m ρ c main_arg17 (by decide)]
  exact Cert.HostLayout.gathRows_eq _ _ _

theorem W3_v40 (c : Dev nD) : W3 m ρ c (Proc.devRef .tc main_v40) = Cert.Spec.gathRows (W2 m ρ c (Proc.devRef .tc main_v19_0)) (normCol 20000#32 (A m c main_arg18)) := by
  show StableHlo.after hostOps1 (W2 m ρ c) _ = _
  dsimp only [hostOps1]; after_results_simp
  rw [W2_arg m ρ c main_arg18 (by decide)]
  exact Cert.HostLayout.gathRows_eq _ _ _

end Cert.KernelIdeal.KStage1

end
-- ==== Proof.KStage2a.lean ====
/-
  What the third stretch of host operations leaves for the third region: per node, the sums of the messages and of the
  weights of the edges that land on it.
-/
import proofs.«175432_j21457656611019_1_alg».proof.Proof.KFold
import proofs.«175432_j21457656611019_1_alg».proof.Proof.KDefs
import proofs.«175432_j21457656611019_1_alg».proof.Proof.KHost

set_option maxRecDepth 16384
set_option maxHeartbeats 4000000

noncomputable section

namespace Cert.KernelIdeal.KStage2a

open Idealize.ShloMosaic Idealize.ShloMosaic.TcCoe Idealize.ShloMosaic.StableHlo Idealize.SL.Sem
open Cert.KernelIdeal Cert.KernelIdeal.Gen Cert.KernelIdeal.KFold Cert.KernelIdeal.KDefs

variable (m : (ℓ : Loc nD τ sig) → Buf (Elt Ideal) ℓ) (ρ : Dev nD → PrngReg)

theorem W5_v44 (c : Dev nD) : W5 m ρ c (Proc.devRef .tc main_v44) = Cert.Spec.scat (W4 m ρ c (Proc.devRef .tc main_v41_0)) (rawCol (A m c main_arg18)) := by
  show StableHlo.after hostOps2 (W4 m ρ c) _ = _
  dsimp only [hostOps2]; after_results_simp
  rw [W4_arg m ρ c main_arg18 (by decide)]
  exact Cert.HostLayout.scat_eq _ (fun i => Cert.HostLayout.zero_bcast _ i) _ _ _

theorem W5_v47 (c : Dev nD) : W5 m ρ c (Proc.devRef .tc main_v47) = Cert.Spec.scat (W4 m ρ c (Proc.devRef .tc main_v41_1)) (rawCol (A m c main_arg18)) := by
  show StableHlo.after hostOps2 (W4 m ρ c) _ = _
  dsimp only [hostOps2]; after_results_simp
  rw [W4_arg m ρ c main_arg18 (by decide)]
  exact Cert.HostLayout.scat_eq _ (fun i => Cert.HostLayout.zero_bcast _ i) _ _ _

end Cert.KernelIdeal.KStage2a

end
-- ==== Proof.KStage2b.lean ====
/-
  What the third stretch of host operations leaves for the third region: layer 0's remaining weights as slices of the
  stacked arrays.
-/
import proofs.«175432_j21457656611019_1_alg».proof.Proof.KFold
import proofs.«175432_j21457656611019_1_alg».proof.Proof.KDefs
import proofs.«175432_j21457656611019_1_alg».proof.Proof.KHost

set_option maxRecDepth 16384
set_option maxHeartbeats 4000000

noncomputable section

namespace Cert.KernelIdeal.KStage2b

open Idealize.ShloMosaic Idealize.ShloMosaic.TcCoe Idealize.ShloMosaic.StableHlo Idealize.SL.Sem
open Cert.KernelIdeal Cert.KernelIdeal.Gen Cert.KernelIdeal.KFold Cert.KernelIdeal.KDefs

variable (m : (ℓ : Loc nD τ sig) → Buf (Elt Ideal) ℓ) (ρ : Dev nD → PrngReg)

theorem W5_v49 (c : Dev nD) : W5 m ρ c (Proc.devRef .tc main_v49) = m0 (A m c main_arg6) := by
  show StableHlo.after hostOps2 (W4 m ρ c) _ = _
  dsimp only [hostOps2]; after_results_simp
  rw [W4_arg m ρ c main_arg6 (by decide)]
  rfl

theorem W5_v51 (c : Dev nD) : W5 m ρ c (Proc.devRef .tc main_v51) = v0 (A m c main_arg7) := by
  show StableHlo.after hostOps2 (W4 m ρ c) _ = _
  dsimp only [hostOps2]; after_results_simp
  rw [W4_arg m ρ c main_arg7 (by decide)]
  rfl

theorem W5_v53 (c : Dev nD) : W5 m ρ c (Proc.devRef .tc main_v53) = v0 (A m c main_arg8) := by
  show StableHlo.after hostOps2 (W4 m ρ c) _ = _
  dsimp only [hostOps2]; after_results_simp
  rw [W4_arg m ρ c main_arg8 (by decide)]
  rfl

theorem W5_v55 (c : Dev nD) : W5 m ρ c (Proc.devRef .tc main_v55) = v0 (A m c main_arg9) := by
  show StableHlo.after hostOps2 (W4 m ρ c) _ = _
  dsimp only [hostOps2]; after_results_simp
  rw [W4_arg m ρ c main_arg9 (by decide)]
  rfl

theorem W5_v57 (c : Dev nD) : W5 m ρ c (Proc.devRef .tc main_v57) = u0 (A m c main_arg10) := by
  show StableHlo.after hostOps2 (W4 m ρ c) _ = _
  dsimp only [hostOps2]; after_results_simp
  rw [W4_arg m ρ c main_arg10 (by decide)]
  rfl

theorem W5_v59 (c : Dev nD) : W5 m ρ c (Proc.devRef .tc main_v59) = w0 (A m c main_arg11) := by
  show StableHlo.after hostOps2 (W4 m ρ c) _ = _
  dsimp only [hostOps2]; after_results_simp
  rw [W4_arg m ρ c main_arg11 (by decide)]
  rfl

theorem W5_v61 (c : Dev nD) : W5 m ρ c (Proc.devRef .tc main_v61) = d0 (A m c main_arg12) := by
  show StableHlo.after hostOps2 (W4 m ρ c) _ = _
  dsimp only [hostOps2]; after_results_simp
  rw [W4_arg m ρ c main_arg12 (by decide)]
  rfl

theorem W5_v63 (c : Dev nD) : W5 m ρ c (Proc.devRef .tc main_v63) = v0 (A m c main_arg13) := by
  show StableHlo.after hostOps2 (W4 m ρ c) _ = _
  dsimp only [hostOps2]; after_results_simp
  rw [W4_arg m ρ c main_arg13 (by decide)]
  rfl

theorem W5_v65 (c : Dev nD) : W5 m ρ c (Proc.devRef .tc main_v65) = v0 (A m c main_arg14) := by
  show StableHlo.after hostOps2 (W4 m ρ c) _ = _
  dsimp only [hostOps2]; after_results_simp
  rw [W4_arg m ρ c main_arg14 (by decide)]
  rfl

theorem W5_v67 (c : Dev nD) : W5 m ρ c (Proc.devRef .tc main_v67) = v0 (A m c main_arg15) := by
  show StableHlo.after hostOps2 (W4 m ρ c) _ = _
  dsimp only [hostOps2]; after_results_simp
  rw [W4_arg m ρ c main_arg15 (by decide)]
  rfl

end Cert.KernelIdeal.KStage2b

end
-- ==== Proof.LibPlainMatmul.lean ====
/-
  A plain matrix product read at an index.

  For dimension numbers that contract the left operand's second axis with the right operand's first and have no
  batch axes, the matrix unit's product of `l : [M, K]` and `r : [K, N]` into a zero accumulator is, at `(p, q)`,
  the finite sum `Σ_k l[p, k] · r[k, q]` in the extended reals.  The four coordinate facts of the dimension numbers
  are hypotheses: they are decided, or read off the record, for a program's literal record.
-/
import Idealize.ShloMosaic.PureOps.Ideal.Laws
import Idealize.ShloMosaic.Lib.ValueIdx

noncomputable section

namespace Idealize.ShloMosaic.PlainMatmul

open Idealize.ShloMosaic Idealize.ShloMosaic.ValueIdx

/-- The sum over a one-axis contraction index is the sum over its one coordinate. -/
theorem contr_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The matrix unit's product into a zero accumulator, read at `(p, q)`. -/
theorem matmul_zero_apply {M K N : Nat} {φ₁ φ₂ : FTy} (d : DotDims ⟨2, ![M, K]⟩ ⟨2, ![K, N]⟩ ⟨2, ![M, N]⟩)
    (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : FVec Ideal ⟨2, ![M, K]⟩ φ₁) (r : FVec Ideal ⟨2, ![K, N]⟩ φ₂) (p : Fin M) (q : Fin N) :
    matmul d prec l r (constant (F := Ideal) ⟨2, ![M, N]⟩ .f32 0x00000000#32) (ix2 p q)
      = ∑ k : Fin K, l (ix2 p k) * r (ix2 k q) := by
  exact (Ideal.matmul_constant_zero_apply d prec l r (ix2 p q)).trans (contr_sum d hr hs hl0 hl1 hr0 hr1 l r p q)

end Idealize.ShloMosaic.PlainMatmul

end
-- ==== Proof.RegionQkvPay.lean ====
/-
  The arithmetic of one grid point of the projection kernels, read entry by entry.

  A point loads a block of 2000 rows of the node features and the whole weight matrices and bias.  Over the
  extended reals a change of float format is the identity, so each of the three results is, at row p and
  column j, the finite sum  Σ_k x[p, k] · W[k, j]  — for the query with the bias entry b[j] added.
  Row p of the block at grid point n is row 2000·n + p of the node features, so the block of results is the
  block of rows of the whole-array product.
  The second layer's kernel differs from the first by one identity reshaping of the loaded block.
-/
import proofs.«175432_j21457656611019_1_alg».proof.Proof.Gen.KernelIdeal.Skeleton
import proofs.«175432_j21457656611019_1_alg».proof.Proof.LibPlainMatmul
import proofs.«175432_j21457656611019_1_alg».proof.Proof.Spec
import Idealize.ShloMosaic.Lib.Pipeline.Value
import Idealize.ShloMosaic.Lib.ValueLayout

noncomputable section

open scoped BigOperators

namespace Cert.KernelIdeal.RegionQkv

open Idealize.ShloMosaic Idealize.ShloMosaic.ValueIdx
open Cert.KernelIdeal Cert.KernelIdeal.Gen

/-- The dimension numbers of the kernels' matrix product: the left operand's columns against the right's rows. -/
abbrev dotD : DotDims S2000x256 S256x256 S2000x256 := dot_S2000x256_S256x256_S2000x256_1_0_0_1_n_n

theorem dot_rank : dotD.contr.rank = 1 := rfl
theorem dot_size : dotD.contr.size ⟨0, by rw [dot_rank]; omega⟩ = 256 := rfl
theorem dot_l0 (i : S2000x256.Idx) (q : dotD.contr.Idx) : (dotD.lhsIdx i q 0).val = (i 0).val := by
  simp [DotDims.lhsIdx, dotD, dot_S2000x256_S256x256_S2000x256_1_0_0_1_n_n]; rfl
theorem dot_l1 (i : S2000x256.Idx) (q : dotD.contr.Idx) : (dotD.lhsIdx i q 1).val = (q ⟨0, by rw [dot_rank]; omega⟩).val := by
  simp [DotDims.lhsIdx, dotD, dot_S2000x256_S256x256_S2000x256_1_0_0_1_n_n]; rfl
theorem dot_r0 (i : S2000x256.Idx) (q : dotD.contr.Idx) : (dotD.rhsIdx i q 0).val = (q ⟨0, by rw [dot_rank]; omega⟩).val := by
  simp [DotDims.rhsIdx, dotD, dot_S2000x256_S256x256_S2000x256_1_0_0_1_n_n]; rfl
theorem dot_r1 (i : S2000x256.Idx) (q : dotD.contr.Idx) : (dotD.rhsIdx i q 1).val = (i 1).val := by
  simp [DotDims.rhsIdx, dotD, dot_S2000x256_S256x256_S2000x256_1_0_0_1_n_n]; rfl

/-- The product of a block of rows with a weight matrix into a zero accumulator, at row p and column j. -/
theorem prod_apply (l : FVec Ideal S2000x256 .bf16) (r : FVec Ideal S256x256 .bf16) (p : Fin 2000) (j : Fin 256) :
    matmul dot_S2000x256_S256x256_S2000x256_1_0_0_1_n_n none l r (constant (F := Ideal) S2000x256 .f32 0x00000000#32) (ix2 p j)
      = ∑ k : Fin 256, l (ix2 p k) * r (ix2 k j) :=
  PlainMatmul.matmul_zero_apply (M := 2000) (K := 256) (N := 256) dotD none dot_rank dot_size dot_l0 dot_l1 dot_r0 dot_r1 l r p j

/-- The product with the weights as the kernel passes them: reshaped to their own shape, which changes nothing. -/
theorem prodW_apply (x : Vec Ideal S2000x256 .f32) (W : Vec Ideal S256x256 .f32) (p : Fin 2000) (j : Fin 256) :
    matmul (φ₁ := .bf16) (φ₂ := .bf16) dot_S2000x256_S256x256_S2000x256_1_0_0_1_n_n none (x : FVec Ideal S2000x256 .bf16)
        (shapeCast S256x256 W Facts₀.shapeCasts_S256x256_S256x256 : FVec Ideal S256x256 .bf16)
        (constant (F := Ideal) S2000x256 .f32 0x00000000#32) (ix2 p j)
      = ∑ k : Fin 256, x (ix2 p k) * W (ix2 k j) := by
  rw [shapeCast_self W Facts₀.shapeCasts_S256x256_S256x256]
  exact prod_apply x W p j

/-- The bias as the kernel adds it: the vector as one row, repeated over the block's rows. -/
theorem bias_apply (b : Vec Ideal S256 .f32) (p : Fin 2000) (j : Fin 256) :
    broadcastTo S2000x256 (shapeCast S1x256 (shapeCast S256 b Facts₀.shapeCasts_S256_S256) Facts₀.shapeCasts_S256_S1x256) Facts₀.broadcasts_S1x256_S2000x256 (ix2 p j)
      = b (ix1 j) := by
  rw [shapeCast_self b Facts₀.shapeCasts_S256_S256]
  exact (broadcastTo_1b_ab_apply (a := 2000) (b := 256) (shapeCast S1x256 b Facts₀.shapeCasts_S256_S1x256) Facts₀.broadcasts_S1x256_S2000x256 p j).trans
    (shapeCast_a_1a_apply (a := 256) b Facts₀.shapeCasts_S256_S1x256 (0 : Fin 1) j)

/-- The query payload at row p and column j. -/
theorem q_apply (x : Vec Ideal S2000x256 .f32) (W : Vec Ideal S256x256 .f32) (b : Vec Ideal S256 .f32) (p : Fin 2000) (j : Fin 256) :
    k0_pay2 (F := Ideal) x W b (ix2 p j) = (∑ k : Fin 256, x (ix2 p k) * W (ix2 k j)) + b (ix1 j) := by
  show matmul (φ₁ := .bf16) (φ₂ := .bf16) dot_S2000x256_S256x256_S2000x256_1_0_0_1_n_n none (x : FVec Ideal S2000x256 .bf16)
        (shapeCast S256x256 W Facts₀.shapeCasts_S256x256_S256x256 : FVec Ideal S256x256 .bf16)
        (constant (F := Ideal) S2000x256 .f32 0x00000000#32) (ix2 p j)
      + broadcastTo S2000x256 (shapeCast S1x256 (shapeCast S256 b Facts₀.shapeCasts_S256_S256) Facts₀.shapeCasts_S256_S1x256) Facts₀.broadcasts_S1x256_S2000x256 (ix2 p j) = _
  exact congrArg₂ (· + ·) (prodW_apply x W p j) (bias_apply b p j)

/-- The key payload at row p and column j. -/
theorem k_apply (x : Vec Ideal S2000x256 .f32) (W : Vec Ideal S256x256 .f32) (p : Fin 2000) (j : Fin 256) :
    k0_pay3 (F := Ideal) x W (ix2 p j) = ∑ k : Fin 256, x (ix2 p k) * W (ix2 k j) :=
  prodW_apply x W p j

/-- The value payload at row p and column j. -/
theorem v_apply (x : Vec Ideal S2000x256 .f32) (W : Vec Ideal S256x256 .f32) (p : Fin 2000) (j : Fin 256) :
    k0_pay4 (F := Ideal) x W (ix2 p j) = ∑ k : Fin 256, x (ix2 p k) * W (ix2 k j) :=
  prodW_apply x W p j

/-! ## A block of results is a block of rows of the whole product -/

/-- The query block at grid point n: entry y of the block is entry i of x·Wq + bq, where i is row 2000·n + y₀, column y₁. -/
theorem blockQ (x : Vec Ideal S2000x256 .f32) (W : Vec Ideal S256x256 .f32) (b : Vec Ideal S256 .f32)
    (A : Spec.Arr2 20000 256) (Wa : Spec.Arr2 256 256) (ba : Spec.Arr1 256) (n : Nat)
    (hx : ∀ (y : S2000x256.Idx) (i : S20000x256.Idx), (i 0).val = n * 2000 + (y 0).val → (i 1).val = (y 1).val → x y = A i)
    (hW : ∀ i : S256x256.Idx, W i = Wa i) (hb : ∀ i : S256.Idx, b i = ba i)
    (y : S2000x256.Idx) (i : S20000x256.Idx) (h0 : (i 0).val = n * 2000 + (y 0).val) (h1 : (i 1).val = (y 1).val) :
    k0_pay2 (F := Ideal) x W b y = Spec.linBiasArr A Wa ba i := by
  obtain ⟨p, j, rfl⟩ : ∃ (p : Fin 2000) (j : Fin 256), y = ix2 p j := ⟨y 0, y 1, eq_ix2 y⟩
  have hj : Spec.r1 i = j := Fin.ext h1
  have hx' : ∀ k : Fin 256, x (ix2 p k) = A (ix2 (Spec.r0 i) k) := fun k => hx (ix2 p k) (ix2 (Spec.r0 i) k) h0 rfl
  rw [q_apply]
  show _ = (∑ k : Fin 256, A (ix2 (Spec.r0 i) k) * Wa (ix2 k (Spec.r1 i))) + ba (ix1 (Spec.r1 i))
  rw [hj, hb]
  exact congrArg (· + ba (ix1 j)) (Finset.sum_congr rfl fun k _ => by rw [hx' k, hW])

/-- The key block at grid point n, likewise against x·Wk. -/
theorem blockK (x : Vec Ideal S2000x256 .f32) (W : Vec Ideal S256x256 .f32)
    (A : Spec.Arr2 20000 256) (Wa : Spec.Arr2 256 256) (n : Nat)
    (hx : ∀ (y : S2000x256.Idx) (i : S20000x256.Idx), (i 0).val = n * 2000 + (y 0).val → (i 1).val = (y 1).val → x y = A i)
    (hW : ∀ i : S256x256.Idx, W i = Wa i)
    (y : S2000x256.Idx) (i : S20000x256.Idx) (h0 : (i 0).val = n * 2000 + (y 0).val) (h1 : (i 1).val = (y 1).val) :
    k0_pay3 (F := Ideal) x W y = Spec.linArr A Wa i := by
  obtain ⟨p, j, rfl⟩ : ∃ (p : Fin 2000) (j : Fin 256), y = ix2 p j := ⟨y 0, y 1, eq_ix2 y⟩
  have hj : Spec.r1 i = j := Fin.ext h1
  have hx' : ∀ k : Fin 256, x (ix2 p k) = A (ix2 (Spec.r0 i) k) := fun k => hx (ix2 p k) (ix2 (Spec.r0 i) k) h0 rfl
  rw [k_apply]
  show _ = ∑ k : Fin 256, A (ix2 (Spec.r0 i) k) * Wa (ix2 k (Spec.r1 i))
  rw [hj]
  exact Finset.sum_congr rfl fun k _ => by rw [hx' k, hW]

/-- The value block at grid point n, likewise against x·Wv. -/
theorem blockV (x : Vec Ideal S2000x256 .f32) (W : Vec Ideal S256x256 .f32)
    (A : Spec.Arr2 20000 256) (Wa : Spec.Arr2 256 256) (n : Nat)
    (hx : ∀ (y : S2000x256.Idx) (i : S20000x256.Idx), (i 0).val = n * 2000 + (y 0).val → (i 1).val = (y 1).val → x y = A i)
    (hW : ∀ i : S256x256.Idx, W i = Wa i)
    (y : S2000x256.Idx) (i : S20000x256.Idx) (h0 : (i 0).val = n * 2000 + (y 0).val) (h1 : (i 1).val = (y 1).val) :
    k0_pay4 (F := Ideal) x W y = Spec.linArr A Wa i := by
  obtain ⟨p, j, rfl⟩ : ∃ (p : Fin 2000) (j : Fin 256), y = ix2 p j := ⟨y 0, y 1, eq_ix2 y⟩
  have hj : Spec.r1 i = j := Fin.ext h1
  have hx' : ∀ k : Fin 256, x (ix2 p k) = A (ix2 (Spec.r0 i) k) := fun k => hx (ix2 p k) (ix2 (Spec.r0 i) k) h0 rfl
  rw [v_apply]
  show _ = ∑ k : Fin 256, A (ix2 (Spec.r0 i) k) * Wa (ix2 k (Spec.r1 i))
  rw [hj]
  exact Finset.sum_congr rfl fun k _ => by rw [hx' k, hW]

/-! ## The second layer's kernel: the same payloads -/

theorem pay1_eq (x : Vec Ideal S2000x256 .f32) : k3_pay1 (F := Ideal) x = k0_pay1 x := by
  show (shapeCast S2000x256 x Facts₀.shapeCasts_S2000x256_S2000x256 : FVec Ideal S2000x256 .bf16) = x
  exact shapeCast_self x Facts₀.shapeCasts_S2000x256_S2000x256

theorem q3_eq (x : Vec Ideal S2000x256 .f32) (W : Vec Ideal S256x256 .f32) (b : Vec Ideal S256 .f32) :
    k3_pay2 (F := Ideal) x W b = k0_pay2 x W b := by
  unfold k3_pay2 k0_pay2; simp only [pay1_eq]

theorem k3_eq (x : Vec Ideal S2000x256 .f32) (W : Vec Ideal S256x256 .f32) : k3_pay3 (F := Ideal) x W = k0_pay3 x W := by
  unfold k3_pay3 k0_pay3; simp only [pay1_eq]

theorem v3_eq (x : Vec Ideal S2000x256 .f32) (W : Vec Ideal S256x256 .f32) : k3_pay4 (F := Ideal) x W = k0_pay4 x W := by
  unfold k3_pay4 k0_pay4; simp only [pay1_eq]

end Cert.KernelIdeal.RegionQkv

end
-- ==== Proof.RegionQkv0.lean ====
/-
  The projection kernel of layer one as three whole-array functions.

  The grid has ten points; point t stages rows 2000·t … 2000·t + 1999 of the node features and the whole weight
  matrices and bias, and writes back rows 2000·t … 2000·t + 1999 of each result.  What it writes back is the
  block of those rows of  x·Wq + bq,  x·Wk  and  x·Wv;  row r of a result is covered by point r / 2000, so
  after the run each result array is that whole-array function of the arrays the region found.
-/
import proofs.«175432_j21457656611019_1_alg».proof.Proof.Gen.KernelIdeal.Frame
import proofs.«175432_j21457656611019_1_alg».proof.Proof.RegionQkvPay

noncomputable section

open scoped BigOperators

namespace Cert.KernelIdeal.RegionQkv0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.RegionQkv

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the feature window and the three result windows sit at block row t, everything
    else at block zero. -/
theorem idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The input blocks, read off the arrays the region found -/

/-- Entry y of the feature block at point t is entry (2000·t + y₀, y₁) of the features. -/
theorem xblk (c : Dev nD) (t : Fin cfg0.N) (y : S2000x256.Idx) (i : S20000x256.Idx)
    (h0 : (i 0).val = t.val * 2000 + (y 0).val) (h1 : (i 1).val = (y 1).val) :
    (iblk0 V c 0 t : Vec Ideal S2000x256 .f32) y = (V c (Pipeline.arrRef spec0 0) : Spec.Arr2 20000 256) i := by
  obtain ⟨e0, e1, -⟩ := idx t
  unfold iblk0
  rw [View.read_apply]
  show V c (Pipeline.arrRef spec0 0) _ = V c (Pipeline.arrRef spec0 0) i
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 256 + 1 * (y 1).val = (i 1).val; rw [e1, h1]; omega

/-- The query weights' block at any point is the whole matrix. -/
theorem wblk1 (c : Dev nD) (t : Fin cfg0.N) (i : S256x256.Idx) :
    (iblk0 V c 1 t : Vec Ideal S256x256 .f32) i = (V c (Pipeline.arrRef spec0 1) : Spec.Arr2 256 256) i := by
  obtain ⟨-, -, e0, e1, -⟩ := idx t
  unfold iblk0
  rw [View.read_apply]
  show V c (Pipeline.arrRef spec0 1) _ = V c (Pipeline.arrRef spec0 1) i
  congr 1
  funext a
  apply Fin.ext
  match a with
  | ⟨0, _⟩ => show win0_1.index t (0 : Fin 2) * 256 + 1 * (i 0).val = (i 0).val; rw [e0]; omega
  | ⟨1, _⟩ => show win0_1.index t (1 : Fin 2) * 256 + 1 * (i 1).val = (i 1).val; rw [e1]; omega

/-- The key weights' block at any point is the whole matrix. -/
theorem wblk2 (c : Dev nD) (t : Fin cfg0.N) (i : S256x256.Idx) :
    (iblk0 V c 2 t : Vec Ideal S256x256 .f32) i = (V c (Pipeline.arrRef spec0 2) : Spec.Arr2 256 256) i := by
  obtain ⟨-, -, -, -, e0, e1, -⟩ := idx t
  unfold iblk0
  rw [View.read_apply]
  show V c (Pipeline.arrRef spec0 2) _ = V c (Pipeline.arrRef spec0 2) i
  congr 1
  funext a
  apply Fin.ext
  match a with
  | ⟨0, _⟩ => show win0_2.index t (0 : Fin 2) * 256 + 1 * (i 0).val = (i 0).val; rw [e0]; omega
  | ⟨1, _⟩ => show win0_2.index t (1 : Fin 2) * 256 + 1 * (i 1).val = (i 1).val; rw [e1]; omega

/-- The value weights' block at any point is the whole matrix. -/
theorem wblk3 (c : Dev nD) (t : Fin cfg0.N) (i : S256x256.Idx) :
    (iblk0 V c 3 t : Vec Ideal S256x256 .f32) i = (V c (Pipeline.arrRef spec0 3) : Spec.Arr2 256 256) i := by
  obtain ⟨-, -, -, -, -, -, e0, e1, -⟩ := idx t
  unfold iblk0
  rw [View.read_apply]
  show V c (Pipeline.arrRef spec0 3) _ = V c (Pipeline.arrRef spec0 3) i
  congr 1
  funext a
  apply Fin.ext
  match a with
  | ⟨0, _⟩ => show win0_3.index t (0 : Fin 2) * 256 + 1 * (i 0).val = (i 0).val; rw [e0]; omega
  | ⟨1, _⟩ => show win0_3.index t (1 : Fin 2) * 256 + 1 * (i 1).val = (i 1).val; rw [e1]; omega

/-- The bias block at any point is the whole vector. -/
theorem bblk (c : Dev nD) (t : Fin cfg0.N) (i : S256.Idx) :
    (iblk0 V c 4 t : Vec Ideal S256 .f32) i = (V c (Pipeline.arrRef spec0 4) : Spec.Arr1 256) i := by
  obtain ⟨-, -, -, -, -, -, -, -, e0, -⟩ := idx t
  unfold iblk0
  rw [View.read_apply]
  show V c (Pipeline.arrRef spec0 4) _ = V c (Pipeline.arrRef spec0 4) i
  congr 1
  funext a
  apply Fin.ext
  match a with
  | ⟨0, _⟩ => show win0_4.index t (0 : Fin 1) * 256 + 1 * (i 0).val = (i 0).val; rw [e0]; omega

/-! ## What each point writes back -/

/-- Point t writes back block t of x·Wq + bq. -/
theorem flushedQ (c : Dev nD) (t : Fin cfg0.N) :
    (dat0 (F := Ideal) V c).flushed 5 t = ((cfg0.win 5).blk t).view.read (Elt Ideal)
      (Spec.linBiasArr (K := 256) (M := 256) (V c (Pipeline.arrRef spec0 0)) (V c (Pipeline.arrRef spec0 1)) (V c (Pipeline.arrRef spec0 4))) := by
  show (cfg0.win 5).cut (grid0.coords t) ((dat0 V c).after 5 t) = _
  rw [after0_5]
  unfold out0_5
  rw [View.canon_unit_zero hz2]
  simp only [View.ld_unit_zero (S := S2000x256) hz2, View.ld_unit_zero (S := S256x256) hz2, View.ld_unit_zero (S := S256) hz1]
  obtain ⟨e00, e01, e10, e11, e20, e21, e30, e31, e40, e50, e51, e60, e61, e70, e71⟩ := idx t
  funext y
  show _ = Spec.linBiasArr (K := 256) (M := 256) (V c (Pipeline.arrRef spec0 0)) (V c (Pipeline.arrRef spec0 1)) (V c (Pipeline.arrRef spec0 4)) (((cfg0.win 5).blk t).view.emb y)
  refine blockQ (iblk0 V c 0 t) (iblk0 V c 1 t) (iblk0 V c 4 t) (V c (Pipeline.arrRef spec0 0)) (V c (Pipeline.arrRef spec0 1)) (V c (Pipeline.arrRef spec0 4)) t.val
    (fun y i h0 h1 => xblk V c t y i h0 h1) (fun i => wblk1 V c t i) (fun i => bblk V c t i) y (((cfg0.win 5).blk t).view.emb y) ?_ ?_
  · show win0_5.index t (0 : Fin 2) * 2000 + 1 * (y 0).val = t.val * 2000 + (y 0).val; rw [e50]; omega
  · show win0_5.index t (1 : Fin 2) * 256 + 1 * (y 1).val = (y 1).val; rw [e51]; omega

/-- Point t writes back block t of x·Wk. -/
theorem flushedK (c : Dev nD) (t : Fin cfg0.N) :
    (dat0 (F := Ideal) V c).flushed 6 t = ((cfg0.win 6).blk t).view.read (Elt Ideal)
      (Spec.linArr (K := 256) (M := 256) (V c (Pipeline.arrRef spec0 0)) (V c (Pipeline.arrRef spec0 2))) := by
  show (cfg0.win 6).cut (grid0.coords t) ((dat0 V c).after 6 t) = _
  rw [after0_6]
  unfold out0_6
  rw [View.canon_unit_zero hz2]
  simp only [View.ld_unit_zero (S := S2000x256) hz2, View.ld_unit_zero (S := S256x256) hz2]
  obtain ⟨e00, e01, e10, e11, e20, e21, e30, e31, e40, e50, e51, e60, e61, e70, e71⟩ := idx t
  funext y
  show _ = Spec.linArr (K := 256) (M := 256) (V c (Pipeline.arrRef spec0 0)) (V c (Pipeline.arrRef spec0 2)) (((cfg0.win 6).blk t).view.emb y)
  refine blockK (iblk0 V c 0 t) (iblk0 V c 2 t) (V c (Pipeline.arrRef spec0 0)) (V c (Pipeline.arrRef spec0 2)) t.val
    (fun y i h0 h1 => xblk V c t y i h0 h1) (fun i => wblk2 V c t i) y (((cfg0.win 6).blk t).view.emb y) ?_ ?_
  · show win0_6.index t (0 : Fin 2) * 2000 + 1 * (y 0).val = t.val * 2000 + (y 0).val; rw [e60]; omega
  · show win0_6.index t (1 : Fin 2) * 256 + 1 * (y 1).val = (y 1).val; rw [e61]; omega

/-- Point t writes back block t of x·Wv. -/
theorem flushedV (c : Dev nD) (t : Fin cfg0.N) :
    (dat0 (F := Ideal) V c).flushed 7 t = ((cfg0.win 7).blk t).view.read (Elt Ideal)
      (Spec.linArr (K := 256) (M := 256) (V c (Pipeline.arrRef spec0 0)) (V c (Pipeline.arrRef spec0 3))) := by
  show (cfg0.win 7).cut (grid0.coords t) ((dat0 V c).after 7 t) = _
  rw [after0_7]
  unfold out0_7
  rw [View.canon_unit_zero hz2]
  simp only [View.ld_unit_zero (S := S2000x256) hz2, View.ld_unit_zero (S := S256x256) hz2]
  obtain ⟨e00, e01, e10, e11, e20, e21, e30, e31, e40, e50, e51, e60, e61, e70, e71⟩ := idx t
  funext y
  show _ = Spec.linArr (K := 256) (M := 256) (V c (Pipeline.arrRef spec0 0)) (V c (Pipeline.arrRef spec0 3)) (((cfg0.win 7).blk t).view.emb y)
  refine blockV (iblk0 V c 0 t) (iblk0 V c 3 t) (V c (Pipeline.arrRef spec0 0)) (V c (Pipeline.arrRef spec0 3)) t.val
    (fun y i h0 h1 => xblk V c t y i h0 h1) (fun i => wblk3 V c t i) y (((cfg0.win 7).blk t).view.emb y) ?_ ?_
  · show win0_7.index t (0 : Fin 2) * 2000 + 1 * (y 0).val = t.val * 2000 + (y 0).val; rw [e70]; omega
  · show win0_7.index t (1 : Fin 2) * 256 + 1 * (y 1).val = (y 1).val; rw [e71]; omega

/-! ## The cover: row r belongs to point r / 2000 -/

theorem mem_blk5 (t : Fin cfg0.N) (i : S20000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v19_0).slice (win0_5.rect t)).set ↔ _
  rw [View.set_slice_whole, Rect.mem_set_unit]
  exact Iff.rfl

theorem cover5 (i : S20000x256.Idx) : ∃ t : Fin cfg0.N, (cfg0.win 5).flush t = true ∧ i ∈ ((cfg0.win 5).blk t).view.set := by
  have hi0 : (i 0).val < 20000 := (i 0).isLt
  have hi1 : (i 1).val < 256 := (i 1).isLt
  have hN : cfg0.N = 10 := N_0
  obtain ⟨t, ht⟩ : ∃ t : Fin cfg0.N, t.val = (i 0).val / 2000 := ⟨⟨(i 0).val / 2000, by rw [hN]; omega⟩, rfl⟩
  obtain ⟨e00, e01, e10, e11, e20, e21, e30, e31, e40, e50, e51, e60, e61, e70, e71⟩ := idx t
  refine ⟨t, flush0_5 t, ?_⟩
  rw [mem_blk5]
  intro a
  match a with
  | ⟨0, _⟩ => show win0_5.index t (0 : Fin 2) * 2000 ≤ (i 0).val ∧ (i 0).val < win0_5.index t (0 : Fin 2) * 2000 + 2000; rw [e50, ht]; omega
  | ⟨1, _⟩ => show win0_5.index t (1 : Fin 2) * 256 ≤ (i 1).val ∧ (i 1).val < win0_5.index t (1 : Fin 2) * 256 + 256; rw [e51]; omega

theorem mem_blk6 (t : Fin cfg0.N) (i : S20000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v19_1).slice (win0_6.rect t)).set ↔ _
  rw [View.set_slice_whole, Rect.mem_set_unit]
  exact Iff.rfl

theorem cover6 (i : S20000x256.Idx) : ∃ t : Fin cfg0.N, (cfg0.win 6).flush t = true ∧ i ∈ ((cfg0.win 6).blk t).view.set := by
  have hi0 : (i 0).val < 20000 := (i 0).isLt
  have hi1 : (i 1).val < 256 := (i 1).isLt
  have hN : cfg0.N = 10 := N_0
  obtain ⟨t, ht⟩ : ∃ t : Fin cfg0.N, t.val = (i 0).val / 2000 := ⟨⟨(i 0).val / 2000, by rw [hN]; omega⟩, rfl⟩
  obtain ⟨e00, e01, e10, e11, e20, e21, e30, e31, e40, e50, e51, e60, e61, e70, e71⟩ := idx t
  refine ⟨t, flush0_6 t, ?_⟩
  rw [mem_blk6]
  intro a
  match a with
  | ⟨0, _⟩ => show win0_6.index t (0 : Fin 2) * 2000 ≤ (i 0).val ∧ (i 0).val < win0_6.index t (0 : Fin 2) * 2000 + 2000; rw [e60, ht]; omega
  | ⟨1, _⟩ => show win0_6.index t (1 : Fin 2) * 256 ≤ (i 1).val ∧ (i 1).val < win0_6.index t (1 : Fin 2) * 256 + 256; rw [e61]; omega

theorem mem_blk7 (t : Fin cfg0.N) (i : S20000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v19_2).slice (win0_7.rect t)).set ↔ _
  rw [View.set_slice_whole, Rect.mem_set_unit]
  exact Iff.rfl

theorem cover7 (i : S20000x256.Idx) : ∃ t : Fin cfg0.N, (cfg0.win 7).flush t = true ∧ i ∈ ((cfg0.win 7).blk t).view.set := by
  have hi0 : (i 0).val < 20000 := (i 0).isLt
  have hi1 : (i 1).val < 256 := (i 1).isLt
  have hN : cfg0.N = 10 := N_0
  obtain ⟨t, ht⟩ : ∃ t : Fin cfg0.N, t.val = (i 0).val / 2000 := ⟨⟨(i 0).val / 2000, by rw [hN]; omega⟩, rfl⟩
  obtain ⟨e00, e01, e10, e11, e20, e21, e30, e31, e40, e50, e51, e60, e61, e70, e71⟩ := idx t
  refine ⟨t, flush0_7 t, ?_⟩
  rw [mem_blk7]
  intro a
  match a with
  | ⟨0, _⟩ => show win0_7.index t (0 : Fin 2) * 2000 ≤ (i 0).val ∧ (i 0).val < win0_7.index t (0 : Fin 2) * 2000 + 2000; rw [e70, ht]; omega
  | ⟨1, _⟩ => show win0_7.index t (1 : Fin 2) * 256 ≤ (i 1).val ∧ (i 1).val < win0_7.index t (1 : Fin 2) * 256 + 256; rw [e71]; omega

/-! ## The three result arrays after the region -/

/-- The query array: x·Wq + bq of the arrays the region found. -/
theorem finalQ (c : Dev nD) :
    (dat0 (F := Ideal) V c).arrAt 5 cfg0.N
      = Spec.linBiasArr (K := 256) (M := 256) (V c (Pipeline.arrRef spec0 0)) (V c (Pipeline.arrRef spec0 1)) (V c (Pipeline.arrRef spec0 4)) :=
  (dat0 (F := Ideal) V c).arrAt_eq_of_cover 5
    (Spec.linBiasArr (K := 256) (M := 256) (V c (Pipeline.arrRef spec0 0)) (V c (Pipeline.arrRef spec0 1)) (V c (Pipeline.arrRef spec0 4)))
    (fun t _ => flushedQ V c t) cover5

/-- The key array: x·Wk. -/
theorem finalK (c : Dev nD) :
    (dat0 (F := Ideal) V c).arrAt 6 cfg0.N
      = Spec.linArr (K := 256) (M := 256) (V c (Pipeline.arrRef spec0 0)) (V c (Pipeline.arrRef spec0 2)) :=
  (dat0 (F := Ideal) V c).arrAt_eq_of_cover 6
    (Spec.linArr (K := 256) (M := 256) (V c (Pipeline.arrRef spec0 0)) (V c (Pipeline.arrRef spec0 2)))
    (fun t _ => flushedK V c t) cover6

/-- The value array: x·Wv. -/
theorem finalV (c : Dev nD) :
    (dat0 (F := Ideal) V c).arrAt 7 cfg0.N
      = Spec.linArr (K := 256) (M := 256) (V c (Pipeline.arrRef spec0 0)) (V c (Pipeline.arrRef spec0 3)) :=
  (dat0 (F := Ideal) V c).arrAt_eq_of_cover 7
    (Spec.linArr (K := 256) (M := 256) (V c (Pipeline.arrRef spec0 0)) (V c (Pipeline.arrRef spec0 3)))
    (fun t _ => flushedV V c t) cover7

end Cert.KernelIdeal.RegionQkv0

end
-- ==== Proof.RegionMsgLayout.lean ====
/-
  Layout operations of the message kernel's body, read at explicit coordinates.

  A block is [2000, 256]: 2000 edges by eight heads of 32 lanes.  The body cuts the block into its eight heads
  (a slice of 32 columns), adds each head's 32 lanes up (one number per edge), stands the sums side by side as the
  eight columns of a [2000, 8] block, and later repeats each of those columns over its head's 32 lanes.  Each lemma
  here reads one of these re-arrangements at an edge r and a head, lane or column.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.KernelIdeal.RegionMsg

open Idealize.ShloMosaic Idealize.ShloMosaic.ValueIdx

/-- A block of 2000 edges by 256 columns. -/
abbrev B256 : Shape := ⟨2, ![2000, 256]⟩
/-- One head of a block: 2000 edges by 32 lanes. -/
abbrev B32 : Shape := ⟨2, ![2000, 32]⟩
/-- One number per edge and head. -/
abbrev B8 : Shape := ⟨2, ![2000, 8]⟩
/-- One column. -/
abbrev B1 : Shape := ⟨2, ![2000, 1]⟩
/-- One number per edge. -/
abbrev B0 : Shape := ⟨1, ![2000]⟩

/-- Column 32·h + d of a block. -/
def colOf (h : Fin 8) (d : Fin 32) : Fin 256 := ⟨32 * h.val + d.val, by omega⟩

section
variable {α : Type}

/-- Head h of a block, at edge r and lane d, is the block at column 32·h + d. -/
theorem headSlice_apply (h : Fin 8) (x : B256.Idx → α) (hs : B256.Slices ![0, 32 * h.val] B32) (r : Fin 2000) (d : Fin 32) :
    extractStridedSlice B32 ![0, 32 * h.val] x hs (ix2 r d) = x (ix2 r (colOf h d)) :=
  extractStridedSlice_apply _ x hs _ _ fun a => by
    match a with
    | ⟨0, _⟩ => show r.val = 0 + r.val; omega
    | ⟨1, _⟩ => show 32 * h.val + d.val = 32 * h.val + d.val; rfl

/-- Column h of a [2000, 8] block as a [2000, 1] column. -/
theorem colSlice_apply (h : Fin 8) (x : B8.Idx → α) (hs : B8.Slices ![0, h.val] B1) (r : Fin 2000) :
    extractStridedSlice B1 ![0, h.val] x hs (ix2 r (0 : Fin 1)) = x (ix2 r h) :=
  extractStridedSlice_apply _ x hs _ _ fun a => by
    match a with
    | ⟨0, _⟩ => show r.val = 0 + r.val; omega
    | ⟨1, _⟩ => show h.val = h.val + 0; omega

/-- One number per edge, stood up as a column. -/
theorem column_apply (v : B0.Idx → α) (hc : B0.ShapeCasts B1) (r : Fin 2000) :
    shapeCast B1 v hc (ix2 r (0 : Fin 1)) = v (ix1 r) :=
  shapeCast_apply v hc _ _ (by
    rw [Shape.rowMajor_val_one, Shape.rowMajor_val_two]
    show r.val = r.val * 1 + 0
    omega)

/-- A column repeated over 32 lanes. -/
theorem lanes_apply (v : B1.Idx → α) (hb : B1.Broadcasts B32) (r : Fin 2000) (d : Fin 32) :
    broadcastTo B32 v hb (ix2 r d) = v (ix2 r (0 : Fin 1)) :=
  broadcastTo_apply v hb _ _ fun a => by
    match a with
    | ⟨0, _⟩ => rfl
    | ⟨1, _⟩ => rfl

/-- Eight columns side by side, at edge r and column h: the h-th of them at r. -/
theorem cols8_apply (f : Fin 8 → (B1.Idx → α))
    (hcat : Shape.Concatenates ((List.ofFn fun n : Fin 8 => (⟨B1, f n⟩ : (s : Shape) × (s.Idx → α))).map (·.1)) B8 1)
    (r : Fin 2000) (h : Fin 8) :
    concatenate B8 1 (List.ofFn fun n : Fin 8 => (⟨B1, f n⟩ : (s : Shape) × (s.Idx → α))) hcat (ix2 r h) = f h (ix2 r (0 : Fin 1)) :=
  concatenate_ofFn_unit_apply 1 f hcat rfl rfl (ix2 r h) h rfl (ix2 r (0 : Fin 1)) fun b hb => by
    match b with
    | ⟨0, _⟩ => rfl
    | ⟨1, _⟩ => exact absurd rfl hb

/-- Eight heads side by side, at edge r and column j: head j / 32 at r and lane j % 32. -/
theorem heads8_apply (f : Fin 8 → (B32.Idx → α))
    (hcat : Shape.Concatenates ((List.ofFn fun n : Fin 8 => (⟨B32, f n⟩ : (s : Shape) × (s.Idx → α))).map (·.1)) B256 1)
    (r : Fin 2000) (j : Fin 256) :
    concatenate B256 1 (List.ofFn fun n : Fin 8 => (⟨B32, f n⟩ : (s : Shape) × (s.Idx → α))) hcat (ix2 r j)
      = f ⟨j.val / 32, by omega⟩ (ix2 r (⟨j.val % 32, Nat.mod_lt _ (by omega)⟩ : Fin 32)) :=
  concatenate_ofFn_apply 1 f hcat rfl 32 rfl (ix2 r j) ⟨j.val / 32, by omega⟩ rfl
    (ix2 r (⟨j.val % 32, Nat.mod_lt _ (by omega)⟩ : Fin 32)) rfl fun b hb => by
    match b with
    | ⟨0, _⟩ => rfl
    | ⟨1, _⟩ => exact absurd rfl hb

end

/-- The sum of a head's 32 lanes at edge r. -/
theorem laneSum_apply (src : FVec Ideal B32 .f32) (hr : B32.Reduces [1] B0) (hφ : FKind.Formats .f32)
    (hacc : (0x00000000#32 : BitVec 32) = FKind.add.neutral .f32 hφ) (r : Fin 2000) :
    multiReduction .add [1] B0 src 0x00000000#32 hr hφ hacc (ix1 r) = ∑ d : Fin 32, src (ix2 r d) := by
  refine (Ideal.multiReduction_add_single src 0x00000000#32 hr hφ hacc (ix1 r)).trans ?_
  refine Finset.sum_congr rfl fun d _ => congrArg src ?_
  funext a
  match a with
  | ⟨0, _⟩ => exact Fin.ext rfl
  | ⟨1, _⟩ => exact Fin.ext rfl

end Cert.KernelIdeal.RegionMsg

end
-- ==== Proof.RegionMsgPay.lean ====
/-
  The message kernel's arithmetic on one block, read at an edge and a column.

  A block holds 2000 edges.  From the key, query and relation blocks k, q, e the body forms p = (k + e) · q, adds
  each head's 32 lanes of p up, divides by a constant, clamps to [-10, 10] and exponentiates: the weight of edge r
  in head h.  From the value block v it forms (v + e) times the weight of the column's head.  The two theorems at
  the end say this of the two stored blocks against the whole arrays the blocks are cut from: if every block entry
  (r, j) is the array's entry (2000·T + r, j), the stored entries are the specification's at that row.
-/
import proofs.«175432_j21457656611019_1_alg».proof.Proof.Gen.KernelIdeal.Skeleton
import proofs.«175432_j21457656611019_1_alg».proof.Proof.Spec
import proofs.«175432_j21457656611019_1_alg».proof.Proof.RegionMsgLayout

noncomputable section

open scoped BigOperators

namespace Cert.KernelIdeal.RegionMsg

open Idealize.ShloMosaic Idealize.ShloMosaic.ValueIdx Cert.KernelIdeal Cert.KernelIdeal.Facts₀ Cert.KernelIdeal.Facts

/-- Head n's 32 columns lie inside the block. -/
theorem headSlices (n : Fin 8) : S2000x256.Slices ![0, 32 * n.val] S2000x32 := ⟨rfl, fun a => by
  match a with
  | ⟨0, _⟩ => show 0 + 2000 ≤ 2000; omega
  | ⟨1, _⟩ => show 32 * n.val + 32 ≤ 256; omega⟩

/-- Column n lies inside the [2000, 8] block. -/
theorem colSlices (n : Fin 8) : S2000x8.Slices ![0, n.val] S2000x1 := ⟨rfl, fun a => by
  match a with
  | ⟨0, _⟩ => show 0 + 2000 ≤ 2000; omega
  | ⟨1, _⟩ => show n.val + 1 ≤ 8; omega⟩

/-- The sum of head n's lanes of p, one number per edge, as a column. -/
def headCol (p : FVec Ideal S2000x256 .f32) (n : Fin 8) : S2000x1.Idx → EReal :=
  shapeCast S2000x1 (multiReduction (F := Ideal) .add [1] S2000 (extractStridedSlice S2000x32 ![0, 32 * n.val] p (headSlices n))
    0x00000000#32 reduces_S2000x32_S2000 (.inl rfl) rfl) shapeCasts_S2000_S2000x1

theorem headCol_apply (p : FVec Ideal S2000x256 .f32) (n : Fin 8) (r : Fin 2000) :
    headCol p n (ix2 r (0 : Fin 1)) = ∑ d : Fin 32, p (ix2 r (colOf n d)) := by
  unfold headCol
  refine (column_apply _ _ r).trans ?_
  refine (laneSum_apply _ _ _ _ r).trans ?_
  exact Finset.sum_congr rfl fun d _ => headSlice_apply n p (headSlices n) r d

/-- Column n of s repeated over head n's 32 lanes. -/
def headRep (s : FVec Ideal S2000x8 .f32) (n : Fin 8) : S2000x32.Idx → EReal :=
  broadcastTo S2000x32 (shapeCast S2000x1 (extractStridedSlice S2000x1 ![0, n.val] s (colSlices n)) shapeCasts_S2000x1_S2000x1)
    broadcasts_S2000x1_S2000x32

theorem headRep_apply (s : FVec Ideal S2000x8 .f32) (n : Fin 8) (r : Fin 2000) (d : Fin 32) :
    headRep s n (ix2 r d) = s (ix2 r n) := by
  unfold headRep
  refine (lanes_apply _ _ r d).trans ?_
  rw [shapeCast_self]
  exact colSlice_apply n s (colSlices n) r

/-- (k + e) · q as the body forms it. -/
def prodBlk (k q e : FVec Ideal S2000x256 .bf16) : FVec Ideal S2000x256 .f32 :=
  mulf (addf (extf .f32 (shapeCast S2000x256 k shapeCasts_S2000x256_S2000x256) bitsLt_bf16_f32) (Gen.k1_pay4 e))
    (extf .f32 (shapeCast S2000x256 q shapeCasts_S2000x256_S2000x256) bitsLt_bf16_f32)

theorem prodBlk_apply (k q e : FVec Ideal S2000x256 .bf16) (i : S2000x256.Idx) :
    prodBlk k q e i = (k i + e i) * q i := by
  unfold prodBlk Gen.k1_pay4
  simp only [shapeCast_self]
  rfl

/-- The scaled score block: the eight lane sums of p side by side, over the constant. -/
theorem pay5_eq (k q e : FVec Ideal S2000x256 .bf16) :
    Gen.k1_pay5 (F := Ideal) k q e = fun i => Ideal.div
      (concatenate S2000x8 1 (List.ofFn fun n : Fin 8 => (⟨S2000x1, headCol (prodBlk k q e) n⟩ : (s : Shape) × (s.Idx → EReal)))
        concatenates_S2000x1_S2000x1_S2000x1_S2000x1_S2000x1_S2000x1_S2000x1_S2000x1_S2000x8_d1 i)
      (Ideal.ofBits .f32 0x40B504F3#32) := rfl

/-- The scaled score of edge r in head h. -/
theorem pay5_apply (k q e : FVec Ideal S2000x256 .bf16) (r : Fin 2000) (h : Fin 8) :
    Gen.k1_pay5 (F := Ideal) k q e (ix2 r h)
      = Ideal.div (∑ d : Fin 32, (k (ix2 r (colOf h d)) + e (ix2 r (colOf h d))) * q (ix2 r (colOf h d)))
          (Ideal.ofBits .f32 0x40B504F3#32) := by
  rw [pay5_eq]
  show Ideal.div _ _ = Ideal.div _ _
  congr 1
  refine (cols8_apply (fun n => headCol (prodBlk k q e) n) _ r h).trans ?_
  refine (headCol_apply _ h r).trans ?_
  exact Finset.sum_congr rfl fun d _ => prodBlk_apply k q e _

/-- The weight block, entry by entry: clamp and exponentiate. -/
theorem pay1_apply (z : FVec Ideal S2000x8 .f32) (c : Ideal .f32) (i : S2000x8.Idx) :
    Gen.k1_pay1 (F := Ideal) z c i = Ideal.exp (min (Ideal.ofBits .f32 0x41200000#32) (max c (z i))) := rfl

/-- The message block: (v + e) times the weight block's column of the head, repeated over the head's lanes. -/
theorem pay2_eq (v e : FVec Ideal S2000x256 .f32) (z : FVec Ideal S2000x8 .f32) (c : Ideal .f32) :
    Gen.k1_pay2 (F := Ideal) v e z c = fun i => (v i + e i) *
      concatenate S2000x256 1 (List.ofFn fun n : Fin 8 => (⟨S2000x32, headRep (Gen.k1_pay1 z c) n⟩ : (s : Shape) × (s.Idx → EReal)))
        concatenates_S2000x32_S2000x32_S2000x32_S2000x32_S2000x32_S2000x32_S2000x32_S2000x32_S2000x256_d1 i := rfl

theorem pay2_apply (v e : FVec Ideal S2000x256 .f32) (z : FVec Ideal S2000x8 .f32) (c : Ideal .f32) (r : Fin 2000) (j : Fin 256) :
    Gen.k1_pay2 (F := Ideal) v e z c (ix2 r j)
      = (v (ix2 r j) + e (ix2 r j)) * Gen.k1_pay1 (F := Ideal) z c (ix2 r (Cert.Spec.hd j)) := by
  rw [pay2_eq]
  show _ * _ = _ * _
  congr 1
  refine (heads8_apply (fun n => headRep (Gen.k1_pay1 z c) n) _ r j).trans ?_
  exact headRep_apply _ _ r _

/-- The weight of edge r in head h from the three blocks. -/
def blockS (k q e : FVec Ideal S2000x256 .bf16) (r : Fin 2000) (h : Fin 8) : EReal :=
  Ideal.exp (min (Ideal.ofBits .f32 0x41200000#32) (max (Ideal.ofBits .f32 0xC1200000#32)
    (Ideal.div (∑ d : Fin 32, (k (ix2 r (Cert.Spec.col h d)) + e (ix2 r (Cert.Spec.col h d))) * q (ix2 r (Cert.Spec.col h d)))
      (Ideal.ofBits .f32 0x40B504F3#32))))

/-- The stored weight block at (r, h). -/
theorem sBlock_apply (k q e : FVec Ideal S2000x256 .bf16) (r : Fin 2000) (h : Fin 8) :
    Gen.k1_pay1 (F := Ideal) (Gen.k1_pay5 k q e) (Scalar.ofBits .f32 0xC1200000#32) (ix2 r h) = blockS k q e r h := by
  rw [pay1_apply, pay5_apply]
  rfl

/-- The stored message block at (r, j). -/
theorem msgBlock_apply (k v q e : FVec Ideal S2000x256 .bf16) (r : Fin 2000) (j : Fin 256) :
    Gen.k1_pay2 (F := Ideal) (Gen.k1_pay3 v) (Gen.k1_pay4 e) (Gen.k1_pay5 k q e) (Scalar.ofBits .f32 0xC1200000#32) (ix2 r j)
      = (v (ix2 r j) + e (ix2 r j)) * blockS k q e r (Cert.Spec.hd j) := by
  rw [pay2_apply, sBlock_apply]
  unfold Gen.k1_pay3 Gen.k1_pay4
  simp only [shapeCast_self]
  rfl

/-- Row 2000·T + r of the edge arrays. -/
def erow (T : Nat) (hT : T < 320) (r : Fin 2000) : Fin 640000 := ⟨2000 * T + r.val, by omega⟩

/-- THE WEIGHT BLOCK IS THE SPECIFICATION'S ROWS: if the three blocks are rows 2000·T … 2000·T + 1999 of the arrays,
    the stored entry y is the weight array's entry at the same place. -/
theorem s_point (x0 x2 x3 : FVec Ideal S2000x256 .bf16) (A0 A2 A3 : Cert.Spec.Arr2 640000 256) (T : Nat) (hT : T < 320)
    (h0 : ∀ (r : Fin 2000) (j : Fin 256), x0 (ix2 r j) = A0 (ix2 (erow T hT r) j))
    (h2 : ∀ (r : Fin 2000) (j : Fin 256), x2 (ix2 r j) = A2 (ix2 (erow T hT r) j))
    (h3 : ∀ (r : Fin 2000) (j : Fin 256), x3 (ix2 r j) = A3 (ix2 (erow T hT r) j))
    (y : S2000x8.Idx) (i : (⟨2, ![640000, 8]⟩ : Shape).Idx) (hi0 : (i 0).val = 2000 * T + (y 0).val) (hi1 : (i 1).val = (y 1).val) :
    Gen.k1_pay1 (F := Ideal) (Gen.k1_pay5 x0 x2 x3) (Scalar.ofBits .f32 0xC1200000#32) y = Cert.Spec.sArr A0 A2 A3 i := by
  obtain ⟨r, h, rfl⟩ : ∃ (r : Fin 2000) (h : Fin 8), y = ix2 r h := ⟨y 0, y 1, eq_ix2 y⟩
  obtain ⟨a, b, rfl⟩ : ∃ (a : Fin 640000) (b : Fin 8), i = ix2 a b := ⟨i 0, i 1, eq_ix2 i⟩
  obtain rfl : a = erow T hT r := Fin.ext hi0
  obtain rfl : b = h := Fin.ext hi1
  rw [sBlock_apply]
  unfold blockS Cert.Spec.sArr Cert.Spec.sAt
  simp only [h0, h2, h3, Cert.Spec.r0_ix2, Cert.Spec.r1_ix2]

/-- THE MESSAGE BLOCK IS THE SPECIFICATION'S ROWS, likewise. -/
theorem msg_point (x0 x1 x2 x3 : FVec Ideal S2000x256 .bf16) (A0 A1 A2 A3 : Cert.Spec.Arr2 640000 256) (T : Nat) (hT : T < 320)
    (h0 : ∀ (r : Fin 2000) (j : Fin 256), x0 (ix2 r j) = A0 (ix2 (erow T hT r) j))
    (h1 : ∀ (r : Fin 2000) (j : Fin 256), x1 (ix2 r j) = A1 (ix2 (erow T hT r) j))
    (h2 : ∀ (r : Fin 2000) (j : Fin 256), x2 (ix2 r j) = A2 (ix2 (erow T hT r) j))
    (h3 : ∀ (r : Fin 2000) (j : Fin 256), x3 (ix2 r j) = A3 (ix2 (erow T hT r) j))
    (y : S2000x256.Idx) (i : (⟨2, ![640000, 256]⟩ : Shape).Idx) (hi0 : (i 0).val = 2000 * T + (y 0).val) (hi1 : (i 1).val = (y 1).val) :
    Gen.k1_pay2 (F := Ideal) (Gen.k1_pay3 x1) (Gen.k1_pay4 x3) (Gen.k1_pay5 x0 x2 x3) (Scalar.ofBits .f32 0xC1200000#32) y
      = Cert.Spec.msgArr A0 A1 A2 A3 i := by
  obtain ⟨r, j, rfl⟩ : ∃ (r : Fin 2000) (j : Fin 256), y = ix2 r j := ⟨y 0, y 1, eq_ix2 y⟩
  obtain ⟨a, b, rfl⟩ : ∃ (a : Fin 640000) (b : Fin 256), i = ix2 a b := ⟨i 0, i 1, eq_ix2 i⟩
  obtain rfl : a = erow T hT r := Fin.ext hi0
  obtain rfl : b = j := Fin.ext hi1
  rw [msgBlock_apply]
  unfold blockS Cert.Spec.msgArr Cert.Spec.sAt
  simp only [h0, h1, h2, h3, Cert.Spec.r0_ix2, Cert.Spec.r1_ix2]

end Cert.KernelIdeal.RegionMsg

end
-- ==== Proof.RegionMsgBlocks.lean ====
/-
  From blocks to arrays: the message kernel over its grid of 320 points, first layer.

  Point t reads rows 2000·t … 2000·t + 1999 of the key, value, query and relation arrays and writes the same rows of
  the message array [640000, 256] and of the weight array [640000, 8].  Each written block is those rows of ONE
  function of the four input arrays (the specification's message and weight arrays), and the 320 blocks cover every
  row, so the two arrays end holding that function.
-/
import proofs.«175432_j21457656611019_1_alg».proof.Proof.Gen.KernelIdeal.Frame
import proofs.«175432_j21457656611019_1_alg».proof.Proof.RegionMsgPay
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RegionMsg

open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-! ## Region 1 -/

/-- Every window's block at point t is block row t, block column 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem tlt1 (t : Fin cfg1.N) : t.val < 320 := by
  have h := t.isLt
  have hN : cfg1.N = 320 := N_1
  omega

/-- Input block 0 at point t is rows 2000·t … 2000·t + 1999 of its array. -/
theorem iblk1_0_apply (c : Dev nD) (t : Fin cfg1.N) (r : Fin 2000) (j : Fin 256) :
    (iblk1 V c 0 t : FVec Ideal S2000x256 .bf16) (ix2 r j)
      = (V c (Pipeline.arrRef spec1 0) : Cert.Spec.Arr2 640000 256) (ix2 (erow t.val (tlt1 t) r) j) := by
  obtain ⟨e0, e1, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 2000 + 1 * r.val = 2000 * t.val + r.val; rw [e0]; omega
  | ⟨1, _⟩ => show win1_0.index t (1 : Fin 2) * 256 + 1 * j.val = j.val; rw [e1]; omega

/-- Input block 1 at point t is rows 2000·t … 2000·t + 1999 of its array. -/
theorem iblk1_1_apply (c : Dev nD) (t : Fin cfg1.N) (r : Fin 2000) (j : Fin 256) :
    (iblk1 V c 1 t : FVec Ideal S2000x256 .bf16) (ix2 r j)
      = (V c (Pipeline.arrRef spec1 1) : Cert.Spec.Arr2 640000 256) (ix2 (erow t.val (tlt1 t) r) j) := by
  obtain ⟨-, -, e0, e1, -⟩ := idx_facts1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 2000 + 1 * r.val = 2000 * t.val + r.val; rw [e0]; omega
  | ⟨1, _⟩ => show win1_1.index t (1 : Fin 2) * 256 + 1 * j.val = j.val; rw [e1]; omega

/-- Input block 2 at point t is rows 2000·t … 2000·t + 1999 of its array. -/
theorem iblk1_2_apply (c : Dev nD) (t : Fin cfg1.N) (r : Fin 2000) (j : Fin 256) :
    (iblk1 V c 2 t : FVec Ideal S2000x256 .bf16) (ix2 r j)
      = (V c (Pipeline.arrRef spec1 2) : Cert.Spec.Arr2 640000 256) (ix2 (erow t.val (tlt1 t) r) j) := by
  obtain ⟨-, -, -, -, e0, e1, -⟩ := idx_facts1 t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 2000 + 1 * r.val = 2000 * t.val + r.val; rw [e0]; omega
  | ⟨1, _⟩ => show win1_2.index t (1 : Fin 2) * 256 + 1 * j.val = j.val; rw [e1]; omega

/-- Input block 3 at point t is rows 2000·t … 2000·t + 1999 of its array. -/
theorem iblk1_3_apply (c : Dev nD) (t : Fin cfg1.N) (r : Fin 2000) (j : Fin 256) :
    (iblk1 V c 3 t : FVec Ideal S2000x256 .bf16) (ix2 r j)
      = (V c (Pipeline.arrRef spec1 3) : Cert.Spec.Arr2 640000 256) (ix2 (erow t.val (tlt1 t) r) j) := by
  obtain ⟨-, -, -, -, -, -, e0, e1, -⟩ := idx_facts1 t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 2000 + 1 * r.val = 2000 * t.val + r.val; rw [e0]; omega
  | ⟨1, _⟩ => show win1_3.index t (1 : Fin 2) * 256 + 1 * j.val = j.val; rw [e1]; omega

/-- The message array the region leaves: the specification's, of the four arrays as the region finds them. -/
abbrev msgOf1 (c : Dev nD) : Cert.Spec.Arr2 640000 256 :=
  Cert.Spec.msgArr (V c (Pipeline.arrRef spec1 0)) (V c (Pipeline.arrRef spec1 1)) (V c (Pipeline.arrRef spec1 2)) (V c (Pipeline.arrRef spec1 3))

/-- The weight array the region leaves. -/
abbrev sOf1 (c : Dev nD) : Cert.Spec.Arr2 640000 8 :=
  Cert.Spec.sArr (V c (Pipeline.arrRef spec1 0)) (V c (Pipeline.arrRef spec1 2)) (V c (Pipeline.arrRef spec1 3))

/-- WHAT POINT t WRITES BACK to the message array is block t of the specification's message array. -/
theorem flushed1_4_eq (c : Dev nD) (t : Fin cfg1.N) :
    (dat1 (F := Ideal) V c).flushed 4 t = ((cfg1.win 4).blk t).view.read (Elt Ideal) (msgOf1 V c) := by
  show (cfg1.win 4).cut (grid1.coords t) ((dat1 V c).after 4 t) = _
  rw [after1_4]
  unfold out1_4
  rw [View.canon_unit_zero hz1]
  simp only [View.ld_unit_zero (S := S2000x256) hz1]
  obtain ⟨-, -, -, -, -, -, -, -, e0, e1, -⟩ := idx_facts1 t
  funext y
  refine msg_point (iblk1 V c 0 t) (iblk1 V c 1 t) (iblk1 V c 2 t) (iblk1 V c 3 t)
    (V c (Pipeline.arrRef spec1 0)) (V c (Pipeline.arrRef spec1 1)) (V c (Pipeline.arrRef spec1 2)) (V c (Pipeline.arrRef spec1 3))
    t.val (tlt1 t) (iblk1_0_apply V c t) (iblk1_1_apply V c t) (iblk1_2_apply V c t) (iblk1_3_apply V c t)
    y (((cfg1.win 4).blk t).view.emb y) ?_ ?_
  · show win1_4.index t (0 : Fin 2) * 2000 + 1 * (y 0).val = 2000 * t.val + (y 0).val; rw [e0]; omega
  · show win1_4.index t (1 : Fin 2) * 256 + 1 * (y 1).val = (y 1).val; rw [e1]; omega

/-- WHAT POINT t WRITES BACK to the weight array is block t of the specification's weight array. -/
theorem flushed1_5_eq (c : Dev nD) (t : Fin cfg1.N) :
    (dat1 (F := Ideal) V c).flushed 5 t = ((cfg1.win 5).blk t).view.read (Elt Ideal) (sOf1 V c) := by
  show (cfg1.win 5).cut (grid1.coords t) ((dat1 V c).after 5 t) = _
  rw [after1_5]
  unfold out1_5
  rw [View.canon_unit_zero hz1]
  simp only [View.ld_unit_zero (S := S2000x256) hz1]
  obtain ⟨-, -, -, -, -, -, -, -, -, -, e0, e1⟩ := idx_facts1 t
  funext y
  refine s_point (iblk1 V c 0 t) (iblk1 V c 2 t) (iblk1 V c 3 t)
    (V c (Pipeline.arrRef spec1 0)) (V c (Pipeline.arrRef spec1 2)) (V c (Pipeline.arrRef spec1 3))
    t.val (tlt1 t) (iblk1_0_apply V c t) (iblk1_2_apply V c t) (iblk1_3_apply V c t)
    y (((cfg1.win 5).blk t).view.emb y) ?_ ?_
  · show win1_5.index t (0 : Fin 2) * 2000 + 1 * (y 0).val = 2000 * t.val + (y 0).val; rw [e0]; omega
  · show win1_5.index t (1 : Fin 2) * 8 + 1 * (y 1).val = (y 1).val; rw [e1]; omega

/-- A row of the message array is in point t's block iff it is one of rows 2000·t … 2000·t + 1999. -/
theorem mem_blk1_4 (t : Fin cfg1.N) (i : S640000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v41_0).slice (win1_4.rect t)).set ↔ _
  rw [View.set_slice_whole, Rect.mem_set_unit]
  exact Iff.rfl

theorem mem_blk1_5 (t : Fin cfg1.N) (i : S640000x8.Idx) :
    i ∈ ((cfg1.win 5).blk t).view.set ↔ ∀ a : Fin 2, win1_5.index t a * S2000x8.size a ≤ (i a).val ∧ (i a).val < win1_5.index t a * S2000x8.size a + S2000x8.size a := by
  show i ∈ ((View.whole main_v41_1).slice (win1_5.rect t)).set ↔ _
  rw [View.set_slice_whole, Rect.mem_set_unit]
  exact Iff.rfl

/-- Row e of the message array is written by point e / 2000. -/
theorem cover1_4 (i : S640000x256.Idx) :
    ∃ t : Fin cfg1.N, (cfg1.win 4).flush t = true ∧ i ∈ ((cfg1.win 4).blk t).view.set := by
  have hN : cfg1.N = 320 := N_1
  have hi0 : (i 0).val < 640000 := idx2_lt0 i
  have hi1 : (i 1).val < 256 := idx2_lt1 i
  obtain ⟨t, ht⟩ : ∃ t : Fin cfg1.N, t.val = (i 0).val / 2000 := ⟨⟨(i 0).val / 2000, by omega⟩, rfl⟩
  obtain ⟨-, -, -, -, -, -, -, -, e0, e1, -⟩ := idx_facts1 t
  refine ⟨t, flush1_4 t, ?_⟩
  rw [mem_blk1_4]
  intro a
  match a with
  | ⟨0, _⟩ => show win1_4.index t (0 : Fin 2) * 2000 ≤ (i 0).val ∧ (i 0).val < win1_4.index t (0 : Fin 2) * 2000 + 2000; rw [e0]; omega
  | ⟨1, _⟩ => show win1_4.index t (1 : Fin 2) * 256 ≤ (i 1).val ∧ (i 1).val < win1_4.index t (1 : Fin 2) * 256 + 256; rw [e1]; omega

theorem cover1_5 (i : S640000x8.Idx) :
    ∃ t : Fin cfg1.N, (cfg1.win 5).flush t = true ∧ i ∈ ((cfg1.win 5).blk t).view.set := by
  have hN : cfg1.N = 320 := N_1
  have hi0 : (i 0).val < 640000 := idx2_lt0 i
  have hi1 : (i 1).val < 8 := idx2_lt1 i
  obtain ⟨t, ht⟩ : ∃ t : Fin cfg1.N, t.val = (i 0).val / 2000 := ⟨⟨(i 0).val / 2000, by omega⟩, rfl⟩
  obtain ⟨-, -, -, -, -, -, -, -, -, -, e0, e1⟩ := idx_facts1 t
  refine ⟨t, flush1_5 t, ?_⟩
  rw [mem_blk1_5]
  intro a
  match a with
  | ⟨0, _⟩ => show win1_5.index t (0 : Fin 2) * 2000 ≤ (i 0).val ∧ (i 0).val < win1_5.index t (0 : Fin 2) * 2000 + 2000; rw [e0]; omega
  | ⟨1, _⟩ => show win1_5.index t (1 : Fin 2) * 8 ≤ (i 1).val ∧ (i 1).val < win1_5.index t (1 : Fin 2) * 8 + 8; rw [e1]; omega

/-- THE MESSAGE ARRAY after region 1: the specification's message array of the four arrays the region finds. -/
theorem msg_final1 (c : Dev nD) :
    (dat1 (F := Ideal) V c).arrAt 4 cfg1.N
      = Cert.Spec.msgArr (V c (Pipeline.arrRef spec1 0)) (V c (Pipeline.arrRef spec1 1)) (V c (Pipeline.arrRef spec1 2)) (V c (Pipeline.arrRef spec1 3)) :=
  (dat1 (F := Ideal) V c).arrAt_eq_of_cover 4 (msgOf1 V c) (fun t _ => flushed1_4_eq V c t) cover1_4

/-- THE WEIGHT ARRAY after region 1: the specification's weight array. -/
theorem s_final1 (c : Dev nD) :
    (dat1 (F := Ideal) V c).arrAt 5 cfg1.N
      = Cert.Spec.sArr (V c (Pipeline.arrRef spec1 0)) (V c (Pipeline.arrRef spec1 2)) (V c (Pipeline.arrRef spec1 3)) :=
  (dat1 (F := Ideal) V c).arrAt_eq_of_cover 5 (sOf1 V c) (fun t _ => flushed1_5_eq V c t) cover1_5

end Cert.KernelIdeal.RegionMsg

end
-- ==== Proof.RegionFfnLayout.lean ====
/-
  Layout operations of a row-blocked body, read at an index given by coordinates.

  A row sum keeps its axis as a unit axis and is spread back over the columns: [a, b] → [a] → [a, 1] → [a, b].
  A bias row is spread down the rows: [b] → [1, b] → [a, b].  A per-head column [a, 8] is repeated over the 32 lanes
  of each head by cutting its eight columns, spreading each over 32 columns and laying the eight pieces side by side.
  Each lemma reads one of these at (r, j).
-/
import Idealize.ShloMosaic.PureOps.Ideal.Laws
import Idealize.ShloMosaic.Lib.ValueLayout

noncomputable section

open scoped BigOperators

namespace Cert.KernelIdeal.RegionFfn

open Idealize.ShloMosaic Idealize.ShloMosaic.ValueIdx

variable {α : Type}

/-- A vector [a] cast to a column [a, 1] reads, at (r, 0), the vector at r. -/
theorem cast_col_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] spread over b columns reads, at (r, c), the column at (r, 0). -/
theorem bcast_col_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A vector [b] cast to a row [1, b] and spread down a rows reads, at (r, c), the vector at c. -/
theorem bias_row_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (r : Fin a) (c : Fin b) :
    broadcastTo ⟨2, ![a, b]⟩ (shapeCast ⟨2, ![1, b]⟩ x h1) h2 (ix2 r c) = x (ix1 c) :=
  (broadcastTo_1b_ab_apply _ h2 r c).trans (shapeCast_a_1a_apply x h1 0 c)

/-- The sum of a matrix [a, b] over its columns, at row r, is the finite sum of the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src _ h hφ hacc (ix1 r)).trans ?_
  show ∑ k : Fin b, src (h.lift (ix1 r) k) = _
  refine Finset.sum_congr rfl fun k _ => congrArg src ?_
  funext c
  apply Fin.ext
  match c with
  | ⟨0, _⟩ => rfl
  | ⟨1, _⟩ => rfl

/-- Eight pieces [a, 32] laid side by side along the columns read, at (r, j), piece j / 32 at (r, j % 32). -/
theorem concat8_apply {a : ℕ} (g : Fin 8 → ((⟨2, ![a, 32]⟩ : Shape).Idx → α))
    (h : Shape.Concatenates ((List.ofFn fun n : Fin 8 => (⟨⟨2, ![a, 32]⟩, g n⟩ : (s : Shape) × (s.Idx → α))).map (·.1)) ⟨2, ![a, 256]⟩ 1)
    (r : Fin a) (j : Fin 256) :
    concatenate ⟨2, ![a, 256]⟩ 1 (List.ofFn fun n : Fin 8 => (⟨⟨2, ![a, 32]⟩, g n⟩ : (s : Shape) × (s.Idx → α))) h (ix2 r j)
      = g ⟨j.val / 32, by omega⟩ (ix2 r ⟨j.val % 32, Nat.mod_lt _ (by omega)⟩) :=
  concatenate_ofFn_apply (t := ⟨2, ![a, 256]⟩) (s₁ := ⟨2, ![a, 32]⟩) (1 : Fin 2) g h rfl 32 rfl (ix2 r j) ⟨j.val / 32, by omega⟩ rfl
    (ix2 r ⟨j.val % 32, Nat.mod_lt _ (by omega)⟩) rfl
    (fun b hb => by
      match b with
      | ⟨0, _⟩ => rfl
      | ⟨1, _⟩ => exact absurd rfl hb)

/-- Column n of a matrix [a, 8], cut out as [a, 1] and spread over 32 columns, reads at (r, l) the matrix at (r, n). -/
theorem head_piece_apply {a : ℕ} (z : (⟨2, ![a, 8]⟩ : Shape).Idx → α) (n : Fin 8)
    (hs : (⟨2, ![a, 8]⟩ : Shape).Slices ![0, n.val] ⟨2, ![a, 1]⟩) (hc : (⟨2, ![a, 1]⟩ : Shape).ShapeCasts ⟨2, ![a, 1]⟩)
    (hb : (⟨2, ![a, 1]⟩ : Shape).Broadcasts ⟨2, ![a, 32]⟩) (r : Fin a) (l : Fin 32) :
    broadcastTo ⟨2, ![a, 32]⟩ (shapeCast ⟨2, ![a, 1]⟩ (extractStridedSlice ⟨2, ![a, 1]⟩ ![0, n.val] z hs) hc) hb (ix2 r l)
      = z (ix2 r n) := by
  rw [shapeCast_self]
  exact (bcast_col_apply _ hb r l).trans (slice2_axis1_apply n.val z hs r (0 : Fin 1) n rfl)

end Cert.KernelIdeal.RegionFfn

end
-- ==== Proof.RegionFfnDots.lean ====
/-
  The three matrix products of the feed-forward body, read at an index.

  Each contracts the left operand's columns with the right operand's rows into a zero accumulator, so at (p, q) it is
  the finite sum over k of l[p, k] · r[k, q].
-/
import proofs.«175432_j21457656611019_1_alg».proof.Proof.Gen.KernelIdeal
import proofs.«175432_j21457656611019_1_alg».proof.Proof.LibPlainMatmul

noncomputable section

open scoped BigOperators

namespace Cert.KernelIdeal.RegionFfn

open Idealize.ShloMosaic Idealize.ShloMosaic.ValueIdx Cert.KernelIdeal

/-- [1000, 256] · [256, 256]. -/
theorem mm_proj_apply {φ₁ φ₂ : FTy} (l : FVec Ideal S1000x256 φ₁) (r : FVec Ideal S256x256 φ₂) (p : Fin 1000) (q : Fin 256) :
    matmul dot_S1000x256_S256x256_S1000x256_1_0_0_1_n_n none l r (constant (F := Ideal) S1000x256 .f32 0x00000000#32) (ix2 p q)
      = ∑ k : Fin 256, l (ix2 p k) * r (ix2 k q) :=
  PlainMatmul.matmul_zero_apply dot_S1000x256_S256x256_S1000x256_1_0_0_1_n_n none rfl rfl
    (fun _ _ => rfl)
    (fun i k => DotDims.lhsIdx_val_of_single dot_S1000x256_S256x256_S1000x256_1_0_0_1_n_n rfl i k)
    (fun i k => DotDims.rhsIdx_val_of_single dot_S1000x256_S256x256_S1000x256_1_0_0_1_n_n rfl i k)
    (fun _ _ => rfl) l r p q

/-- [1000, 256] · [256, 1024]. -/
theorem mm_up_apply {φ₁ φ₂ : FTy} (l : FVec Ideal S1000x256 φ₁) (r : FVec Ideal S256x1024 φ₂) (p : Fin 1000) (q : Fin 1024) :
    matmul dot_S1000x256_S256x1024_S1000x1024_1_0_0_1_n_n none l r (constant (F := Ideal) S1000x1024 .f32 0x00000000#32) (ix2 p q)
      = ∑ k : Fin 256, l (ix2 p k) * r (ix2 k q) :=
  PlainMatmul.matmul_zero_apply dot_S1000x256_S256x1024_S1000x1024_1_0_0_1_n_n none rfl rfl
    (fun _ _ => rfl)
    (fun i k => DotDims.lhsIdx_val_of_single dot_S1000x256_S256x1024_S1000x1024_1_0_0_1_n_n rfl i k)
    (fun i k => DotDims.rhsIdx_val_of_single dot_S1000x256_S256x1024_S1000x1024_1_0_0_1_n_n rfl i k)
    (fun _ _ => rfl) l r p q

/-- [1000, 1024] · [1024, 256]. -/
theorem mm_down_apply {φ₁ φ₂ : FTy} (l : FVec Ideal S1000x1024 φ₁) (r : FVec Ideal S1024x256 φ₂) (p : Fin 1000) (q : Fin 256) :
    matmul dot_S1000x1024_S1024x256_S1000x256_1_0_0_1_n_n none l r (constant (F := Ideal) S1000x256 .f32 0x00000000#32) (ix2 p q)
      = ∑ k : Fin 1024, l (ix2 p k) * r (ix2 k q) :=
  PlainMatmul.matmul_zero_apply dot_S1000x1024_S1024x256_S1000x256_1_0_0_1_n_n none rfl rfl
    (fun _ _ => rfl)
    (fun i k => DotDims.lhsIdx_val_of_single dot_S1000x1024_S1024x256_S1000x256_1_0_0_1_n_n rfl i k)
    (fun i k => DotDims.rhsIdx_val_of_single dot_S1000x1024_S1024x256_S1000x256_1_0_0_1_n_n rfl i k)
    (fun _ _ => rfl) l r p q

end Cert.KernelIdeal.RegionFfn

end
-- ==== Proof.RegionFfnPayA.lean ====
/-
  The first stretch of the feed-forward body at an index: the attention quotient, its projection, and the residual.

  The aggregated weights z : [1000, 8] are repeated over the 32 lanes of each head (eight columns cut out, each spread
  over 32 columns, the pieces laid side by side), bounded below by a constant; the aggregated messages are divided by
  that; the quotient goes through a matrix product with a bias row spread down the rows, and x is added.
-/
import proofs.«175432_j21457656611019_1_alg».proof.Proof.Gen.KernelIdeal.Skeleton
import proofs.«175432_j21457656611019_1_alg».proof.Proof.RegionFfnLayout
import proofs.«175432_j21457656611019_1_alg».proof.Proof.RegionFfnDots
import proofs.«175432_j21457656611019_1_alg».proof.Proof.Spec

noncomputable section

open scoped BigOperators

namespace Cert.KernelIdeal.RegionFfn

open Idealize.ShloMosaic Idealize.ShloMosaic.ValueIdx Cert.KernelIdeal Cert.KernelIdeal.Gen

/-- The eight pieces of the repeated weights, as a function of the head. -/
def zPiece (z : Vec Ideal S1000x8 .f32) : Fin 8 → FVec Ideal S1000x32 .f32 :=
  ![broadcastTo S1000x32 (shapeCast S1000x1 (extractStridedSlice S1000x1 ![0, 0] z slices_S1000x8_o0_0_S1000x1) shapeCasts_S1000x1_S1000x1) broadcasts_S1000x1_S1000x32,
    broadcastTo S1000x32 (shapeCast S1000x1 (extractStridedSlice S1000x1 ![0, 1] z slices_S1000x8_o0_1_S1000x1) shapeCasts_S1000x1_S1000x1) broadcasts_S1000x1_S1000x32,
    broadcastTo S1000x32 (shapeCast S1000x1 (extractStridedSlice S1000x1 ![0, 2] z slices_S1000x8_o0_2_S1000x1) shapeCasts_S1000x1_S1000x1) broadcasts_S1000x1_S1000x32,
    broadcastTo S1000x32 (shapeCast S1000x1 (extractStridedSlice S1000x1 ![0, 3] z slices_S1000x8_o0_3_S1000x1) shapeCasts_S1000x1_S1000x1) broadcasts_S1000x1_S1000x32,
    broadcastTo S1000x32 (shapeCast S1000x1 (extractStridedSlice S1000x1 ![0, 4] z slices_S1000x8_o0_4_S1000x1) shapeCasts_S1000x1_S1000x1) broadcasts_S1000x1_S1000x32,
    broadcastTo S1000x32 (shapeCast S1000x1 (extractStridedSlice S1000x1 ![0, 5] z slices_S1000x8_o0_5_S1000x1) shapeCasts_S1000x1_S1000x1) broadcasts_S1000x1_S1000x32,
    broadcastTo S1000x32 (shapeCast S1000x1 (extractStridedSlice S1000x1 ![0, 6] z slices_S1000x8_o0_6_S1000x1) shapeCasts_S1000x1_S1000x1) broadcasts_S1000x1_S1000x32,
    broadcastTo S1000x32 (shapeCast S1000x1 (extractStridedSlice S1000x1 ![0, 7] z slices_S1000x8_o0_7_S1000x1) shapeCasts_S1000x1_S1000x1) broadcasts_S1000x1_S1000x32]

/-- Piece n at (r, l) is z at (r, n). -/
theorem zPiece_apply (z : Vec Ideal S1000x8 .f32) (n : Fin 8) (r : Fin 1000) (l : Fin 32) :
    zPiece z n (ix2 r l) = z (ix2 r n) := by
  fin_cases n
  · exact head_piece_apply z (0 : Fin 8) slices_S1000x8_o0_0_S1000x1 shapeCasts_S1000x1_S1000x1 broadcasts_S1000x1_S1000x32 r l
  · exact head_piece_apply z (1 : Fin 8) slices_S1000x8_o0_1_S1000x1 shapeCasts_S1000x1_S1000x1 broadcasts_S1000x1_S1000x32 r l
  · exact head_piece_apply z (2 : Fin 8) slices_S1000x8_o0_2_S1000x1 shapeCasts_S1000x1_S1000x1 broadcasts_S1000x1_S1000x32 r l
  · exact head_piece_apply z (3 : Fin 8) slices_S1000x8_o0_3_S1000x1 shapeCasts_S1000x1_S1000x1 broadcasts_S1000x1_S1000x32 r l
  · exact head_piece_apply z (4 : Fin 8) slices_S1000x8_o0_4_S1000x1 shapeCasts_S1000x1_S1000x1 broadcasts_S1000x1_S1000x32 r l
  · exact head_piece_apply z (5 : Fin 8) slices_S1000x8_o0_5_S1000x1 shapeCasts_S1000x1_S1000x1 broadcasts_S1000x1_S1000x32 r l
  · exact head_piece_apply z (6 : Fin 8) slices_S1000x8_o0_6_S1000x1 shapeCasts_S1000x1_S1000x1 broadcasts_S1000x1_S1000x32 r l
  · exact head_piece_apply z (7 : Fin 8) slices_S1000x8_o0_7_S1000x1 shapeCasts_S1000x1_S1000x1 broadcasts_S1000x1_S1000x32 r l

/-- The eight pieces side by side read, at (r, j), z at (r, j / 32). -/
theorem zcat_apply (z : Vec Ideal S1000x8 .f32)
    (h : Shape.Concatenates ((List.ofFn fun n : Fin 8 => (⟨S1000x32, zPiece z n⟩ : (s : Shape) × (s.Idx → EReal))).map (·.1)) S1000x256 1)
    (r : Fin 1000) (j : Fin 256) :
    concatenate S1000x256 1 (List.ofFn fun n : Fin 8 => (⟨S1000x32, zPiece z n⟩ : (s : Shape) × (s.Idx → EReal))) h (ix2 r j)
      = z (ix2 r (Spec.hd j)) :=
  (concat8_apply (zPiece z) h r j).trans (zPiece_apply z _ r _)

/-- The first stretch at (r, j). -/
theorem pay2_apply (v0 v1 : Vec Ideal S1000x256 .f32) (v3 : Vec Ideal S1000x8 .f32) (v33 : Vec Ideal S256x256 .f32)
    (v38 : Vec Ideal S256 .f32) (r : Fin 1000) (j : Fin 256) :
    k2_pay2 (F := Ideal) v0 v1 v3 v33 v38 (ix2 r j)
      = v0 (ix2 r j) + ((∑ k : Fin 256, Ideal.div (v1 (ix2 r k)) (max (v3 (ix2 r (Spec.hd k))) (Ideal.ofBits .f32 0x322BCC77#32))
            * v33 (ix2 k j)) + v38 (ix1 j)) := by
  unfold k2_pay2
  simp only [shapeCast_self]
  refine congrArg (fun t => v0 (ix2 r j) + t) ?_
  refine congrArg₂ (fun s t => s + t) ?_ (bias_row_apply v38 shapeCasts_S256_S1x256 broadcasts_S1x256_S1000x256 r j)
  refine (mm_proj_apply _ _ r j).trans ?_
  refine Finset.sum_congr rfl fun k _ => ?_
  refine congrArg (fun t => Ideal.div (v1 (ix2 r k)) (max t (Ideal.ofBits .f32 0x322BCC77#32)) * v33 (ix2 k j)) ?_
  exact (zcat_apply (shapeCast S1000x8 v3 shapeCasts_S1000x8_S1000x8)
    concatenates_S1000x32_S1000x32_S1000x32_S1000x32_S1000x32_S1000x32_S1000x32_S1000x32_S1000x256_d1 r k).trans
    (congrFun (shapeCast_self v3 shapeCasts_S1000x8_S1000x8) (ix2 r (Spec.hd k)))

end Cert.KernelIdeal.RegionFfn

end
-- ==== Proof.RegionFfnNorm.lean ====
/-
  The normalisation of a row block as the body spells it, read at an index.

  The row sum is kept as a column [a, 1], divided by the constant 256, and spread back over the 256 columns; the
  deviations are squared, summed and divided the same way; a constant is added, the inverse square root taken and
  spread over the columns; the scale and shift rows are spread down the rows.  At (r, j) this is the normalisation
  of row r at column j.
-/
import proofs.«175432_j21457656611019_1_alg».proof.Proof.RegionFfnLayout
import proofs.«175432_j21457656611019_1_alg».proof.Proof.Spec

noncomputable section

open scoped BigOperators

namespace Cert.KernelIdeal.RegionFfn

open Idealize.ShloMosaic Idealize.ShloMosaic.ValueIdx

/-- The column of row means: the row sums over the constant 256. -/
def meanCol {a b : ℕ} (x : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) : FVec Ideal ⟨2, ![a, 1]⟩ .f32 :=
  divf (shapeCast ⟨2, ![a, 1]⟩ (multiReduction .add [1] ⟨1, ![a]⟩ x 0x00000000#32 hR hφ hacc) hC)
    (broadcast ⟨2, ![a, 1]⟩ (FloatOps.ofBits (F := Ideal) .f32 0x43800000#32))

theorem meanCol_apply {a b : ℕ} (x : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (r : Fin a) (u : Fin 1) :
    meanCol x hR hφ hacc hC (ix2 r u) = Ideal.div (∑ k : Fin b, x (ix2 r k)) (Ideal.ofBits .f32 0x43800000#32) :=
  congrArg (fun t => Ideal.div t (Ideal.ofBits .f32 0x43800000#32))
    ((cast_col_apply _ hC r u).trans (rowSum_apply x hR hφ hacc r))

/-- The normalisation of a block [a, 256] with scale g and shift b. -/
def normBlock {a : ℕ} (x : FVec Ideal ⟨2, ![a, 256]⟩ .f32) (g b : FVec Ideal ⟨1, ![256]⟩ .f32)
    (hR : (⟨2, ![a, 256]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, 256]⟩)
    (hC1 : (⟨1, ![256]⟩ : Shape).ShapeCasts ⟨2, ![1, 256]⟩) (hB1 : (⟨2, ![1, 256]⟩ : Shape).Broadcasts ⟨2, ![a, 256]⟩) :
    FVec Ideal ⟨2, ![a, 256]⟩ .f32 :=
  addf (mulf (mulf (subf x (broadcastTo ⟨2, ![a, 256]⟩ (meanCol x hR hφ hacc hC) hB))
      (broadcastTo ⟨2, ![a, 256]⟩ (rsqrt (addf
        (meanCol (mulf (subf x (broadcastTo ⟨2, ![a, 256]⟩ (meanCol x hR hφ hacc hC) hB))
          (subf x (broadcastTo ⟨2, ![a, 256]⟩ (meanCol x hR hφ hacc hC) hB))) hR hφ hacc hC)
        (broadcast ⟨2, ![a, 1]⟩ (FloatOps.ofBits (F := Ideal) .f32 0x3727C5AC#32)))) hB))
    (broadcastTo ⟨2, ![a, 256]⟩ (shapeCast ⟨2, ![1, 256]⟩ g hC1) hB1))
    (broadcastTo ⟨2, ![a, 256]⟩ (shapeCast ⟨2, ![1, 256]⟩ b hC1) hB1)

theorem normBlock_apply {a : ℕ} (x : FVec Ideal ⟨2, ![a, 256]⟩ .f32) (g b : FVec Ideal ⟨1, ![256]⟩ .f32)
    (hR : (⟨2, ![a, 256]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, 256]⟩)
    (hC1 : (⟨1, ![256]⟩ : Shape).ShapeCasts ⟨2, ![1, 256]⟩) (hB1 : (⟨2, ![1, 256]⟩ : Shape).Broadcasts ⟨2, ![a, 256]⟩)
    (r : Fin a) (j : Fin 256) :
    normBlock x g b hR hφ hacc hC hB hC1 hB1 (ix2 r j) = Cert.Spec.norm (fun t => x (ix2 r t)) g b j := by
  have hmu : ∀ c : Fin 256, broadcastTo ⟨2, ![a, 256]⟩ (meanCol x hR hφ hacc hC) hB (ix2 r c)
      = Ideal.div (∑ k : Fin 256, x (ix2 r k)) (Ideal.ofBits .f32 0x43800000#32) :=
    fun c => (bcast_col_apply _ hB r c).trans (meanCol_apply x hR hφ hacc hC r 0)
  have hd : ∀ c : Fin 256, subf x (broadcastTo ⟨2, ![a, 256]⟩ (meanCol x hR hφ hacc hC) hB) (ix2 r c)
      = x (ix2 r c) - Ideal.div (∑ k : Fin 256, x (ix2 r k)) (Ideal.ofBits .f32 0x43800000#32) :=
    fun c => congrArg (fun t => x (ix2 r c) - t) (hmu c)
  have hvar : meanCol (mulf (subf x (broadcastTo ⟨2, ![a, 256]⟩ (meanCol x hR hφ hacc hC) hB))
          (subf x (broadcastTo ⟨2, ![a, 256]⟩ (meanCol x hR hφ hacc hC) hB))) hR hφ hacc hC (ix2 r (0 : Fin 1))
      = Ideal.div (∑ t : Fin 256,
            (x (ix2 r t) - Ideal.div (∑ k : Fin 256, x (ix2 r k)) (Ideal.ofBits .f32 0x43800000#32))
              * (x (ix2 r t) - Ideal.div (∑ k : Fin 256, x (ix2 r k)) (Ideal.ofBits .f32 0x43800000#32)))
          (Ideal.ofBits .f32 0x43800000#32) :=
    (meanCol_apply _ hR hφ hacc hC r 0).trans (congrArg (fun s => Ideal.div s (Ideal.ofBits .f32 0x43800000#32))
      (Finset.sum_congr rfl fun t _ => congrArg₂ (fun p q => p * q) (hd t) (hd t)))
  have hrs : broadcastTo ⟨2, ![a, 256]⟩ (rsqrt (addf
        (meanCol (mulf (subf x (broadcastTo ⟨2, ![a, 256]⟩ (meanCol x hR hφ hacc hC) hB))
          (subf x (broadcastTo ⟨2, ![a, 256]⟩ (meanCol x hR hφ hacc hC) hB))) hR hφ hacc hC)
        (broadcast ⟨2, ![a, 1]⟩ (FloatOps.ofBits (F := Ideal) .f32 0x3727C5AC#32)))) hB (ix2 r j)
      = Ideal.rsqrt (Ideal.div (∑ t : Fin 256,
            (x (ix2 r t) - Ideal.div (∑ k : Fin 256, x (ix2 r k)) (Ideal.ofBits .f32 0x43800000#32))
              * (x (ix2 r t) - Ideal.div (∑ k : Fin 256, x (ix2 r k)) (Ideal.ofBits .f32 0x43800000#32)))
          (Ideal.ofBits .f32 0x43800000#32) + Ideal.ofBits .f32 0x3727C5AC#32) :=
    (bcast_col_apply _ hB r j).trans
      (congrArg (fun s => Ideal.rsqrt (s + Ideal.ofBits .f32 0x3727C5AC#32)) hvar)
  unfold normBlock Cert.Spec.norm
  exact congrArg₂ (fun p q => p + q)
    (congrArg₂ (fun p q => p * q) (congrArg₂ (fun p q => p * q) (hd j) hrs) (bias_row_apply g hC1 hB1 r j))
    (bias_row_apply b hC1 hB1 r j)

end Cert.KernelIdeal.RegionFfn

end
-- ==== Proof.RegionFfnPayB.lean ====
/-
  The rest of the feed-forward body at an index: the first normalisation, the perceptron (two matrix products with
  a rectifier between them), the second residual, and the second normalisation.
-/
import proofs.«175432_j21457656611019_1_alg».proof.Proof.Gen.KernelIdeal.Skeleton
import proofs.«175432_j21457656611019_1_alg».proof.Proof.RegionFfnNorm
import proofs.«175432_j21457656611019_1_alg».proof.Proof.RegionFfnDots

noncomputable section

open scoped BigOperators

namespace Cert.KernelIdeal.RegionFfn

open Idealize.ShloMosaic Idealize.ShloMosaic.ValueIdx Cert.KernelIdeal Cert.KernelIdeal.Gen

/-- A vector cast to its own shape is itself. -/
theorem pay3_eq (v44 : Vec Ideal S256 .f32) : k2_pay3 (F := Ideal) v44 = v44 := by
  unfold k2_pay3
  exact shapeCast_self v44 shapeCasts_S256_S256

/-- The shift row of the second residual, cast to [1, 256], at (0, j). -/
theorem pay6_apply (v89 : Vec Ideal S256 .f32) (j : Fin 256) :
    k2_pay6 (F := Ideal) v89 (ix2 (0 : Fin 1) j) = v89 (ix1 j) := by
  unfold k2_pay6
  simp only [shapeCast_self]
  exact shapeCast_a_1a_apply v89 shapeCasts_S256_S1x256 0 j

/-- The first normalisation at (r, j). -/
theorem pay4_apply (v43 : FVec Ideal S1000x256 .f32) (v45 : FVec Ideal S256 .f32) (v46 : Vec Ideal S256 .f32)
    (r : Fin 1000) (j : Fin 256) :
    k2_pay4 (F := Ideal) v43 v45 v46 (ix2 r j) = Cert.Spec.norm (fun t => v43 (ix2 r t)) v45 v46 j := by
  have e : k2_pay4 (F := Ideal) v43 v45 v46 = normBlock v43 v45 v46 reduces_S1000x256_S1000 (.inl rfl) rfl
      shapeCasts_S1000_S1000x1 broadcasts_S1000x1_S1000x256 shapeCasts_S256_S1x256 broadcasts_S1x256_S1000x256 := by
    unfold k2_pay4 normBlock meanCol
    simp only [shapeCast_self]
  rw [e]
  exact normBlock_apply v43 v45 v46 _ _ _ _ _ _ _ r j

/-- The perceptron's output before its bias, at (r, j). -/
theorem pay5_apply (v43 : FVec Ideal S1000x256 .f32) (v45 : FVec Ideal S256 .f32) (v46 : Vec Ideal S256 .f32)
    (v72 : Vec Ideal S256x1024 .f32) (v77 : Vec Ideal S1024 .f32) (v84 : Vec Ideal S1024x256 .f32)
    (r : Fin 1000) (j : Fin 256) :
    k2_pay5 (F := Ideal) v43 v45 v46 v72 v77 v84 (ix2 r j)
      = ∑ t : Fin 1024, max ((∑ k : Fin 256, k2_pay4 (F := Ideal) v43 v45 v46 (ix2 r k) * v72 (ix2 k t)) + v77 (ix1 t)) 0
          * v84 (ix2 t j) := by
  unfold k2_pay5
  simp only [shapeCast_self]
  refine (mm_down_apply _ _ r j).trans ?_
  refine Finset.sum_congr rfl fun t _ => ?_
  refine congrArg (fun s => s * v84 (ix2 t j)) ?_
  exact congrArg₂ (fun p q => max p q)
    (congrArg₂ (fun p q => p + q) (mm_up_apply _ _ r t) (bias_row_apply v77 shapeCasts_S1024_S1x1024 broadcasts_S1x1024_S1000x1024 r t))
    Ideal.ofBits_zero_f32

/-- The second residual and normalisation at (r, j). -/
theorem pay1_apply (v71 v88 : FVec Ideal S1000x256 .f32) (v91 : FVec Ideal S1x256 .f32) (v95 v97 : Vec Ideal S256 .f32)
    (r : Fin 1000) (j : Fin 256) :
    k2_pay1 (F := Ideal) v71 v88 v91 v95 v97 (ix2 r j)
      = Cert.Spec.norm (fun t => v71 (ix2 r t) + (v88 (ix2 r t) + v91 (ix2 (0 : Fin 1) t))) v95 v97 j := by
  have e : k2_pay1 (F := Ideal) v71 v88 v91 v95 v97
      = normBlock (addf v71 (addf v88 (broadcastTo S1000x256 v91 broadcasts_S1x256_S1000x256))) v95 v97
          reduces_S1000x256_S1000 (.inl rfl) rfl
          shapeCasts_S1000_S1000x1 broadcasts_S1000x1_S1000x256 shapeCasts_S256_S1x256 broadcasts_S1x256_S1000x256 := by
    unfold k2_pay1 normBlock meanCol
    simp only [shapeCast_self]
  rw [e]
  refine (normBlock_apply _ v95 v97 _ _ _ _ _ _ _ r j).trans ?_
  refine congrArg (fun a => Cert.Spec.norm a v95 v97 j) (funext fun t => ?_)
  exact congrArg (fun s => v71 (ix2 r t) + (v88 (ix2 r t) + s)) (broadcastTo_1b_ab_apply v91 broadcasts_S1x256_S1000x256 r t)

end Cert.KernelIdeal.RegionFfn

end
-- ==== Proof.RegionFfnBlock.lean ====
/-
  One row of the feed-forward body's result against the specification.

  The body's one store writes the whole block.  Row r of the block is a function of row r of the three row-blocked
  inputs and of the ten whole weight arrays; when those rows are row n of the arrays x, wv, z, it is row n of
  everything after the attention quotient: projection and residual, normalisation, perceptron and residual,
  normalisation.
-/
import proofs.«175432_j21457656611019_1_alg».proof.Proof.Gen.KernelIdeal.Frame
import proofs.«175432_j21457656611019_1_alg».proof.Proof.RegionFfnPayA
import proofs.«175432_j21457656611019_1_alg».proof.Proof.RegionFfnPayB

noncomputable section

open scoped BigOperators

namespace Cert.KernelIdeal.RegionFfn

open Idealize.ShloMosaic Idealize.ShloMosaic.ValueIdx Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a; rfl

/-- The block the body leaves is its last payload of the loaded blocks. -/
theorem out2_13_eq (x0 x1 : Vec Ideal S1000x256 .f32) (x2 : Vec Ideal S1000x8 .f32) (x3 : Vec Ideal S256x256 .f32)
    (x4 x5 x6 : Vec Ideal S256 .f32) (x7 : Vec Ideal S256x1024 .f32) (x8 : Vec Ideal S1024 .f32)
    (x9 : Vec Ideal S1024x256 .f32) (x10 x11 x12 : Vec Ideal S256 .f32) :
    out2_13 (F := Ideal) x0 x1 x2 x3 x4 x5 x6 x7 x8 x9 x10 x11 x12
      = k2_pay1 (k2_pay4 (k2_pay2 x0 x1 x2 x3 x4) (k2_pay3 x5) x6)
          (k2_pay5 (k2_pay2 x0 x1 x2 x3 x4) (k2_pay3 x5) x6 x7 x8 x9) (k2_pay6 x10) x11 x12 := by
  unfold out2_13
  rw [View.canon_unit_zero hz2]
  simp only [View.ld_unit_zero (S := S1000x256) hz2, View.ld_unit_zero (S := S1000x8) hz2,
    View.ld_unit_zero (S := S256x256) hz2, View.ld_unit_zero (S := S256x1024) hz2,
    View.ld_unit_zero (S := S1024x256) hz2, View.ld_unit_zero (S := S256) hz1, View.ld_unit_zero (S := S1024) hz1]

/-- Row r of the block the body leaves, when row r of the blocked inputs is row n of x, wv, z. -/
theorem out2_13_row (X WV : Cert.Spec.Arr2 20000 256) (Z : Cert.Spec.Arr2 20000 8) (P : Cert.Spec.Params)
    (x0 x1 : Vec Ideal S1000x256 .f32) (x2 : Vec Ideal S1000x8 .f32) (x3 : Vec Ideal S256x256 .f32)
    (x4 x5 x6 : Vec Ideal S256 .f32) (x7 : Vec Ideal S256x1024 .f32) (x8 : Vec Ideal S1024 .f32)
    (x9 : Vec Ideal S1024x256 .f32) (x10 x11 x12 : Vec Ideal S256 .f32)
    (n : Fin 20000) (r : Fin 1000)
    (h0 : ∀ j : Fin 256, x0 (ix2 r j) = X (ix2 n j)) (h1 : ∀ j : Fin 256, x1 (ix2 r j) = WV (ix2 n j))
    (h2 : ∀ h : Fin 8, x2 (ix2 r h) = Z (ix2 n h))
    (h3 : x3 = P.Wo) (h4 : x4 = P.bo) (h5 : x5 = P.g1) (h6 : x6 = P.b1) (h7 : x7 = P.W1) (h8 : x8 = P.c1)
    (h9 : x9 = P.W2) (h10 : x10 = P.c2) (h11 : x11 = P.g2) (h12 : x12 = P.b2) (j : Fin 256) :
    out2_13 (F := Ideal) x0 x1 x2 x3 x4 x5 x6 x7 x8 x9 x10 x11 x12 (ix2 r j)
      = Cert.Spec.postArr X WV Z P (ix2 n j) := by
  subst h3 h4 h5 h6 h7 h8 h9 h10 h11 h12
  have hpre_eq : ∀ s : Fin 256, k2_pay2 (F := Ideal) x0 x1 x2 P.Wo P.bo (ix2 r s)
      = Cert.Spec.hpre X (Cert.Spec.oOf WV Z) P n s := by
    intro s
    rw [pay2_apply]
    unfold Cert.Spec.hpre Cert.Spec.oOf
    simp only [h0, h1, h2, Cert.Spec.r0_ix2, Cert.Spec.r1_ix2]
  have h1_eq : ∀ s : Fin 256, k2_pay4 (F := Ideal) (k2_pay2 x0 x1 x2 P.Wo P.bo) (k2_pay3 P.g1) P.b1 (ix2 r s)
      = Cert.Spec.h1 X (Cert.Spec.oOf WV Z) P n s := by
    intro s
    rw [pay4_apply, pay3_eq]
    unfold Cert.Spec.h1
    exact congrArg (fun a => Cert.Spec.norm a P.g1 P.b1 s) (funext hpre_eq)
  have ypre_eq : ∀ s : Fin 256,
      k2_pay4 (F := Ideal) (k2_pay2 x0 x1 x2 P.Wo P.bo) (k2_pay3 P.g1) P.b1 (ix2 r s)
        + (k2_pay5 (F := Ideal) (k2_pay2 x0 x1 x2 P.Wo P.bo) (k2_pay3 P.g1) P.b1 P.W1 P.c1 P.W2 (ix2 r s)
            + k2_pay6 (F := Ideal) P.c2 (ix2 (0 : Fin 1) s))
      = Cert.Spec.ypre X (Cert.Spec.oOf WV Z) P n s := by
    intro s
    rw [pay5_apply, pay6_apply]
    unfold Cert.Spec.ypre Cert.Spec.up
    simp only [h1_eq]
  rw [out2_13_eq, pay1_apply]
  unfold Cert.Spec.postArr Cert.Spec.postO
  simp only [Cert.Spec.r0_ix2, Cert.Spec.r1_ix2]
  exact congrArg (fun a => Cert.Spec.norm a P.g2 P.b2 j) (funext ypre_eq)

end Cert.KernelIdeal.RegionFfn

end
-- ==== Proof.RegionFfnCongr.lean ====
/-
  Everything after the attention quotient reads ten of a layer's fourteen weight arrays: two weight records that agree
  on those ten give the same result.
-/
import proofs.«175432_j21457656611019_1_alg».proof.Proof.Spec

noncomputable section

namespace Cert.KernelIdeal.RegionFfn

open Idealize.ShloMosaic

theorem postArr_congr (X WV : Cert.Spec.Arr2 20000 256) (Z : Cert.Spec.Arr2 20000 8) (P Q : Cert.Spec.Params)
    (hWo : P.Wo = Q.Wo) (hbo : P.bo = Q.bo) (hg1 : P.g1 = Q.g1) (hb1 : P.b1 = Q.b1) (hW1 : P.W1 = Q.W1)
    (hc1 : P.c1 = Q.c1) (hW2 : P.W2 = Q.W2) (hc2 : P.c2 = Q.c2) (hg2 : P.g2 = Q.g2) (hb2 : P.b2 = Q.b2) :
    Cert.Spec.postArr X WV Z P = Cert.Spec.postArr X WV Z Q := by
  cases P
  cases Q
  dsimp only at hWo hbo hg1 hb1 hW1 hc1 hW2 hc2 hg2 hb2
  subst hWo hbo hg1 hb1 hW1 hc1 hW2 hc2 hg2 hb2
  rfl

end Cert.KernelIdeal.RegionFfn

end
-- ==== Proof.RegionFfn2.lean ====
/-
  From blocks to the array, for the feed-forward region numbered 2 of the program.

  The grid has 20 points; point t reads rows 1000 t … 1000 t + 999 of the three row-blocked inputs and the ten weight
  arrays whole, and writes back rows 1000 t … 1000 t + 999 of the output.  Row n of the output is covered by point
  n / 1000, so the output array ends holding, row by row, the specification's function of the arrays the region finds.
-/
import proofs.«175432_j21457656611019_1_alg».proof.Proof.Gen.KernelIdeal.Frame
import proofs.«175432_j21457656611019_1_alg».proof.Proof.RegionFfnBlock
import proofs.«175432_j21457656611019_1_alg».proof.Proof.RegionFfnCongr
import Idealize.ShloMosaic.Lib.Pipeline.Value

set_option maxRecDepth 16384

noncomputable section

open scoped BigOperators

namespace Cert.KernelIdeal.RegionFfn2

open Idealize.ShloMosaic Idealize.ShloMosaic.TcCoe Idealize.ShloMosaic.ValueIdx Cert.KernelIdeal Cert.KernelIdeal.Gen
open Cert.KernelIdeal.RegionFfn
open Idealize.ShloMosaic.Pipeline (Dat)

variable (V : (c : Dev nD) → (b : Ref sig .tc) → Buf (Elt Ideal) ((c : Thread nD τ).loc b))

/-- The weights the region reads (the attention weights are not read by this stage). -/
def params (c : Dev nD) : Cert.Spec.Params :=
  { Wq := fun _ => 0, Wk := fun _ => 0, Wv := fun _ => 0, bq := fun _ => 0,
    Wo := V c (Pipeline.arrRef spec2 3), bo := V c (Pipeline.arrRef spec2 4),
    g1 := V c (Pipeline.arrRef spec2 5), b1 := V c (Pipeline.arrRef spec2 6),
    W1 := V c (Pipeline.arrRef spec2 7), c1 := V c (Pipeline.arrRef spec2 8),
    W2 := V c (Pipeline.arrRef spec2 9), c2 := V c (Pipeline.arrRef spec2 10),
    g2 := V c (Pipeline.arrRef spec2 11), b2 := V c (Pipeline.arrRef spec2 12) }

/-- What the output array ends holding. -/
def G (c : Dev nD) : Cert.Spec.Arr2 20000 256 :=
  Cert.Spec.postArr (V c (Pipeline.arrRef spec2 0)) (V c (Pipeline.arrRef spec2 1)) (V c (Pipeline.arrRef spec2 2)) (params V c)

theorem hN : cfg2.N = 20 := N_2

/-- The row-blocked windows move with the point along the rows and stay at column block 0. -/
theorem idx_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_13.index t (0 : Fin 2) = t.val ∧ win2_13.index t (1 : Fin 2) = 0 :=
  (by decide +kernel : ∀ t : Fin grid2.N, _)

/-- The weight windows stay at block 0. -/
theorem idx_whole : ∀ t : Fin cfg2.N,
    win2_3.index t (0 : Fin 2) = 0 ∧ win2_3.index t (1 : Fin 2) = 0
    ∧ win2_4.index t (0 : Fin 1) = 0
    ∧ win2_5.index t (0 : Fin 1) = 0
    ∧ win2_6.index t (0 : Fin 1) = 0
    ∧ win2_7.index t (0 : Fin 2) = 0 ∧ win2_7.index t (1 : Fin 2) = 0
    ∧ win2_8.index t (0 : Fin 1) = 0
    ∧ win2_9.index t (0 : Fin 2) = 0 ∧ win2_9.index t (1 : Fin 2) = 0
    ∧ win2_10.index t (0 : Fin 1) = 0
    ∧ win2_11.index t (0 : Fin 1) = 0
    ∧ win2_12.index t (0 : Fin 1) = 0 :=
  (by decide +kernel : ∀ t : Fin grid2.N, _)

/-- Row r of window 0's block at point t is row 1000 t + r of its array. -/
theorem iblk_0_apply (c : Dev nD) (t : Fin cfg2.N) (r : Fin 1000) (j : Fin 256) (n : Fin 20000) (hn : n.val = 1000 * t.val + r.val) :
    (iblk2 V c 0 t : Vec Ideal S1000x256 .f32) (ix2 r j) = (V c (Pipeline.arrRef spec2 0) : Cert.Spec.Arr2 20000 256) (ix2 n j) := by
  have e0 : win2_0.index t (0 : Fin 2) = t.val := by have h := idx_rows t; tauto
  have e1 : win2_0.index t (1 : Fin 2) = 0 := by have h := idx_rows t; tauto
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 1000 + 1 * r.val = n.val; rw [e0, hn]; omega
  | ⟨1, _⟩ => show win2_0.index t (1 : Fin 2) * 256 + 1 * j.val = j.val; rw [e1]; omega

/-- Row r of window 1's block at point t is row 1000 t + r of its array. -/
theorem iblk_1_apply (c : Dev nD) (t : Fin cfg2.N) (r : Fin 1000) (j : Fin 256) (n : Fin 20000) (hn : n.val = 1000 * t.val + r.val) :
    (iblk2 V c 1 t : Vec Ideal S1000x256 .f32) (ix2 r j) = (V c (Pipeline.arrRef spec2 1) : Cert.Spec.Arr2 20000 256) (ix2 n j) := by
  have e0 : win2_1.index t (0 : Fin 2) = t.val := by have h := idx_rows t; tauto
  have e1 : win2_1.index t (1 : Fin 2) = 0 := by have h := idx_rows t; tauto
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 1000 + 1 * r.val = n.val; rw [e0, hn]; omega
  | ⟨1, _⟩ => show win2_1.index t (1 : Fin 2) * 256 + 1 * j.val = j.val; rw [e1]; omega

/-- Row r of window 2's block at point t is row 1000 t + r of its array. -/
theorem iblk_2_apply (c : Dev nD) (t : Fin cfg2.N) (r : Fin 1000) (j : Fin 8) (n : Fin 20000) (hn : n.val = 1000 * t.val + r.val) :
    (iblk2 V c 2 t : Vec Ideal S1000x8 .f32) (ix2 r j) = (V c (Pipeline.arrRef spec2 2) : Cert.Spec.Arr2 20000 8) (ix2 n j) := by
  have e0 : win2_2.index t (0 : Fin 2) = t.val := by have h := idx_rows t; tauto
  have e1 : win2_2.index t (1 : Fin 2) = 0 := by have h := idx_rows t; tauto
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 1000 + 1 * r.val = n.val; rw [e0, hn]; omega
  | ⟨1, _⟩ => show win2_2.index t (1 : Fin 2) * 8 + 1 * j.val = j.val; rw [e1]; omega

/-- Window 3's block at any point is its whole array. -/
theorem iblk_3_eq (c : Dev nD) (t : Fin cfg2.N) :
    (iblk2 V c 3 t : Vec Ideal S256x256 .f32) = (V c (Pipeline.arrRef spec2 3) : Cert.Spec.Arr2 256 256) := by
  funext x
  unfold iblk2
  rw [View.read_apply]
  show V c (Pipeline.arrRef spec2 3) _ = V c (Pipeline.arrRef spec2 3) x
  congr 1
  funext a
  apply Fin.ext
  match a with
  | ⟨0, _⟩ => show win2_3.index t (0 : Fin 2) * 256 + 1 * (x 0).val = (x 0).val; rw [(by have h := idx_whole t; tauto : win2_3.index t (0 : Fin 2) = 0)]; omega
  | ⟨1, _⟩ => show win2_3.index t (1 : Fin 2) * 256 + 1 * (x 1).val = (x 1).val; rw [(by have h := idx_whole t; tauto : win2_3.index t (1 : Fin 2) = 0)]; omega

/-- Window 4's block at any point is its whole array. -/
theorem iblk_4_eq (c : Dev nD) (t : Fin cfg2.N) :
    (iblk2 V c 4 t : Vec Ideal S256 .f32) = (V c (Pipeline.arrRef spec2 4) : Cert.Spec.Arr1 256) := by
  funext x
  unfold iblk2
  rw [View.read_apply]
  show V c (Pipeline.arrRef spec2 4) _ = V c (Pipeline.arrRef spec2 4) x
  congr 1
  funext a
  apply Fin.ext
  match a with
  | ⟨0, _⟩ => show win2_4.index t (0 : Fin 1) * 256 + 1 * (x 0).val = (x 0).val; rw [(by have h := idx_whole t; tauto : win2_4.index t (0 : Fin 1) = 0)]; omega

/-- Window 5's block at any point is its whole array. -/
theorem iblk_5_eq (c : Dev nD) (t : Fin cfg2.N) :
    (iblk2 V c 5 t : Vec Ideal S256 .f32) = (V c (Pipeline.arrRef spec2 5) : Cert.Spec.Arr1 256) := by
  funext x
  unfold iblk2
  rw [View.read_apply]
  show V c (Pipeline.arrRef spec2 5) _ = V c (Pipeline.arrRef spec2 5) x
  congr 1
  funext a
  apply Fin.ext
  match a with
  | ⟨0, _⟩ => show win2_5.index t (0 : Fin 1) * 256 + 1 * (x 0).val = (x 0).val; rw [(by have h := idx_whole t; tauto : win2_5.index t (0 : Fin 1) = 0)]; omega

/-- Window 6's block at any point is its whole array. -/
theorem iblk_6_eq (c : Dev nD) (t : Fin cfg2.N) :
    (iblk2 V c 6 t : Vec Ideal S256 .f32) = (V c (Pipeline.arrRef spec2 6) : Cert.Spec.Arr1 256) := by
  funext x
  unfold iblk2
  rw [View.read_apply]
  show V c (Pipeline.arrRef spec2 6) _ = V c (Pipeline.arrRef spec2 6) x
  congr 1
  funext a
  apply Fin.ext
  match a with
  | ⟨0, _⟩ => show win2_6.index t (0 : Fin 1) * 256 + 1 * (x 0).val = (x 0).val; rw [(by have h := idx_whole t; tauto : win2_6.index t (0 : Fin 1) = 0)]; omega

/-- Window 7's block at any point is its whole array. -/
theorem iblk_7_eq (c : Dev nD) (t : Fin cfg2.N) :
    (iblk2 V c 7 t : Vec Ideal S256x1024 .f32) = (V c (Pipeline.arrRef spec2 7) : Cert.Spec.Arr2 256 1024) := by
  funext x
  unfold iblk2
  rw [View.read_apply]
  show V c (Pipeline.arrRef spec2 7) _ = V c (Pipeline.arrRef spec2 7) x
  congr 1
  funext a
  apply Fin.ext
  match a with
  | ⟨0, _⟩ => show win2_7.index t (0 : Fin 2) * 256 + 1 * (x 0).val = (x 0).val; rw [(by have h := idx_whole t; tauto : win2_7.index t (0 : Fin 2) = 0)]; omega
  | ⟨1, _⟩ => show win2_7.index t (1 : Fin 2) * 1024 + 1 * (x 1).val = (x 1).val; rw [(by have h := idx_whole t; tauto : win2_7.index t (1 : Fin 2) = 0)]; omega

/-- Window 8's block at any point is its whole array. -/
theorem iblk_8_eq (c : Dev nD) (t : Fin cfg2.N) :
    (iblk2 V c 8 t : Vec Ideal S1024 .f32) = (V c (Pipeline.arrRef spec2 8) : Cert.Spec.Arr1 1024) := by
  funext x
  unfold iblk2
  rw [View.read_apply]
  show V c (Pipeline.arrRef spec2 8) _ = V c (Pipeline.arrRef spec2 8) x
  congr 1
  funext a
  apply Fin.ext
  match a with
  | ⟨0, _⟩ => show win2_8.index t (0 : Fin 1) * 1024 + 1 * (x 0).val = (x 0).val; rw [(by have h := idx_whole t; tauto : win2_8.index t (0 : Fin 1) = 0)]; omega

/-- Window 9's block at any point is its whole array. -/
theorem iblk_9_eq (c : Dev nD) (t : Fin cfg2.N) :
    (iblk2 V c 9 t : Vec Ideal S1024x256 .f32) = (V c (Pipeline.arrRef spec2 9) : Cert.Spec.Arr2 1024 256) := by
  funext x
  unfold iblk2
  rw [View.read_apply]
  show V c (Pipeline.arrRef spec2 9) _ = V c (Pipeline.arrRef spec2 9) x
  congr 1
  funext a
  apply Fin.ext
  match a with
  | ⟨0, _⟩ => show win2_9.index t (0 : Fin 2) * 1024 + 1 * (x 0).val = (x 0).val; rw [(by have h := idx_whole t; tauto : win2_9.index t (0 : Fin 2) = 0)]; omega
  | ⟨1, _⟩ => show win2_9.index t (1 : Fin 2) * 256 + 1 * (x 1).val = (x 1).val; rw [(by have h := idx_whole t; tauto : win2_9.index t (1 : Fin 2) = 0)]; omega

/-- Window 10's block at any point is its whole array. -/
theorem iblk_10_eq (c : Dev nD) (t : Fin cfg2.N) :
    (iblk2 V c 10 t : Vec Ideal S256 .f32) = (V c (Pipeline.arrRef spec2 10) : Cert.Spec.Arr1 256) := by
  funext x
  unfold iblk2
  rw [View.read_apply]
  show V c (Pipeline.arrRef spec2 10) _ = V c (Pipeline.arrRef spec2 10) x
  congr 1
  funext a
  apply Fin.ext
  match a with
  | ⟨0, _⟩ => show win2_10.index t (0 : Fin 1) * 256 + 1 * (x 0).val = (x 0).val; rw [(by have h := idx_whole t; tauto : win2_10.index t (0 : Fin 1) = 0)]; omega

/-- Window 11's block at any point is its whole array. -/
theorem iblk_11_eq (c : Dev nD) (t : Fin cfg2.N) :
    (iblk2 V c 11 t : Vec Ideal S256 .f32) = (V c (Pipeline.arrRef spec2 11) : Cert.Spec.Arr1 256) := by
  funext x
  unfold iblk2
  rw [View.read_apply]
  show V c (Pipeline.arrRef spec2 11) _ = V c (Pipeline.arrRef spec2 11) x
  congr 1
  funext a
  apply Fin.ext
  match a with
  | ⟨0, _⟩ => show win2_11.index t (0 : Fin 1) * 256 + 1 * (x 0).val = (x 0).val; rw [(by have h := idx_whole t; tauto : win2_11.index t (0 : Fin 1) = 0)]; omega

/-- Window 12's block at any point is its whole array. -/
theorem iblk_12_eq (c : Dev nD) (t : Fin cfg2.N) :
    (iblk2 V c 12 t : Vec Ideal S256 .f32) = (V c (Pipeline.arrRef spec2 12) : Cert.Spec.Arr1 256) := by
  funext x
  unfold iblk2
  rw [View.read_apply]
  show V c (Pipeline.arrRef spec2 12) _ = V c (Pipeline.arrRef spec2 12) x
  congr 1
  funext a
  apply Fin.ext
  match a with
  | ⟨0, _⟩ => show win2_12.index t (0 : Fin 1) * 256 + 1 * (x 0).val = (x 0).val; rw [(by have h := idx_whole t; tauto : win2_12.index t (0 : Fin 1) = 0)]; omega

/-- WHAT POINT t WRITES BACK is block t of G. -/
theorem flushed_eq (c : Dev nD) (t : Fin cfg2.N) :
    (dat2 V c).flushed 13 t = ((cfg2.win 13).blk t).view.read (Elt Ideal) (G V c) := by
  show (cfg2.win 13).cut (grid2.coords t) ((dat2 V c).after 13 t) = _
  rw [after2_13]
  have e0 : win2_13.index t (0 : Fin 2) = t.val := by have h := idx_rows t; tauto
  have e1 : win2_13.index t (1 : Fin 2) = 0 := by have h := idx_rows t; tauto
  have ht : t.val < 20 := lt_of_lt_of_eq t.isLt hN
  have key : ∀ y : S1000x256.Idx,
      out2_13 (F := Ideal) (iblk2 V c 0 t) (iblk2 V c 1 t) (iblk2 V c 2 t) (iblk2 V c 3 t) (iblk2 V c 4 t)
          (iblk2 V c 5 t) (iblk2 V c 6 t) (iblk2 V c 7 t) (iblk2 V c 8 t) (iblk2 V c 9 t) (iblk2 V c 10 t)
          (iblk2 V c 11 t) (iblk2 V c 12 t) y
        = G V c (((cfg2.win 13).blk t).view.emb y) := by
    intro y
    obtain ⟨r, j, rfl⟩ : ∃ (r : Fin 1000) (j : Fin 256), y = ix2 r j := ⟨y 0, y 1, eq_ix2 y⟩
    have hn : 1000 * t.val + r.val < 20000 := by have := r.isLt; omega
    have hemb : (((cfg2.win 13).blk t).view.emb (ix2 r j) : (⟨2, ![20000, 256]⟩ : Shape).Idx)
        = ix2 (⟨1000 * t.val + r.val, hn⟩ : Fin 20000) j := by
      funext a
      apply Fin.ext
      match a with
      | ⟨0, _⟩ => show win2_13.index t (0 : Fin 2) * 1000 + 1 * r.val = 1000 * t.val + r.val; rw [e0]; omega
      | ⟨1, _⟩ => show win2_13.index t (1 : Fin 2) * 256 + 1 * j.val = j.val; rw [e1]; omega
    refine Eq.trans ?_ (congrArg (G V c) hemb).symm
    exact out2_13_row (V c (Pipeline.arrRef spec2 0)) (V c (Pipeline.arrRef spec2 1)) (V c (Pipeline.arrRef spec2 2)) (params V c)
      (iblk2 V c 0 t) (iblk2 V c 1 t) (iblk2 V c 2 t) (iblk2 V c 3 t) (iblk2 V c 4 t)
      (iblk2 V c 5 t) (iblk2 V c 6 t) (iblk2 V c 7 t) (iblk2 V c 8 t) (iblk2 V c 9 t) (iblk2 V c 10 t)
      (iblk2 V c 11 t) (iblk2 V c 12 t) ⟨1000 * t.val + r.val, hn⟩ r
      (fun j => iblk_0_apply V c t r j _ rfl) (fun j => iblk_1_apply V c t r j _ rfl) (fun h => iblk_2_apply V c t r h _ rfl)
      (iblk_3_eq V c t) (iblk_4_eq V c t) (iblk_5_eq V c t) (iblk_6_eq V c t) (iblk_7_eq V c t) (iblk_8_eq V c t)
      (iblk_9_eq V c t) (iblk_10_eq V c t) (iblk_11_eq V c t) (iblk_12_eq V c t) j
  funext y
  exact key y

/-- An index of the array is in point t's block iff each coordinate is in the block's range on its axis. -/
theorem mem_blk (t : Fin cfg2.N) (i : (⟨2, ![20000, 256]⟩ : Shape).Idx) :
    i ∈ ((cfg2.win 13).blk t).view.set ↔ ∀ a : Fin 2, win2_13.index t a * S1000x256.size a ≤ (i a).val ∧ (i a).val < win2_13.index t a * S1000x256.size a + S1000x256.size a := by
  show i ∈ ((View.whole main_v68).slice (win2_13.rect t)).set ↔ _
  rw [View.set_slice_whole, Rect.mem_set_unit]
  exact Iff.rfl

/-- Row n is covered by point n / 1000. -/
theorem cover (i : (⟨2, ![20000, 256]⟩ : Shape).Idx) :
    ∃ t : Fin cfg2.N, (cfg2.win 13).flush t = true ∧ i ∈ ((cfg2.win 13).blk t).view.set := by
  have hi0 : (i 0).val < 20000 := idx2_lt0 i
  have hi1 : (i 1).val < 256 := idx2_lt1 i
  have hlt : (i 0).val / 1000 < cfg2.N := by rw [hN]; omega
  have e0 : win2_13.index ⟨(i 0).val / 1000, hlt⟩ (0 : Fin 2) = (i 0).val / 1000 := by have h := idx_rows ⟨(i 0).val / 1000, hlt⟩; tauto
  have e1 : win2_13.index ⟨(i 0).val / 1000, hlt⟩ (1 : Fin 2) = 0 := by have h := idx_rows ⟨(i 0).val / 1000, hlt⟩; tauto
  refine ⟨⟨(i 0).val / 1000, hlt⟩, flush2_13 _, ?_⟩
  rw [mem_blk]
  intro a
  match a with
  | ⟨0, _⟩ =>
    show win2_13.index ⟨(i 0).val / 1000, hlt⟩ (0 : Fin 2) * 1000 ≤ (i 0).val ∧ (i 0).val < win2_13.index ⟨(i 0).val / 1000, hlt⟩ (0 : Fin 2) * 1000 + 1000
    rw [e0]; omega
  | ⟨1, _⟩ =>
    show win2_13.index ⟨(i 0).val / 1000, hlt⟩ (1 : Fin 2) * 256 ≤ (i 1).val ∧ (i 1).val < win2_13.index ⟨(i 0).val / 1000, hlt⟩ (1 : Fin 2) * 256 + 256
    rw [e1]; omega

/-- THE ARRAY after the region: the specification's function of the arrays the region finds. -/
theorem final (c : Dev nD) : (dat2 (F := Ideal) V c).arrAt 13 cfg2.N = G V c :=
  (dat2 V c).arrAt_eq_of_cover 13 (G V c) (fun t _ => flushed_eq V c t) cover

/-- The same with the weights written out. -/
theorem final' (c : Dev nD) : (dat2 (F := Ideal) V c).arrAt 13 cfg2.N
    = Cert.Spec.postArr (V c (Pipeline.arrRef spec2 0)) (V c (Pipeline.arrRef spec2 1)) (V c (Pipeline.arrRef spec2 2))
        { Wq := fun _ => 0, Wk := fun _ => 0, Wv := fun _ => 0, bq := fun _ => 0,
          Wo := V c (Pipeline.arrRef spec2 3), bo := V c (Pipeline.arrRef spec2 4),
          g1 := V c (Pipeline.arrRef spec2 5), b1 := V c (Pipeline.arrRef spec2 6),
          W1 := V c (Pipeline.arrRef spec2 7), c1 := V c (Pipeline.arrRef spec2 8),
          W2 := V c (Pipeline.arrRef spec2 9), c2 := V c (Pipeline.arrRef spec2 10),
          g2 := V c (Pipeline.arrRef spec2 11), b2 := V c (Pipeline.arrRef spec2 12) } :=
  final V c

set_option maxHeartbeats 1000000 in
/-- The same for ANY weight record that holds the ten arrays the region reads. -/
theorem final_of (c : Dev nD) (P : Cert.Spec.Params)
    (hWo : P.Wo = (V c (Pipeline.arrRef spec2 3) : Cert.Spec.Arr2 256 256)) (hbo : P.bo = (V c (Pipeline.arrRef spec2 4) : Cert.Spec.Arr1 256)) (hg1 : P.g1 = (V c (Pipeline.arrRef spec2 5) : Cert.Spec.Arr1 256)) (hb1 : P.b1 = (V c (Pipeline.arrRef spec2 6) : Cert.Spec.Arr1 256))
    (hW1 : P.W1 = (V c (Pipeline.arrRef spec2 7) : Cert.Spec.Arr2 256 1024)) (hc1 : P.c1 = (V c (Pipeline.arrRef spec2 8) : Cert.Spec.Arr1 1024)) (hW2 : P.W2 = (V c (Pipeline.arrRef spec2 9) : Cert.Spec.Arr2 1024 256)) (hc2 : P.c2 = (V c (Pipeline.arrRef spec2 10) : Cert.Spec.Arr1 256))
    (hg2 : P.g2 = (V c (Pipeline.arrRef spec2 11) : Cert.Spec.Arr1 256)) (hb2 : P.b2 = (V c (Pipeline.arrRef spec2 12) : Cert.Spec.Arr1 256)) :
    (dat2 (F := Ideal) V c).arrAt 13 cfg2.N
      = Cert.Spec.postArr (V c (Pipeline.arrRef spec2 0)) (V c (Pipeline.arrRef spec2 1)) (V c (Pipeline.arrRef spec2 2)) P :=
  (final V c).trans (postArr_congr _ _ _ (params V c) P hWo.symm hbo.symm hg1.symm hb1.symm hW1.symm hc1.symm hW2.symm hc2.symm hg2.symm hb2.symm)

end Cert.KernelIdeal.RegionFfn2

end
-- ==== Proof.KVal1.lean ====
/-
  The kernel program's layer 1, assembled: its three regions and the host operations between them compute the
  specification's layer of the node features with layer 0's weights.
-/
import proofs.«175432_j21457656611019_1_alg».proof.Proof.KStage0
import proofs.«175432_j21457656611019_1_alg».proof.Proof.KStage1
import proofs.«175432_j21457656611019_1_alg».proof.Proof.KStage2a
import proofs.«175432_j21457656611019_1_alg».proof.Proof.KStage2b
import proofs.«175432_j21457656611019_1_alg».proof.Proof.KStage0
import proofs.«175432_j21457656611019_1_alg».proof.Proof.RegionQkv0
import proofs.«175432_j21457656611019_1_alg».proof.Proof.RegionMsgBlocks
import proofs.«175432_j21457656611019_1_alg».proof.Proof.RegionFfn2

set_option maxRecDepth 16384
set_option maxHeartbeats 2000000

noncomputable section

namespace Cert.KernelIdeal.KVal1

open Idealize.ShloMosaic Idealize.ShloMosaic.TcCoe Idealize.ShloMosaic.StableHlo Idealize.SL.Sem
open Cert.KernelIdeal Cert.KernelIdeal.Gen Cert.KernelIdeal.KFold Cert.KernelIdeal.KDefs
open Cert.Spec

variable (m : (ℓ : Loc nD τ sig) → Buf (Elt Ideal) ℓ) (ρ : Dev nD → PrngReg)

/-- The last stage reads ten of a layer's weights only. -/
theorem postArr_of_fields (x wv : Arr2 20000 256) (z : Arr2 20000 8) (P : Params) :
    postArr x wv z { Wq := fun _ => 0, Wk := fun _ => 0, Wv := fun _ => 0, bq := fun _ => 0,
                     Wo := P.Wo, bo := P.bo, g1 := P.g1, b1 := P.b1, W1 := P.W1, c1 := P.c1,
                     W2 := P.W2, c2 := P.c2, g2 := P.g2, b2 := P.b2 } = postArr x wv z P := rfl

/-! ## The projection region -/

theorem xin (c : Dev nD) : V1 m ρ c (Pipeline.arrRef spec0 0) = (A m c main_arg0) := W1_arg m ρ c main_arg0 (by decide)

theorem qOut (c : Dev nD) : W2 m ρ c (Proc.devRef .tc main_v19_0) = linBiasArr (A m c main_arg0) (P0 m c).Wq (P0 m c).bq := by
  have e1 : V1 m ρ c (Pipeline.arrRef spec0 1) = (P0 m c).Wq := KStage0.W1_v12 m ρ c
  have e4 : V1 m ρ c (Pipeline.arrRef spec0 4) = (P0 m c).bq := KStage0.W1_v18 m ρ c
  refine (W2_arr m ρ c 5).trans ?_
  rw [Cert.KernelIdeal.RegionQkv0.finalQ (V1 m ρ) c, xin m ρ c, e1, e4]

theorem kOut (c : Dev nD) : W2 m ρ c (Proc.devRef .tc main_v19_1) = linArr (A m c main_arg0) (P0 m c).Wk := by
  have e2 : V1 m ρ c (Pipeline.arrRef spec0 2) = (P0 m c).Wk := KStage0.W1_v14 m ρ c
  refine (W2_arr m ρ c 6).trans ?_
  rw [Cert.KernelIdeal.RegionQkv0.finalK (V1 m ρ) c, xin m ρ c, e2]

theorem vOut (c : Dev nD) : W2 m ρ c (Proc.devRef .tc main_v19_2) = linArr (A m c main_arg0) (P0 m c).Wv := by
  have e3 : V1 m ρ c (Pipeline.arrRef spec0 3) = (P0 m c).Wv := KStage0.W1_v16 m ρ c
  refine (W2_arr m ρ c 7).trans ?_
  rw [Cert.KernelIdeal.RegionQkv0.finalV (V1 m ρ) c, xin m ρ c, e3]

/-! ## The gathered rows and the message region -/

theorem ksIn (c : Dev nD) : V3 m ρ c (Pipeline.arrRef spec1 0) = gathRows (linArr (A m c main_arg0) (P0 m c).Wk) (G m c).srcI := by
  have h := KStage1.W3_v26 m ρ c
  rw [kOut m ρ c] at h
  exact h

theorem vsIn (c : Dev nD) : V3 m ρ c (Pipeline.arrRef spec1 1) = gathRows (linArr (A m c main_arg0) (P0 m c).Wv) (G m c).srcI := by
  have h := KStage1.W3_v33 m ρ c
  rw [vOut m ρ c] at h
  exact h

theorem qdIn (c : Dev nD) : V3 m ρ c (Pipeline.arrRef spec1 2) = gathRows (linBiasArr (A m c main_arg0) (P0 m c).Wq (P0 m c).bq) (G m c).dstI := by
  have h := KStage1.W3_v40 m ρ c
  rw [qOut m ρ c] at h
  exact h

theorem ehIn (c : Dev nD) : V3 m ρ c (Pipeline.arrRef spec1 3) = relRows (G m c).rel (G m c).relI := (W3_v10 m ρ c).trans (KStage0.W1_v10 m ρ c)

theorem msgOut (c : Dev nD) : W4 m ρ c (Proc.devRef .tc main_v41_0)
    = msgArr (gathRows (linArr (A m c main_arg0) (P0 m c).Wk) (G m c).srcI) (gathRows (linArr (A m c main_arg0) (P0 m c).Wv) (G m c).srcI)
        (gathRows (linBiasArr (A m c main_arg0) (P0 m c).Wq (P0 m c).bq) (G m c).dstI) (relRows (G m c).rel (G m c).relI) := by
  refine (W4_arr m ρ c 4).trans ?_
  rw [Cert.KernelIdeal.RegionMsg.msg_final1 (V3 m ρ) c, ksIn m ρ c, vsIn m ρ c, qdIn m ρ c, ehIn m ρ c]

theorem sOut (c : Dev nD) : W4 m ρ c (Proc.devRef .tc main_v41_1)
    = sArr (gathRows (linArr (A m c main_arg0) (P0 m c).Wk) (G m c).srcI)
        (gathRows (linBiasArr (A m c main_arg0) (P0 m c).Wq (P0 m c).bq) (G m c).dstI) (relRows (G m c).rel (G m c).relI) := by
  refine (W4_arr m ρ c 5).trans ?_
  rw [Cert.KernelIdeal.RegionMsg.s_final1 (V3 m ρ) c, ksIn m ρ c, qdIn m ρ c, ehIn m ρ c]

/-! ## The per-node sums and the last region -/

theorem wvIn (c : Dev nD) : V5 m ρ c (Pipeline.arrRef spec2 1)
    = scat (msgArr (gathRows (linArr (A m c main_arg0) (P0 m c).Wk) (G m c).srcI) (gathRows (linArr (A m c main_arg0) (P0 m c).Wv) (G m c).srcI)
        (gathRows (linBiasArr (A m c main_arg0) (P0 m c).Wq (P0 m c).bq) (G m c).dstI) (relRows (G m c).rel (G m c).relI)) (G m c).dstS := by
  have h := KStage2a.W5_v44 m ρ c
  rw [msgOut m ρ c] at h
  exact h

theorem zIn (c : Dev nD) : V5 m ρ c (Pipeline.arrRef spec2 2)
    = scat (sArr (gathRows (linArr (A m c main_arg0) (P0 m c).Wk) (G m c).srcI)
        (gathRows (linBiasArr (A m c main_arg0) (P0 m c).Wq (P0 m c).bq) (G m c).dstI) (relRows (G m c).rel (G m c).relI)) (G m c).dstS := by
  have h := KStage2a.W5_v47 m ρ c
  rw [sOut m ρ c] at h
  exact h

theorem xin2 (c : Dev nD) : V5 m ρ c (Pipeline.arrRef spec2 0) = (A m c main_arg0) := W5_arg m ρ c main_arg0 (by decide)

/-- LAYER 1: the last region's output array is the specification's layer. -/
theorem layer1 (c : Dev nD) : W6 m ρ c (Proc.devRef .tc main_v68) = layer (A m c main_arg0) (P0 m c) (G m c) := by
  have e3 : V5 m ρ c (Pipeline.arrRef spec2 3) = (P0 m c).Wo := KStage2b.W5_v49 m ρ c
  have e4 : V5 m ρ c (Pipeline.arrRef spec2 4) = (P0 m c).bo := KStage2b.W5_v51 m ρ c
  have e5 : V5 m ρ c (Pipeline.arrRef spec2 5) = (P0 m c).g1 := KStage2b.W5_v53 m ρ c
  have e6 : V5 m ρ c (Pipeline.arrRef spec2 6) = (P0 m c).b1 := KStage2b.W5_v55 m ρ c
  have e7 : V5 m ρ c (Pipeline.arrRef spec2 7) = (P0 m c).W1 := KStage2b.W5_v57 m ρ c
  have e8 : V5 m ρ c (Pipeline.arrRef spec2 8) = (P0 m c).c1 := KStage2b.W5_v59 m ρ c
  have e9 : V5 m ρ c (Pipeline.arrRef spec2 9) = (P0 m c).W2 := KStage2b.W5_v61 m ρ c
  have e10 : V5 m ρ c (Pipeline.arrRef spec2 10) = (P0 m c).c2 := KStage2b.W5_v63 m ρ c
  have e11 : V5 m ρ c (Pipeline.arrRef spec2 11) = (P0 m c).g2 := KStage2b.W5_v65 m ρ c
  have e12 : V5 m ρ c (Pipeline.arrRef spec2 12) = (P0 m c).b2 := KStage2b.W5_v67 m ρ c
  refine (W6_arr m ρ c 13).trans ?_
  rw [Cert.KernelIdeal.RegionFfn2.final' (V5 m ρ) c, xin2 m ρ c, wvIn m ρ c, zIn m ρ c, e3, e4, e5, e6, e7, e8, e9, e10, e11, e12]
  exact postArr_of_fields _ _ _ (P0 m c)

end Cert.KernelIdeal.KVal1

end
-- ==== Proof.RegionQkv3.lean ====
/-
  The projection kernel of layer two as three whole-array functions.

  The grid has ten points; point t stages rows 2000·t … 2000·t + 1999 of the node features and the whole weight
  matrices and bias, and writes back rows 2000·t … 2000·t + 1999 of each result.  What it writes back is the
  block of those rows of  x·Wq + bq,  x·Wk  and  x·Wv;  row r of a result is covered by point r / 2000, so
  after the run each result array is that whole-array function of the arrays the region found.
-/
import proofs.«175432_j21457656611019_1_alg».proof.Proof.Gen.KernelIdeal.Frame
import proofs.«175432_j21457656611019_1_alg».proof.Proof.RegionQkvPay

noncomputable section

open scoped BigOperators

namespace Cert.KernelIdeal.RegionQkv3

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.RegionQkv

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the feature window and the three result windows sit at block row t, everything
    else at block zero. -/
theorem idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

/-! ## The input blocks, read off the arrays the region found -/

/-- Entry y of the feature block at point t is entry (2000·t + y₀, y₁) of the features. -/
theorem xblk (c : Dev nD) (t : Fin cfg3.N) (y : S2000x256.Idx) (i : S20000x256.Idx)
    (h0 : (i 0).val = t.val * 2000 + (y 0).val) (h1 : (i 1).val = (y 1).val) :
    (iblk3 V c 0 t : Vec Ideal S2000x256 .f32) y = (V c (Pipeline.arrRef spec3 0) : Spec.Arr2 20000 256) i := by
  obtain ⟨e0, e1, -⟩ := idx t
  unfold iblk3
  rw [View.read_apply]
  show V c (Pipeline.arrRef spec3 0) _ = V c (Pipeline.arrRef spec3 0) i
  congr 1
  funext a
  apply Fin.ext
  match a with
  | ⟨0, _⟩ => show win3_0.index t (0 : Fin 2) * 2000 + 1 * (y 0).val = (i 0).val; rw [e0, h0]; omega
  | ⟨1, _⟩ => show win3_0.index t (1 : Fin 2) * 256 + 1 * (y 1).val = (i 1).val; rw [e1, h1]; omega

/-- The query weights' block at any point is the whole matrix. -/
theorem wblk1 (c : Dev nD) (t : Fin cfg3.N) (i : S256x256.Idx) :
    (iblk3 V c 1 t : Vec Ideal S256x256 .f32) i = (V c (Pipeline.arrRef spec3 1) : Spec.Arr2 256 256) i := by
  obtain ⟨-, -, e0, e1, -⟩ := idx t
  unfold iblk3
  rw [View.read_apply]
  show V c (Pipeline.arrRef spec3 1) _ = V c (Pipeline.arrRef spec3 1) i
  congr 1
  funext a
  apply Fin.ext
  match a with
  | ⟨0, _⟩ => show win3_1.index t (0 : Fin 2) * 256 + 1 * (i 0).val = (i 0).val; rw [e0]; omega
  | ⟨1, _⟩ => show win3_1.index t (1 : Fin 2) * 256 + 1 * (i 1).val = (i 1).val; rw [e1]; omega

/-- The key weights' block at any point is the whole matrix. -/
theorem wblk2 (c : Dev nD) (t : Fin cfg3.N) (i : S256x256.Idx) :
    (iblk3 V c 2 t : Vec Ideal S256x256 .f32) i = (V c (Pipeline.arrRef spec3 2) : Spec.Arr2 256 256) i := by
  obtain ⟨-, -, -, -, e0, e1, -⟩ := idx t
  unfold iblk3
  rw [View.read_apply]
  show V c (Pipeline.arrRef spec3 2) _ = V c (Pipeline.arrRef spec3 2) i
  congr 1
  funext a
  apply Fin.ext
  match a with
  | ⟨0, _⟩ => show win3_2.index t (0 : Fin 2) * 256 + 1 * (i 0).val = (i 0).val; rw [e0]; omega
  | ⟨1, _⟩ => show win3_2.index t (1 : Fin 2) * 256 + 1 * (i 1).val = (i 1).val; rw [e1]; omega

/-- The value weights' block at any point is the whole matrix. -/
theorem wblk3 (c : Dev nD) (t : Fin cfg3.N) (i : S256x256.Idx) :
    (iblk3 V c 3 t : Vec Ideal S256x256 .f32) i = (V c (Pipeline.arrRef spec3 3) : Spec.Arr2 256 256) i := by
  obtain ⟨-, -, -, -, -, -, e0, e1, -⟩ := idx t
  unfold iblk3
  rw [View.read_apply]
  show V c (Pipeline.arrRef spec3 3) _ = V c (Pipeline.arrRef spec3 3) i
  congr 1
  funext a
  apply Fin.ext
  match a with
  | ⟨0, _⟩ => show win3_3.index t (0 : Fin 2) * 256 + 1 * (i 0).val = (i 0).val; rw [e0]; omega
  | ⟨1, _⟩ => show win3_3.index t (1 : Fin 2) * 256 + 1 * (i 1).val = (i 1).val; rw [e1]; omega

/-- The bias block at any point is the whole vector. -/
theorem bblk (c : Dev nD) (t : Fin cfg3.N) (i : S256.Idx) :
    (iblk3 V c 4 t : Vec Ideal S256 .f32) i = (V c (Pipeline.arrRef spec3 4) : Spec.Arr1 256) i := by
  obtain ⟨-, -, -, -, -, -, -, -, e0, -⟩ := idx t
  unfold iblk3
  rw [View.read_apply]
  show V c (Pipeline.arrRef spec3 4) _ = V c (Pipeline.arrRef spec3 4) i
  congr 1
  funext a
  apply Fin.ext
  match a with
  | ⟨0, _⟩ => show win3_4.index t (0 : Fin 1) * 256 + 1 * (i 0).val = (i 0).val; rw [e0]; omega

/-! ## What each point writes back -/

/-- Point t writes back block t of x·Wq + bq. -/
theorem flushedQ (c : Dev nD) (t : Fin cfg3.N) :
    (dat3 (F := Ideal) V c).flushed 5 t = ((cfg3.win 5).blk t).view.read (Elt Ideal)
      (Spec.linBiasArr (K := 256) (M := 256) (V c (Pipeline.arrRef spec3 0)) (V c (Pipeline.arrRef spec3 1)) (V c (Pipeline.arrRef spec3 4))) := by
  show (cfg3.win 5).cut (grid3.coords t) ((dat3 V c).after 5 t) = _
  rw [after3_5]
  unfold out3_5
  rw [View.canon_unit_zero hz2]
  simp only [View.ld_unit_zero (S := S2000x256) hz2, View.ld_unit_zero (S := S256x256) hz2, View.ld_unit_zero (S := S256) hz1]
  obtain ⟨e00, e01, e10, e11, e20, e21, e30, e31, e40, e50, e51, e60, e61, e70, e71⟩ := idx t
  funext y
  show _ = Spec.linBiasArr (K := 256) (M := 256) (V c (Pipeline.arrRef spec3 0)) (V c (Pipeline.arrRef spec3 1)) (V c (Pipeline.arrRef spec3 4)) (((cfg3.win 5).blk t).view.emb y)
  rw [q3_eq]
  refine blockQ (iblk3 V c 0 t) (iblk3 V c 1 t) (iblk3 V c 4 t) (V c (Pipeline.arrRef spec3 0)) (V c (Pipeline.arrRef spec3 1)) (V c (Pipeline.arrRef spec3 4)) t.val
    (fun y i h0 h1 => xblk V c t y i h0 h1) (fun i => wblk1 V c t i) (fun i => bblk V c t i) y (((cfg3.win 5).blk t).view.emb y) ?_ ?_
  · show win3_5.index t (0 : Fin 2) * 2000 + 1 * (y 0).val = t.val * 2000 + (y 0).val; rw [e50]; omega
  · show win3_5.index t (1 : Fin 2) * 256 + 1 * (y 1).val = (y 1).val; rw [e51]; omega

/-- Point t writes back block t of x·Wk. -/
theorem flushedK (c : Dev nD) (t : Fin cfg3.N) :
    (dat3 (F := Ideal) V c).flushed 6 t = ((cfg3.win 6).blk t).view.read (Elt Ideal)
      (Spec.linArr (K := 256) (M := 256) (V c (Pipeline.arrRef spec3 0)) (V c (Pipeline.arrRef spec3 2))) := by
  show (cfg3.win 6).cut (grid3.coords t) ((dat3 V c).after 6 t) = _
  rw [after3_6]
  unfold out3_6
  rw [View.canon_unit_zero hz2]
  simp only [View.ld_unit_zero (S := S2000x256) hz2, View.ld_unit_zero (S := S256x256) hz2]
  obtain ⟨e00, e01, e10, e11, e20, e21, e30, e31, e40, e50, e51, e60, e61, e70, e71⟩ := idx t
  funext y
  show _ = Spec.linArr (K := 256) (M := 256) (V c (Pipeline.arrRef spec3 0)) (V c (Pipeline.arrRef spec3 2)) (((cfg3.win 6).blk t).view.emb y)
  rw [k3_eq]
  refine blockK (iblk3 V c 0 t) (iblk3 V c 2 t) (V c (Pipeline.arrRef spec3 0)) (V c (Pipeline.arrRef spec3 2)) t.val
    (fun y i h0 h1 => xblk V c t y i h0 h1) (fun i => wblk2 V c t i) y (((cfg3.win 6).blk t).view.emb y) ?_ ?_
  · show win3_6.index t (0 : Fin 2) * 2000 + 1 * (y 0).val = t.val * 2000 + (y 0).val; rw [e60]; omega
  · show win3_6.index t (1 : Fin 2) * 256 + 1 * (y 1).val = (y 1).val; rw [e61]; omega

/-- Point t writes back block t of x·Wv. -/
theorem flushedV (c : Dev nD) (t : Fin cfg3.N) :
    (dat3 (F := Ideal) V c).flushed 7 t = ((cfg3.win 7).blk t).view.read (Elt Ideal)
      (Spec.linArr (K := 256) (M := 256) (V c (Pipeline.arrRef spec3 0)) (V c (Pipeline.arrRef spec3 3))) := by
  show (cfg3.win 7).cut (grid3.coords t) ((dat3 V c).after 7 t) = _
  rw [after3_7]
  unfold out3_7
  rw [View.canon_unit_zero hz2]
  simp only [View.ld_unit_zero (S := S2000x256) hz2, View.ld_unit_zero (S := S256x256) hz2]
  obtain ⟨e00, e01, e10, e11, e20, e21, e30, e31, e40, e50, e51, e60, e61, e70, e71⟩ := idx t
  funext y
  show _ = Spec.linArr (K := 256) (M := 256) (V c (Pipeline.arrRef spec3 0)) (V c (Pipeline.arrRef spec3 3)) (((cfg3.win 7).blk t).view.emb y)
  rw [v3_eq]
  refine blockV (iblk3 V c 0 t) (iblk3 V c 3 t) (V c (Pipeline.arrRef spec3 0)) (V c (Pipeline.arrRef spec3 3)) t.val
    (fun y i h0 h1 => xblk V c t y i h0 h1) (fun i => wblk3 V c t i) y (((cfg3.win 7).blk t).view.emb y) ?_ ?_
  · show win3_7.index t (0 : Fin 2) * 2000 + 1 * (y 0).val = t.val * 2000 + (y 0).val; rw [e70]; omega
  · show win3_7.index t (1 : Fin 2) * 256 + 1 * (y 1).val = (y 1).val; rw [e71]; omega

/-! ## The cover: row r belongs to point r / 2000 -/

theorem mem_blk5 (t : Fin cfg3.N) (i : S20000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v77_0).slice (win3_5.rect t)).set ↔ _
  rw [View.set_slice_whole, Rect.mem_set_unit]
  exact Iff.rfl

theorem cover5 (i : S20000x256.Idx) : ∃ t : Fin cfg3.N, (cfg3.win 5).flush t = true ∧ i ∈ ((cfg3.win 5).blk t).view.set := by
  have hi0 : (i 0).val < 20000 := (i 0).isLt
  have hi1 : (i 1).val < 256 := (i 1).isLt
  have hN : cfg3.N = 10 := N_3
  obtain ⟨t, ht⟩ : ∃ t : Fin cfg3.N, t.val = (i 0).val / 2000 := ⟨⟨(i 0).val / 2000, by rw [hN]; omega⟩, rfl⟩
  obtain ⟨e00, e01, e10, e11, e20, e21, e30, e31, e40, e50, e51, e60, e61, e70, e71⟩ := idx t
  refine ⟨t, flush3_5 t, ?_⟩
  rw [mem_blk5]
  intro a
  match a with
  | ⟨0, _⟩ => show win3_5.index t (0 : Fin 2) * 2000 ≤ (i 0).val ∧ (i 0).val < win3_5.index t (0 : Fin 2) * 2000 + 2000; rw [e50, ht]; omega
  | ⟨1, _⟩ => show win3_5.index t (1 : Fin 2) * 256 ≤ (i 1).val ∧ (i 1).val < win3_5.index t (1 : Fin 2) * 256 + 256; rw [e51]; omega

theorem mem_blk6 (t : Fin cfg3.N) (i : S20000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v77_1).slice (win3_6.rect t)).set ↔ _
  rw [View.set_slice_whole, Rect.mem_set_unit]
  exact Iff.rfl

theorem cover6 (i : S20000x256.Idx) : ∃ t : Fin cfg3.N, (cfg3.win 6).flush t = true ∧ i ∈ ((cfg3.win 6).blk t).view.set := by
  have hi0 : (i 0).val < 20000 := (i 0).isLt
  have hi1 : (i 1).val < 256 := (i 1).isLt
  have hN : cfg3.N = 10 := N_3
  obtain ⟨t, ht⟩ : ∃ t : Fin cfg3.N, t.val = (i 0).val / 2000 := ⟨⟨(i 0).val / 2000, by rw [hN]; omega⟩, rfl⟩
  obtain ⟨e00, e01, e10, e11, e20, e21, e30, e31, e40, e50, e51, e60, e61, e70, e71⟩ := idx t
  refine ⟨t, flush3_6 t, ?_⟩
  rw [mem_blk6]
  intro a
  match a with
  | ⟨0, _⟩ => show win3_6.index t (0 : Fin 2) * 2000 ≤ (i 0).val ∧ (i 0).val < win3_6.index t (0 : Fin 2) * 2000 + 2000; rw [e60, ht]; omega
  | ⟨1, _⟩ => show win3_6.index t (1 : Fin 2) * 256 ≤ (i 1).val ∧ (i 1).val < win3_6.index t (1 : Fin 2) * 256 + 256; rw [e61]; omega

theorem mem_blk7 (t : Fin cfg3.N) (i : S20000x256.Idx) :
    i ∈ ((cfg3.win 7).blk t).view.set ↔ ∀ a : Fin 2, win3_7.index t a * S2000x256.size a ≤ (i a).val ∧ (i a).val < win3_7.index t a * S2000x256.size a + S2000x256.size a := by
  show i ∈ ((View.whole main_v77_2).slice (win3_7.rect t)).set ↔ _
  rw [View.set_slice_whole, Rect.mem_set_unit]
  exact Iff.rfl

theorem cover7 (i : S20000x256.Idx) : ∃ t : Fin cfg3.N, (cfg3.win 7).flush t = true ∧ i ∈ ((cfg3.win 7).blk t).view.set := by
  have hi0 : (i 0).val < 20000 := (i 0).isLt
  have hi1 : (i 1).val < 256 := (i 1).isLt
  have hN : cfg3.N = 10 := N_3
  obtain ⟨t, ht⟩ : ∃ t : Fin cfg3.N, t.val = (i 0).val / 2000 := ⟨⟨(i 0).val / 2000, by rw [hN]; omega⟩, rfl⟩
  obtain ⟨e00, e01, e10, e11, e20, e21, e30, e31, e40, e50, e51, e60, e61, e70, e71⟩ := idx t
  refine ⟨t, flush3_7 t, ?_⟩
  rw [mem_blk7]
  intro a
  match a with
  | ⟨0, _⟩ => show win3_7.index t (0 : Fin 2) * 2000 ≤ (i 0).val ∧ (i 0).val < win3_7.index t (0 : Fin 2) * 2000 + 2000; rw [e70, ht]; omega
  | ⟨1, _⟩ => show win3_7.index t (1 : Fin 2) * 256 ≤ (i 1).val ∧ (i 1).val < win3_7.index t (1 : Fin 2) * 256 + 256; rw [e71]; omega

/-! ## The three result arrays after the region -/

/-- The query array: x·Wq + bq of the arrays the region found. -/
theorem finalQ (c : Dev nD) :
    (dat3 (F := Ideal) V c).arrAt 5 cfg3.N
      = Spec.linBiasArr (K := 256) (M := 256) (V c (Pipeline.arrRef spec3 0)) (V c (Pipeline.arrRef spec3 1)) (V c (Pipeline.arrRef spec3 4)) :=
  (dat3 (F := Ideal) V c).arrAt_eq_of_cover 5
    (Spec.linBiasArr (K := 256) (M := 256) (V c (Pipeline.arrRef spec3 0)) (V c (Pipeline.arrRef spec3 1)) (V c (Pipeline.arrRef spec3 4)))
    (fun t _ => flushedQ V c t) cover5

/-- The key array: x·Wk. -/
theorem finalK (c : Dev nD) :
    (dat3 (F := Ideal) V c).arrAt 6 cfg3.N
      = Spec.linArr (K := 256) (M := 256) (V c (Pipeline.arrRef spec3 0)) (V c (Pipeline.arrRef spec3 2)) :=
  (dat3 (F := Ideal) V c).arrAt_eq_of_cover 6
    (Spec.linArr (K := 256) (M := 256) (V c (Pipeline.arrRef spec3 0)) (V c (Pipeline.arrRef spec3 2)))
    (fun t _ => flushedK V c t) cover6

/-- The value array: x·Wv. -/
theorem finalV (c : Dev nD) :
    (dat3 (F := Ideal) V c).arrAt 7 cfg3.N
      = Spec.linArr (K := 256) (M := 256) (V c (Pipeline.arrRef spec3 0)) (V c (Pipeline.arrRef spec3 3)) :=
  (dat3 (F := Ideal) V c).arrAt_eq_of_cover 7
    (Spec.linArr (K := 256) (M := 256) (V c (Pipeline.arrRef spec3 0)) (V c (Pipeline.arrRef spec3 3)))
    (fun t _ => flushedV V c t) cover7

end Cert.KernelIdeal.RegionQkv3

end
-- ==== Proof.RegionMsgBlocks4.lean ====
/-
  From blocks to arrays: the message kernel over its grid of 320 points, second layer.

  Point t reads rows 2000·t … 2000·t + 1999 of the key, value, query and relation arrays and writes the same rows of
  the message array [640000, 256] and of the weight array [640000, 8].  Each written block is those rows of ONE
  function of the four input arrays (the specification's message and weight arrays), and the 320 blocks cover every
  row, so the two arrays end holding that function.
-/
import proofs.«175432_j21457656611019_1_alg».proof.Proof.Gen.KernelIdeal.Frame
import proofs.«175432_j21457656611019_1_alg».proof.Proof.RegionMsgPay
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RegionMsg

open Cert.KernelIdeal Cert.KernelIdeal.Gen

variable (V : (c : Dev nD) → (b : Ref sig .tc) → Buf (Elt Ideal) ((c : Thread nD τ).loc b))

theorem hz4 : (![0, 0] : Fin 2 → Nat) = fun _ => 0 := funext fun a => by fin_cases a <;> rfl

/-- The second layer's body is the first layer's, operation for operation. -/
theorem s_point4 (x0 x2 x3 : FVec Ideal S2000x256 .bf16) (A0 A2 A3 : Cert.Spec.Arr2 640000 256) (T : Nat) (hT : T < 320)
    (h0 : ∀ (r : Fin 2000) (j : Fin 256), x0 (ix2 r j) = A0 (ix2 (erow T hT r) j))
    (h2 : ∀ (r : Fin 2000) (j : Fin 256), x2 (ix2 r j) = A2 (ix2 (erow T hT r) j))
    (h3 : ∀ (r : Fin 2000) (j : Fin 256), x3 (ix2 r j) = A3 (ix2 (erow T hT r) j))
    (y : S2000x8.Idx) (i : (⟨2, ![640000, 8]⟩ : Shape).Idx) (hi0 : (i 0).val = 2000 * T + (y 0).val) (hi1 : (i 1).val = (y 1).val) :
    k4_pay1 (F := Ideal) (k4_pay5 x0 x2 x3) (Scalar.ofBits .f32 0xC1200000#32) y = Cert.Spec.sArr A0 A2 A3 i :=
  s_point x0 x2 x3 A0 A2 A3 T hT h0 h2 h3 y i hi0 hi1

theorem msg_point4 (x0 x1 x2 x3 : FVec Ideal S2000x256 .bf16) (A0 A1 A2 A3 : Cert.Spec.Arr2 640000 256) (T : Nat) (hT : T < 320)
    (h0 : ∀ (r : Fin 2000) (j : Fin 256), x0 (ix2 r j) = A0 (ix2 (erow T hT r) j))
    (h1 : ∀ (r : Fin 2000) (j : Fin 256), x1 (ix2 r j) = A1 (ix2 (erow T hT r) j))
    (h2 : ∀ (r : Fin 2000) (j : Fin 256), x2 (ix2 r j) = A2 (ix2 (erow T hT r) j))
    (h3 : ∀ (r : Fin 2000) (j : Fin 256), x3 (ix2 r j) = A3 (ix2 (erow T hT r) j))
    (y : S2000x256.Idx) (i : (⟨2, ![640000, 256]⟩ : Shape).Idx) (hi0 : (i 0).val = 2000 * T + (y 0).val) (hi1 : (i 1).val = (y 1).val) :
    k4_pay2 (F := Ideal) (k4_pay3 x1) (k4_pay4 x3) (k4_pay5 x0 x2 x3) (Scalar.ofBits .f32 0xC1200000#32) y
      = Cert.Spec.msgArr A0 A1 A2 A3 i :=
  msg_point x0 x1 x2 x3 A0 A1 A2 A3 T hT h0 h1 h2 h3 y i hi0 hi1

/-! ## Region 4 -/

/-- Every window's block at point t is block row t, block column 0. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

theorem tlt4 (t : Fin cfg4.N) : t.val < 320 := by
  have h := t.isLt
  have hN : cfg4.N = 320 := N_4
  omega

/-- Input block 0 at point t is rows 2000·t … 2000·t + 1999 of its array. -/
theorem iblk4_0_apply (c : Dev nD) (t : Fin cfg4.N) (r : Fin 2000) (j : Fin 256) :
    (iblk4 V c 0 t : FVec Ideal S2000x256 .bf16) (ix2 r j)
      = (V c (Pipeline.arrRef spec4 0) : Cert.Spec.Arr2 640000 256) (ix2 (erow t.val (tlt4 t) r) j) := by
  obtain ⟨e0, e1, -⟩ := idx_facts4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 2000 + 1 * r.val = 2000 * t.val + r.val; rw [e0]; omega
  | ⟨1, _⟩ => show win4_0.index t (1 : Fin 2) * 256 + 1 * j.val = j.val; rw [e1]; omega

/-- Input block 1 at point t is rows 2000·t … 2000·t + 1999 of its array. -/
theorem iblk4_1_apply (c : Dev nD) (t : Fin cfg4.N) (r : Fin 2000) (j : Fin 256) :
    (iblk4 V c 1 t : FVec Ideal S2000x256 .bf16) (ix2 r j)
      = (V c (Pipeline.arrRef spec4 1) : Cert.Spec.Arr2 640000 256) (ix2 (erow t.val (tlt4 t) r) j) := by
  obtain ⟨-, -, e0, e1, -⟩ := idx_facts4 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 2000 + 1 * r.val = 2000 * t.val + r.val; rw [e0]; omega
  | ⟨1, _⟩ => show win4_1.index t (1 : Fin 2) * 256 + 1 * j.val = j.val; rw [e1]; omega

/-- Input block 2 at point t is rows 2000·t … 2000·t + 1999 of its array. -/
theorem iblk4_2_apply (c : Dev nD) (t : Fin cfg4.N) (r : Fin 2000) (j : Fin 256) :
    (iblk4 V c 2 t : FVec Ideal S2000x256 .bf16) (ix2 r j)
      = (V c (Pipeline.arrRef spec4 2) : Cert.Spec.Arr2 640000 256) (ix2 (erow t.val (tlt4 t) r) j) := by
  obtain ⟨-, -, -, -, e0, e1, -⟩ := idx_facts4 t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 2000 + 1 * r.val = 2000 * t.val + r.val; rw [e0]; omega
  | ⟨1, _⟩ => show win4_2.index t (1 : Fin 2) * 256 + 1 * j.val = j.val; rw [e1]; omega

/-- Input block 3 at point t is rows 2000·t … 2000·t + 1999 of its array. -/
theorem iblk4_3_apply (c : Dev nD) (t : Fin cfg4.N) (r : Fin 2000) (j : Fin 256) :
    (iblk4 V c 3 t : FVec Ideal S2000x256 .bf16) (ix2 r j)
      = (V c (Pipeline.arrRef spec4 3) : Cert.Spec.Arr2 640000 256) (ix2 (erow t.val (tlt4 t) r) j) := by
  obtain ⟨-, -, -, -, -, -, e0, e1, -⟩ := idx_facts4 t
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 2000 + 1 * r.val = 2000 * t.val + r.val; rw [e0]; omega
  | ⟨1, _⟩ => show win4_3.index t (1 : Fin 2) * 256 + 1 * j.val = j.val; rw [e1]; omega

/-- The message array the region leaves: the specification's, of the four arrays as the region finds them. -/
abbrev msgOf4 (c : Dev nD) : Cert.Spec.Arr2 640000 256 :=
  Cert.Spec.msgArr (V c (Pipeline.arrRef spec4 0)) (V c (Pipeline.arrRef spec4 1)) (V c (Pipeline.arrRef spec4 2)) (V c (Pipeline.arrRef spec4 3))

/-- The weight array the region leaves. -/
abbrev sOf4 (c : Dev nD) : Cert.Spec.Arr2 640000 8 :=
  Cert.Spec.sArr (V c (Pipeline.arrRef spec4 0)) (V c (Pipeline.arrRef spec4 2)) (V c (Pipeline.arrRef spec4 3))

/-- WHAT POINT t WRITES BACK to the message array is block t of the specification's message array. -/
theorem flushed4_4_eq (c : Dev nD) (t : Fin cfg4.N) :
    (dat4 (F := Ideal) V c).flushed 4 t = ((cfg4.win 4).blk t).view.read (Elt Ideal) (msgOf4 V c) := by
  show (cfg4.win 4).cut (grid4.coords t) ((dat4 V c).after 4 t) = _
  rw [after4_4]
  unfold out4_4
  rw [View.canon_unit_zero hz4]
  simp only [View.ld_unit_zero (S := S2000x256) hz4]
  obtain ⟨-, -, -, -, -, -, -, -, e0, e1, -⟩ := idx_facts4 t
  funext y
  refine msg_point4 (iblk4 V c 0 t) (iblk4 V c 1 t) (iblk4 V c 2 t) (iblk4 V c 3 t)
    (V c (Pipeline.arrRef spec4 0)) (V c (Pipeline.arrRef spec4 1)) (V c (Pipeline.arrRef spec4 2)) (V c (Pipeline.arrRef spec4 3))
    t.val (tlt4 t) (iblk4_0_apply V c t) (iblk4_1_apply V c t) (iblk4_2_apply V c t) (iblk4_3_apply V c t)
    y (((cfg4.win 4).blk t).view.emb y) ?_ ?_
  · show win4_4.index t (0 : Fin 2) * 2000 + 1 * (y 0).val = 2000 * t.val + (y 0).val; rw [e0]; omega
  · show win4_4.index t (1 : Fin 2) * 256 + 1 * (y 1).val = (y 1).val; rw [e1]; omega

/-- WHAT POINT t WRITES BACK to the weight array is block t of the specification's weight array. -/
theorem flushed4_5_eq (c : Dev nD) (t : Fin cfg4.N) :
    (dat4 (F := Ideal) V c).flushed 5 t = ((cfg4.win 5).blk t).view.read (Elt Ideal) (sOf4 V c) := by
  show (cfg4.win 5).cut (grid4.coords t) ((dat4 V c).after 5 t) = _
  rw [after4_5]
  unfold out4_5
  rw [View.canon_unit_zero hz4]
  simp only [View.ld_unit_zero (S := S2000x256) hz4]
  obtain ⟨-, -, -, -, -, -, -, -, -, -, e0, e1⟩ := idx_facts4 t
  funext y
  refine s_point4 (iblk4 V c 0 t) (iblk4 V c 2 t) (iblk4 V c 3 t)
    (V c (Pipeline.arrRef spec4 0)) (V c (Pipeline.arrRef spec4 2)) (V c (Pipeline.arrRef spec4 3))
    t.val (tlt4 t) (iblk4_0_apply V c t) (iblk4_2_apply V c t) (iblk4_3_apply V c t)
    y (((cfg4.win 5).blk t).view.emb y) ?_ ?_
  · show win4_5.index t (0 : Fin 2) * 2000 + 1 * (y 0).val = 2000 * t.val + (y 0).val; rw [e0]; omega
  · show win4_5.index t (1 : Fin 2) * 8 + 1 * (y 1).val = (y 1).val; rw [e1]; omega

/-- A row of the message array is in point t's block iff it is one of rows 2000·t … 2000·t + 1999. -/
theorem mem_blk4_4 (t : Fin cfg4.N) (i : S640000x256.Idx) :
    i ∈ ((cfg4.win 4).blk t).view.set ↔ ∀ a : Fin 2, win4_4.index t a * S2000x256.size a ≤ (i a).val ∧ (i a).val < win4_4.index t a * S2000x256.size a + S2000x256.size a := by
  show i ∈ ((View.whole main_v99_0).slice (win4_4.rect t)).set ↔ _
  rw [View.set_slice_whole, Rect.mem_set_unit]
  exact Iff.rfl

theorem mem_blk4_5 (t : Fin cfg4.N) (i : S640000x8.Idx) :
    i ∈ ((cfg4.win 5).blk t).view.set ↔ ∀ a : Fin 2, win4_5.index t a * S2000x8.size a ≤ (i a).val ∧ (i a).val < win4_5.index t a * S2000x8.size a + S2000x8.size a := by
  show i ∈ ((View.whole main_v99_1).slice (win4_5.rect t)).set ↔ _
  rw [View.set_slice_whole, Rect.mem_set_unit]
  exact Iff.rfl

/-- Row e of the message array is written by point e / 2000. -/
theorem cover4_4 (i : S640000x256.Idx) :
    ∃ t : Fin cfg4.N, (cfg4.win 4).flush t = true ∧ i ∈ ((cfg4.win 4).blk t).view.set := by
  have hN : cfg4.N = 320 := N_4
  have hi0 : (i 0).val < 640000 := idx2_lt0 i
  have hi1 : (i 1).val < 256 := idx2_lt1 i
  obtain ⟨t, ht⟩ : ∃ t : Fin cfg4.N, t.val = (i 0).val / 2000 := ⟨⟨(i 0).val / 2000, by omega⟩, rfl⟩
  obtain ⟨-, -, -, -, -, -, -, -, e0, e1, -⟩ := idx_facts4 t
  refine ⟨t, flush4_4 t, ?_⟩
  rw [mem_blk4_4]
  intro a
  match a with
  | ⟨0, _⟩ => show win4_4.index t (0 : Fin 2) * 2000 ≤ (i 0).val ∧ (i 0).val < win4_4.index t (0 : Fin 2) * 2000 + 2000; rw [e0]; omega
  | ⟨1, _⟩ => show win4_4.index t (1 : Fin 2) * 256 ≤ (i 1).val ∧ (i 1).val < win4_4.index t (1 : Fin 2) * 256 + 256; rw [e1]; omega

theorem cover4_5 (i : S640000x8.Idx) :
    ∃ t : Fin cfg4.N, (cfg4.win 5).flush t = true ∧ i ∈ ((cfg4.win 5).blk t).view.set := by
  have hN : cfg4.N = 320 := N_4
  have hi0 : (i 0).val < 640000 := idx2_lt0 i
  have hi1 : (i 1).val < 8 := idx2_lt1 i
  obtain ⟨t, ht⟩ : ∃ t : Fin cfg4.N, t.val = (i 0).val / 2000 := ⟨⟨(i 0).val / 2000, by omega⟩, rfl⟩
  obtain ⟨-, -, -, -, -, -, -, -, -, -, e0, e1⟩ := idx_facts4 t
  refine ⟨t, flush4_5 t, ?_⟩
  rw [mem_blk4_5]
  intro a
  match a with
  | ⟨0, _⟩ => show win4_5.index t (0 : Fin 2) * 2000 ≤ (i 0).val ∧ (i 0).val < win4_5.index t (0 : Fin 2) * 2000 + 2000; rw [e0]; omega
  | ⟨1, _⟩ => show win4_5.index t (1 : Fin 2) * 8 ≤ (i 1).val ∧ (i 1).val < win4_5.index t (1 : Fin 2) * 8 + 8; rw [e1]; omega

/-- THE MESSAGE ARRAY after region 4: the specification's message array of the four arrays the region finds. -/
theorem msg_final4 (c : Dev nD) :
    (dat4 (F := Ideal) V c).arrAt 4 cfg4.N
      = Cert.Spec.msgArr (V c (Pipeline.arrRef spec4 0)) (V c (Pipeline.arrRef spec4 1)) (V c (Pipeline.arrRef spec4 2)) (V c (Pipeline.arrRef spec4 3)) :=
  (dat4 (F := Ideal) V c).arrAt_eq_of_cover 4 (msgOf4 V c) (fun t _ => flushed4_4_eq V c t) cover4_4

/-- THE WEIGHT ARRAY after region 4: the specification's weight array. -/
theorem s_final4 (c : Dev nD) :
    (dat4 (F := Ideal) V c).arrAt 5 cfg4.N
      = Cert.Spec.sArr (V c (Pipeline.arrRef spec4 0)) (V c (Pipeline.arrRef spec4 2)) (V c (Pipeline.arrRef spec4 3)) :=
  (dat4 (F := Ideal) V c).arrAt_eq_of_cover 5 (sOf4 V c) (fun t _ => flushed4_5_eq V c t) cover4_5

end Cert.KernelIdeal.RegionMsg

end
-- ==== Proof.RegionFfnBlock5.lean ====
/-
  The second feed-forward region's body leaves the same block as the first's.

  The two printed bodies differ only in where a vector is cast to its own shape and in which payload carries the
  cast of the second bias to a row; a cast of a vector to its own shape is the vector.
-/
import proofs.«175432_j21457656611019_1_alg».proof.Proof.RegionFfnBlock

noncomputable section

open scoped BigOperators

namespace Cert.KernelIdeal.RegionFfn

open Idealize.ShloMosaic Idealize.ShloMosaic.ValueIdx Cert.KernelIdeal Cert.KernelIdeal.Gen

theorem pay2_5 (v0 v1 : Vec Ideal S1000x256 .f32) (v3 : Vec Ideal S1000x8 .f32) (v33 : Vec Ideal S256x256 .f32)
    (v38 : Vec Ideal S256 .f32) : k5_pay2 (F := Ideal) v0 v1 v3 v33 v38 = k2_pay2 v0 v1 v3 v33 v38 := by
  unfold k5_pay2 k2_pay2
  simp only [shapeCast_self]

theorem pay3_5 (v : Vec Ideal S256 .f32) : k5_pay3 (F := Ideal) v = k2_pay3 v := rfl

theorem pay4_5 (v43 : FVec Ideal S1000x256 .f32) (v45 : FVec Ideal S256 .f32) (v46 : Vec Ideal S256 .f32) :
    k5_pay4 (F := Ideal) v43 v45 v46 = k2_pay4 v43 v45 v46 := rfl

theorem pay5_5 (v43 : FVec Ideal S1000x256 .f32) (v45 : FVec Ideal S256 .f32) (v46 : Vec Ideal S256 .f32)
    (v72 : Vec Ideal S256x1024 .f32) (v77 : Vec Ideal S1024 .f32) (v84 : Vec Ideal S1024x256 .f32) :
    k5_pay5 (F := Ideal) v43 v45 v46 v72 v77 v84 = k2_pay5 v43 v45 v46 v72 v77 v84 := by
  unfold k5_pay5 k2_pay5
  rw [pay4_5]

theorem pay1_5 (v71 v88 : FVec Ideal S1000x256 .f32) (v : Vec Ideal S256 .f32) (v95 v97 : Vec Ideal S256 .f32) :
    k5_pay1 (F := Ideal) v71 v88 (k5_pay6 v) v95 v97 = k2_pay1 v71 v88 (k2_pay6 v) v95 v97 := by
  unfold k5_pay1 k5_pay6 k2_pay1 k2_pay6
  simp only [shapeCast_self]

/-- The block the second region's body leaves is the first's function of the loaded blocks. -/
theorem out5_13_eq (x0 x1 : Vec Ideal S1000x256 .f32) (x2 : Vec Ideal S1000x8 .f32) (x3 : Vec Ideal S256x256 .f32)
    (x4 x5 x6 : Vec Ideal S256 .f32) (x7 : Vec Ideal S256x1024 .f32) (x8 : Vec Ideal S1024 .f32)
    (x9 : Vec Ideal S1024x256 .f32) (x10 x11 x12 : Vec Ideal S256 .f32) :
    out5_13 (F := Ideal) x0 x1 x2 x3 x4 x5 x6 x7 x8 x9 x10 x11 x12
      = out2_13 (F := Ideal) x0 x1 x2 x3 x4 x5 x6 x7 x8 x9 x10 x11 x12 := by
  rw [out2_13_eq]
  unfold out5_13
  rw [View.canon_unit_zero hz2]
  simp only [View.ld_unit_zero (S := S1000x256) hz2, View.ld_unit_zero (S := S1000x8) hz2,
    View.ld_unit_zero (S := S256x256) hz2, View.ld_unit_zero (S := S256x1024) hz2,
    View.ld_unit_zero (S := S1024x256) hz2, View.ld_unit_zero (S := S256) hz1, View.ld_unit_zero (S := S1024) hz1]
  rw [pay1_5, pay5_5, pay4_5, pay3_5, pay2_5]

/-- Row r of the block the second region's body leaves, when row r of the blocked inputs is row n of x, wv, z. -/
theorem out5_13_row (X WV : Cert.Spec.Arr2 20000 256) (Z : Cert.Spec.Arr2 20000 8) (P : Cert.Spec.Params)
    (x0 x1 : Vec Ideal S1000x256 .f32) (x2 : Vec Ideal S1000x8 .f32) (x3 : Vec Ideal S256x256 .f32)
    (x4 x5 x6 : Vec Ideal S256 .f32) (x7 : Vec Ideal S256x1024 .f32) (x8 : Vec Ideal S1024 .f32)
    (x9 : Vec Ideal S1024x256 .f32) (x10 x11 x12 : Vec Ideal S256 .f32)
    (n : Fin 20000) (r : Fin 1000)
    (h0 : ∀ j : Fin 256, x0 (ix2 r j) = X (ix2 n j)) (h1 : ∀ j : Fin 256, x1 (ix2 r j) = WV (ix2 n j))
    (h2 : ∀ h : Fin 8, x2 (ix2 r h) = Z (ix2 n h))
    (h3 : x3 = P.Wo) (h4 : x4 = P.bo) (h5 : x5 = P.g1) (h6 : x6 = P.b1) (h7 : x7 = P.W1) (h8 : x8 = P.c1)
    (h9 : x9 = P.W2) (h10 : x10 = P.c2) (h11 : x11 = P.g2) (h12 : x12 = P.b2) (j : Fin 256) :
    out5_13 (F := Ideal) x0 x1 x2 x3 x4 x5 x6 x7 x8 x9 x10 x11 x12 (ix2 r j)
      = Cert.Spec.postArr X WV Z P (ix2 n j) := by
  rw [out5_13_eq]
  exact out2_13_row X WV Z P x0 x1 x2 x3 x4 x5 x6 x7 x8 x9 x10 x11 x12 n r h0 h1 h2 h3 h4 h5 h6 h7 h8 h9 h10 h11 h12 j

end Cert.KernelIdeal.RegionFfn

end
-- ==== Proof.RegionFfn5.lean ====
/-
  From blocks to the array, for the feed-forward region numbered 5 of the program.

  The grid has 20 points; point t reads rows 1000 t … 1000 t + 999 of the three row-blocked inputs and the ten weight
  arrays whole, and writes back rows 1000 t … 1000 t + 999 of the output.  Row n of the output is covered by point
  n / 1000, so the output array ends holding, row by row, the specification's function of the arrays the region finds.
-/
import proofs.«175432_j21457656611019_1_alg».proof.Proof.Gen.KernelIdeal.Frame
import proofs.«175432_j21457656611019_1_alg».proof.Proof.RegionFfnBlock5
import proofs.«175432_j21457656611019_1_alg».proof.Proof.RegionFfnCongr
import Idealize.ShloMosaic.Lib.Pipeline.Value

set_option maxRecDepth 16384

noncomputable section

open scoped BigOperators

namespace Cert.KernelIdeal.RegionFfn5

open Idealize.ShloMosaic Idealize.ShloMosaic.TcCoe Idealize.ShloMosaic.ValueIdx Cert.KernelIdeal Cert.KernelIdeal.Gen
open Cert.KernelIdeal.RegionFfn
open Idealize.ShloMosaic.Pipeline (Dat)

variable (V : (c : Dev nD) → (b : Ref sig .tc) → Buf (Elt Ideal) ((c : Thread nD τ).loc b))

/-- The weights the region reads (the attention weights are not read by this stage). -/
def params (c : Dev nD) : Cert.Spec.Params :=
  { Wq := fun _ => 0, Wk := fun _ => 0, Wv := fun _ => 0, bq := fun _ => 0,
    Wo := V c (Pipeline.arrRef spec5 3), bo := V c (Pipeline.arrRef spec5 4),
    g1 := V c (Pipeline.arrRef spec5 5), b1 := V c (Pipeline.arrRef spec5 6),
    W1 := V c (Pipeline.arrRef spec5 7), c1 := V c (Pipeline.arrRef spec5 8),
    W2 := V c (Pipeline.arrRef spec5 9), c2 := V c (Pipeline.arrRef spec5 10),
    g2 := V c (Pipeline.arrRef spec5 11), b2 := V c (Pipeline.arrRef spec5 12) }

/-- What the output array ends holding. -/
def G (c : Dev nD) : Cert.Spec.Arr2 20000 256 :=
  Cert.Spec.postArr (V c (Pipeline.arrRef spec5 0)) (V c (Pipeline.arrRef spec5 1)) (V c (Pipeline.arrRef spec5 2)) (params V c)

theorem hN : cfg5.N = 20 := N_5

/-- The row-blocked windows move with the point along the rows and stay at column block 0. -/
theorem idx_rows : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_13.index t (0 : Fin 2) = t.val ∧ win5_13.index t (1 : Fin 2) = 0 :=
  (by decide +kernel : ∀ t : Fin grid5.N, _)

/-- The weight windows stay at block 0. -/
theorem idx_whole : ∀ t : Fin cfg5.N,
    win5_3.index t (0 : Fin 2) = 0 ∧ win5_3.index t (1 : Fin 2) = 0
    ∧ win5_4.index t (0 : Fin 1) = 0
    ∧ win5_5.index t (0 : Fin 1) = 0
    ∧ win5_6.index t (0 : Fin 1) = 0
    ∧ win5_7.index t (0 : Fin 2) = 0 ∧ win5_7.index t (1 : Fin 2) = 0
    ∧ win5_8.index t (0 : Fin 1) = 0
    ∧ win5_9.index t (0 : Fin 2) = 0 ∧ win5_9.index t (1 : Fin 2) = 0
    ∧ win5_10.index t (0 : Fin 1) = 0
    ∧ win5_11.index t (0 : Fin 1) = 0
    ∧ win5_12.index t (0 : Fin 1) = 0 :=
  (by decide +kernel : ∀ t : Fin grid5.N, _)

/-- Row r of window 0's block at point t is row 1000 t + r of its array. -/
theorem iblk_0_apply (c : Dev nD) (t : Fin cfg5.N) (r : Fin 1000) (j : Fin 256) (n : Fin 20000) (hn : n.val = 1000 * t.val + r.val) :
    (iblk5 V c 0 t : Vec Ideal S1000x256 .f32) (ix2 r j) = (V c (Pipeline.arrRef spec5 0) : Cert.Spec.Arr2 20000 256) (ix2 n j) := by
  have e0 : win5_0.index t (0 : Fin 2) = t.val := by have h := idx_rows t; tauto
  have e1 : win5_0.index t (1 : Fin 2) = 0 := by have h := idx_rows t; tauto
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 1000 + 1 * r.val = n.val; rw [e0, hn]; omega
  | ⟨1, _⟩ => show win5_0.index t (1 : Fin 2) * 256 + 1 * j.val = j.val; rw [e1]; omega

/-- Row r of window 1's block at point t is row 1000 t + r of its array. -/
theorem iblk_1_apply (c : Dev nD) (t : Fin cfg5.N) (r : Fin 1000) (j : Fin 256) (n : Fin 20000) (hn : n.val = 1000 * t.val + r.val) :
    (iblk5 V c 1 t : Vec Ideal S1000x256 .f32) (ix2 r j) = (V c (Pipeline.arrRef spec5 1) : Cert.Spec.Arr2 20000 256) (ix2 n j) := by
  have e0 : win5_1.index t (0 : Fin 2) = t.val := by have h := idx_rows t; tauto
  have e1 : win5_1.index t (1 : Fin 2) = 0 := by have h := idx_rows t; tauto
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 1000 + 1 * r.val = n.val; rw [e0, hn]; omega
  | ⟨1, _⟩ => show win5_1.index t (1 : Fin 2) * 256 + 1 * j.val = j.val; rw [e1]; omega

/-- Row r of window 2's block at point t is row 1000 t + r of its array. -/
theorem iblk_2_apply (c : Dev nD) (t : Fin cfg5.N) (r : Fin 1000) (j : Fin 8) (n : Fin 20000) (hn : n.val = 1000 * t.val + r.val) :
    (iblk5 V c 2 t : Vec Ideal S1000x8 .f32) (ix2 r j) = (V c (Pipeline.arrRef spec5 2) : Cert.Spec.Arr2 20000 8) (ix2 n j) := by
  have e0 : win5_2.index t (0 : Fin 2) = t.val := by have h := idx_rows t; tauto
  have e1 : win5_2.index t (1 : Fin 2) = 0 := by have h := idx_rows t; tauto
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 1000 + 1 * r.val = n.val; rw [e0, hn]; omega
  | ⟨1, _⟩ => show win5_2.index t (1 : Fin 2) * 8 + 1 * j.val = j.val; rw [e1]; omega

/-- Window 3's block at any point is its whole array. -/
theorem iblk_3_eq (c : Dev nD) (t : Fin cfg5.N) :
    (iblk5 V c 3 t : Vec Ideal S256x256 .f32) = (V c (Pipeline.arrRef spec5 3) : Cert.Spec.Arr2 256 256) := by
  funext x
  unfold iblk5
  rw [View.read_apply]
  show V c (Pipeline.arrRef spec5 3) _ = V c (Pipeline.arrRef spec5 3) x
  congr 1
  funext a
  apply Fin.ext
  match a with
  | ⟨0, _⟩ => show win5_3.index t (0 : Fin 2) * 256 + 1 * (x 0).val = (x 0).val; rw [(by have h := idx_whole t; tauto : win5_3.index t (0 : Fin 2) = 0)]; omega
  | ⟨1, _⟩ => show win5_3.index t (1 : Fin 2) * 256 + 1 * (x 1).val = (x 1).val; rw [(by have h := idx_whole t; tauto : win5_3.index t (1 : Fin 2) = 0)]; omega

/-- Window 4's block at any point is its whole array. -/
theorem iblk_4_eq (c : Dev nD) (t : Fin cfg5.N) :
    (iblk5 V c 4 t : Vec Ideal S256 .f32) = (V c (Pipeline.arrRef spec5 4) : Cert.Spec.Arr1 256) := by
  funext x
  unfold iblk5
  rw [View.read_apply]
  show V c (Pipeline.arrRef spec5 4) _ = V c (Pipeline.arrRef spec5 4) x
  congr 1
  funext a
  apply Fin.ext
  match a with
  | ⟨0, _⟩ => show win5_4.index t (0 : Fin 1) * 256 + 1 * (x 0).val = (x 0).val; rw [(by have h := idx_whole t; tauto : win5_4.index t (0 : Fin 1) = 0)]; omega

/-- Window 5's block at any point is its whole array. -/
theorem iblk_5_eq (c : Dev nD) (t : Fin cfg5.N) :
    (iblk5 V c 5 t : Vec Ideal S256 .f32) = (V c (Pipeline.arrRef spec5 5) : Cert.Spec.Arr1 256) := by
  funext x
  unfold iblk5
  rw [View.read_apply]
  show V c (Pipeline.arrRef spec5 5) _ = V c (Pipeline.arrRef spec5 5) x
  congr 1
  funext a
  apply Fin.ext
  match a with
  | ⟨0, _⟩ => show win5_5.index t (0 : Fin 1) * 256 + 1 * (x 0).val = (x 0).val; rw [(by have h := idx_whole t; tauto : win5_5.index t (0 : Fin 1) = 0)]; omega

/-- Window 6's block at any point is its whole array. -/
theorem iblk_6_eq (c : Dev nD) (t : Fin cfg5.N) :
    (iblk5 V c 6 t : Vec Ideal S256 .f32) = (V c (Pipeline.arrRef spec5 6) : Cert.Spec.Arr1 256) := by
  funext x
  unfold iblk5
  rw [View.read_apply]
  show V c (Pipeline.arrRef spec5 6) _ = V c (Pipeline.arrRef spec5 6) x
  congr 1
  funext a
  apply Fin.ext
  match a with
  | ⟨0, _⟩ => show win5_6.index t (0 : Fin 1) * 256 + 1 * (x 0).val = (x 0).val; rw [(by have h := idx_whole t; tauto : win5_6.index t (0 : Fin 1) = 0)]; omega

/-- Window 7's block at any point is its whole array. -/
theorem iblk_7_eq (c : Dev nD) (t : Fin cfg5.N) :
    (iblk5 V c 7 t : Vec Ideal S256x1024 .f32) = (V c (Pipeline.arrRef spec5 7) : Cert.Spec.Arr2 256 1024) := by
  funext x
  unfold iblk5
  rw [View.read_apply]
  show V c (Pipeline.arrRef spec5 7) _ = V c (Pipeline.arrRef spec5 7) x
  congr 1
  funext a
  apply Fin.ext
  match a with
  | ⟨0, _⟩ => show win5_7.index t (0 : Fin 2) * 256 + 1 * (x 0).val = (x 0).val; rw [(by have h := idx_whole t; tauto : win5_7.index t (0 : Fin 2) = 0)]; omega
  | ⟨1, _⟩ => show win5_7.index t (1 : Fin 2) * 1024 + 1 * (x 1).val = (x 1).val; rw [(by have h := idx_whole t; tauto : win5_7.index t (1 : Fin 2) = 0)]; omega

/-- Window 8's block at any point is its whole array. -/
theorem iblk_8_eq (c : Dev nD) (t : Fin cfg5.N) :
    (iblk5 V c 8 t : Vec Ideal S1024 .f32) = (V c (Pipeline.arrRef spec5 8) : Cert.Spec.Arr1 1024) := by
  funext x
  unfold iblk5
  rw [View.read_apply]
  show V c (Pipeline.arrRef spec5 8) _ = V c (Pipeline.arrRef spec5 8) x
  congr 1
  funext a
  apply Fin.ext
  match a with
  | ⟨0, _⟩ => show win5_8.index t (0 : Fin 1) * 1024 + 1 * (x 0).val = (x 0).val; rw [(by have h := idx_whole t; tauto : win5_8.index t (0 : Fin 1) = 0)]; omega

/-- Window 9's block at any point is its whole array. -/
theorem iblk_9_eq (c : Dev nD) (t : Fin cfg5.N) :
    (iblk5 V c 9 t : Vec Ideal S1024x256 .f32) = (V c (Pipeline.arrRef spec5 9) : Cert.Spec.Arr2 1024 256) := by
  funext x
  unfold iblk5
  rw [View.read_apply]
  show V c (Pipeline.arrRef spec5 9) _ = V c (Pipeline.arrRef spec5 9) x
  congr 1
  funext a
  apply Fin.ext
  match a with
  | ⟨0, _⟩ => show win5_9.index t (0 : Fin 2) * 1024 + 1 * (x 0).val = (x 0).val; rw [(by have h := idx_whole t; tauto : win5_9.index t (0 : Fin 2) = 0)]; omega
  | ⟨1, _⟩ => show win5_9.index t (1 : Fin 2) * 256 + 1 * (x 1).val = (x 1).val; rw [(by have h := idx_whole t; tauto : win5_9.index t (1 : Fin 2) = 0)]; omega

/-- Window 10's block at any point is its whole array. -/
theorem iblk_10_eq (c : Dev nD) (t : Fin cfg5.N) :
    (iblk5 V c 10 t : Vec Ideal S256 .f32) = (V c (Pipeline.arrRef spec5 10) : Cert.Spec.Arr1 256) := by
  funext x
  unfold iblk5
  rw [View.read_apply]
  show V c (Pipeline.arrRef spec5 10) _ = V c (Pipeline.arrRef spec5 10) x
  congr 1
  funext a
  apply Fin.ext
  match a with
  | ⟨0, _⟩ => show win5_10.index t (0 : Fin 1) * 256 + 1 * (x 0).val = (x 0).val; rw [(by have h := idx_whole t; tauto : win5_10.index t (0 : Fin 1) = 0)]; omega

/-- Window 11's block at any point is its whole array. -/
theorem iblk_11_eq (c : Dev nD) (t : Fin cfg5.N) :
    (iblk5 V c 11 t : Vec Ideal S256 .f32) = (V c (Pipeline.arrRef spec5 11) : Cert.Spec.Arr1 256) := by
  funext x
  unfold iblk5
  rw [View.read_apply]
  show V c (Pipeline.arrRef spec5 11) _ = V c (Pipeline.arrRef spec5 11) x
  congr 1
  funext a
  apply Fin.ext
  match a with
  | ⟨0, _⟩ => show win5_11.index t (0 : Fin 1) * 256 + 1 * (x 0).val = (x 0).val; rw [(by have h := idx_whole t; tauto : win5_11.index t (0 : Fin 1) = 0)]; omega

/-- Window 12's block at any point is its whole array. -/
theorem iblk_12_eq (c : Dev nD) (t : Fin cfg5.N) :
    (iblk5 V c 12 t : Vec Ideal S256 .f32) = (V c (Pipeline.arrRef spec5 12) : Cert.Spec.Arr1 256) := by
  funext x
  unfold iblk5
  rw [View.read_apply]
  show V c (Pipeline.arrRef spec5 12) _ = V c (Pipeline.arrRef spec5 12) x
  congr 1
  funext a
  apply Fin.ext
  match a with
  | ⟨0, _⟩ => show win5_12.index t (0 : Fin 1) * 256 + 1 * (x 0).val = (x 0).val; rw [(by have h := idx_whole t; tauto : win5_12.index t (0 : Fin 1) = 0)]; omega

/-- WHAT POINT t WRITES BACK is block t of G. -/
theorem flushed_eq (c : Dev nD) (t : Fin cfg5.N) :
    (dat5 V c).flushed 13 t = ((cfg5.win 13).blk t).view.read (Elt Ideal) (G V c) := by
  show (cfg5.win 13).cut (grid5.coords t) ((dat5 V c).after 13 t) = _
  rw [after5_13]
  have e0 : win5_13.index t (0 : Fin 2) = t.val := by have h := idx_rows t; tauto
  have e1 : win5_13.index t (1 : Fin 2) = 0 := by have h := idx_rows t; tauto
  have ht : t.val < 20 := lt_of_lt_of_eq t.isLt hN
  have key : ∀ y : S1000x256.Idx,
      out5_13 (F := Ideal) (iblk5 V c 0 t) (iblk5 V c 1 t) (iblk5 V c 2 t) (iblk5 V c 3 t) (iblk5 V c 4 t)
          (iblk5 V c 5 t) (iblk5 V c 6 t) (iblk5 V c 7 t) (iblk5 V c 8 t) (iblk5 V c 9 t) (iblk5 V c 10 t)
          (iblk5 V c 11 t) (iblk5 V c 12 t) y
        = G V c (((cfg5.win 13).blk t).view.emb y) := by
    intro y
    obtain ⟨r, j, rfl⟩ : ∃ (r : Fin 1000) (j : Fin 256), y = ix2 r j := ⟨y 0, y 1, eq_ix2 y⟩
    have hn : 1000 * t.val + r.val < 20000 := by have := r.isLt; omega
    have hemb : (((cfg5.win 13).blk t).view.emb (ix2 r j) : (⟨2, ![20000, 256]⟩ : Shape).Idx)
        = ix2 (⟨1000 * t.val + r.val, hn⟩ : Fin 20000) j := by
      funext a
      apply Fin.ext
      match a with
      | ⟨0, _⟩ => show win5_13.index t (0 : Fin 2) * 1000 + 1 * r.val = 1000 * t.val + r.val; rw [e0]; omega
      | ⟨1, _⟩ => show win5_13.index t (1 : Fin 2) * 256 + 1 * j.val = j.val; rw [e1]; omega
    refine Eq.trans ?_ (congrArg (G V c) hemb).symm
    exact out5_13_row (V c (Pipeline.arrRef spec5 0)) (V c (Pipeline.arrRef spec5 1)) (V c (Pipeline.arrRef spec5 2)) (params V c)
      (iblk5 V c 0 t) (iblk5 V c 1 t) (iblk5 V c 2 t) (iblk5 V c 3 t) (iblk5 V c 4 t)
      (iblk5 V c 5 t) (iblk5 V c 6 t) (iblk5 V c 7 t) (iblk5 V c 8 t) (iblk5 V c 9 t) (iblk5 V c 10 t)
      (iblk5 V c 11 t) (iblk5 V c 12 t) ⟨1000 * t.val + r.val, hn⟩ r
      (fun j => iblk_0_apply V c t r j _ rfl) (fun j => iblk_1_apply V c t r j _ rfl) (fun h => iblk_2_apply V c t r h _ rfl)
      (iblk_3_eq V c t) (iblk_4_eq V c t) (iblk_5_eq V c t) (iblk_6_eq V c t) (iblk_7_eq V c t) (iblk_8_eq V c t)
      (iblk_9_eq V c t) (iblk_10_eq V c t) (iblk_11_eq V c t) (iblk_12_eq V c t) j
  funext y
  exact key y

/-- An index of the array is in point t's block iff each coordinate is in the block's range on its axis. -/
theorem mem_blk (t : Fin cfg5.N) (i : (⟨2, ![20000, 256]⟩ : Shape).Idx) :
    i ∈ ((cfg5.win 13).blk t).view.set ↔ ∀ a : Fin 2, win5_13.index t a * S1000x256.size a ≤ (i a).val ∧ (i a).val < win5_13.index t a * S1000x256.size a + S1000x256.size a := by
  show i ∈ ((View.whole main_v126).slice (win5_13.rect t)).set ↔ _
  rw [View.set_slice_whole, Rect.mem_set_unit]
  exact Iff.rfl

/-- Row n is covered by point n / 1000. -/
theorem cover (i : (⟨2, ![20000, 256]⟩ : Shape).Idx) :
    ∃ t : Fin cfg5.N, (cfg5.win 13).flush t = true ∧ i ∈ ((cfg5.win 13).blk t).view.set := by
  have hi0 : (i 0).val < 20000 := idx2_lt0 i
  have hi1 : (i 1).val < 256 := idx2_lt1 i
  have hlt : (i 0).val / 1000 < cfg5.N := by rw [hN]; omega
  have e0 : win5_13.index ⟨(i 0).val / 1000, hlt⟩ (0 : Fin 2) = (i 0).val / 1000 := by have h := idx_rows ⟨(i 0).val / 1000, hlt⟩; tauto
  have e1 : win5_13.index ⟨(i 0).val / 1000, hlt⟩ (1 : Fin 2) = 0 := by have h := idx_rows ⟨(i 0).val / 1000, hlt⟩; tauto
  refine ⟨⟨(i 0).val / 1000, hlt⟩, flush5_13 _, ?_⟩
  rw [mem_blk]
  intro a
  match a with
  | ⟨0, _⟩ =>
    show win5_13.index ⟨(i 0).val / 1000, hlt⟩ (0 : Fin 2) * 1000 ≤ (i 0).val ∧ (i 0).val < win5_13.index ⟨(i 0).val / 1000, hlt⟩ (0 : Fin 2) * 1000 + 1000
    rw [e0]; omega
  | ⟨1, _⟩ =>
    show win5_13.index ⟨(i 0).val / 1000, hlt⟩ (1 : Fin 2) * 256 ≤ (i 1).val ∧ (i 1).val < win5_13.index ⟨(i 0).val / 1000, hlt⟩ (1 : Fin 2) * 256 + 256
    rw [e1]; omega

/-- THE ARRAY after the region: the specification's function of the arrays the region finds. -/
theorem final (c : Dev nD) : (dat5 (F := Ideal) V c).arrAt 13 cfg5.N = G V c :=
  (dat5 V c).arrAt_eq_of_cover 13 (G V c) (fun t _ => flushed_eq V c t) cover

/-- The same with the weights written out. -/
theorem final' (c : Dev nD) : (dat5 (F := Ideal) V c).arrAt 13 cfg5.N
    = Cert.Spec.postArr (V c (Pipeline.arrRef spec5 0)) (V c (Pipeline.arrRef spec5 1)) (V c (Pipeline.arrRef spec5 2))
        { Wq := fun _ => 0, Wk := fun _ => 0, Wv := fun _ => 0, bq := fun _ => 0,
          Wo := V c (Pipeline.arrRef spec5 3), bo := V c (Pipeline.arrRef spec5 4),
          g1 := V c (Pipeline.arrRef spec5 5), b1 := V c (Pipeline.arrRef spec5 6),
          W1 := V c (Pipeline.arrRef spec5 7), c1 := V c (Pipeline.arrRef spec5 8),
          W2 := V c (Pipeline.arrRef spec5 9), c2 := V c (Pipeline.arrRef spec5 10),
          g2 := V c (Pipeline.arrRef spec5 11), b2 := V c (Pipeline.arrRef spec5 12) } :=
  final V c

set_option maxHeartbeats 1000000 in
/-- The same for ANY weight record that holds the ten arrays the region reads. -/
theorem final_of (c : Dev nD) (P : Cert.Spec.Params)
    (hWo : P.Wo = (V c (Pipeline.arrRef spec5 3) : Cert.Spec.Arr2 256 256)) (hbo : P.bo = (V c (Pipeline.arrRef spec5 4) : Cert.Spec.Arr1 256)) (hg1 : P.g1 = (V c (Pipeline.arrRef spec5 5) : Cert.Spec.Arr1 256)) (hb1 : P.b1 = (V c (Pipeline.arrRef spec5 6) : Cert.Spec.Arr1 256))
    (hW1 : P.W1 = (V c (Pipeline.arrRef spec5 7) : Cert.Spec.Arr2 256 1024)) (hc1 : P.c1 = (V c (Pipeline.arrRef spec5 8) : Cert.Spec.Arr1 1024)) (hW2 : P.W2 = (V c (Pipeline.arrRef spec5 9) : Cert.Spec.Arr2 1024 256)) (hc2 : P.c2 = (V c (Pipeline.arrRef spec5 10) : Cert.Spec.Arr1 256))
    (hg2 : P.g2 = (V c (Pipeline.arrRef spec5 11) : Cert.Spec.Arr1 256)) (hb2 : P.b2 = (V c (Pipeline.arrRef spec5 12) : Cert.Spec.Arr1 256)) :
    (dat5 (F := Ideal) V c).arrAt 13 cfg5.N
      = Cert.Spec.postArr (V c (Pipeline.arrRef spec5 0)) (V c (Pipeline.arrRef spec5 1)) (V c (Pipeline.arrRef spec5 2)) P :=
  (final V c).trans (postArr_congr _ _ _ (params V c) P hWo.symm hbo.symm hg1.symm hb1.symm hW1.symm hc1.symm hW2.symm hc2.symm hg2.symm hb2.symm)

end Cert.KernelIdeal.RegionFfn5

end
-- ==== Proof.KVal2.lean ====
/-
  The kernel program's layer 2, assembled: its three regions and the host operations between them compute the
  specification's layer of layer 1's result with layer 1's weights.
-/
import proofs.«175432_j21457656611019_1_alg».proof.Proof.KStage3
import proofs.«175432_j21457656611019_1_alg».proof.Proof.KStage4
import proofs.«175432_j21457656611019_1_alg».proof.Proof.KStage5a
import proofs.«175432_j21457656611019_1_alg».proof.Proof.KStage5b
import proofs.«175432_j21457656611019_1_alg».proof.Proof.KVal1
import proofs.«175432_j21457656611019_1_alg».proof.Proof.RegionQkv3
import proofs.«175432_j21457656611019_1_alg».proof.Proof.RegionMsgBlocks4
import proofs.«175432_j21457656611019_1_alg».proof.Proof.RegionFfn5

set_option maxRecDepth 16384
set_option maxHeartbeats 2000000

noncomputable section

namespace Cert.KernelIdeal.KVal2

open Idealize.ShloMosaic Idealize.ShloMosaic.TcCoe Idealize.ShloMosaic.StableHlo Idealize.SL.Sem
open Cert.KernelIdeal Cert.KernelIdeal.Gen Cert.KernelIdeal.KFold Cert.KernelIdeal.KDefs
open Cert.Spec

variable (m : (ℓ : Loc nD τ sig) → Buf (Elt Ideal) ℓ) (ρ : Dev nD → PrngReg)

/-- Layer 1's result: layer 2's node features. -/
abbrev X1 (c : Dev nD) : Arr2 20000 256 := layer (A m c main_arg0) (P0 m c) (G m c)

/-! ## The projection region -/

theorem xin (c : Dev nD) : V7 m ρ c (Pipeline.arrRef spec3 0) = (X1 m c) := (W7_v68 m ρ c).trans (KVal1.layer1 m ρ c)

theorem qOut (c : Dev nD) : W8 m ρ c (Proc.devRef .tc main_v77_0) = linBiasArr (X1 m c) (P1 m c).Wq (P1 m c).bq := by
  have e1 : V7 m ρ c (Pipeline.arrRef spec3 1) = (P1 m c).Wq := KStage3.W7_v70 m ρ c
  have e4 : V7 m ρ c (Pipeline.arrRef spec3 4) = (P1 m c).bq := KStage3.W7_v76 m ρ c
  refine (W8_arr m ρ c 5).trans ?_
  rw [Cert.KernelIdeal.RegionQkv3.finalQ (V7 m ρ) c, xin m ρ c, e1, e4]

theorem kOut (c : Dev nD) : W8 m ρ c (Proc.devRef .tc main_v77_1) = linArr (X1 m c) (P1 m c).Wk := by
  have e2 : V7 m ρ c (Pipeline.arrRef spec3 2) = (P1 m c).Wk := KStage3.W7_v72 m ρ c
  refine (W8_arr m ρ c 6).trans ?_
  rw [Cert.KernelIdeal.RegionQkv3.finalK (V7 m ρ) c, xin m ρ c, e2]

theorem vOut (c : Dev nD) : W8 m ρ c (Proc.devRef .tc main_v77_2) = linArr (X1 m c) (P1 m c).Wv := by
  have e3 : V7 m ρ c (Pipeline.arrRef spec3 3) = (P1 m c).Wv := KStage3.W7_v74 m ρ c
  refine (W8_arr m ρ c 7).trans ?_
  rw [Cert.KernelIdeal.RegionQkv3.finalV (V7 m ρ) c, xin m ρ c, e3]

/-! ## The gathered rows and the message region -/

theorem ksIn (c : Dev nD) : V9 m ρ c (Pipeline.arrRef spec4 0) = gathRows (linArr (X1 m c) (P1 m c).Wk) (G m c).srcI := by
  have h := KStage4.W9_v84 m ρ c
  rw [kOut m ρ c] at h
  exact h

theorem vsIn (c : Dev nD) : V9 m ρ c (Pipeline.arrRef spec4 1) = gathRows (linArr (X1 m c) (P1 m c).Wv) (G m c).srcI := by
  have h := KStage4.W9_v91 m ρ c
  rw [vOut m ρ c] at h
  exact h

theorem qdIn (c : Dev nD) : V9 m ρ c (Pipeline.arrRef spec4 2) = gathRows (linBiasArr (X1 m c) (P1 m c).Wq (P1 m c).bq) (G m c).dstI := by
  have h := KStage4.W9_v98 m ρ c
  rw [qOut m ρ c] at h
  exact h

theorem ehIn (c : Dev nD) : V9 m ρ c (Pipeline.arrRef spec4 3) = relRows (G m c).rel (G m c).relI := (W9_v10 m ρ c).trans (KStage0.W1_v10 m ρ c)

theorem msgOut (c : Dev nD) : W10 m ρ c (Proc.devRef .tc main_v99_0)
    = msgArr (gathRows (linArr (X1 m c) (P1 m c).Wk) (G m c).srcI) (gathRows (linArr (X1 m c) (P1 m c).Wv) (G m c).srcI)
        (gathRows (linBiasArr (X1 m c) (P1 m c).Wq (P1 m c).bq) (G m c).dstI) (relRows (G m c).rel (G m c).relI) := by
  refine (W10_arr m ρ c 4).trans ?_
  rw [Cert.KernelIdeal.RegionMsg.msg_final4 (V9 m ρ) c, ksIn m ρ c, vsIn m ρ c, qdIn m ρ c, ehIn m ρ c]

theorem sOut (c : Dev nD) : W10 m ρ c (Proc.devRef .tc main_v99_1)
    = sArr (gathRows (linArr (X1 m c) (P1 m c).Wk) (G m c).srcI)
        (gathRows (linBiasArr (X1 m c) (P1 m c).Wq (P1 m c).bq) (G m c).dstI) (relRows (G m c).rel (G m c).relI) := by
  refine (W10_arr m ρ c 5).trans ?_
  rw [Cert.KernelIdeal.RegionMsg.s_final4 (V9 m ρ) c, ksIn m ρ c, qdIn m ρ c, ehIn m ρ c]

/-! ## The per-node sums and the last region -/

theorem wvIn (c : Dev nD) : V11 m ρ c (Pipeline.arrRef spec5 1)
    = scat (msgArr (gathRows (linArr (X1 m c) (P1 m c).Wk) (G m c).srcI) (gathRows (linArr (X1 m c) (P1 m c).Wv) (G m c).srcI)
        (gathRows (linBiasArr (X1 m c) (P1 m c).Wq (P1 m c).bq) (G m c).dstI) (relRows (G m c).rel (G m c).relI)) (G m c).dstS := by
  have h := KStage5a.W11_v102 m ρ c
  rw [msgOut m ρ c] at h
  exact h

theorem zIn (c : Dev nD) : V11 m ρ c (Pipeline.arrRef spec5 2)
    = scat (sArr (gathRows (linArr (X1 m c) (P1 m c).Wk) (G m c).srcI)
        (gathRows (linBiasArr (X1 m c) (P1 m c).Wq (P1 m c).bq) (G m c).dstI) (relRows (G m c).rel (G m c).relI)) (G m c).dstS := by
  have h := KStage5a.W11_v105 m ρ c
  rw [sOut m ρ c] at h
  exact h

theorem xin2 (c : Dev nD) : V11 m ρ c (Pipeline.arrRef spec5 0) = (X1 m c) := (W11_v68 m ρ c).trans (KVal1.layer1 m ρ c)

/-- LAYER 2: the last region's output array is the specification's layer. -/
theorem layer2 (c : Dev nD) : W12 m ρ c (Proc.devRef .tc main_v126) = layer (X1 m c) (P1 m c) (G m c) := by
  have e3 : V11 m ρ c (Pipeline.arrRef spec5 3) = (P1 m c).Wo := KStage5b.W11_v107 m ρ c
  have e4 : V11 m ρ c (Pipeline.arrRef spec5 4) = (P1 m c).bo := KStage5b.W11_v109 m ρ c
  have e5 : V11 m ρ c (Pipeline.arrRef spec5 5) = (P1 m c).g1 := KStage5b.W11_v111 m ρ c
  have e6 : V11 m ρ c (Pipeline.arrRef spec5 6) = (P1 m c).b1 := KStage5b.W11_v113 m ρ c
  have e7 : V11 m ρ c (Pipeline.arrRef spec5 7) = (P1 m c).W1 := KStage5b.W11_v115 m ρ c
  have e8 : V11 m ρ c (Pipeline.arrRef spec5 8) = (P1 m c).c1 := KStage5b.W11_v117 m ρ c
  have e9 : V11 m ρ c (Pipeline.arrRef spec5 9) = (P1 m c).W2 := KStage5b.W11_v119 m ρ c
  have e10 : V11 m ρ c (Pipeline.arrRef spec5 10) = (P1 m c).c2 := KStage5b.W11_v121 m ρ c
  have e11 : V11 m ρ c (Pipeline.arrRef spec5 11) = (P1 m c).g2 := KStage5b.W11_v123 m ρ c
  have e12 : V11 m ρ c (Pipeline.arrRef spec5 12) = (P1 m c).b2 := KStage5b.W11_v125 m ρ c
  refine (W12_arr m ρ c 13).trans ?_
  rw [Cert.KernelIdeal.RegionFfn5.final' (V11 m ρ) c, xin2 m ρ c, wvIn m ρ c, zIn m ρ c, e3, e4, e5, e6, e7, e8, e9, e10, e11, e12]
  exact KVal1.postArr_of_fields _ _ _ (P1 m c)

end Cert.KernelIdeal.KVal2

end
-- ==== Proof.RefRunBase.lean ====
/- A line of host operations changes only the buffers its operations write: the small facts about written
   buffers that the per-window modules share. -/
import Idealize.ShloMosaic.Lib.StableHlo.Run

namespace Cert.ReferenceIdeal.RefRun

open Idealize.ShloMosaic Idealize.SL.Sem Idealize.ShloMosaic.StableHlo

variable {τ : Topo} {sig : RefSig} {Val : EltTy → Type}

/-- An operation that writes exactly the buffer `y` writes inside any list of buffers holding `y`. -/
theorem writes_sub {W : List (Ref sig .tc)} (op : HloOp τ sig Val) (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

end Cert.ReferenceIdeal.RefRun
-- ==== Proof.RefRunP0.lean ====
/- The reference program's operations 1 … 65 of 422 (its window 0) as a list: the window is that
   line of operations, every operation touches only device buffers and determines what it writes, and the
   buffers the window writes are listed. A called function's operations stand at its call, over that call's
   own buffers. -/
import proofs.«175432_j21457656611019_1_alg».proof.Proof.Gen.ReferenceIdeal
import proofs.«175432_j21457656611019_1_alg».proof.Proof.RefRunBase
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations 1 … 65 of the reference, in order. -/
abbrev ops_part0 : List (HloOp τ sig (Elt F)) :=
  [ nullary main_c (constantI S_ 32 0#32),
    unary main_c main_v0 (broadcastInDim S640000 ![] bcast_S_S640000 : (⟨S_, .i32⟩ : BufTy).Contents (Elt F) → (⟨S640000, .i32⟩ : BufTy).Contents (Elt F)),
    binary main_arg16 main_v0 main_v1 (cmpi .slt : (⟨S640000, .i32⟩ : BufTy).Contents (Elt F) → (⟨S640000, .i32⟩ : BufTy).Contents (Elt F) → (⟨S640000, .i1⟩ : BufTy).Contents (Elt F)),
    nullary main_c_0 (constantI S_ 32 100#32),
    unary main_c_0 main_v2 (broadcastInDim S640000 ![] bcast_S_S640000 : (⟨S_, .i32⟩ : BufTy).Contents (Elt F) → (⟨S640000, .i32⟩ : BufTy).Contents (Elt F)),
    binary main_arg16 main_v2 main_v3 (addi : (⟨S640000, .i32⟩ : BufTy).Contents (Elt F) → (⟨S640000, .i32⟩ : BufTy).Contents (Elt F) → (⟨S640000, .i32⟩ : BufTy).Contents (Elt F)),
    ternary main_v1 main_v3 main_arg16 main_v4 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v4 main_v5 (broadcastInDim S640000x1 ![0] bcast_S640000_S640000x1_0 : (⟨S640000, .i32⟩ : BufTy).Contents (Elt F) → (⟨S640000x1, .i32⟩ : BufTy).Contents (Elt F)),
    binary main_arg1 main_v5 main_v6 ((fun x i => Host.gather gather_S100x32_S640000x1_S640000x32_1_0_n_n_0_1_132 x i) : (⟨S100x32, .f32⟩ : BufTy).Contents (Elt F) → (⟨S640000x1, .i32⟩ : BufTy).Contents (Elt F) → (⟨S640000x32, .f32⟩ : BufTy).Contents (Elt F)),
    unary main_v6 main_v7 (broadcastInDim S640000x1x32 ![0, 2] bcast_S640000x32_S640000x1x32_0_2 : (⟨S640000x32, .f32⟩ : BufTy).Contents (Elt F) → (⟨S640000x1x32, .f32⟩ : BufTy).Contents (Elt F)),
    unary main_arg2 main_v8 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v8 main_v9 rfl shapeCasts_S1x256x256_S256x256,
    binary main_arg0 main_v9 main_v10 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg3 main_v11 ((extractStridedSlice S1x256 ![0, 0] · slices_S2x256_S1x256_0_0) : (⟨S2x256, .f32⟩ : BufTy).Contents (Elt F) → (⟨S1x256, .f32⟩ : BufTy).Contents (Elt F)),
    reshape main_v11 main_v12 rfl shapeCasts_S1x256_S256,
    unary main_v12 main_v13 (broadcastInDim S1x256 ![1] bcast_S256_S1x256_1 : (⟨S256, .f32⟩ : BufTy).Contents (Elt F) → (⟨S1x256, .f32⟩ : BufTy).Contents (Elt F)),
    unary main_v13 main_v14 (broadcastInDim S20000x256 ![0, 1] bcast_S1x256_S20000x256_0_1 : (⟨S1x256, .f32⟩ : BufTy).Contents (Elt F) → (⟨S20000x256, .f32⟩ : BufTy).Contents (Elt F)),
    binary main_v10 main_v14 main_v15 (addf : (⟨S20000x256, .f32⟩ : BufTy).Contents (Elt F) → (⟨S20000x256, .f32⟩ : BufTy).Contents (Elt F) → (⟨S20000x256, .f32⟩ : BufTy).Contents (Elt F)),
    reshape main_v15 main_v16 rfl shapeCasts_S20000x256_S20000x8x32,
    unary main_arg4 main_v17 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v17 main_v18 rfl shapeCasts_S1x256x256_S256x256,
    binary main_arg0 main_v18 main_v19 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    reshape main_v19 main_v20 rfl shapeCasts_S20000x256_S20000x8x32,
    unary main_arg5 main_v21 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v21 main_v22 rfl shapeCasts_S1x256x256_S256x256,
    binary main_arg0 main_v22 main_v23 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    reshape main_v23 main_v24 rfl shapeCasts_S20000x256_S20000x8x32,
    nullary main_c_1 (constantI S_ 32 0#32),
    unary main_c_1 main_v25 (broadcastInDim S640000 ![] bcast_S_S640000 : (⟨S_, .i32⟩ : BufTy).Contents (Elt F) → (⟨S640000, .i32⟩ : BufTy).Contents (Elt F)),
    binary main_arg17 main_v25 main_v26 (cmpi .slt : (⟨S640000, .i32⟩ : BufTy).Contents (Elt F) → (⟨S640000, .i32⟩ : BufTy).Contents (Elt F) → (⟨S640000, .i1⟩ : BufTy).Contents (Elt F)),
    nullary main_c_2 (constantI S_ 32 20000#32),
    unary main_c_2 main_v27 (broadcastInDim S640000 ![] bcast_S_S640000 : (⟨S_, .i32⟩ : BufTy).Contents (Elt F) → (⟨S640000, .i32⟩ : BufTy).Contents (Elt F)),
    binary main_arg17 main_v27 main_v28 (addi : (⟨S640000, .i32⟩ : BufTy).Contents (Elt F) → (⟨S640000, .i32⟩ : BufTy).Contents (Elt F) → (⟨S640000, .i32⟩ : BufTy).Contents (Elt F)),
    ternary main_v26 main_v28 main_arg17 main_v29 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v29 main_v30 (broadcastInDim S640000x1 ![0] bcast_S640000_S640000x1_0 : (⟨S640000, .i32⟩ : BufTy).Contents (Elt F) → (⟨S640000x1, .i32⟩ : BufTy).Contents (Elt F)),
    binary main_v20 main_v30 main_v31 ((fun x i => Host.gather gather_S20000x8x32_S640000x1_S640000x8x32_12_0_n_n_0_1_1832 x i) : (⟨S20000x8x32, .f32⟩ : BufTy).Contents (Elt F) → (⟨S640000x1, .i32⟩ : BufTy).Contents (Elt F) → (⟨S640000x8x32, .f32⟩ : BufTy).Contents (Elt F)),
    unary main_v7 main_v32 (broadcastInDim S640000x8x32 ![0, 1, 2] bcast_S640000x1x32_S640000x8x32_0_1_2 : (⟨S640000x1x32, .f32⟩ : BufTy).Contents (Elt F) → (⟨S640000x8x32, .f32⟩ : BufTy).Contents (Elt F)),
    binary main_v31 main_v32 main_v33 (addf : (⟨S640000x8x32, .f32⟩ : BufTy).Contents (Elt F) → (⟨S640000x8x32, .f32⟩ : BufTy).Contents (Elt F) → (⟨S640000x8x32, .f32⟩ : BufTy).Contents (Elt F)),
    nullary main_c_3 (constantI S_ 32 0#32),
    unary main_c_3 main_v34 (broadcastInDim S640000 ![] bcast_S_S640000 : (⟨S_, .i32⟩ : BufTy).Contents (Elt F) → (⟨S640000, .i32⟩ : BufTy).Contents (Elt F)),
    binary main_arg18 main_v34 main_v35 (cmpi .slt : (⟨S640000, .i32⟩ : BufTy).Contents (Elt F) → (⟨S640000, .i32⟩ : BufTy).Contents (Elt F) → (⟨S640000, .i1⟩ : BufTy).Contents (Elt F)),
    nullary main_c_4 (constantI S_ 32 20000#32),
    unary main_c_4 main_v36 (broadcastInDim S640000 ![] bcast_S_S640000 : (⟨S_, .i32⟩ : BufTy).Contents (Elt F) → (⟨S640000, .i32⟩ : BufTy).Contents (Elt F)),
    binary main_arg18 main_v36 main_v37 (addi : (⟨S640000, .i32⟩ : BufTy).Contents (Elt F) → (⟨S640000, .i32⟩ : BufTy).Contents (Elt F) → (⟨S640000, .i32⟩ : BufTy).Contents (Elt F)),
    ternary main_v35 main_v37 main_arg18 main_v38 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v38 main_v39 (broadcastInDim S640000x1 ![0] bcast_S640000_S640000x1_0 : (⟨S640000, .i32⟩ : BufTy).Contents (Elt F) → (⟨S640000x1, .i32⟩ : BufTy).Contents (Elt F)),
    binary main_v16 main_v39 main_v40 ((fun x i => Host.gather gather_S20000x8x32_S640000x1_S640000x8x32_12_0_n_n_0_1_1832 x i) : (⟨S20000x8x32, .f32⟩ : BufTy).Contents (Elt F) → (⟨S640000x1, .i32⟩ : BufTy).Contents (Elt F) → (⟨S640000x8x32, .f32⟩ : BufTy).Contents (Elt F)),
    binary main_v33 main_v40 main_v41 (mulf : (⟨S640000x8x32, .f32⟩ : BufTy).Contents (Elt F) → (⟨S640000x8x32, .f32⟩ : BufTy).Contents (Elt F) → (⟨S640000x8x32, .f32⟩ : BufTy).Contents (Elt F)),
    nullary main_cst (constant S_ .f32 0x00000000#32),
    binary main_v41 main_cst main_v42 ((fun x v => Host.reduceAdd x v reducesTo_S640000x8x32_S640000x8_d2 h_S_) : (⟨S640000x8x32, .f32⟩ : BufTy).Contents (Elt F) → (⟨S_, .f32⟩ : BufTy).Contents (Elt F) → (⟨S640000x8, .f32⟩ : BufTy).Contents (Elt F)),
    nullary main_cst_5 (constant S_ .f32 0x40B504F3#32),
    unary main_cst_5 main_v43 (broadcastInDim S640000x8 ![] bcast_S_S640000x8 : (⟨S_, .f32⟩ : BufTy).Contents (Elt F) → (⟨S640000x8, .f32⟩ : BufTy).Contents (Elt F)),
    binary main_v42 main_v43 main_v44 (Host.divf : (⟨S640000x8, .f32⟩ : BufTy).Contents (Elt F) → (⟨S640000x8, .f32⟩ : BufTy).Contents (Elt F) → (⟨S640000x8, .f32⟩ : BufTy).Contents (Elt F)),
    nullary main_cst_6 (constant S_ .f32 0xC1200000#32),
    nullary main_cst_7 (constant S_ .f32 0x41200000#32),
    TRef.unary (TRef.of (T := ⟨S_, .f32⟩) main_cst_6) (TRef.of (T := ⟨S_, .f32⟩) main_call0_v0) id,
    TRef.unary (TRef.of (T := ⟨S_, .f32⟩) main_call0_v0) (TRef.of (T := ⟨S640000x8, .f32⟩) main_call0_v1) (broadcastInDim S640000x8 ![] bcast_S_S640000x8),
    TRef.binary (TRef.of (T := ⟨S640000x8, .f32⟩) main_call0_v1) (TRef.of (T := ⟨S640000x8, .f32⟩) main_v44) (TRef.of (T := ⟨S640000x8, .f32⟩) main_call0_v2) maximumf,
    TRef.unary (TRef.of (T := ⟨S_, .f32⟩) main_cst_7) (TRef.of (T := ⟨S_, .f32⟩) main_call0_v3) id,
    TRef.unary (TRef.of (T := ⟨S_, .f32⟩) main_call0_v3) (TRef.of (T := ⟨S640000x8, .f32⟩) main_call0_v4) (broadcastInDim S640000x8 ![] bcast_S_S640000x8),
    TRef.binary (TRef.of (T := ⟨S640000x8, .f32⟩) main_call0_v4) (TRef.of (T := ⟨S640000x8, .f32⟩) main_call0_v2) (TRef.of (T := ⟨S640000x8, .f32⟩) main_v45) minimumf,
    unary main_v45 main_v46 (Host.exp : (⟨S640000x8, .f32⟩ : BufTy).Contents (Elt F) → (⟨S640000x8, .f32⟩ : BufTy).Contents (Elt F)),
    nullary main_c_8 (constantI S_ 32 0#32),
    unary main_c_8 main_v47 (broadcastInDim S640000 ![] bcast_S_S640000 : (⟨S_, .i32⟩ : BufTy).Contents (Elt F) → (⟨S640000, .i32⟩ : BufTy).Contents (Elt F)),
    binary main_arg17 main_v47 main_v48 (cmpi .slt : (⟨S640000, .i32⟩ : BufTy).Contents (Elt F) → (⟨S640000, .i32⟩ : BufTy).Contents (Elt F) → (⟨S640000, .i1⟩ : BufTy).Contents (Elt F)) ]

set_option maxRecDepth 8192 in
/-- Window 0 of the reference is this line of operations. -/
theorem main_part0_eq (c : Dev nD) : main_part0 (F := F) c = seq ops_part0 := rfl

set_option maxRecDepth 8192 in
/-- Every operation of the window touches only the device's own buffers. -/
theorem ops_part0_sub : (ops_part0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., reshape_bufs_sub .., unary_bufs_sub .., reshape_bufs_sub .., binary_bufs_sub .., reshape_bufs_sub .., unary_bufs_sub .., reshape_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub ..⟩

set_option maxRecDepth 8192 in
/-- Every operation of the window determines its result. -/
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part0_W : List (Ref sig .tc) := [main_c, main_v0, main_v1, main_c_0, main_v2, main_v3, main_v4, main_v5, main_v6, main_v7, main_v8, main_v9, main_v10, main_v11, main_v12, main_v13, main_v14, main_v15, main_v16, main_v17, main_v18, main_v19, main_v20, main_v21, main_v22, main_v23, main_v24, main_c_1, main_v25, main_v26, main_c_2, main_v27, main_v28, main_v29, main_v30, main_v31, main_v32, main_v33, main_c_3, main_v34, main_v35, main_c_4, main_v36, main_v37, main_v38, main_v39, main_v40, main_v41, main_cst, main_v42, main_cst_5, main_v43, main_v44, main_cst_6, main_cst_7, main_call0_v0, main_call0_v1, main_call0_v2, main_call0_v3, main_call0_v4, main_v45, main_v46, main_c_8, main_v47, main_v48]

set_option maxRecDepth 8192 in
/-- Each operation of the window writes one buffer of that list. -/
theorem ops_part0_writes : (ops_part0 : List (HloOp τ sig (Elt F))).Forall fun op =>
    op.writes ⊆ (ops_part0_W.map (Proc.devRef (τ := τ) .tc)).toFinset :=
  ⟨writes_sub _ main_c rfl (by decide),
    writes_sub _ main_v0 rfl (by decide),
    writes_sub _ main_v1 rfl (by decide),
    writes_sub _ main_c_0 rfl (by decide),
    writes_sub _ main_v2 rfl (by decide),
    writes_sub _ main_v3 rfl (by decide),
    writes_sub _ main_v4 rfl (by decide),
    writes_sub _ main_v5 rfl (by decide),
    writes_sub _ main_v6 rfl (by decide),
    writes_sub _ main_v7 rfl (by decide),
    writes_sub _ main_v8 rfl (by decide),
    writes_sub _ main_v9 rfl (by decide),
    writes_sub _ main_v10 rfl (by decide),
    writes_sub _ main_v11 rfl (by decide),
    writes_sub _ main_v12 rfl (by decide),
    writes_sub _ main_v13 rfl (by decide),
    writes_sub _ main_v14 rfl (by decide),
    writes_sub _ main_v15 rfl (by decide),
    writes_sub _ main_v16 rfl (by decide),
    writes_sub _ main_v17 rfl (by decide),
    writes_sub _ main_v18 rfl (by decide),
    writes_sub _ main_v19 rfl (by decide),
    writes_sub _ main_v20 rfl (by decide),
    writes_sub _ main_v21 rfl (by decide),
    writes_sub _ main_v22 rfl (by decide),
    writes_sub _ main_v23 rfl (by decide),
    writes_sub _ main_v24 rfl (by decide),
    writes_sub _ main_c_1 rfl (by decide),
    writes_sub _ main_v25 rfl (by decide),
    writes_sub _ main_v26 rfl (by decide),
    writes_sub _ main_c_2 rfl (by decide),
    writes_sub _ main_v27 rfl (by decide),
    writes_sub _ main_v28 rfl (by decide),
    writes_sub _ main_v29 rfl (by decide),
    writes_sub _ main_v30 rfl (by decide),
    writes_sub _ main_v31 rfl (by decide),
    writes_sub _ main_v32 rfl (by decide),
    writes_sub _ main_v33 rfl (by decide),
    writes_sub _ main_c_3 rfl (by decide),
    writes_sub _ main_v34 rfl (by decide),
    writes_sub _ main_v35 rfl (by decide),
    writes_sub _ main_c_4 rfl (by decide),
    writes_sub _ main_v36 rfl (by decide),
    writes_sub _ main_v37 rfl (by decide),
    writes_sub _ main_v38 rfl (by decide),
    writes_sub _ main_v39 rfl (by decide),
    writes_sub _ main_v40 rfl (by decide),
    writes_sub _ main_v41 rfl (by decide),
    writes_sub _ main_cst rfl (by decide),
    writes_sub _ main_v42 rfl (by decide),
    writes_sub _ main_cst_5 rfl (by decide),
    writes_sub _ main_v43 rfl (by decide),
    writes_sub _ main_v44 rfl (by decide),
    writes_sub _ main_cst_6 rfl (by decide),
    writes_sub _ main_cst_7 rfl (by decide),
    writes_sub _ main_call0_v0 rfl (by decide),
    writes_sub _ main_call0_v1 rfl (by decide),
    writes_sub _ main_call0_v2 rfl (by decide),
    writes_sub _ main_call0_v3 rfl (by decide),
    writes_sub _ main_call0_v4 rfl (by decide),
    writes_sub _ main_v45 rfl (by decide),
    writes_sub _ main_v46 rfl (by decide),
    writes_sub _ main_c_8 rfl (by decide),
    writes_sub _ main_v47 rfl (by decide),
    writes_sub _ main_v48 rfl (by decide)⟩

/-- A buffer the window does not write keeps its contents through it. -/
theorem keep0 (V : Valuation τ sig (Elt F)) (r : Ref sig .tc) (h : r ∉ ops_part0_W) :
    after ops_part0 V (Proc.devRef .tc r) = V (Proc.devRef .tc r) :=
  after_of_writes_sub ops_part0 V ops_part0_writes h

end Cert.ReferenceIdeal.RefRun

end
-- ==== Proof.RefRunP1.lean ====
/- The reference program's operations 66 … 147 of 422 (its window 1) as a list: the window is that
   line of operations, every operation touches only device buffers and determines what it writes, and the
   buffers the window writes are listed. A called function's operations stand at its call, over that call's
   own buffers. -/
import proofs.«175432_j21457656611019_1_alg».proof.Proof.Gen.ReferenceIdeal
import proofs.«175432_j21457656611019_1_alg».proof.Proof.RefRunBase
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations 66 … 147 of the reference, in order. -/
abbrev ops_part1 : List (HloOp τ sig (Elt F)) :=
  [ nullary main_c_9 (constantI S_ 32 20000#32),
    unary main_c_9 main_v49 (broadcastInDim S640000 ![] bcast_S_S640000 : (⟨S_, .i32⟩ : BufTy).Contents (Elt F) → (⟨S640000, .i32⟩ : BufTy).Contents (Elt F)),
    binary main_arg17 main_v49 main_v50 (addi : (⟨S640000, .i32⟩ : BufTy).Contents (Elt F) → (⟨S640000, .i32⟩ : BufTy).Contents (Elt F) → (⟨S640000, .i32⟩ : BufTy).Contents (Elt F)),
    ternary main_v48 main_v50 main_arg17 main_v51 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v51 main_v52 (broadcastInDim S640000x1 ![0] bcast_S640000_S640000x1_0 : (⟨S640000, .i32⟩ : BufTy).Contents (Elt F) → (⟨S640000x1, .i32⟩ : BufTy).Contents (Elt F)),
    binary main_v24 main_v52 main_v53 ((fun x i => Host.gather gather_S20000x8x32_S640000x1_S640000x8x32_12_0_n_n_0_1_1832 x i) : (⟨S20000x8x32, .f32⟩ : BufTy).Contents (Elt F) → (⟨S640000x1, .i32⟩ : BufTy).Contents (Elt F) → (⟨S640000x8x32, .f32⟩ : BufTy).Contents (Elt F)),
    unary main_v7 main_v54 (broadcastInDim S640000x8x32 ![0, 1, 2] bcast_S640000x1x32_S640000x8x32_0_1_2 : (⟨S640000x1x32, .f32⟩ : BufTy).Contents (Elt F) → (⟨S640000x8x32, .f32⟩ : BufTy).Contents (Elt F)),
    binary main_v53 main_v54 main_v55 (addf : (⟨S640000x8x32, .f32⟩ : BufTy).Contents (Elt F) → (⟨S640000x8x32, .f32⟩ : BufTy).Contents (Elt F) → (⟨S640000x8x32, .f32⟩ : BufTy).Contents (Elt F)),
    unary main_v46 main_v56 (broadcastInDim S640000x8x1 ![0, 1] bcast_S640000x8_S640000x8x1_0_1 : (⟨S640000x8, .f32⟩ : BufTy).Contents (Elt F) → (⟨S640000x8x1, .f32⟩ : BufTy).Contents (Elt F)),
    unary main_v56 main_v57 (broadcastInDim S640000x8x32 ![0, 1, 2] bcast_S640000x8x1_S640000x8x32_0_1_2 : (⟨S640000x8x1, .f32⟩ : BufTy).Contents (Elt F) → (⟨S640000x8x32, .f32⟩ : BufTy).Contents (Elt F)),
    binary main_v55 main_v57 main_v58 (mulf : (⟨S640000x8x32, .f32⟩ : BufTy).Contents (Elt F) → (⟨S640000x8x32, .f32⟩ : BufTy).Contents (Elt F) → (⟨S640000x8x32, .f32⟩ : BufTy).Contents (Elt F)),
    nullary main_cst_10 (constant S_ .f32 0x00000000#32),
    unary main_cst_10 main_v59 (broadcastInDim S20000x8x32 ![] bcast_S_S20000x8x32 : (⟨S_, .f32⟩ : BufTy).Contents (Elt F) → (⟨S20000x8x32, .f32⟩ : BufTy).Contents (Elt F)),
    unary main_arg18 main_v60 (broadcastInDim S640000x1 ![0] bcast_S640000_S640000x1_0 : (⟨S640000, .i32⟩ : BufTy).Contents (Elt F) → (⟨S640000x1, .i32⟩ : BufTy).Contents (Elt F)),
    ternary main_v59 main_v60 main_v58 main_v61 ((fun x i u => Host.scatterAdd scatter_S20000x8x32_S640000x1_S640000x8x32_12_0_0_1 x i u) : (⟨S20000x8x32, .f32⟩ : BufTy).Contents (Elt F) → (⟨S640000x1, .i32⟩ : BufTy).Contents (Elt F) → (⟨S640000x8x32, .f32⟩ : BufTy).Contents (Elt F) → (⟨S20000x8x32, .f32⟩ : BufTy).Contents (Elt F)),
    nullary main_cst_11 (constant S_ .f32 0x00000000#32),
    unary main_cst_11 main_v62 (broadcastInDim S20000x8 ![] bcast_S_S20000x8 : (⟨S_, .f32⟩ : BufTy).Contents (Elt F) → (⟨S20000x8, .f32⟩ : BufTy).Contents (Elt F)),
    unary main_arg18 main_v63 (broadcastInDim S640000x1 ![0] bcast_S640000_S640000x1_0 : (⟨S640000, .i32⟩ : BufTy).Contents (Elt F) → (⟨S640000x1, .i32⟩ : BufTy).Contents (Elt F)),
    ternary main_v62 main_v63 main_v46 main_v64 ((fun x i u => Host.scatterAdd scatter_S20000x8_S640000x1_S640000x8_1_0_0_1 x i u) : (⟨S20000x8, .f32⟩ : BufTy).Contents (Elt F) → (⟨S640000x1, .i32⟩ : BufTy).Contents (Elt F) → (⟨S640000x8, .f32⟩ : BufTy).Contents (Elt F) → (⟨S20000x8, .f32⟩ : BufTy).Contents (Elt F)),
    nullary main_cst_12 (constant S_ .f32 0x322BCC77#32),
    unary main_cst_12 main_v65 (broadcastInDim S20000x8 ![] bcast_S_S20000x8 : (⟨S_, .f32⟩ : BufTy).Contents (Elt F) → (⟨S20000x8, .f32⟩ : BufTy).Contents (Elt F)),
    binary main_v64 main_v65 main_v66 (maximumf : (⟨S20000x8, .f32⟩ : BufTy).Contents (Elt F) → (⟨S20000x8, .f32⟩ : BufTy).Contents (Elt F) → (⟨S20000x8, .f32⟩ : BufTy).Contents (Elt F)),
    unary main_v66 main_v67 (broadcastInDim S20000x8x1 ![0, 1] bcast_S20000x8_S20000x8x1_0_1 : (⟨S20000x8, .f32⟩ : BufTy).Contents (Elt F) → (⟨S20000x8x1, .f32⟩ : BufTy).Contents (Elt F)),
    unary main_v67 main_v68 (broadcastInDim S20000x8x32 ![0, 1, 2] bcast_S20000x8x1_S20000x8x32_0_1_2 : (⟨S20000x8x1, .f32⟩ : BufTy).Contents (Elt F) → (⟨S20000x8x32, .f32⟩ : BufTy).Contents (Elt F)),
    binary main_v61 main_v68 main_v69 (Host.divf : (⟨S20000x8x32, .f32⟩ : BufTy).Contents (Elt F) → (⟨S20000x8x32, .f32⟩ : BufTy).Contents (Elt F) → (⟨S20000x8x32, .f32⟩ : BufTy).Contents (Elt F)),
    reshape main_v69 main_v70 rfl shapeCasts_S20000x8x32_S20000x256,
    unary main_arg6 main_v71 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v71 main_v72 rfl shapeCasts_S1x256x256_S256x256,
    binary main_v70 main_v72 main_v73 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    binary main_arg0 main_v73 main_v74 (addf : (⟨S20000x256, .f32⟩ : BufTy).Contents (Elt F) → (⟨S20000x256, .f32⟩ : BufTy).Contents (Elt F) → (⟨S20000x256, .f32⟩ : BufTy).Contents (Elt F)),
    unary main_arg7 main_v75 ((extractStridedSlice S1x256 ![0, 0] · slices_S2x256_S1x256_0_0) : (⟨S2x256, .f32⟩ : BufTy).Contents (Elt F) → (⟨S1x256, .f32⟩ : BufTy).Contents (Elt F)),
    reshape main_v75 main_v76 rfl shapeCasts_S1x256_S256,
    unary main_v76 main_v77 (broadcastInDim S1x256 ![1] bcast_S256_S1x256_1 : (⟨S256, .f32⟩ : BufTy).Contents (Elt F) → (⟨S1x256, .f32⟩ : BufTy).Contents (Elt F)),
    unary main_v77 main_v78 (broadcastInDim S20000x256 ![0, 1] bcast_S1x256_S20000x256_0_1 : (⟨S1x256, .f32⟩ : BufTy).Contents (Elt F) → (⟨S20000x256, .f32⟩ : BufTy).Contents (Elt F)),
    binary main_v74 main_v78 main_v79 (addf : (⟨S20000x256, .f32⟩ : BufTy).Contents (Elt F) → (⟨S20000x256, .f32⟩ : BufTy).Contents (Elt F) → (⟨S20000x256, .f32⟩ : BufTy).Contents (Elt F)),
    unary main_arg8 main_v80 ((extractStridedSlice S1x256 ![0, 0] · slices_S2x256_S1x256_0_0) : (⟨S2x256, .f32⟩ : BufTy).Contents (Elt F) → (⟨S1x256, .f32⟩ : BufTy).Contents (Elt F)),
    reshape main_v80 main_v81 rfl shapeCasts_S1x256_S256,
    unary main_arg9 main_v82 ((extractStridedSlice S1x256 ![0, 0] · slices_S2x256_S1x256_0_0) : (⟨S2x256, .f32⟩ : BufTy).Contents (Elt F) → (⟨S1x256, .f32⟩ : BufTy).Contents (Elt F)),
    reshape main_v82 main_v83 rfl shapeCasts_S1x256_S256,
    nullary main_cst_13 (constant S_ .f32 0x00000000#32),
    binary main_v79 main_cst_13 main_v84 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v84 main_v85 (broadcastInDim S20000x1 ![0] bcast_S20000_S20000x1_0 : (⟨S20000, .f32⟩ : BufTy).Contents (Elt F) → (⟨S20000x1, .f32⟩ : BufTy).Contents (Elt F)),
    nullary main_cst_14 (constant S_ .f32 0x43800000#32),
    unary main_cst_14 main_v86 (broadcastInDim S20000x1 ![] bcast_S_S20000x1 : (⟨S_, .f32⟩ : BufTy).Contents (Elt F) → (⟨S20000x1, .f32⟩ : BufTy).Contents (Elt F)),
    binary main_v85 main_v86 main_v87 (Host.divf : (⟨S20000x1, .f32⟩ : BufTy).Contents (Elt F) → (⟨S20000x1, .f32⟩ : BufTy).Contents (Elt F) → (⟨S20000x1, .f32⟩ : BufTy).Contents (Elt F)),
    nullary main_c_15 (constantI S_ 32 0#32),
    TRef.nullary (TRef.of (T := ⟨S_, .f32⟩) main_call1_cst) (constant S_ .f32 0x00000000#32),
    TRef.binary (TRef.of (T := ⟨S20000x256, .f32⟩) main_v79) (TRef.of (T := ⟨S_, .f32⟩) main_call1_cst) (TRef.of (T := ⟨S20000, .f32⟩) main_call1_v0) (fun x v => Host.reduceAdd x v reducesTo_S20000x256_S20000_d1 h_S_),
    TRef.unary (TRef.of (T := ⟨S20000, .f32⟩) main_call1_v0) (TRef.of (T := ⟨S20000x1, .f32⟩) main_call1_v1) (broadcastInDim S20000x1 ![0] bcast_S20000_S20000x1_0),
    TRef.nullary (TRef.of (T := ⟨S_, .f32⟩) main_call1_cst_0) (constant S_ .f32 0x43800000#32),
    TRef.unary (TRef.of (T := ⟨S_, .f32⟩) main_call1_cst_0) (TRef.of (T := ⟨S20000x1, .f32⟩) main_call1_v2) (broadcastInDim S20000x1 ![] bcast_S_S20000x1),
    TRef.binary (TRef.of (T := ⟨S20000x1, .f32⟩) main_call1_v1) (TRef.of (T := ⟨S20000x1, .f32⟩) main_call1_v2) (TRef.of (T := ⟨S20000x1, .f32⟩) main_call1_v3) Host.divf,
    TRef.unary (TRef.of (T := ⟨S20000x1, .f32⟩) main_call1_v3) (TRef.of (T := ⟨S20000x256, .f32⟩) main_call1_v4) (broadcastInDim S20000x256 ![0, 1] bcast_S20000x1_S20000x256_0_1),
    TRef.binary (TRef.of (T := ⟨S20000x256, .f32⟩) main_v79) (TRef.of (T := ⟨S20000x256, .f32⟩) main_call1_v4) (TRef.of (T := ⟨S20000x256, .f32⟩) main_call1_v5) subf,
    TRef.binary (TRef.of (T := ⟨S20000x256, .f32⟩) main_call1_v5) (TRef.of (T := ⟨S20000x256, .f32⟩) main_call1_v5) (TRef.of (T := ⟨S20000x256, .f32⟩) main_call1_v6) mulf,
    TRef.unary (TRef.of (T := ⟨S_, .i32⟩) main_c_15) (TRef.of (T := ⟨S_, .f32⟩) main_call1_v7) (sitofp .f32),
    TRef.nullary (TRef.of (T := ⟨S_, .f32⟩) main_call1_cst_1) (constant S_ .f32 0x43800000#32),
    TRef.binary (TRef.of (T := ⟨S_, .f32⟩) main_call1_cst_1) (TRef.of (T := ⟨S_, .f32⟩) main_call1_v7) (TRef.of (T := ⟨S_, .f32⟩) main_call1_v8) subf,
    TRef.nullary (TRef.of (T := ⟨S_, .f32⟩) main_call1_cst_2) (constant S_ .f32 0x00000000#32),
    TRef.binary (TRef.of (T := ⟨S20000x256, .f32⟩) main_call1_v6) (TRef.of (T := ⟨S_, .f32⟩) main_call1_cst_2) (TRef.of (T := ⟨S20000, .f32⟩) main_call1_v9) (fun x v => Host.reduceAdd x v reducesTo_S20000x256_S20000_d1 h_S_),
    TRef.unary (TRef.of (T := ⟨S20000, .f32⟩) main_call1_v9) (TRef.of (T := ⟨S20000x1, .f32⟩) main_call1_v10) (broadcastInDim S20000x1 ![0] bcast_S20000_S20000x1_0),
    TRef.unary (TRef.of (T := ⟨S_, .f32⟩) main_call1_v8) (TRef.of (T := ⟨S20000x1, .f32⟩) main_call1_v11) (broadcastInDim S20000x1 ![] bcast_S_S20000x1),
    TRef.binary (TRef.of (T := ⟨S20000x1, .f32⟩) main_call1_v10) (TRef.of (T := ⟨S20000x1, .f32⟩) main_call1_v11) (TRef.of (T := ⟨S20000x1, .f32⟩) main_call1_v12) Host.divf,
    TRef.nullary (TRef.of (T := ⟨S_, .f32⟩) main_call1_cst_3) (constant S_ .f32 0x00000000#32),
    TRef.binary (TRef.of (T := ⟨S_, .f32⟩) main_call1_v8) (TRef.of (T := ⟨S_, .f32⟩) main_call1_cst_3) (TRef.of (T := ⟨S_, .i1⟩) main_call1_v13) (cmpf .ogt),
    TRef.nullary (TRef.of (T := ⟨S_, .f32⟩) main_call1_cst_4) (constant S_ .f32 0x7FC00000#32),
    TRef.unary (TRef.of (T := ⟨S_, .f32⟩) main_call1_cst_4) (TRef.of (T := ⟨S_, .f32⟩) main_call1_call0_v0) id,
    TRef.unary (TRef.of (T := ⟨S_, .f32⟩) main_call1_call0_v0) (TRef.of (T := ⟨S20000x1, .f32⟩) main_call1_call0_v1) (broadcastInDim S20000x1 ![] bcast_S_S20000x1),
    TRef.ternary (TRef.of (T := ⟨S_, .i1⟩) main_call1_v13) (TRef.of (T := ⟨S20000x1, .f32⟩) main_call1_v12) (TRef.of (T := ⟨S20000x1, .f32⟩) main_call1_call0_v1) (TRef.of (T := ⟨S20000x1, .f32⟩) main_v88) (fun p a b => select (broadcastInDim S20000x1 ![] bcast_S_S20000x1 p) a b),
    unary main_v87 main_v89 (broadcastInDim S20000x256 ![0, 1] bcast_S20000x1_S20000x256_0_1 : (⟨S20000x1, .f32⟩ : BufTy).Contents (Elt F) → (⟨S20000x256, .f32⟩ : BufTy).Contents (Elt F)),
    binary main_v79 main_v89 main_v90 (subf : (⟨S20000x256, .f32⟩ : BufTy).Contents (Elt F) → (⟨S20000x256, .f32⟩ : BufTy).Contents (Elt F) → (⟨S20000x256, .f32⟩ : BufTy).Contents (Elt F)),
    nullary main_cst_16 (constant S_ .f32 0x3727C5AC#32),
    unary main_cst_16 main_v91 (broadcastInDim S20000x1 ![] bcast_S_S20000x1 : (⟨S_, .f32⟩ : BufTy).Contents (Elt F) → (⟨S20000x1, .f32⟩ : BufTy).Contents (Elt F)),
    binary main_v88 main_v91 main_v92 (addf : (⟨S20000x1, .f32⟩ : BufTy).Contents (Elt F) → (⟨S20000x1, .f32⟩ : BufTy).Contents (Elt F) → (⟨S20000x1, .f32⟩ : BufTy).Contents (Elt F)),
    unary main_v92 main_v93 (Host.rsqrt : (⟨S20000x1, .f32⟩ : BufTy).Contents (Elt F) → (⟨S20000x1, .f32⟩ : BufTy).Contents (Elt F)),
    unary main_v93 main_v94 (broadcastInDim S20000x256 ![0, 1] bcast_S20000x1_S20000x256_0_1 : (⟨S20000x1, .f32⟩ : BufTy).Contents (Elt F) → (⟨S20000x256, .f32⟩ : BufTy).Contents (Elt F)),
    binary main_v90 main_v94 main_v95 (mulf : (⟨S20000x256, .f32⟩ : BufTy).Contents (Elt F) → (⟨S20000x256, .f32⟩ : BufTy).Contents (Elt F) → (⟨S20000x256, .f32⟩ : BufTy).Contents (Elt F)),
    unary main_v81 main_v96 (broadcastInDim S1x256 ![1] bcast_S256_S1x256_1 : (⟨S256, .f32⟩ : BufTy).Contents (Elt F) → (⟨S1x256, .f32⟩ : BufTy).Contents (Elt F)),
    unary main_v96 main_v97 (broadcastInDim S20000x256 ![0, 1] bcast_S1x256_S20000x256_0_1 : (⟨S1x256, .f32⟩ : BufTy).Contents (Elt F) → (⟨S20000x256, .f32⟩ : BufTy).Contents (Elt F)),
    binary main_v95 main_v97 main_v98 (mulf : (⟨S20000x256, .f32⟩ : BufTy).Contents (Elt F) → (⟨S20000x256, .f32⟩ : BufTy).Contents (Elt F) → (⟨S20000x256, .f32⟩ : BufTy).Contents (Elt F)),
    unary main_v83 main_v99 (broadcastInDim S1x256 ![1] bcast_S256_S1x256_1 : (⟨S256, .f32⟩ : BufTy).Contents (Elt F) → (⟨S1x256, .f32⟩ : BufTy).Contents (Elt F)),
    unary main_v99 main_v100 (broadcastInDim S20000x256 ![0, 1] bcast_S1x256_S20000x256_0_1 : (⟨S1x256, .f32⟩ : BufTy).Contents (Elt F) → (⟨S20000x256, .f32⟩ : BufTy).Contents (Elt F)) ]

set_option maxRecDepth 8192 in
/-- Window 1 of the reference is this line of operations. -/
theorem main_part1_eq (c : Dev nD) : main_part1 (F := F) c = seq ops_part1 := rfl

set_option maxRecDepth 8192 in
/-- Every operation of the window touches only the device's own buffers. -/
theorem ops_part1_sub : (ops_part1 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., reshape_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub ..⟩

set_option maxRecDepth 8192 in
/-- Every operation of the window determines its result. -/
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part1_W : List (Ref sig .tc) := [main_c_9, main_v49, main_v50, main_v51, main_v52, main_v53, main_v54, main_v55, main_v56, main_v57, main_v58, main_cst_10, main_v59, main_v60, main_v61, main_cst_11, main_v62, main_v63, main_v64, main_cst_12, main_v65, main_v66, main_v67, main_v68, main_v69, main_v70, main_v71, main_v72, main_v73, main_v74, main_v75, main_v76, main_v77, main_v78, main_v79, main_v80, main_v81, main_v82, main_v83, main_cst_13, main_v84, main_v85, main_cst_14, main_v86, main_v87, main_c_15, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v88, main_v89, main_v90, main_cst_16, main_v91, main_v92, main_v93, main_v94, main_v95, main_v96, main_v97, main_v98, main_v99, main_v100]

set_option maxRecDepth 8192 in
/-- Each operation of the window writes one buffer of that list. -/
theorem ops_part1_writes : (ops_part1 : List (HloOp τ sig (Elt F))).Forall fun op =>
    op.writes ⊆ (ops_part1_W.map (Proc.devRef (τ := τ) .tc)).toFinset :=
  ⟨writes_sub _ main_c_9 rfl (by decide),
    writes_sub _ main_v49 rfl (by decide),
    writes_sub _ main_v50 rfl (by decide),
    writes_sub _ main_v51 rfl (by decide),
    writes_sub _ main_v52 rfl (by decide),
    writes_sub _ main_v53 rfl (by decide),
    writes_sub _ main_v54 rfl (by decide),
    writes_sub _ main_v55 rfl (by decide),
    writes_sub _ main_v56 rfl (by decide),
    writes_sub _ main_v57 rfl (by decide),
    writes_sub _ main_v58 rfl (by decide),
    writes_sub _ main_cst_10 rfl (by decide),
    writes_sub _ main_v59 rfl (by decide),
    writes_sub _ main_v60 rfl (by decide),
    writes_sub _ main_v61 rfl (by decide),
    writes_sub _ main_cst_11 rfl (by decide),
    writes_sub _ main_v62 rfl (by decide),
    writes_sub _ main_v63 rfl (by decide),
    writes_sub _ main_v64 rfl (by decide),
    writes_sub _ main_cst_12 rfl (by decide),
    writes_sub _ main_v65 rfl (by decide),
    writes_sub _ main_v66 rfl (by decide),
    writes_sub _ main_v67 rfl (by decide),
    writes_sub _ main_v68 rfl (by decide),
    writes_sub _ main_v69 rfl (by decide),
    writes_sub _ main_v70 rfl (by decide),
    writes_sub _ main_v71 rfl (by decide),
    writes_sub _ main_v72 rfl (by decide),
    writes_sub _ main_v73 rfl (by decide),
    writes_sub _ main_v74 rfl (by decide),
    writes_sub _ main_v75 rfl (by decide),
    writes_sub _ main_v76 rfl (by decide),
    writes_sub _ main_v77 rfl (by decide),
    writes_sub _ main_v78 rfl (by decide),
    writes_sub _ main_v79 rfl (by decide),
    writes_sub _ main_v80 rfl (by decide),
    writes_sub _ main_v81 rfl (by decide),
    writes_sub _ main_v82 rfl (by decide),
    writes_sub _ main_v83 rfl (by decide),
    writes_sub _ main_cst_13 rfl (by decide),
    writes_sub _ main_v84 rfl (by decide),
    writes_sub _ main_v85 rfl (by decide),
    writes_sub _ main_cst_14 rfl (by decide),
    writes_sub _ main_v86 rfl (by decide),
    writes_sub _ main_v87 rfl (by decide),
    writes_sub _ main_c_15 rfl (by decide),
    writes_sub _ main_call1_cst rfl (by decide),
    writes_sub _ main_call1_v0 rfl (by decide),
    writes_sub _ main_call1_v1 rfl (by decide),
    writes_sub _ main_call1_cst_0 rfl (by decide),
    writes_sub _ main_call1_v2 rfl (by decide),
    writes_sub _ main_call1_v3 rfl (by decide),
    writes_sub _ main_call1_v4 rfl (by decide),
    writes_sub _ main_call1_v5 rfl (by decide),
    writes_sub _ main_call1_v6 rfl (by decide),
    writes_sub _ main_call1_v7 rfl (by decide),
    writes_sub _ main_call1_cst_1 rfl (by decide),
    writes_sub _ main_call1_v8 rfl (by decide),
    writes_sub _ main_call1_cst_2 rfl (by decide),
    writes_sub _ main_call1_v9 rfl (by decide),
    writes_sub _ main_call1_v10 rfl (by decide),
    writes_sub _ main_call1_v11 rfl (by decide),
    writes_sub _ main_call1_v12 rfl (by decide),
    writes_sub _ main_call1_cst_3 rfl (by decide),
    writes_sub _ main_call1_v13 rfl (by decide),
    writes_sub _ main_call1_cst_4 rfl (by decide),
    writes_sub _ main_call1_call0_v0 rfl (by decide),
    writes_sub _ main_call1_call0_v1 rfl (by decide),
    writes_sub _ main_v88 rfl (by decide),
    writes_sub _ main_v89 rfl (by decide),
    writes_sub _ main_v90 rfl (by decide),
    writes_sub _ main_cst_16 rfl (by decide),
    writes_sub _ main_v91 rfl (by decide),
    writes_sub _ main_v92 rfl (by decide),
    writes_sub _ main_v93 rfl (by decide),
    writes_sub _ main_v94 rfl (by decide),
    writes_sub _ main_v95 rfl (by decide),
    writes_sub _ main_v96 rfl (by decide),
    writes_sub _ main_v97 rfl (by decide),
    writes_sub _ main_v98 rfl (by decide),
    writes_sub _ main_v99 rfl (by decide),
    writes_sub _ main_v100 rfl (by decide)⟩

/-- A buffer the window does not write keeps its contents through it. -/
theorem keep1 (V : Valuation τ sig (Elt F)) (r : Ref sig .tc) (h : r ∉ ops_part1_W) :
    after ops_part1 V (Proc.devRef .tc r) = V (Proc.devRef .tc r) :=
  after_of_writes_sub ops_part1 V ops_part1_writes h

end Cert.ReferenceIdeal.RefRun

end
-- ==== Proof.RefRunP2.lean ====
/- The reference program's operations 148 … 231 of 422 (its window 2) as a list: the window is that
   line of operations, every operation touches only device buffers and determines what it writes, and the
   buffers the window writes are listed. A called function's operations stand at its call, over that call's
   own buffers. -/
import proofs.«175432_j21457656611019_1_alg».proof.Proof.Gen.ReferenceIdeal
import proofs.«175432_j21457656611019_1_alg».proof.Proof.RefRunBase
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations 148 … 231 of the reference, in order. -/
abbrev ops_part2 : List (HloOp τ sig (Elt F)) :=
  [ binary main_v98 main_v100 main_v101 (addf : (⟨S20000x256, .f32⟩ : BufTy).Contents (Elt F) → (⟨S20000x256, .f32⟩ : BufTy).Contents (Elt F) → (⟨S20000x256, .f32⟩ : BufTy).Contents (Elt F)),
    unary main_arg10 main_v102 ((extractStridedSlice S1x256x1024 ![0, 0, 0] · slices_S2x256x1024_S1x256x1024_0_0_0) : (⟨S2x256x1024, .f32⟩ : BufTy).Contents (Elt F) → (⟨S1x256x1024, .f32⟩ : BufTy).Contents (Elt F)),
    reshape main_v102 main_v103 rfl shapeCasts_S1x256x1024_S256x1024,
    binary main_v101 main_v103 main_v104 ((fun l r => Host.dotGeneral dot_S20000x256_S256x1024_S20000x1024_1_0_0_1_n_n none l r) : (⟨S20000x256, .f32⟩ : BufTy).Contents (Elt F) → (⟨S256x1024, .f32⟩ : BufTy).Contents (Elt F) → (⟨S20000x1024, .f32⟩ : BufTy).Contents (Elt F)),
    unary main_arg11 main_v105 ((extractStridedSlice S1x1024 ![0, 0] · slices_S2x1024_S1x1024_0_0) : (⟨S2x1024, .f32⟩ : BufTy).Contents (Elt F) → (⟨S1x1024, .f32⟩ : BufTy).Contents (Elt F)),
    reshape main_v105 main_v106 rfl shapeCasts_S1x1024_S1024,
    unary main_v106 main_v107 (broadcastInDim S1x1024 ![1] bcast_S1024_S1x1024_1 : (⟨S1024, .f32⟩ : BufTy).Contents (Elt F) → (⟨S1x1024, .f32⟩ : BufTy).Contents (Elt F)),
    unary main_v107 main_v108 (broadcastInDim S20000x1024 ![0, 1] bcast_S1x1024_S20000x1024_0_1 : (⟨S1x1024, .f32⟩ : BufTy).Contents (Elt F) → (⟨S20000x1024, .f32⟩ : BufTy).Contents (Elt F)),
    binary main_v104 main_v108 main_v109 (addf : (⟨S20000x1024, .f32⟩ : BufTy).Contents (Elt F) → (⟨S20000x1024, .f32⟩ : BufTy).Contents (Elt F) → (⟨S20000x1024, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S20000x1024, .f32⟩) main_call2_v0) (broadcastInDim S20000x1024 ![] bcast_S_S20000x1024),
    TRef.binary (TRef.of (T := ⟨S20000x1024, .f32⟩) main_v109) (TRef.of (T := ⟨S20000x1024, .f32⟩) main_call2_v0) (TRef.of (T := ⟨S20000x1024, .f32⟩) main_v110) maximumf,
    unary main_arg12 main_v111 ((extractStridedSlice S1x1024x256 ![0, 0, 0] · slices_S2x1024x256_S1x1024x256_0_0_0) : (⟨S2x1024x256, .f32⟩ : BufTy).Contents (Elt F) → (⟨S1x1024x256, .f32⟩ : BufTy).Contents (Elt F)),
    reshape main_v111 main_v112 rfl shapeCasts_S1x1024x256_S1024x256,
    binary main_v110 main_v112 main_v113 ((fun l r => Host.dotGeneral dot_S20000x1024_S1024x256_S20000x256_1_0_0_1_n_n none l r) : (⟨S20000x1024, .f32⟩ : BufTy).Contents (Elt F) → (⟨S1024x256, .f32⟩ : BufTy).Contents (Elt F) → (⟨S20000x256, .f32⟩ : BufTy).Contents (Elt F)),
    binary main_v101 main_v113 main_v114 (addf : (⟨S20000x256, .f32⟩ : BufTy).Contents (Elt F) → (⟨S20000x256, .f32⟩ : BufTy).Contents (Elt F) → (⟨S20000x256, .f32⟩ : BufTy).Contents (Elt F)),
    unary main_arg13 main_v115 ((extractStridedSlice S1x256 ![0, 0] · slices_S2x256_S1x256_0_0) : (⟨S2x256, .f32⟩ : BufTy).Contents (Elt F) → (⟨S1x256, .f32⟩ : BufTy).Contents (Elt F)),
    reshape main_v115 main_v116 rfl shapeCasts_S1x256_S256,
    unary main_v116 main_v117 (broadcastInDim S1x256 ![1] bcast_S256_S1x256_1 : (⟨S256, .f32⟩ : BufTy).Contents (Elt F) → (⟨S1x256, .f32⟩ : BufTy).Contents (Elt F)),
    unary main_v117 main_v118 (broadcastInDim S20000x256 ![0, 1] bcast_S1x256_S20000x256_0_1 : (⟨S1x256, .f32⟩ : BufTy).Contents (Elt F) → (⟨S20000x256, .f32⟩ : BufTy).Contents (Elt F)),
    binary main_v114 main_v118 main_v119 (addf : (⟨S20000x256, .f32⟩ : BufTy).Contents (Elt F) → (⟨S20000x256, .f32⟩ : BufTy).Contents (Elt F) → (⟨S20000x256, .f32⟩ : BufTy).Contents (Elt F)),
    unary main_arg14 main_v120 ((extractStridedSlice S1x256 ![0, 0] · slices_S2x256_S1x256_0_0) : (⟨S2x256, .f32⟩ : BufTy).Contents (Elt F) → (⟨S1x256, .f32⟩ : BufTy).Contents (Elt F)),
    reshape main_v120 main_v121 rfl shapeCasts_S1x256_S256,
    unary main_arg15 main_v122 ((extractStridedSlice S1x256 ![0, 0] · slices_S2x256_S1x256_0_0) : (⟨S2x256, .f32⟩ : BufTy).Contents (Elt F) → (⟨S1x256, .f32⟩ : BufTy).Contents (Elt F)),
    reshape main_v122 main_v123 rfl shapeCasts_S1x256_S256,
    nullary main_cst_17 (constant S_ .f32 0x00000000#32),
    binary main_v119 main_cst_17 main_v124 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v124 main_v125 (broadcastInDim S20000x1 ![0] bcast_S20000_S20000x1_0 : (⟨S20000, .f32⟩ : BufTy).Contents (Elt F) → (⟨S20000x1, .f32⟩ : BufTy).Contents (Elt F)),
    nullary main_cst_18 (constant S_ .f32 0x43800000#32),
    unary main_cst_18 main_v126 (broadcastInDim S20000x1 ![] bcast_S_S20000x1 : (⟨S_, .f32⟩ : BufTy).Contents (Elt F) → (⟨S20000x1, .f32⟩ : BufTy).Contents (Elt F)),
    binary main_v125 main_v126 main_v127 (Host.divf : (⟨S20000x1, .f32⟩ : BufTy).Contents (Elt F) → (⟨S20000x1, .f32⟩ : BufTy).Contents (Elt F) → (⟨S20000x1, .f32⟩ : BufTy).Contents (Elt F)),
    nullary main_c_19 (constantI S_ 32 0#32),
    TRef.nullary (TRef.of (T := ⟨S_, .f32⟩) main_call3_cst) (constant S_ .f32 0x00000000#32),
    TRef.binary (TRef.of (T := ⟨S20000x256, .f32⟩) main_v119) (TRef.of (T := ⟨S_, .f32⟩) main_call3_cst) (TRef.of (T := ⟨S20000, .f32⟩) main_call3_v0) (fun x v => Host.reduceAdd x v reducesTo_S20000x256_S20000_d1 h_S_),
    TRef.unary (TRef.of (T := ⟨S20000, .f32⟩) main_call3_v0) (TRef.of (T := ⟨S20000x1, .f32⟩) main_call3_v1) (broadcastInDim S20000x1 ![0] bcast_S20000_S20000x1_0),
    TRef.nullary (TRef.of (T := ⟨S_, .f32⟩) main_call3_cst_0) (constant S_ .f32 0x43800000#32),
    TRef.unary (TRef.of (T := ⟨S_, .f32⟩) main_call3_cst_0) (TRef.of (T := ⟨S20000x1, .f32⟩) main_call3_v2) (broadcastInDim S20000x1 ![] bcast_S_S20000x1),
    TRef.binary (TRef.of (T := ⟨S20000x1, .f32⟩) main_call3_v1) (TRef.of (T := ⟨S20000x1, .f32⟩) main_call3_v2) (TRef.of (T := ⟨S20000x1, .f32⟩) main_call3_v3) Host.divf,
    TRef.unary (TRef.of (T := ⟨S20000x1, .f32⟩) main_call3_v3) (TRef.of (T := ⟨S20000x256, .f32⟩) main_call3_v4) (broadcastInDim S20000x256 ![0, 1] bcast_S20000x1_S20000x256_0_1),
    TRef.binary (TRef.of (T := ⟨S20000x256, .f32⟩) main_v119) (TRef.of (T := ⟨S20000x256, .f32⟩) main_call3_v4) (TRef.of (T := ⟨S20000x256, .f32⟩) main_call3_v5) subf,
    TRef.binary (TRef.of (T := ⟨S20000x256, .f32⟩) main_call3_v5) (TRef.of (T := ⟨S20000x256, .f32⟩) main_call3_v5) (TRef.of (T := ⟨S20000x256, .f32⟩) main_call3_v6) mulf,
    TRef.unary (TRef.of (T := ⟨S_, .i32⟩) main_c_19) (TRef.of (T := ⟨S_, .f32⟩) main_call3_v7) (sitofp .f32),
    TRef.nullary (TRef.of (T := ⟨S_, .f32⟩) main_call3_cst_1) (constant S_ .f32 0x43800000#32),
    TRef.binary (TRef.of (T := ⟨S_, .f32⟩) main_call3_cst_1) (TRef.of (T := ⟨S_, .f32⟩) main_call3_v7) (TRef.of (T := ⟨S_, .f32⟩) main_call3_v8) subf,
    TRef.nullary (TRef.of (T := ⟨S_, .f32⟩) main_call3_cst_2) (constant S_ .f32 0x00000000#32),
    TRef.binary (TRef.of (T := ⟨S20000x256, .f32⟩) main_call3_v6) (TRef.of (T := ⟨S_, .f32⟩) main_call3_cst_2) (TRef.of (T := ⟨S20000, .f32⟩) main_call3_v9) (fun x v => Host.reduceAdd x v reducesTo_S20000x256_S20000_d1 h_S_),
    TRef.unary (TRef.of (T := ⟨S20000, .f32⟩) main_call3_v9) (TRef.of (T := ⟨S20000x1, .f32⟩) main_call3_v10) (broadcastInDim S20000x1 ![0] bcast_S20000_S20000x1_0),
    TRef.unary (TRef.of (T := ⟨S_, .f32⟩) main_call3_v8) (TRef.of (T := ⟨S20000x1, .f32⟩) main_call3_v11) (broadcastInDim S20000x1 ![] bcast_S_S20000x1),
    TRef.binary (TRef.of (T := ⟨S20000x1, .f32⟩) main_call3_v10) (TRef.of (T := ⟨S20000x1, .f32⟩) main_call3_v11) (TRef.of (T := ⟨S20000x1, .f32⟩) main_call3_v12) Host.divf,
    TRef.nullary (TRef.of (T := ⟨S_, .f32⟩) main_call3_cst_3) (constant S_ .f32 0x00000000#32),
    TRef.binary (TRef.of (T := ⟨S_, .f32⟩) main_call3_v8) (TRef.of (T := ⟨S_, .f32⟩) main_call3_cst_3) (TRef.of (T := ⟨S_, .i1⟩) main_call3_v13) (cmpf .ogt),
    TRef.nullary (TRef.of (T := ⟨S_, .f32⟩) main_call3_cst_4) (constant S_ .f32 0x7FC00000#32),
    TRef.unary (TRef.of (T := ⟨S_, .f32⟩) main_call3_cst_4) (TRef.of (T := ⟨S_, .f32⟩) main_call3_call0_v0) id,
    TRef.unary (TRef.of (T := ⟨S_, .f32⟩) main_call3_call0_v0) (TRef.of (T := ⟨S20000x1, .f32⟩) main_call3_call0_v1) (broadcastInDim S20000x1 ![] bcast_S_S20000x1),
    TRef.ternary (TRef.of (T := ⟨S_, .i1⟩) main_call3_v13) (TRef.of (T := ⟨S20000x1, .f32⟩) main_call3_v12) (TRef.of (T := ⟨S20000x1, .f32⟩) main_call3_call0_v1) (TRef.of (T := ⟨S20000x1, .f32⟩) main_v128) (fun p a b => select (broadcastInDim S20000x1 ![] bcast_S_S20000x1 p) a b),
    unary main_v127 main_v129 (broadcastInDim S20000x256 ![0, 1] bcast_S20000x1_S20000x256_0_1 : (⟨S20000x1, .f32⟩ : BufTy).Contents (Elt F) → (⟨S20000x256, .f32⟩ : BufTy).Contents (Elt F)),
    binary main_v119 main_v129 main_v130 (subf : (⟨S20000x256, .f32⟩ : BufTy).Contents (Elt F) → (⟨S20000x256, .f32⟩ : BufTy).Contents (Elt F) → (⟨S20000x256, .f32⟩ : BufTy).Contents (Elt F)),
    nullary main_cst_20 (constant S_ .f32 0x3727C5AC#32),
    unary main_cst_20 main_v131 (broadcastInDim S20000x1 ![] bcast_S_S20000x1 : (⟨S_, .f32⟩ : BufTy).Contents (Elt F) → (⟨S20000x1, .f32⟩ : BufTy).Contents (Elt F)),
    binary main_v128 main_v131 main_v132 (addf : (⟨S20000x1, .f32⟩ : BufTy).Contents (Elt F) → (⟨S20000x1, .f32⟩ : BufTy).Contents (Elt F) → (⟨S20000x1, .f32⟩ : BufTy).Contents (Elt F)),
    unary main_v132 main_v133 (Host.rsqrt : (⟨S20000x1, .f32⟩ : BufTy).Contents (Elt F) → (⟨S20000x1, .f32⟩ : BufTy).Contents (Elt F)),
    unary main_v133 main_v134 (broadcastInDim S20000x256 ![0, 1] bcast_S20000x1_S20000x256_0_1 : (⟨S20000x1, .f32⟩ : BufTy).Contents (Elt F) → (⟨S20000x256, .f32⟩ : BufTy).Contents (Elt F)),
    binary main_v130 main_v134 main_v135 (mulf : (⟨S20000x256, .f32⟩ : BufTy).Contents (Elt F) → (⟨S20000x256, .f32⟩ : BufTy).Contents (Elt F) → (⟨S20000x256, .f32⟩ : BufTy).Contents (Elt F)),
    unary main_v121 main_v136 (broadcastInDim S1x256 ![1] bcast_S256_S1x256_1 : (⟨S256, .f32⟩ : BufTy).Contents (Elt F) → (⟨S1x256, .f32⟩ : BufTy).Contents (Elt F)),
    unary main_v136 main_v137 (broadcastInDim S20000x256 ![0, 1] bcast_S1x256_S20000x256_0_1 : (⟨S1x256, .f32⟩ : BufTy).Contents (Elt F) → (⟨S20000x256, .f32⟩ : BufTy).Contents (Elt F)),
    binary main_v135 main_v137 main_v138 (mulf : (⟨S20000x256, .f32⟩ : BufTy).Contents (Elt F) → (⟨S20000x256, .f32⟩ : BufTy).Contents (Elt F) → (⟨S20000x256, .f32⟩ : BufTy).Contents (Elt F)),
    unary main_v123 main_v139 (broadcastInDim S1x256 ![1] bcast_S256_S1x256_1 : (⟨S256, .f32⟩ : BufTy).Contents (Elt F) → (⟨S1x256, .f32⟩ : BufTy).Contents (Elt F)),
    unary main_v139 main_v140 (broadcastInDim S20000x256 ![0, 1] bcast_S1x256_S20000x256_0_1 : (⟨S1x256, .f32⟩ : BufTy).Contents (Elt F) → (⟨S20000x256, .f32⟩ : BufTy).Contents (Elt F)),
    binary main_v138 main_v140 main_v141 (addf : (⟨S20000x256, .f32⟩ : BufTy).Contents (Elt F) → (⟨S20000x256, .f32⟩ : BufTy).Contents (Elt F) → (⟨S20000x256, .f32⟩ : BufTy).Contents (Elt F)),
    unary main_arg2 main_v142 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v142 main_v143 rfl shapeCasts_S1x256x256_S256x256,
    binary main_v141 main_v143 main_v144 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg3 main_v145 ((extractStridedSlice S1x256 ![1, 0] · slices_S2x256_S1x256_1_0) : (⟨S2x256, .f32⟩ : BufTy).Contents (Elt F) → (⟨S1x256, .f32⟩ : BufTy).Contents (Elt F)),
    reshape main_v145 main_v146 rfl shapeCasts_S1x256_S256,
    unary main_v146 main_v147 (broadcastInDim S1x256 ![1] bcast_S256_S1x256_1 : (⟨S256, .f32⟩ : BufTy).Contents (Elt F) → (⟨S1x256, .f32⟩ : BufTy).Contents (Elt F)),
    unary main_v147 main_v148 (broadcastInDim S20000x256 ![0, 1] bcast_S1x256_S20000x256_0_1 : (⟨S1x256, .f32⟩ : BufTy).Contents (Elt F) → (⟨S20000x256, .f32⟩ : BufTy).Contents (Elt F)),
    binary main_v144 main_v148 main_v149 (addf : (⟨S20000x256, .f32⟩ : BufTy).Contents (Elt F) → (⟨S20000x256, .f32⟩ : BufTy).Contents (Elt F) → (⟨S20000x256, .f32⟩ : BufTy).Contents (Elt F)),
    reshape main_v149 main_v150 rfl shapeCasts_S20000x256_S20000x8x32,
    unary main_arg4 main_v151 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v151 main_v152 rfl shapeCasts_S1x256x256_S256x256,
    binary main_v141 main_v152 main_v153 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    reshape main_v153 main_v154 rfl shapeCasts_S20000x256_S20000x8x32,
    unary main_arg5 main_v155 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v155 main_v156 rfl shapeCasts_S1x256x256_S256x256 ]

set_option maxRecDepth 8192 in
/-- Window 2 of the reference is this line of operations. -/
theorem main_part2_eq (c : Dev nD) : main_part2 (F := F) c = seq ops_part2 := rfl

set_option maxRecDepth 8192 in
/-- Every operation of the window touches only the device's own buffers. -/
theorem ops_part2_sub : (ops_part2 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., unary_bufs_sub .., reshape_bufs_sub .., binary_bufs_sub .., reshape_bufs_sub .., unary_bufs_sub .., reshape_bufs_sub ..⟩

set_option maxRecDepth 8192 in
/-- Every operation of the window determines its result. -/
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part2_W : List (Ref sig .tc) := [main_v101, main_v102, main_v103, main_v104, main_v105, main_v106, main_v107, main_v108, main_v109, main_call2_cst, main_call2_v0, main_v110, main_v111, main_v112, main_v113, main_v114, main_v115, main_v116, main_v117, main_v118, main_v119, main_v120, main_v121, main_v122, main_v123, main_cst_17, main_v124, main_v125, main_cst_18, main_v126, main_v127, main_c_19, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v128, main_v129, main_v130, main_cst_20, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156]

set_option maxRecDepth 8192 in
/-- Each operation of the window writes one buffer of that list. -/
theorem ops_part2_writes : (ops_part2 : List (HloOp τ sig (Elt F))).Forall fun op =>
    op.writes ⊆ (ops_part2_W.map (Proc.devRef (τ := τ) .tc)).toFinset :=
  ⟨writes_sub _ main_v101 rfl (by decide),
    writes_sub _ main_v102 rfl (by decide),
    writes_sub _ main_v103 rfl (by decide),
    writes_sub _ main_v104 rfl (by decide),
    writes_sub _ main_v105 rfl (by decide),
    writes_sub _ main_v106 rfl (by decide),
    writes_sub _ main_v107 rfl (by decide),
    writes_sub _ main_v108 rfl (by decide),
    writes_sub _ main_v109 rfl (by decide),
    writes_sub _ main_call2_cst rfl (by decide),
    writes_sub _ main_call2_v0 rfl (by decide),
    writes_sub _ main_v110 rfl (by decide),
    writes_sub _ main_v111 rfl (by decide),
    writes_sub _ main_v112 rfl (by decide),
    writes_sub _ main_v113 rfl (by decide),
    writes_sub _ main_v114 rfl (by decide),
    writes_sub _ main_v115 rfl (by decide),
    writes_sub _ main_v116 rfl (by decide),
    writes_sub _ main_v117 rfl (by decide),
    writes_sub _ main_v118 rfl (by decide),
    writes_sub _ main_v119 rfl (by decide),
    writes_sub _ main_v120 rfl (by decide),
    writes_sub _ main_v121 rfl (by decide),
    writes_sub _ main_v122 rfl (by decide),
    writes_sub _ main_v123 rfl (by decide),
    writes_sub _ main_cst_17 rfl (by decide),
    writes_sub _ main_v124 rfl (by decide),
    writes_sub _ main_v125 rfl (by decide),
    writes_sub _ main_cst_18 rfl (by decide),
    writes_sub _ main_v126 rfl (by decide),
    writes_sub _ main_v127 rfl (by decide),
    writes_sub _ main_c_19 rfl (by decide),
    writes_sub _ main_call3_cst rfl (by decide),
    writes_sub _ main_call3_v0 rfl (by decide),
    writes_sub _ main_call3_v1 rfl (by decide),
    writes_sub _ main_call3_cst_0 rfl (by decide),
    writes_sub _ main_call3_v2 rfl (by decide),
    writes_sub _ main_call3_v3 rfl (by decide),
    writes_sub _ main_call3_v4 rfl (by decide),
    writes_sub _ main_call3_v5 rfl (by decide),
    writes_sub _ main_call3_v6 rfl (by decide),
    writes_sub _ main_call3_v7 rfl (by decide),
    writes_sub _ main_call3_cst_1 rfl (by decide),
    writes_sub _ main_call3_v8 rfl (by decide),
    writes_sub _ main_call3_cst_2 rfl (by decide),
    writes_sub _ main_call3_v9 rfl (by decide),
    writes_sub _ main_call3_v10 rfl (by decide),
    writes_sub _ main_call3_v11 rfl (by decide),
    writes_sub _ main_call3_v12 rfl (by decide),
    writes_sub _ main_call3_cst_3 rfl (by decide),
    writes_sub _ main_call3_v13 rfl (by decide),
    writes_sub _ main_call3_cst_4 rfl (by decide),
    writes_sub _ main_call3_call0_v0 rfl (by decide),
    writes_sub _ main_call3_call0_v1 rfl (by decide),
    writes_sub _ main_v128 rfl (by decide),
    writes_sub _ main_v129 rfl (by decide),
    writes_sub _ main_v130 rfl (by decide),
    writes_sub _ main_cst_20 rfl (by decide),
    writes_sub _ main_v131 rfl (by decide),
    writes_sub _ main_v132 rfl (by decide),
    writes_sub _ main_v133 rfl (by decide),
    writes_sub _ main_v134 rfl (by decide),
    writes_sub _ main_v135 rfl (by decide),
    writes_sub _ main_v136 rfl (by decide),
    writes_sub _ main_v137 rfl (by decide),
    writes_sub _ main_v138 rfl (by decide),
    writes_sub _ main_v139 rfl (by decide),
    writes_sub _ main_v140 rfl (by decide),
    writes_sub _ main_v141 rfl (by decide),
    writes_sub _ main_v142 rfl (by decide),
    writes_sub _ main_v143 rfl (by decide),
    writes_sub _ main_v144 rfl (by decide),
    writes_sub _ main_v145 rfl (by decide),
    writes_sub _ main_v146 rfl (by decide),
    writes_sub _ main_v147 rfl (by decide),
    writes_sub _ main_v148 rfl (by decide),
    writes_sub _ main_v149 rfl (by decide),
    writes_sub _ main_v150 rfl (by decide),
    writes_sub _ main_v151 rfl (by decide),
    writes_sub _ main_v152 rfl (by decide),
    writes_sub _ main_v153 rfl (by decide),
    writes_sub _ main_v154 rfl (by decide),
    writes_sub _ main_v155 rfl (by decide),
    writes_sub _ main_v156 rfl (by decide)⟩

/-- A buffer the window does not write keeps its contents through it. -/
theorem keep2 (V : Valuation τ sig (Elt F)) (r : Ref sig .tc) (h : r ∉ ops_part2_W) :
    after ops_part2 V (Proc.devRef .tc r) = V (Proc.devRef .tc r) :=
  after_of_writes_sub ops_part2 V ops_part2_writes h

end Cert.ReferenceIdeal.RefRun

end
-- ==== Proof.RefRunP3.lean ====
/- The reference program's operations 232 … 296 of 422 (its window 3) as a list: the window is that
   line of operations, every operation touches only device buffers and determines what it writes, and the
   buffers the window writes are listed. A called function's operations stand at its call, over that call's
   own buffers. -/
import proofs.«175432_j21457656611019_1_alg».proof.Proof.Gen.ReferenceIdeal
import proofs.«175432_j21457656611019_1_alg».proof.Proof.RefRunBase
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations 232 … 296 of the reference, in order. -/
abbrev ops_part3 : List (HloOp τ sig (Elt F)) :=
  [ binary main_v141 main_v156 main_v157 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    reshape main_v157 main_v158 rfl shapeCasts_S20000x256_S20000x8x32,
    nullary main_c_21 (constantI S_ 32 0#32),
    unary main_c_21 main_v159 (broadcastInDim S640000 ![] bcast_S_S640000 : (⟨S_, .i32⟩ : BufTy).Contents (Elt F) → (⟨S640000, .i32⟩ : BufTy).Contents (Elt F)),
    binary main_arg17 main_v159 main_v160 (cmpi .slt : (⟨S640000, .i32⟩ : BufTy).Contents (Elt F) → (⟨S640000, .i32⟩ : BufTy).Contents (Elt F) → (⟨S640000, .i1⟩ : BufTy).Contents (Elt F)),
    nullary main_c_22 (constantI S_ 32 20000#32),
    unary main_c_22 main_v161 (broadcastInDim S640000 ![] bcast_S_S640000 : (⟨S_, .i32⟩ : BufTy).Contents (Elt F) → (⟨S640000, .i32⟩ : BufTy).Contents (Elt F)),
    binary main_arg17 main_v161 main_v162 (addi : (⟨S640000, .i32⟩ : BufTy).Contents (Elt F) → (⟨S640000, .i32⟩ : BufTy).Contents (Elt F) → (⟨S640000, .i32⟩ : BufTy).Contents (Elt F)),
    ternary main_v160 main_v162 main_arg17 main_v163 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v163 main_v164 (broadcastInDim S640000x1 ![0] bcast_S640000_S640000x1_0 : (⟨S640000, .i32⟩ : BufTy).Contents (Elt F) → (⟨S640000x1, .i32⟩ : BufTy).Contents (Elt F)),
    binary main_v154 main_v164 main_v165 ((fun x i => Host.gather gather_S20000x8x32_S640000x1_S640000x8x32_12_0_n_n_0_1_1832 x i) : (⟨S20000x8x32, .f32⟩ : BufTy).Contents (Elt F) → (⟨S640000x1, .i32⟩ : BufTy).Contents (Elt F) → (⟨S640000x8x32, .f32⟩ : BufTy).Contents (Elt F)),
    unary main_v7 main_v166 (broadcastInDim S640000x8x32 ![0, 1, 2] bcast_S640000x1x32_S640000x8x32_0_1_2 : (⟨S640000x1x32, .f32⟩ : BufTy).Contents (Elt F) → (⟨S640000x8x32, .f32⟩ : BufTy).Contents (Elt F)),
    binary main_v165 main_v166 main_v167 (addf : (⟨S640000x8x32, .f32⟩ : BufTy).Contents (Elt F) → (⟨S640000x8x32, .f32⟩ : BufTy).Contents (Elt F) → (⟨S640000x8x32, .f32⟩ : BufTy).Contents (Elt F)),
    nullary main_c_23 (constantI S_ 32 0#32),
    unary main_c_23 main_v168 (broadcastInDim S640000 ![] bcast_S_S640000 : (⟨S_, .i32⟩ : BufTy).Contents (Elt F) → (⟨S640000, .i32⟩ : BufTy).Contents (Elt F)),
    binary main_arg18 main_v168 main_v169 (cmpi .slt : (⟨S640000, .i32⟩ : BufTy).Contents (Elt F) → (⟨S640000, .i32⟩ : BufTy).Contents (Elt F) → (⟨S640000, .i1⟩ : BufTy).Contents (Elt F)),
    nullary main_c_24 (constantI S_ 32 20000#32),
    unary main_c_24 main_v170 (broadcastInDim S640000 ![] bcast_S_S640000 : (⟨S_, .i32⟩ : BufTy).Contents (Elt F) → (⟨S640000, .i32⟩ : BufTy).Contents (Elt F)),
    binary main_arg18 main_v170 main_v171 (addi : (⟨S640000, .i32⟩ : BufTy).Contents (Elt F) → (⟨S640000, .i32⟩ : BufTy).Contents (Elt F) → (⟨S640000, .i32⟩ : BufTy).Contents (Elt F)),
    ternary main_v169 main_v171 main_arg18 main_v172 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v172 main_v173 (broadcastInDim S640000x1 ![0] bcast_S640000_S640000x1_0 : (⟨S640000, .i32⟩ : BufTy).Contents (Elt F) → (⟨S640000x1, .i32⟩ : BufTy).Contents (Elt F)),
    binary main_v150 main_v173 main_v174 ((fun x i => Host.gather gather_S20000x8x32_S640000x1_S640000x8x32_12_0_n_n_0_1_1832 x i) : (⟨S20000x8x32, .f32⟩ : BufTy).Contents (Elt F) → (⟨S640000x1, .i32⟩ : BufTy).Contents (Elt F) → (⟨S640000x8x32, .f32⟩ : BufTy).Contents (Elt F)),
    binary main_v167 main_v174 main_v175 (mulf : (⟨S640000x8x32, .f32⟩ : BufTy).Contents (Elt F) → (⟨S640000x8x32, .f32⟩ : BufTy).Contents (Elt F) → (⟨S640000x8x32, .f32⟩ : BufTy).Contents (Elt F)),
    nullary main_cst_25 (constant S_ .f32 0x00000000#32),
    binary main_v175 main_cst_25 main_v176 ((fun x v => Host.reduceAdd x v reducesTo_S640000x8x32_S640000x8_d2 h_S_) : (⟨S640000x8x32, .f32⟩ : BufTy).Contents (Elt F) → (⟨S_, .f32⟩ : BufTy).Contents (Elt F) → (⟨S640000x8, .f32⟩ : BufTy).Contents (Elt F)),
    nullary main_cst_26 (constant S_ .f32 0x40B504F3#32),
    unary main_cst_26 main_v177 (broadcastInDim S640000x8 ![] bcast_S_S640000x8 : (⟨S_, .f32⟩ : BufTy).Contents (Elt F) → (⟨S640000x8, .f32⟩ : BufTy).Contents (Elt F)),
    binary main_v176 main_v177 main_v178 (Host.divf : (⟨S640000x8, .f32⟩ : BufTy).Contents (Elt F) → (⟨S640000x8, .f32⟩ : BufTy).Contents (Elt F) → (⟨S640000x8, .f32⟩ : BufTy).Contents (Elt F)),
    nullary main_cst_27 (constant S_ .f32 0xC1200000#32),
    nullary main_cst_28 (constant S_ .f32 0x41200000#32),
    TRef.unary (TRef.of (T := ⟨S_, .f32⟩) main_cst_27) (TRef.of (T := ⟨S_, .f32⟩) main_call4_v0) id,
    TRef.unary (TRef.of (T := ⟨S_, .f32⟩) main_call4_v0) (TRef.of (T := ⟨S640000x8, .f32⟩) main_call4_v1) (broadcastInDim S640000x8 ![] bcast_S_S640000x8),
    TRef.binary (TRef.of (T := ⟨S640000x8, .f32⟩) main_call4_v1) (TRef.of (T := ⟨S640000x8, .f32⟩) main_v178) (TRef.of (T := ⟨S640000x8, .f32⟩) main_call4_v2) maximumf,
    TRef.unary (TRef.of (T := ⟨S_, .f32⟩) main_cst_28) (TRef.of (T := ⟨S_, .f32⟩) main_call4_v3) id,
    TRef.unary (TRef.of (T := ⟨S_, .f32⟩) main_call4_v3) (TRef.of (T := ⟨S640000x8, .f32⟩) main_call4_v4) (broadcastInDim S640000x8 ![] bcast_S_S640000x8),
    TRef.binary (TRef.of (T := ⟨S640000x8, .f32⟩) main_call4_v4) (TRef.of (T := ⟨S640000x8, .f32⟩) main_call4_v2) (TRef.of (T := ⟨S640000x8, .f32⟩) main_v179) minimumf,
    unary main_v179 main_v180 (Host.exp : (⟨S640000x8, .f32⟩ : BufTy).Contents (Elt F) → (⟨S640000x8, .f32⟩ : BufTy).Contents (Elt F)),
    nullary main_c_29 (constantI S_ 32 0#32),
    unary main_c_29 main_v181 (broadcastInDim S640000 ![] bcast_S_S640000 : (⟨S_, .i32⟩ : BufTy).Contents (Elt F) → (⟨S640000, .i32⟩ : BufTy).Contents (Elt F)),
    binary main_arg17 main_v181 main_v182 (cmpi .slt : (⟨S640000, .i32⟩ : BufTy).Contents (Elt F) → (⟨S640000, .i32⟩ : BufTy).Contents (Elt F) → (⟨S640000, .i1⟩ : BufTy).Contents (Elt F)),
    nullary main_c_30 (constantI S_ 32 20000#32),
    unary main_c_30 main_v183 (broadcastInDim S640000 ![] bcast_S_S640000 : (⟨S_, .i32⟩ : BufTy).Contents (Elt F) → (⟨S640000, .i32⟩ : BufTy).Contents (Elt F)),
    binary main_arg17 main_v183 main_v184 (addi : (⟨S640000, .i32⟩ : BufTy).Contents (Elt F) → (⟨S640000, .i32⟩ : BufTy).Contents (Elt F) → (⟨S640000, .i32⟩ : BufTy).Contents (Elt F)),
    ternary main_v182 main_v184 main_arg17 main_v185 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v185 main_v186 (broadcastInDim S640000x1 ![0] bcast_S640000_S640000x1_0 : (⟨S640000, .i32⟩ : BufTy).Contents (Elt F) → (⟨S640000x1, .i32⟩ : BufTy).Contents (Elt F)),
    binary main_v158 main_v186 main_v187 ((fun x i => Host.gather gather_S20000x8x32_S640000x1_S640000x8x32_12_0_n_n_0_1_1832 x i) : (⟨S20000x8x32, .f32⟩ : BufTy).Contents (Elt F) → (⟨S640000x1, .i32⟩ : BufTy).Contents (Elt F) → (⟨S640000x8x32, .f32⟩ : BufTy).Contents (Elt F)),
    unary main_v7 main_v188 (broadcastInDim S640000x8x32 ![0, 1, 2] bcast_S640000x1x32_S640000x8x32_0_1_2 : (⟨S640000x1x32, .f32⟩ : BufTy).Contents (Elt F) → (⟨S640000x8x32, .f32⟩ : BufTy).Contents (Elt F)),
    binary main_v187 main_v188 main_v189 (addf : (⟨S640000x8x32, .f32⟩ : BufTy).Contents (Elt F) → (⟨S640000x8x32, .f32⟩ : BufTy).Contents (Elt F) → (⟨S640000x8x32, .f32⟩ : BufTy).Contents (Elt F)),
    unary main_v180 main_v190 (broadcastInDim S640000x8x1 ![0, 1] bcast_S640000x8_S640000x8x1_0_1 : (⟨S640000x8, .f32⟩ : BufTy).Contents (Elt F) → (⟨S640000x8x1, .f32⟩ : BufTy).Contents (Elt F)),
    unary main_v190 main_v191 (broadcastInDim S640000x8x32 ![0, 1, 2] bcast_S640000x8x1_S640000x8x32_0_1_2 : (⟨S640000x8x1, .f32⟩ : BufTy).Contents (Elt F) → (⟨S640000x8x32, .f32⟩ : BufTy).Contents (Elt F)),
    binary main_v189 main_v191 main_v192 (mulf : (⟨S640000x8x32, .f32⟩ : BufTy).Contents (Elt F) → (⟨S640000x8x32, .f32⟩ : BufTy).Contents (Elt F) → (⟨S640000x8x32, .f32⟩ : BufTy).Contents (Elt F)),
    nullary main_cst_31 (constant S_ .f32 0x00000000#32),
    unary main_cst_31 main_v193 (broadcastInDim S20000x8x32 ![] bcast_S_S20000x8x32 : (⟨S_, .f32⟩ : BufTy).Contents (Elt F) → (⟨S20000x8x32, .f32⟩ : BufTy).Contents (Elt F)),
    unary main_arg18 main_v194 (broadcastInDim S640000x1 ![0] bcast_S640000_S640000x1_0 : (⟨S640000, .i32⟩ : BufTy).Contents (Elt F) → (⟨S640000x1, .i32⟩ : BufTy).Contents (Elt F)),
    ternary main_v193 main_v194 main_v192 main_v195 ((fun x i u => Host.scatterAdd scatter_S20000x8x32_S640000x1_S640000x8x32_12_0_0_1 x i u) : (⟨S20000x8x32, .f32⟩ : BufTy).Contents (Elt F) → (⟨S640000x1, .i32⟩ : BufTy).Contents (Elt F) → (⟨S640000x8x32, .f32⟩ : BufTy).Contents (Elt F) → (⟨S20000x8x32, .f32⟩ : BufTy).Contents (Elt F)),
    nullary main_cst_32 (constant S_ .f32 0x00000000#32),
    unary main_cst_32 main_v196 (broadcastInDim S20000x8 ![] bcast_S_S20000x8 : (⟨S_, .f32⟩ : BufTy).Contents (Elt F) → (⟨S20000x8, .f32⟩ : BufTy).Contents (Elt F)),
    unary main_arg18 main_v197 (broadcastInDim S640000x1 ![0] bcast_S640000_S640000x1_0 : (⟨S640000, .i32⟩ : BufTy).Contents (Elt F) → (⟨S640000x1, .i32⟩ : BufTy).Contents (Elt F)),
    ternary main_v196 main_v197 main_v180 main_v198 ((fun x i u => Host.scatterAdd scatter_S20000x8_S640000x1_S640000x8_1_0_0_1 x i u) : (⟨S20000x8, .f32⟩ : BufTy).Contents (Elt F) → (⟨S640000x1, .i32⟩ : BufTy).Contents (Elt F) → (⟨S640000x8, .f32⟩ : BufTy).Contents (Elt F) → (⟨S20000x8, .f32⟩ : BufTy).Contents (Elt F)),
    nullary main_cst_33 (constant S_ .f32 0x322BCC77#32),
    unary main_cst_33 main_v199 (broadcastInDim S20000x8 ![] bcast_S_S20000x8 : (⟨S_, .f32⟩ : BufTy).Contents (Elt F) → (⟨S20000x8, .f32⟩ : BufTy).Contents (Elt F)),
    binary main_v198 main_v199 main_v200 (maximumf : (⟨S20000x8, .f32⟩ : BufTy).Contents (Elt F) → (⟨S20000x8, .f32⟩ : BufTy).Contents (Elt F) → (⟨S20000x8, .f32⟩ : BufTy).Contents (Elt F)),
    unary main_v200 main_v201 (broadcastInDim S20000x8x1 ![0, 1] bcast_S20000x8_S20000x8x1_0_1 : (⟨S20000x8, .f32⟩ : BufTy).Contents (Elt F) → (⟨S20000x8x1, .f32⟩ : BufTy).Contents (Elt F)),
    unary main_v201 main_v202 (broadcastInDim S20000x8x32 ![0, 1, 2] bcast_S20000x8x1_S20000x8x32_0_1_2 : (⟨S20000x8x1, .f32⟩ : BufTy).Contents (Elt F) → (⟨S20000x8x32, .f32⟩ : BufTy).Contents (Elt F)),
    binary main_v195 main_v202 main_v203 (Host.divf : (⟨S20000x8x32, .f32⟩ : BufTy).Contents (Elt F) → (⟨S20000x8x32, .f32⟩ : BufTy).Contents (Elt F) → (⟨S20000x8x32, .f32⟩ : BufTy).Contents (Elt F)) ]

set_option maxRecDepth 8192 in
/-- Window 3 of the reference is this line of operations. -/
theorem main_part3_eq (c : Dev nD) : main_part3 (F := F) c = seq ops_part3 := rfl

set_option maxRecDepth 8192 in
/-- Every operation of the window touches only the device's own buffers. -/
theorem ops_part3_sub : (ops_part3 : List (HloOp τ sig (Elt F))).Forall fun op => op.bufs ⊆ tcRefs τ sig :=
  ⟨binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

set_option maxRecDepth 8192 in
/-- Every operation of the window determines its result. -/
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part3_W : List (Ref sig .tc) := [main_v157, main_v158, main_c_21, main_v159, main_v160, main_c_22, main_v161, main_v162, main_v163, main_v164, main_v165, main_v166, main_v167, main_c_23, main_v168, main_v169, main_c_24, main_v170, main_v171, main_v172, main_v173, main_v174, main_v175, main_cst_25, main_v176, main_cst_26, main_v177, main_v178, main_cst_27, main_cst_28, main_call4_v0, main_call4_v1, main_call4_v2, main_call4_v3, main_call4_v4, main_v179, main_v180, main_c_29, main_v181, main_v182, main_c_30, main_v183, main_v184, main_v185, main_v186, main_v187, main_v188, main_v189, main_v190, main_v191, main_v192, main_cst_31, main_v193, main_v194, main_v195, main_cst_32, main_v196, main_v197, main_v198, main_cst_33, main_v199, main_v200, main_v201, main_v202, main_v203]

set_option maxRecDepth 8192 in
/-- Each operation of the window writes one buffer of that list. -/
theorem ops_part3_writes : (ops_part3 : List (HloOp τ sig (Elt F))).Forall fun op =>
    op.writes ⊆ (ops_part3_W.map (Proc.devRef (τ := τ) .tc)).toFinset :=
  ⟨writes_sub _ main_v157 rfl (by decide),
    writes_sub _ main_v158 rfl (by decide),
    writes_sub _ main_c_21 rfl (by decide),
    writes_sub _ main_v159 rfl (by decide),
    writes_sub _ main_v160 rfl (by decide),
    writes_sub _ main_c_22 rfl (by decide),
    writes_sub _ main_v161 rfl (by decide),
    writes_sub _ main_v162 rfl (by decide),
    writes_sub _ main_v163 rfl (by decide),
    writes_sub _ main_v164 rfl (by decide),
    writes_sub _ main_v165 rfl (by decide),
    writes_sub _ main_v166 rfl (by decide),
    writes_sub _ main_v167 rfl (by decide),
    writes_sub _ main_c_23 rfl (by decide),
    writes_sub _ main_v168 rfl (by decide),
    writes_sub _ main_v169 rfl (by decide),
    writes_sub _ main_c_24 rfl (by decide),
    writes_sub _ main_v170 rfl (by decide),
    writes_sub _ main_v171 rfl (by decide),
    writes_sub _ main_v172 rfl (by decide),
    writes_sub _ main_v173 rfl (by decide),
    writes_sub _ main_v174 rfl (by decide),
    writes_sub _ main_v175 rfl (by decide),
    writes_sub _ main_cst_25 rfl (by decide),
    writes_sub _ main_v176 rfl (by decide),
    writes_sub _ main_cst_26 rfl (by decide),
    writes_sub _ main_v177 rfl (by decide),
    writes_sub _ main_v178 rfl (by decide),
    writes_sub _ main_cst_27 rfl (by decide),
    writes_sub _ main_cst_28 rfl (by decide),
    writes_sub _ main_call4_v0 rfl (by decide),
    writes_sub _ main_call4_v1 rfl (by decide),
    writes_sub _ main_call4_v2 rfl (by decide),
    writes_sub _ main_call4_v3 rfl (by decide),
    writes_sub _ main_call4_v4 rfl (by decide),
    writes_sub _ main_v179 rfl (by decide),
    writes_sub _ main_v180 rfl (by decide),
    writes_sub _ main_c_29 rfl (by decide),
    writes_sub _ main_v181 rfl (by decide),
    writes_sub _ main_v182 rfl (by decide),
    writes_sub _ main_c_30 rfl (by decide),
    writes_sub _ main_v183 rfl (by decide),
    writes_sub _ main_v184 rfl (by decide),
    writes_sub _ main_v185 rfl (by decide),
    writes_sub _ main_v186 rfl (by decide),
    writes_sub _ main_v187 rfl (by decide),
    writes_sub _ main_v188 rfl (by decide),
    writes_sub _ main_v189 rfl (by decide),
    writes_sub _ main_v190 rfl (by decide),
    writes_sub _ main_v191 rfl (by decide),
    writes_sub _ main_v192 rfl (by decide),
    writes_sub _ main_cst_31 rfl (by decide),
    writes_sub _ main_v193 rfl (by decide),
    writes_sub _ main_v194 rfl (by decide),
    writes_sub _ main_v195 rfl (by decide),
    writes_sub _ main_cst_32 rfl (by decide),
    writes_sub _ main_v196 rfl (by decide),
    writes_sub _ main_v197 rfl (by decide),
    writes_sub _ main_v198 rfl (by decide),
    writes_sub _ main_cst_33 rfl (by decide),
    writes_sub _ main_v199 rfl (by decide),
    writes_sub _ main_v200 rfl (by decide),
    writes_sub _ main_v201 rfl (by decide),
    writes_sub _ main_v202 rfl (by decide),
    writes_sub _ main_v203 rfl (by decide)⟩

/-- A buffer the window does not write keeps its contents through it. -/
theorem keep3 (V : Valuation τ sig (Elt F)) (r : Ref sig .tc) (h : r ∉ ops_part3_W) :
    after ops_part3 V (Proc.devRef .tc r) = V (Proc.devRef .tc r) :=
  after_of_writes_sub ops_part3 V ops_part3_writes h

end Cert.ReferenceIdeal.RefRun

end
-- ==== Proof.RefRunP4.lean ====
/- The reference program's operations 297 … 380 of 422 (its window 4) as a list: the window is that
   line of operations, every operation touches only device buffers and determines what it writes, and the
   buffers the window writes are listed. A called function's operations stand at its call, over that call's
   own buffers. -/
import proofs.«175432_j21457656611019_1_alg».proof.Proof.Gen.ReferenceIdeal
import proofs.«175432_j21457656611019_1_alg».proof.Proof.RefRunBase
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations 297 … 380 of the reference, in order. -/
abbrev ops_part4 : List (HloOp τ sig (Elt F)) :=
  [ reshape main_v203 main_v204 rfl shapeCasts_S20000x8x32_S20000x256,
    unary main_arg6 main_v205 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v205 main_v206 rfl shapeCasts_S1x256x256_S256x256,
    binary main_v204 main_v206 main_v207 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    binary main_v141 main_v207 main_v208 (addf : (⟨S20000x256, .f32⟩ : BufTy).Contents (Elt F) → (⟨S20000x256, .f32⟩ : BufTy).Contents (Elt F) → (⟨S20000x256, .f32⟩ : BufTy).Contents (Elt F)),
    unary main_arg7 main_v209 ((extractStridedSlice S1x256 ![1, 0] · slices_S2x256_S1x256_1_0) : (⟨S2x256, .f32⟩ : BufTy).Contents (Elt F) → (⟨S1x256, .f32⟩ : BufTy).Contents (Elt F)),
    reshape main_v209 main_v210 rfl shapeCasts_S1x256_S256,
    unary main_v210 main_v211 (broadcastInDim S1x256 ![1] bcast_S256_S1x256_1 : (⟨S256, .f32⟩ : BufTy).Contents (Elt F) → (⟨S1x256, .f32⟩ : BufTy).Contents (Elt F)),
    unary main_v211 main_v212 (broadcastInDim S20000x256 ![0, 1] bcast_S1x256_S20000x256_0_1 : (⟨S1x256, .f32⟩ : BufTy).Contents (Elt F) → (⟨S20000x256, .f32⟩ : BufTy).Contents (Elt F)),
    binary main_v208 main_v212 main_v213 (addf : (⟨S20000x256, .f32⟩ : BufTy).Contents (Elt F) → (⟨S20000x256, .f32⟩ : BufTy).Contents (Elt F) → (⟨S20000x256, .f32⟩ : BufTy).Contents (Elt F)),
    unary main_arg8 main_v214 ((extractStridedSlice S1x256 ![1, 0] · slices_S2x256_S1x256_1_0) : (⟨S2x256, .f32⟩ : BufTy).Contents (Elt F) → (⟨S1x256, .f32⟩ : BufTy).Contents (Elt F)),
    reshape main_v214 main_v215 rfl shapeCasts_S1x256_S256,
    unary main_arg9 main_v216 ((extractStridedSlice S1x256 ![1, 0] · slices_S2x256_S1x256_1_0) : (⟨S2x256, .f32⟩ : BufTy).Contents (Elt F) → (⟨S1x256, .f32⟩ : BufTy).Contents (Elt F)),
    reshape main_v216 main_v217 rfl shapeCasts_S1x256_S256,
    nullary main_cst_34 (constant S_ .f32 0x00000000#32),
    binary main_v213 main_cst_34 main_v218 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v218 main_v219 (broadcastInDim S20000x1 ![0] bcast_S20000_S20000x1_0 : (⟨S20000, .f32⟩ : BufTy).Contents (Elt F) → (⟨S20000x1, .f32⟩ : BufTy).Contents (Elt F)),
    nullary main_cst_35 (constant S_ .f32 0x43800000#32),
    unary main_cst_35 main_v220 (broadcastInDim S20000x1 ![] bcast_S_S20000x1 : (⟨S_, .f32⟩ : BufTy).Contents (Elt F) → (⟨S20000x1, .f32⟩ : BufTy).Contents (Elt F)),
    binary main_v219 main_v220 main_v221 (Host.divf : (⟨S20000x1, .f32⟩ : BufTy).Contents (Elt F) → (⟨S20000x1, .f32⟩ : BufTy).Contents (Elt F) → (⟨S20000x1, .f32⟩ : BufTy).Contents (Elt F)),
    nullary main_c_36 (constantI S_ 32 0#32),
    TRef.nullary (TRef.of (T := ⟨S_, .f32⟩) main_call5_cst) (constant S_ .f32 0x00000000#32),
    TRef.binary (TRef.of (T := ⟨S20000x256, .f32⟩) main_v213) (TRef.of (T := ⟨S_, .f32⟩) main_call5_cst) (TRef.of (T := ⟨S20000, .f32⟩) main_call5_v0) (fun x v => Host.reduceAdd x v reducesTo_S20000x256_S20000_d1 h_S_),
    TRef.unary (TRef.of (T := ⟨S20000, .f32⟩) main_call5_v0) (TRef.of (T := ⟨S20000x1, .f32⟩) main_call5_v1) (broadcastInDim S20000x1 ![0] bcast_S20000_S20000x1_0),
    TRef.nullary (TRef.of (T := ⟨S_, .f32⟩) main_call5_cst_0) (constant S_ .f32 0x43800000#32),
    TRef.unary (TRef.of (T := ⟨S_, .f32⟩) main_call5_cst_0) (TRef.of (T := ⟨S20000x1, .f32⟩) main_call5_v2) (broadcastInDim S20000x1 ![] bcast_S_S20000x1),
    TRef.binary (TRef.of (T := ⟨S20000x1, .f32⟩) main_call5_v1) (TRef.of (T := ⟨S20000x1, .f32⟩) main_call5_v2) (TRef.of (T := ⟨S20000x1, .f32⟩) main_call5_v3) Host.divf,
    TRef.unary (TRef.of (T := ⟨S20000x1, .f32⟩) main_call5_v3) (TRef.of (T := ⟨S20000x256, .f32⟩) main_call5_v4) (broadcastInDim S20000x256 ![0, 1] bcast_S20000x1_S20000x256_0_1),
    TRef.binary (TRef.of (T := ⟨S20000x256, .f32⟩) main_v213) (TRef.of (T := ⟨S20000x256, .f32⟩) main_call5_v4) (TRef.of (T := ⟨S20000x256, .f32⟩) main_call5_v5) subf,
    TRef.binary (TRef.of (T := ⟨S20000x256, .f32⟩) main_call5_v5) (TRef.of (T := ⟨S20000x256, .f32⟩) main_call5_v5) (TRef.of (T := ⟨S20000x256, .f32⟩) main_call5_v6) mulf,
    TRef.unary (TRef.of (T := ⟨S_, .i32⟩) main_c_36) (TRef.of (T := ⟨S_, .f32⟩) main_call5_v7) (sitofp .f32),
    TRef.nullary (TRef.of (T := ⟨S_, .f32⟩) main_call5_cst_1) (constant S_ .f32 0x43800000#32),
    TRef.binary (TRef.of (T := ⟨S_, .f32⟩) main_call5_cst_1) (TRef.of (T := ⟨S_, .f32⟩) main_call5_v7) (TRef.of (T := ⟨S_, .f32⟩) main_call5_v8) subf,
    TRef.nullary (TRef.of (T := ⟨S_, .f32⟩) main_call5_cst_2) (constant S_ .f32 0x00000000#32),
    TRef.binary (TRef.of (T := ⟨S20000x256, .f32⟩) main_call5_v6) (TRef.of (T := ⟨S_, .f32⟩) main_call5_cst_2) (TRef.of (T := ⟨S20000, .f32⟩) main_call5_v9) (fun x v => Host.reduceAdd x v reducesTo_S20000x256_S20000_d1 h_S_),
    TRef.unary (TRef.of (T := ⟨S20000, .f32⟩) main_call5_v9) (TRef.of (T := ⟨S20000x1, .f32⟩) main_call5_v10) (broadcastInDim S20000x1 ![0] bcast_S20000_S20000x1_0),
    TRef.unary (TRef.of (T := ⟨S_, .f32⟩) main_call5_v8) (TRef.of (T := ⟨S20000x1, .f32⟩) main_call5_v11) (broadcastInDim S20000x1 ![] bcast_S_S20000x1),
    TRef.binary (TRef.of (T := ⟨S20000x1, .f32⟩) main_call5_v10) (TRef.of (T := ⟨S20000x1, .f32⟩) main_call5_v11) (TRef.of (T := ⟨S20000x1, .f32⟩) main_call5_v12) Host.divf,
    TRef.nullary (TRef.of (T := ⟨S_, .f32⟩) main_call5_cst_3) (constant S_ .f32 0x00000000#32),
    TRef.binary (TRef.of (T := ⟨S_, .f32⟩) main_call5_v8) (TRef.of (T := ⟨S_, .f32⟩) main_call5_cst_3) (TRef.of (T := ⟨S_, .i1⟩) main_call5_v13) (cmpf .ogt),
    TRef.nullary (TRef.of (T := ⟨S_, .f32⟩) main_call5_cst_4) (constant S_ .f32 0x7FC00000#32),
    TRef.unary (TRef.of (T := ⟨S_, .f32⟩) main_call5_cst_4) (TRef.of (T := ⟨S_, .f32⟩) main_call5_call0_v0) id,
    TRef.unary (TRef.of (T := ⟨S_, .f32⟩) main_call5_call0_v0) (TRef.of (T := ⟨S20000x1, .f32⟩) main_call5_call0_v1) (broadcastInDim S20000x1 ![] bcast_S_S20000x1),
    TRef.ternary (TRef.of (T := ⟨S_, .i1⟩) main_call5_v13) (TRef.of (T := ⟨S20000x1, .f32⟩) main_call5_v12) (TRef.of (T := ⟨S20000x1, .f32⟩) main_call5_call0_v1) (TRef.of (T := ⟨S20000x1, .f32⟩) main_v222) (fun p a b => select (broadcastInDim S20000x1 ![] bcast_S_S20000x1 p) a b),
    unary main_v221 main_v223 (broadcastInDim S20000x256 ![0, 1] bcast_S20000x1_S20000x256_0_1 : (⟨S20000x1, .f32⟩ : BufTy).Contents (Elt F) → (⟨S20000x256, .f32⟩ : BufTy).Contents (Elt F)),
    binary main_v213 main_v223 main_v224 (subf : (⟨S20000x256, .f32⟩ : BufTy).Contents (Elt F) → (⟨S20000x256, .f32⟩ : BufTy).Contents (Elt F) → (⟨S20000x256, .f32⟩ : BufTy).Contents (Elt F)),
    nullary main_cst_37 (constant S_ .f32 0x3727C5AC#32),
    unary main_cst_37 main_v225 (broadcastInDim S20000x1 ![] bcast_S_S20000x1 : (⟨S_, .f32⟩ : BufTy).Contents (Elt F) → (⟨S20000x1, .f32⟩ : BufTy).Contents (Elt F)),
    binary main_v222 main_v225 main_v226 (addf : (⟨S20000x1, .f32⟩ : BufTy).Contents (Elt F) → (⟨S20000x1, .f32⟩ : BufTy).Contents (Elt F) → (⟨S20000x1, .f32⟩ : BufTy).Contents (Elt F)),
    unary main_v226 main_v227 (Host.rsqrt : (⟨S20000x1, .f32⟩ : BufTy).Contents (Elt F) → (⟨S20000x1, .f32⟩ : BufTy).Contents (Elt F)),
    unary main_v227 main_v228 (broadcastInDim S20000x256 ![0, 1] bcast_S20000x1_S20000x256_0_1 : (⟨S20000x1, .f32⟩ : BufTy).Contents (Elt F) → (⟨S20000x256, .f32⟩ : BufTy).Contents (Elt F)),
    binary main_v224 main_v228 main_v229 (mulf : (⟨S20000x256, .f32⟩ : BufTy).Contents (Elt F) → (⟨S20000x256, .f32⟩ : BufTy).Contents (Elt F) → (⟨S20000x256, .f32⟩ : BufTy).Contents (Elt F)),
    unary main_v215 main_v230 (broadcastInDim S1x256 ![1] bcast_S256_S1x256_1 : (⟨S256, .f32⟩ : BufTy).Contents (Elt F) → (⟨S1x256, .f32⟩ : BufTy).Contents (Elt F)),
    unary main_v230 main_v231 (broadcastInDim S20000x256 ![0, 1] bcast_S1x256_S20000x256_0_1 : (⟨S1x256, .f32⟩ : BufTy).Contents (Elt F) → (⟨S20000x256, .f32⟩ : BufTy).Contents (Elt F)),
    binary main_v229 main_v231 main_v232 (mulf : (⟨S20000x256, .f32⟩ : BufTy).Contents (Elt F) → (⟨S20000x256, .f32⟩ : BufTy).Contents (Elt F) → (⟨S20000x256, .f32⟩ : BufTy).Contents (Elt F)),
    unary main_v217 main_v233 (broadcastInDim S1x256 ![1] bcast_S256_S1x256_1 : (⟨S256, .f32⟩ : BufTy).Contents (Elt F) → (⟨S1x256, .f32⟩ : BufTy).Contents (Elt F)),
    unary main_v233 main_v234 (broadcastInDim S20000x256 ![0, 1] bcast_S1x256_S20000x256_0_1 : (⟨S1x256, .f32⟩ : BufTy).Contents (Elt F) → (⟨S20000x256, .f32⟩ : BufTy).Contents (Elt F)),
    binary main_v232 main_v234 main_v235 (addf : (⟨S20000x256, .f32⟩ : BufTy).Contents (Elt F) → (⟨S20000x256, .f32⟩ : BufTy).Contents (Elt F) → (⟨S20000x256, .f32⟩ : BufTy).Contents (Elt F)),
    unary main_arg10 main_v236 ((extractStridedSlice S1x256x1024 ![1, 0, 0] · slices_S2x256x1024_S1x256x1024_1_0_0) : (⟨S2x256x1024, .f32⟩ : BufTy).Contents (Elt F) → (⟨S1x256x1024, .f32⟩ : BufTy).Contents (Elt F)),
    reshape main_v236 main_v237 rfl shapeCasts_S1x256x1024_S256x1024,
    binary main_v235 main_v237 main_v238 ((fun l r => Host.dotGeneral dot_S20000x256_S256x1024_S20000x1024_1_0_0_1_n_n none l r) : (⟨S20000x256, .f32⟩ : BufTy).Contents (Elt F) → (⟨S256x1024, .f32⟩ : BufTy).Contents (Elt F) → (⟨S20000x1024, .f32⟩ : BufTy).Contents (Elt F)),
    unary main_arg11 main_v239 ((extractStridedSlice S1x1024 ![1, 0] · slices_S2x1024_S1x1024_1_0) : (⟨S2x1024, .f32⟩ : BufTy).Contents (Elt F) → (⟨S1x1024, .f32⟩ : BufTy).Contents (Elt F)),
    reshape main_v239 main_v240 rfl shapeCasts_S1x1024_S1024,
    unary main_v240 main_v241 (broadcastInDim S1x1024 ![1] bcast_S1024_S1x1024_1 : (⟨S1024, .f32⟩ : BufTy).Contents (Elt F) → (⟨S1x1024, .f32⟩ : BufTy).Contents (Elt F)),
    unary main_v241 main_v242 (broadcastInDim S20000x1024 ![0, 1] bcast_S1x1024_S20000x1024_0_1 : (⟨S1x1024, .f32⟩ : BufTy).Contents (Elt F) → (⟨S20000x1024, .f32⟩ : BufTy).Contents (Elt F)),
    binary main_v238 main_v242 main_v243 (addf : (⟨S20000x1024, .f32⟩ : BufTy).Contents (Elt F) → (⟨S20000x1024, .f32⟩ : BufTy).Contents (Elt F) → (⟨S20000x1024, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S20000x1024, .f32⟩) main_call6_v0) (broadcastInDim S20000x1024 ![] bcast_S_S20000x1024),
    TRef.binary (TRef.of (T := ⟨S20000x1024, .f32⟩) main_v243) (TRef.of (T := ⟨S20000x1024, .f32⟩) main_call6_v0) (TRef.of (T := ⟨S20000x1024, .f32⟩) main_v244) maximumf,
    unary main_arg12 main_v245 ((extractStridedSlice S1x1024x256 ![1, 0, 0] · slices_S2x1024x256_S1x1024x256_1_0_0) : (⟨S2x1024x256, .f32⟩ : BufTy).Contents (Elt F) → (⟨S1x1024x256, .f32⟩ : BufTy).Contents (Elt F)),
    reshape main_v245 main_v246 rfl shapeCasts_S1x1024x256_S1024x256,
    binary main_v244 main_v246 main_v247 ((fun l r => Host.dotGeneral dot_S20000x1024_S1024x256_S20000x256_1_0_0_1_n_n none l r) : (⟨S20000x1024, .f32⟩ : BufTy).Contents (Elt F) → (⟨S1024x256, .f32⟩ : BufTy).Contents (Elt F) → (⟨S20000x256, .f32⟩ : BufTy).Contents (Elt F)),
    binary main_v235 main_v247 main_v248 (addf : (⟨S20000x256, .f32⟩ : BufTy).Contents (Elt F) → (⟨S20000x256, .f32⟩ : BufTy).Contents (Elt F) → (⟨S20000x256, .f32⟩ : BufTy).Contents (Elt F)),
    unary main_arg13 main_v249 ((extractStridedSlice S1x256 ![1, 0] · slices_S2x256_S1x256_1_0) : (⟨S2x256, .f32⟩ : BufTy).Contents (Elt F) → (⟨S1x256, .f32⟩ : BufTy).Contents (Elt F)),
    reshape main_v249 main_v250 rfl shapeCasts_S1x256_S256,
    unary main_v250 main_v251 (broadcastInDim S1x256 ![1] bcast_S256_S1x256_1 : (⟨S256, .f32⟩ : BufTy).Contents (Elt F) → (⟨S1x256, .f32⟩ : BufTy).Contents (Elt F)),
    unary main_v251 main_v252 (broadcastInDim S20000x256 ![0, 1] bcast_S1x256_S20000x256_0_1 : (⟨S1x256, .f32⟩ : BufTy).Contents (Elt F) → (⟨S20000x256, .f32⟩ : BufTy).Contents (Elt F)),
    binary main_v248 main_v252 main_v253 (addf : (⟨S20000x256, .f32⟩ : BufTy).Contents (Elt F) → (⟨S20000x256, .f32⟩ : BufTy).Contents (Elt F) → (⟨S20000x256, .f32⟩ : BufTy).Contents (Elt F)),
    unary main_arg14 main_v254 ((extractStridedSlice S1x256 ![1, 0] · slices_S2x256_S1x256_1_0) : (⟨S2x256, .f32⟩ : BufTy).Contents (Elt F) → (⟨S1x256, .f32⟩ : BufTy).Contents (Elt F)),
    reshape main_v254 main_v255 rfl shapeCasts_S1x256_S256,
    unary main_arg15 main_v256 ((extractStridedSlice S1x256 ![1, 0] · slices_S2x256_S1x256_1_0) : (⟨S2x256, .f32⟩ : BufTy).Contents (Elt F) → (⟨S1x256, .f32⟩ : BufTy).Contents (Elt F)),
    reshape main_v256 main_v257 rfl shapeCasts_S1x256_S256,
    nullary main_cst_38 (constant S_ .f32 0x00000000#32),
    binary main_v253 main_cst_38 main_v258 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)) ]

set_option maxRecDepth 8192 in
/-- Window 4 of the reference is this line of operations. -/
theorem main_part4_eq (c : Dev nD) : main_part4 (F := F) c = seq ops_part4 := rfl

set_option maxRecDepth 8192 in
/-- Every operation of the window touches only the device's own buffers. -/
theorem ops_part4_sub : (ops_part4 : List (HloOp τ sig (Elt F))).Forall fun op => op.bufs ⊆ tcRefs τ sig :=
  ⟨reshape_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub ..⟩

set_option maxRecDepth 8192 in
/-- Every operation of the window determines its result. -/
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part4_W : List (Ref sig .tc) := [main_v204, main_v205, main_v206, main_v207, main_v208, main_v209, main_v210, main_v211, main_v212, main_v213, main_v214, main_v215, main_v216, main_v217, main_cst_34, main_v218, main_v219, main_cst_35, main_v220, main_v221, main_c_36, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v222, main_v223, main_v224, main_cst_37, main_v225, main_v226, main_v227, main_v228, main_v229, main_v230, main_v231, main_v232, main_v233, main_v234, main_v235, main_v236, main_v237, main_v238, main_v239, main_v240, main_v241, main_v242, main_v243, main_call6_cst, main_call6_v0, main_v244, main_v245, main_v246, main_v247, main_v248, main_v249, main_v250, main_v251, main_v252, main_v253, main_v254, main_v255, main_v256, main_v257, main_cst_38, main_v258]

set_option maxRecDepth 8192 in
/-- Each operation of the window writes one buffer of that list. -/
theorem ops_part4_writes : (ops_part4 : List (HloOp τ sig (Elt F))).Forall fun op =>
    op.writes ⊆ (ops_part4_W.map (Proc.devRef (τ := τ) .tc)).toFinset :=
  ⟨writes_sub _ main_v204 rfl (by decide),
    writes_sub _ main_v205 rfl (by decide),
    writes_sub _ main_v206 rfl (by decide),
    writes_sub _ main_v207 rfl (by decide),
    writes_sub _ main_v208 rfl (by decide),
    writes_sub _ main_v209 rfl (by decide),
    writes_sub _ main_v210 rfl (by decide),
    writes_sub _ main_v211 rfl (by decide),
    writes_sub _ main_v212 rfl (by decide),
    writes_sub _ main_v213 rfl (by decide),
    writes_sub _ main_v214 rfl (by decide),
    writes_sub _ main_v215 rfl (by decide),
    writes_sub _ main_v216 rfl (by decide),
    writes_sub _ main_v217 rfl (by decide),
    writes_sub _ main_cst_34 rfl (by decide),
    writes_sub _ main_v218 rfl (by decide),
    writes_sub _ main_v219 rfl (by decide),
    writes_sub _ main_cst_35 rfl (by decide),
    writes_sub _ main_v220 rfl (by decide),
    writes_sub _ main_v221 rfl (by decide),
    writes_sub _ main_c_36 rfl (by decide),
    writes_sub _ main_call5_cst rfl (by decide),
    writes_sub _ main_call5_v0 rfl (by decide),
    writes_sub _ main_call5_v1 rfl (by decide),
    writes_sub _ main_call5_cst_0 rfl (by decide),
    writes_sub _ main_call5_v2 rfl (by decide),
    writes_sub _ main_call5_v3 rfl (by decide),
    writes_sub _ main_call5_v4 rfl (by decide),
    writes_sub _ main_call5_v5 rfl (by decide),
    writes_sub _ main_call5_v6 rfl (by decide),
    writes_sub _ main_call5_v7 rfl (by decide),
    writes_sub _ main_call5_cst_1 rfl (by decide),
    writes_sub _ main_call5_v8 rfl (by decide),
    writes_sub _ main_call5_cst_2 rfl (by decide),
    writes_sub _ main_call5_v9 rfl (by decide),
    writes_sub _ main_call5_v10 rfl (by decide),
    writes_sub _ main_call5_v11 rfl (by decide),
    writes_sub _ main_call5_v12 rfl (by decide),
    writes_sub _ main_call5_cst_3 rfl (by decide),
    writes_sub _ main_call5_v13 rfl (by decide),
    writes_sub _ main_call5_cst_4 rfl (by decide),
    writes_sub _ main_call5_call0_v0 rfl (by decide),
    writes_sub _ main_call5_call0_v1 rfl (by decide),
    writes_sub _ main_v222 rfl (by decide),
    writes_sub _ main_v223 rfl (by decide),
    writes_sub _ main_v224 rfl (by decide),
    writes_sub _ main_cst_37 rfl (by decide),
    writes_sub _ main_v225 rfl (by decide),
    writes_sub _ main_v226 rfl (by decide),
    writes_sub _ main_v227 rfl (by decide),
    writes_sub _ main_v228 rfl (by decide),
    writes_sub _ main_v229 rfl (by decide),
    writes_sub _ main_v230 rfl (by decide),
    writes_sub _ main_v231 rfl (by decide),
    writes_sub _ main_v232 rfl (by decide),
    writes_sub _ main_v233 rfl (by decide),
    writes_sub _ main_v234 rfl (by decide),
    writes_sub _ main_v235 rfl (by decide),
    writes_sub _ main_v236 rfl (by decide),
    writes_sub _ main_v237 rfl (by decide),
    writes_sub _ main_v238 rfl (by decide),
    writes_sub _ main_v239 rfl (by decide),
    writes_sub _ main_v240 rfl (by decide),
    writes_sub _ main_v241 rfl (by decide),
    writes_sub _ main_v242 rfl (by decide),
    writes_sub _ main_v243 rfl (by decide),
    writes_sub _ main_call6_cst rfl (by decide),
    writes_sub _ main_call6_v0 rfl (by decide),
    writes_sub _ main_v244 rfl (by decide),
    writes_sub _ main_v245 rfl (by decide),
    writes_sub _ main_v246 rfl (by decide),
    writes_sub _ main_v247 rfl (by decide),
    writes_sub _ main_v248 rfl (by decide),
    writes_sub _ main_v249 rfl (by decide),
    writes_sub _ main_v250 rfl (by decide),
    writes_sub _ main_v251 rfl (by decide),
    writes_sub _ main_v252 rfl (by decide),
    writes_sub _ main_v253 rfl (by decide),
    writes_sub _ main_v254 rfl (by decide),
    writes_sub _ main_v255 rfl (by decide),
    writes_sub _ main_v256 rfl (by decide),
    writes_sub _ main_v257 rfl (by decide),
    writes_sub _ main_cst_38 rfl (by decide),
    writes_sub _ main_v258 rfl (by decide)⟩

/-- A buffer the window does not write keeps its contents through it. -/
theorem keep4 (V : Valuation τ sig (Elt F)) (r : Ref sig .tc) (h : r ∉ ops_part4_W) :
    after ops_part4 V (Proc.devRef .tc r) = V (Proc.devRef .tc r) :=
  after_of_writes_sub ops_part4 V ops_part4_writes h

end Cert.ReferenceIdeal.RefRun

end
-- ==== Proof.RefRunP5.lean ====
/- The reference program's operations 381 … 422 of 422 (its window 5) as a list: the window is that
   line of operations, every operation touches only device buffers and determines what it writes, and the
   buffers the window writes are listed. A called function's operations stand at its call, over that call's
   own buffers. -/
import proofs.«175432_j21457656611019_1_alg».proof.Proof.Gen.ReferenceIdeal
import proofs.«175432_j21457656611019_1_alg».proof.Proof.RefRunBase
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations 381 … 422 of the reference, in order. -/
abbrev ops_part5 : List (HloOp τ sig (Elt F)) :=
  [ unary main_v258 main_v259 (broadcastInDim S20000x1 ![0] bcast_S20000_S20000x1_0 : (⟨S20000, .f32⟩ : BufTy).Contents (Elt F) → (⟨S20000x1, .f32⟩ : BufTy).Contents (Elt F)),
    nullary main_cst_39 (constant S_ .f32 0x43800000#32),
    unary main_cst_39 main_v260 (broadcastInDim S20000x1 ![] bcast_S_S20000x1 : (⟨S_, .f32⟩ : BufTy).Contents (Elt F) → (⟨S20000x1, .f32⟩ : BufTy).Contents (Elt F)),
    binary main_v259 main_v260 main_v261 (Host.divf : (⟨S20000x1, .f32⟩ : BufTy).Contents (Elt F) → (⟨S20000x1, .f32⟩ : BufTy).Contents (Elt F) → (⟨S20000x1, .f32⟩ : BufTy).Contents (Elt F)),
    nullary main_c_40 (constantI S_ 32 0#32),
    TRef.nullary (TRef.of (T := ⟨S_, .f32⟩) main_call7_cst) (constant S_ .f32 0x00000000#32),
    TRef.binary (TRef.of (T := ⟨S20000x256, .f32⟩) main_v253) (TRef.of (T := ⟨S_, .f32⟩) main_call7_cst) (TRef.of (T := ⟨S20000, .f32⟩) main_call7_v0) (fun x v => Host.reduceAdd x v reducesTo_S20000x256_S20000_d1 h_S_),
    TRef.unary (TRef.of (T := ⟨S20000, .f32⟩) main_call7_v0) (TRef.of (T := ⟨S20000x1, .f32⟩) main_call7_v1) (broadcastInDim S20000x1 ![0] bcast_S20000_S20000x1_0),
    TRef.nullary (TRef.of (T := ⟨S_, .f32⟩) main_call7_cst_0) (constant S_ .f32 0x43800000#32),
    TRef.unary (TRef.of (T := ⟨S_, .f32⟩) main_call7_cst_0) (TRef.of (T := ⟨S20000x1, .f32⟩) main_call7_v2) (broadcastInDim S20000x1 ![] bcast_S_S20000x1),
    TRef.binary (TRef.of (T := ⟨S20000x1, .f32⟩) main_call7_v1) (TRef.of (T := ⟨S20000x1, .f32⟩) main_call7_v2) (TRef.of (T := ⟨S20000x1, .f32⟩) main_call7_v3) Host.divf,
    TRef.unary (TRef.of (T := ⟨S20000x1, .f32⟩) main_call7_v3) (TRef.of (T := ⟨S20000x256, .f32⟩) main_call7_v4) (broadcastInDim S20000x256 ![0, 1] bcast_S20000x1_S20000x256_0_1),
    TRef.binary (TRef.of (T := ⟨S20000x256, .f32⟩) main_v253) (TRef.of (T := ⟨S20000x256, .f32⟩) main_call7_v4) (TRef.of (T := ⟨S20000x256, .f32⟩) main_call7_v5) subf,
    TRef.binary (TRef.of (T := ⟨S20000x256, .f32⟩) main_call7_v5) (TRef.of (T := ⟨S20000x256, .f32⟩) main_call7_v5) (TRef.of (T := ⟨S20000x256, .f32⟩) main_call7_v6) mulf,
    TRef.unary (TRef.of (T := ⟨S_, .i32⟩) main_c_40) (TRef.of (T := ⟨S_, .f32⟩) main_call7_v7) (sitofp .f32),
    TRef.nullary (TRef.of (T := ⟨S_, .f32⟩) main_call7_cst_1) (constant S_ .f32 0x43800000#32),
    TRef.binary (TRef.of (T := ⟨S_, .f32⟩) main_call7_cst_1) (TRef.of (T := ⟨S_, .f32⟩) main_call7_v7) (TRef.of (T := ⟨S_, .f32⟩) main_call7_v8) subf,
    TRef.nullary (TRef.of (T := ⟨S_, .f32⟩) main_call7_cst_2) (constant S_ .f32 0x00000000#32),
    TRef.binary (TRef.of (T := ⟨S20000x256, .f32⟩) main_call7_v6) (TRef.of (T := ⟨S_, .f32⟩) main_call7_cst_2) (TRef.of (T := ⟨S20000, .f32⟩) main_call7_v9) (fun x v => Host.reduceAdd x v reducesTo_S20000x256_S20000_d1 h_S_),
    TRef.unary (TRef.of (T := ⟨S20000, .f32⟩) main_call7_v9) (TRef.of (T := ⟨S20000x1, .f32⟩) main_call7_v10) (broadcastInDim S20000x1 ![0] bcast_S20000_S20000x1_0),
    TRef.unary (TRef.of (T := ⟨S_, .f32⟩) main_call7_v8) (TRef.of (T := ⟨S20000x1, .f32⟩) main_call7_v11) (broadcastInDim S20000x1 ![] bcast_S_S20000x1),
    TRef.binary (TRef.of (T := ⟨S20000x1, .f32⟩) main_call7_v10) (TRef.of (T := ⟨S20000x1, .f32⟩) main_call7_v11) (TRef.of (T := ⟨S20000x1, .f32⟩) main_call7_v12) Host.divf,
    TRef.nullary (TRef.of (T := ⟨S_, .f32⟩) main_call7_cst_3) (constant S_ .f32 0x00000000#32),
    TRef.binary (TRef.of (T := ⟨S_, .f32⟩) main_call7_v8) (TRef.of (T := ⟨S_, .f32⟩) main_call7_cst_3) (TRef.of (T := ⟨S_, .i1⟩) main_call7_v13) (cmpf .ogt),
    TRef.nullary (TRef.of (T := ⟨S_, .f32⟩) main_call7_cst_4) (constant S_ .f32 0x7FC00000#32),
    TRef.unary (TRef.of (T := ⟨S_, .f32⟩) main_call7_cst_4) (TRef.of (T := ⟨S_, .f32⟩) main_call7_call0_v0) id,
    TRef.unary (TRef.of (T := ⟨S_, .f32⟩) main_call7_call0_v0) (TRef.of (T := ⟨S20000x1, .f32⟩) main_call7_call0_v1) (broadcastInDim S20000x1 ![] bcast_S_S20000x1),
    TRef.ternary (TRef.of (T := ⟨S_, .i1⟩) main_call7_v13) (TRef.of (T := ⟨S20000x1, .f32⟩) main_call7_v12) (TRef.of (T := ⟨S20000x1, .f32⟩) main_call7_call0_v1) (TRef.of (T := ⟨S20000x1, .f32⟩) main_v262) (fun p a b => select (broadcastInDim S20000x1 ![] bcast_S_S20000x1 p) a b),
    unary main_v261 main_v263 (broadcastInDim S20000x256 ![0, 1] bcast_S20000x1_S20000x256_0_1 : (⟨S20000x1, .f32⟩ : BufTy).Contents (Elt F) → (⟨S20000x256, .f32⟩ : BufTy).Contents (Elt F)),
    binary main_v253 main_v263 main_v264 (subf : (⟨S20000x256, .f32⟩ : BufTy).Contents (Elt F) → (⟨S20000x256, .f32⟩ : BufTy).Contents (Elt F) → (⟨S20000x256, .f32⟩ : BufTy).Contents (Elt F)),
    nullary main_cst_41 (constant S_ .f32 0x3727C5AC#32),
    unary main_cst_41 main_v265 (broadcastInDim S20000x1 ![] bcast_S_S20000x1 : (⟨S_, .f32⟩ : BufTy).Contents (Elt F) → (⟨S20000x1, .f32⟩ : BufTy).Contents (Elt F)),
    binary main_v262 main_v265 main_v266 (addf : (⟨S20000x1, .f32⟩ : BufTy).Contents (Elt F) → (⟨S20000x1, .f32⟩ : BufTy).Contents (Elt F) → (⟨S20000x1, .f32⟩ : BufTy).Contents (Elt F)),
    unary main_v266 main_v267 (Host.rsqrt : (⟨S20000x1, .f32⟩ : BufTy).Contents (Elt F) → (⟨S20000x1, .f32⟩ : BufTy).Contents (Elt F)),
    unary main_v267 main_v268 (broadcastInDim S20000x256 ![0, 1] bcast_S20000x1_S20000x256_0_1 : (⟨S20000x1, .f32⟩ : BufTy).Contents (Elt F) → (⟨S20000x256, .f32⟩ : BufTy).Contents (Elt F)),
    binary main_v264 main_v268 main_v269 (mulf : (⟨S20000x256, .f32⟩ : BufTy).Contents (Elt F) → (⟨S20000x256, .f32⟩ : BufTy).Contents (Elt F) → (⟨S20000x256, .f32⟩ : BufTy).Contents (Elt F)),
    unary main_v255 main_v270 (broadcastInDim S1x256 ![1] bcast_S256_S1x256_1 : (⟨S256, .f32⟩ : BufTy).Contents (Elt F) → (⟨S1x256, .f32⟩ : BufTy).Contents (Elt F)),
    unary main_v270 main_v271 (broadcastInDim S20000x256 ![0, 1] bcast_S1x256_S20000x256_0_1 : (⟨S1x256, .f32⟩ : BufTy).Contents (Elt F) → (⟨S20000x256, .f32⟩ : BufTy).Contents (Elt F)),
    binary main_v269 main_v271 main_v272 (mulf : (⟨S20000x256, .f32⟩ : BufTy).Contents (Elt F) → (⟨S20000x256, .f32⟩ : BufTy).Contents (Elt F) → (⟨S20000x256, .f32⟩ : BufTy).Contents (Elt F)),
    unary main_v257 main_v273 (broadcastInDim S1x256 ![1] bcast_S256_S1x256_1 : (⟨S256, .f32⟩ : BufTy).Contents (Elt F) → (⟨S1x256, .f32⟩ : BufTy).Contents (Elt F)),
    unary main_v273 main_v274 (broadcastInDim S20000x256 ![0, 1] bcast_S1x256_S20000x256_0_1 : (⟨S1x256, .f32⟩ : BufTy).Contents (Elt F) → (⟨S20000x256, .f32⟩ : BufTy).Contents (Elt F)),
    binary main_v272 main_v274 main_v275 (addf : (⟨S20000x256, .f32⟩ : BufTy).Contents (Elt F) → (⟨S20000x256, .f32⟩ : BufTy).Contents (Elt F) → (⟨S20000x256, .f32⟩ : BufTy).Contents (Elt F)) ]

set_option maxRecDepth 8192 in
/-- Window 5 of the reference is this line of operations. -/
theorem main_part5_eq (c : Dev nD) : main_part5 (F := F) c = seq ops_part5 := rfl

set_option maxRecDepth 8192 in
/-- Every operation of the window touches only the device's own buffers. -/
theorem ops_part5_sub : (ops_part5 : List (HloOp τ sig (Elt F))).Forall fun op => op.bufs ⊆ tcRefs τ sig :=
  ⟨unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
/-- Every operation of the window determines its result. -/
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part5_W : List (Ref sig .tc) := [main_v259, main_cst_39, main_v260, main_v261, main_c_40, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v262, main_v263, main_v264, main_cst_41, main_v265, main_v266, main_v267, main_v268, main_v269, main_v270, main_v271, main_v272, main_v273, main_v274, main_v275]

set_option maxRecDepth 8192 in
/-- Each operation of the window writes one buffer of that list. -/
theorem ops_part5_writes : (ops_part5 : List (HloOp τ sig (Elt F))).Forall fun op =>
    op.writes ⊆ (ops_part5_W.map (Proc.devRef (τ := τ) .tc)).toFinset :=
  ⟨writes_sub _ main_v259 rfl (by decide),
    writes_sub _ main_cst_39 rfl (by decide),
    writes_sub _ main_v260 rfl (by decide),
    writes_sub _ main_v261 rfl (by decide),
    writes_sub _ main_c_40 rfl (by decide),
    writes_sub _ main_call7_cst rfl (by decide),
    writes_sub _ main_call7_v0 rfl (by decide),
    writes_sub _ main_call7_v1 rfl (by decide),
    writes_sub _ main_call7_cst_0 rfl (by decide),
    writes_sub _ main_call7_v2 rfl (by decide),
    writes_sub _ main_call7_v3 rfl (by decide),
    writes_sub _ main_call7_v4 rfl (by decide),
    writes_sub _ main_call7_v5 rfl (by decide),
    writes_sub _ main_call7_v6 rfl (by decide),
    writes_sub _ main_call7_v7 rfl (by decide),
    writes_sub _ main_call7_cst_1 rfl (by decide),
    writes_sub _ main_call7_v8 rfl (by decide),
    writes_sub _ main_call7_cst_2 rfl (by decide),
    writes_sub _ main_call7_v9 rfl (by decide),
    writes_sub _ main_call7_v10 rfl (by decide),
    writes_sub _ main_call7_v11 rfl (by decide),
    writes_sub _ main_call7_v12 rfl (by decide),
    writes_sub _ main_call7_cst_3 rfl (by decide),
    writes_sub _ main_call7_v13 rfl (by decide),
    writes_sub _ main_call7_cst_4 rfl (by decide),
    writes_sub _ main_call7_call0_v0 rfl (by decide),
    writes_sub _ main_call7_call0_v1 rfl (by decide),
    writes_sub _ main_v262 rfl (by decide),
    writes_sub _ main_v263 rfl (by decide),
    writes_sub _ main_v264 rfl (by decide),
    writes_sub _ main_cst_41 rfl (by decide),
    writes_sub _ main_v265 rfl (by decide),
    writes_sub _ main_v266 rfl (by decide),
    writes_sub _ main_v267 rfl (by decide),
    writes_sub _ main_v268 rfl (by decide),
    writes_sub _ main_v269 rfl (by decide),
    writes_sub _ main_v270 rfl (by decide),
    writes_sub _ main_v271 rfl (by decide),
    writes_sub _ main_v272 rfl (by decide),
    writes_sub _ main_v273 rfl (by decide),
    writes_sub _ main_v274 rfl (by decide),
    writes_sub _ main_v275 rfl (by decide)⟩

/-- A buffer the window does not write keeps its contents through it. -/
theorem keep5 (V : Valuation τ sig (Elt F)) (r : Ref sig .tc) (h : r ∉ ops_part5_W) :
    after ops_part5 V (Proc.devRef .tc r) = V (Proc.devRef .tc r) :=
  after_of_writes_sub ops_part5 V ops_part5_writes h

end Cert.ReferenceIdeal.RefRun

end
-- ==== Proof.RefRun.lean ====
/- The reference program as ONE line of 422 host operations — its six windows one after the other, every called
   function's operations standing at its call — and what a run of it leaves: every weakly fair execution ends with
   each buffer at the fold of the operations over the launch contents; the arguments, which no operation writes,
   end as they began. -/
import proofs.«175432_j21457656611019_1_alg».proof.Proof.RefRunP0
import proofs.«175432_j21457656611019_1_alg».proof.Proof.RefRunP1
import proofs.«175432_j21457656611019_1_alg».proof.Proof.RefRunP2
import proofs.«175432_j21457656611019_1_alg».proof.Proof.RefRunP3
import proofs.«175432_j21457656611019_1_alg».proof.Proof.RefRunP4
import proofs.«175432_j21457656611019_1_alg».proof.Proof.RefRunP5
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 422 operations, in order: the six windows' lists joined. -/
abbrev ops : List (HloOp τ sig (Elt F)) :=
  ops_part0 ++ (ops_part1 ++ (ops_part2 ++ (ops_part3 ++ (ops_part4 ++ ops_part5))))

set_option maxRecDepth 8192 in
/-- The reference runs its windows in order, and each window is its line of operations: the whole is the joined line. -/
theorem main_eq (c : Dev nD) : main (F := F) c = seq ops := by
  simp only [ops, seq_append, ← main_part0_eq c, ← main_part1_eq c, ← main_part2_eq c, ← main_part3_eq c, ← main_part4_eq c, ← main_part5_eq c]
  rfl

/-- No buffer of the program is scoped to a region. -/
theorem scopedRefs_eq : (Finset.univ.filter fun b : Ref sig .tc => b.isScoped) = ∅ := by decide
/-- No semaphore of the program is scoped to a region. -/
theorem scopedSems_eq : (Finset.univ.filter fun sm : SemLoc sig => sm.isScoped .tc) = ∅ := by decide

/-- Every operation of the line touches only the device's own buffers. -/
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h]

/-- Every operation of the line determines its result. -/
theorem ops_fresh : ∀ op ∈ (ops : List (HloOp τ sig (Elt F))), op.fresh = ∅ := fun op h => by
  simp only [ops, List.mem_append] at h
  rcases h with h | h | h | h | h | h
  exacts [List.forall_iff_forall_mem.mp ops_part0_fresh op h, List.forall_iff_forall_mem.mp ops_part1_fresh op h, List.forall_iff_forall_mem.mp ops_part2_fresh op h, List.forall_iff_forall_mem.mp ops_part3_fresh op h, List.forall_iff_forall_mem.mp ops_part4_fresh op h, List.forall_iff_forall_mem.mp ops_part5_fresh op h]

/-- A buffer that no window writes keeps its contents through the whole line. -/
theorem keep (V : Valuation τ sig (Elt F)) (r : Ref sig .tc) (h0 : r ∉ ops_part0_W) (h1 : r ∉ ops_part1_W) (h2 : r ∉ ops_part2_W) (h3 : r ∉ ops_part3_W) (h4 : r ∉ ops_part4_W) (h5 : r ∉ ops_part5_W) :
    after ops V (Proc.devRef .tc r) = V (Proc.devRef .tc r) := by
  simp only [ops, after_append]
  rw [keep5 _ r h5, keep4 _ r h4, keep3 _ r h3, keep2 _ r h2, keep1 _ r h1, keep0 _ r h0]

/-- On every device, for any float values, from any memory with zero counters: every weakly fair execution of the
    reference terminates with its result buffer at the fold of the 422 operations over the launch contents, and
    each of its nineteen arguments as it was at launch. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v275) = after ops (fun b => m (c, b)) (Proc.devRef .tc main_v275)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨h c main_v275,
      (h c main_arg0).trans (keep (launchContents m c) main_arg0 (by decide) (by decide) (by decide) (by decide) (by decide) (by decide)),
      (h c main_arg1).trans (keep (launchContents m c) main_arg1 (by decide) (by decide) (by decide) (by decide) (by decide) (by decide)),
      (h c main_arg2).trans (keep (launchContents m c) main_arg2 (by decide) (by decide) (by decide) (by decide) (by decide) (by decide)),
      (h c main_arg3).trans (keep (launchContents m c) main_arg3 (by decide) (by decide) (by decide) (by decide) (by decide) (by decide)),
      (h c main_arg4).trans (keep (launchContents m c) main_arg4 (by decide) (by decide) (by decide) (by decide) (by decide) (by decide)),
      (h c main_arg5).trans (keep (launchContents m c) main_arg5 (by decide) (by decide) (by decide) (by decide) (by decide) (by decide)),
      (h c main_arg6).trans (keep (launchContents m c) main_arg6 (by decide) (by decide) (by decide) (by decide) (by decide) (by decide)),
      (h c main_arg7).trans (keep (launchContents m c) main_arg7 (by decide) (by decide) (by decide) (by decide) (by decide) (by decide)),
      (h c main_arg8).trans (keep (launchContents m c) main_arg8 (by decide) (by decide) (by decide) (by decide) (by decide) (by decide)),
      (h c main_arg9).trans (keep (launchContents m c) main_arg9 (by decide) (by decide) (by decide) (by decide) (by decide) (by decide)),
      (h c main_arg10).trans (keep (launchContents m c) main_arg10 (by decide) (by decide) (by decide) (by decide) (by decide) (by decide)),
      (h c main_arg11).trans (keep (launchContents m c) main_arg11 (by decide) (by decide) (by decide) (by decide) (by decide) (by decide)),
      (h c main_arg12).trans (keep (launchContents m c) main_arg12 (by decide) (by decide) (by decide) (by decide) (by decide) (by decide)),
      (h c main_arg13).trans (keep (launchContents m c) main_arg13 (by decide) (by decide) (by decide) (by decide) (by decide) (by decide)),
      (h c main_arg14).trans (keep (launchContents m c) main_arg14 (by decide) (by decide) (by decide) (by decide) (by decide) (by decide)),
      (h c main_arg15).trans (keep (launchContents m c) main_arg15 (by decide) (by decide) (by decide) (by decide) (by decide) (by decide)),
      (h c main_arg16).trans (keep (launchContents m c) main_arg16 (by decide) (by decide) (by decide) (by decide) (by decide) (by decide)),
      (h c main_arg17).trans (keep (launchContents m c) main_arg17 (by decide) (by decide) (by decide) (by decide) (by decide) (by decide)),
      (h c main_arg18).trans (keep (launchContents m c) main_arg18 (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.RefRunFrame.lean ====
/- The reference's frame: its run, with the result's value dropped, is the statement that every argument ends as
   it began. -/
import proofs.«175432_j21457656611019_1_alg».proof.Defs
import proofs.«175432_j21457656611019_1_alg».proof.Proof.Gen.ReferenceIdeal
import proofs.«175432_j21457656611019_1_alg».proof.Proof.Gen.Pre_finite_inputs
import proofs.«175432_j21457656611019_1_alg».proof.Proof.RefRun

noncomputable section

namespace Cert.ReferenceIdeal.RefRun

open Idealize.ShloMosaic Idealize.SL.Sem

/-- Every weakly fair execution of the reference terminates with each argument buffer unchanged. -/
theorem frame_ri : Cert.frame_ReferenceIdeal := fun m ρ _ =>
  (θ_run Cert.ReferenceIdeal.defs _ _).mono (fun _ h c => (h c).2) (run (F := Ideal) m ρ)

end Cert.ReferenceIdeal.RefRun

end
-- ==== Proof.RefCutSegs.lean ====
/-
  The reference's line of 422 operations cut at its four stage boundaries: layer 1's attention (up to the
  quotient of the aggregated messages), layer 1's tail (up to the second normalisation), and the same for layer 2.
  Each segment is a literal list; the line is their concatenation; a buffer a segment does not write keeps its
  contents through it.
-/
import proofs.«175432_j21457656611019_1_alg».proof.Proof.RefRun
import Idealize.ShloMosaic.Lib.StableHlo.Run

set_option maxRecDepth 16384

noncomputable section

namespace Cert.ReferenceIdeal.RefCut

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- An operation that writes one buffer of a list writes within the list. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Segment 1: operations 1 … 91 of the line. -/
abbrev seg1 : List (HloOp τ sig (Elt F)) :=
  [ nullary main_c (constantI S_ 32 0#32),
    unary main_c main_v0 (broadcastInDim S640000 ![] bcast_S_S640000 : (⟨S_, .i32⟩ : BufTy).Contents (Elt F) → (⟨S640000, .i32⟩ : BufTy).Contents (Elt F)),
    binary main_arg16 main_v0 main_v1 (cmpi .slt : (⟨S640000, .i32⟩ : BufTy).Contents (Elt F) → (⟨S640000, .i32⟩ : BufTy).Contents (Elt F) → (⟨S640000, .i1⟩ : BufTy).Contents (Elt F)),
    nullary main_c_0 (constantI S_ 32 100#32),
    unary main_c_0 main_v2 (broadcastInDim S640000 ![] bcast_S_S640000 : (⟨S_, .i32⟩ : BufTy).Contents (Elt F) → (⟨S640000, .i32⟩ : BufTy).Contents (Elt F)),
    binary main_arg16 main_v2 main_v3 (addi : (⟨S640000, .i32⟩ : BufTy).Contents (Elt F) → (⟨S640000, .i32⟩ : BufTy).Contents (Elt F) → (⟨S640000, .i32⟩ : BufTy).Contents (Elt F)),
    ternary main_v1 main_v3 main_arg16 main_v4 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v4 main_v5 (broadcastInDim S640000x1 ![0] bcast_S640000_S640000x1_0 : (⟨S640000, .i32⟩ : BufTy).Contents (Elt F) → (⟨S640000x1, .i32⟩ : BufTy).Contents (Elt F)),
    binary main_arg1 main_v5 main_v6 ((fun x i => Host.gather gather_S100x32_S640000x1_S640000x32_1_0_n_n_0_1_132 x i) : (⟨S100x32, .f32⟩ : BufTy).Contents (Elt F) → (⟨S640000x1, .i32⟩ : BufTy).Contents (Elt F) → (⟨S640000x32, .f32⟩ : BufTy).Contents (Elt F)),
    unary main_v6 main_v7 (broadcastInDim S640000x1x32 ![0, 2] bcast_S640000x32_S640000x1x32_0_2 : (⟨S640000x32, .f32⟩ : BufTy).Contents (Elt F) → (⟨S640000x1x32, .f32⟩ : BufTy).Contents (Elt F)),
    unary main_arg2 main_v8 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v8 main_v9 rfl shapeCasts_S1x256x256_S256x256,
    binary main_arg0 main_v9 main_v10 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg3 main_v11 ((extractStridedSlice S1x256 ![0, 0] · slices_S2x256_S1x256_0_0) : (⟨S2x256, .f32⟩ : BufTy).Contents (Elt F) → (⟨S1x256, .f32⟩ : BufTy).Contents (Elt F)),
    reshape main_v11 main_v12 rfl shapeCasts_S1x256_S256,
    unary main_v12 main_v13 (broadcastInDim S1x256 ![1] bcast_S256_S1x256_1 : (⟨S256, .f32⟩ : BufTy).Contents (Elt F) → (⟨S1x256, .f32⟩ : BufTy).Contents (Elt F)),
    unary main_v13 main_v14 (broadcastInDim S20000x256 ![0, 1] bcast_S1x256_S20000x256_0_1 : (⟨S1x256, .f32⟩ : BufTy).Contents (Elt F) → (⟨S20000x256, .f32⟩ : BufTy).Contents (Elt F)),
    binary main_v10 main_v14 main_v15 (addf : (⟨S20000x256, .f32⟩ : BufTy).Contents (Elt F) → (⟨S20000x256, .f32⟩ : BufTy).Contents (Elt F) → (⟨S20000x256, .f32⟩ : BufTy).Contents (Elt F)),
    reshape main_v15 main_v16 rfl shapeCasts_S20000x256_S20000x8x32,
    unary main_arg4 main_v17 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v17 main_v18 rfl shapeCasts_S1x256x256_S256x256,
    binary main_arg0 main_v18 main_v19 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    reshape main_v19 main_v20 rfl shapeCasts_S20000x256_S20000x8x32,
    unary main_arg5 main_v21 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v21 main_v22 rfl shapeCasts_S1x256x256_S256x256,
    binary main_arg0 main_v22 main_v23 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    reshape main_v23 main_v24 rfl shapeCasts_S20000x256_S20000x8x32,
    nullary main_c_1 (constantI S_ 32 0#32),
    unary main_c_1 main_v25 (broadcastInDim S640000 ![] bcast_S_S640000 : (⟨S_, .i32⟩ : BufTy).Contents (Elt F) → (⟨S640000, .i32⟩ : BufTy).Contents (Elt F)),
    binary main_arg17 main_v25 main_v26 (cmpi .slt : (⟨S640000, .i32⟩ : BufTy).Contents (Elt F) → (⟨S640000, .i32⟩ : BufTy).Contents (Elt F) → (⟨S640000, .i1⟩ : BufTy).Contents (Elt F)),
    nullary main_c_2 (constantI S_ 32 20000#32),
    unary main_c_2 main_v27 (broadcastInDim S640000 ![] bcast_S_S640000 : (⟨S_, .i32⟩ : BufTy).Contents (Elt F) → (⟨S640000, .i32⟩ : BufTy).Contents (Elt F)),
    binary main_arg17 main_v27 main_v28 (addi : (⟨S640000, .i32⟩ : BufTy).Contents (Elt F) → (⟨S640000, .i32⟩ : BufTy).Contents (Elt F) → (⟨S640000, .i32⟩ : BufTy).Contents (Elt F)),
    ternary main_v26 main_v28 main_arg17 main_v29 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v29 main_v30 (broadcastInDim S640000x1 ![0] bcast_S640000_S640000x1_0 : (⟨S640000, .i32⟩ : BufTy).Contents (Elt F) → (⟨S640000x1, .i32⟩ : BufTy).Contents (Elt F)),
    binary main_v20 main_v30 main_v31 ((fun x i => Host.gather gather_S20000x8x32_S640000x1_S640000x8x32_12_0_n_n_0_1_1832 x i) : (⟨S20000x8x32, .f32⟩ : BufTy).Contents (Elt F) → (⟨S640000x1, .i32⟩ : BufTy).Contents (Elt F) → (⟨S640000x8x32, .f32⟩ : BufTy).Contents (Elt F)),
    unary main_v7 main_v32 (broadcastInDim S640000x8x32 ![0, 1, 2] bcast_S640000x1x32_S640000x8x32_0_1_2 : (⟨S640000x1x32, .f32⟩ : BufTy).Contents (Elt F) → (⟨S640000x8x32, .f32⟩ : BufTy).Contents (Elt F)),
    binary main_v31 main_v32 main_v33 (addf : (⟨S640000x8x32, .f32⟩ : BufTy).Contents (Elt F) → (⟨S640000x8x32, .f32⟩ : BufTy).Contents (Elt F) → (⟨S640000x8x32, .f32⟩ : BufTy).Contents (Elt F)),
    nullary main_c_3 (constantI S_ 32 0#32),
    unary main_c_3 main_v34 (broadcastInDim S640000 ![] bcast_S_S640000 : (⟨S_, .i32⟩ : BufTy).Contents (Elt F) → (⟨S640000, .i32⟩ : BufTy).Contents (Elt F)),
    binary main_arg18 main_v34 main_v35 (cmpi .slt : (⟨S640000, .i32⟩ : BufTy).Contents (Elt F) → (⟨S640000, .i32⟩ : BufTy).Contents (Elt F) → (⟨S640000, .i1⟩ : BufTy).Contents (Elt F)),
    nullary main_c_4 (constantI S_ 32 20000#32),
    unary main_c_4 main_v36 (broadcastInDim S640000 ![] bcast_S_S640000 : (⟨S_, .i32⟩ : BufTy).Contents (Elt F) → (⟨S640000, .i32⟩ : BufTy).Contents (Elt F)),
    binary main_arg18 main_v36 main_v37 (addi : (⟨S640000, .i32⟩ : BufTy).Contents (Elt F) → (⟨S640000, .i32⟩ : BufTy).Contents (Elt F) → (⟨S640000, .i32⟩ : BufTy).Contents (Elt F)),
    ternary main_v35 main_v37 main_arg18 main_v38 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v38 main_v39 (broadcastInDim S640000x1 ![0] bcast_S640000_S640000x1_0 : (⟨S640000, .i32⟩ : BufTy).Contents (Elt F) → (⟨S640000x1, .i32⟩ : BufTy).Contents (Elt F)),
    binary main_v16 main_v39 main_v40 ((fun x i => Host.gather gather_S20000x8x32_S640000x1_S640000x8x32_12_0_n_n_0_1_1832 x i) : (⟨S20000x8x32, .f32⟩ : BufTy).Contents (Elt F) → (⟨S640000x1, .i32⟩ : BufTy).Contents (Elt F) → (⟨S640000x8x32, .f32⟩ : BufTy).Contents (Elt F)),
    binary main_v33 main_v40 main_v41 (mulf : (⟨S640000x8x32, .f32⟩ : BufTy).Contents (Elt F) → (⟨S640000x8x32, .f32⟩ : BufTy).Contents (Elt F) → (⟨S640000x8x32, .f32⟩ : BufTy).Contents (Elt F)),
    nullary main_cst (constant S_ .f32 0x00000000#32),
    binary main_v41 main_cst main_v42 ((fun x v => Host.reduceAdd x v reducesTo_S640000x8x32_S640000x8_d2 h_S_) : (⟨S640000x8x32, .f32⟩ : BufTy).Contents (Elt F) → (⟨S_, .f32⟩ : BufTy).Contents (Elt F) → (⟨S640000x8, .f32⟩ : BufTy).Contents (Elt F)),
    nullary main_cst_5 (constant S_ .f32 0x40B504F3#32),
    unary main_cst_5 main_v43 (broadcastInDim S640000x8 ![] bcast_S_S640000x8 : (⟨S_, .f32⟩ : BufTy).Contents (Elt F) → (⟨S640000x8, .f32⟩ : BufTy).Contents (Elt F)),
    binary main_v42 main_v43 main_v44 (Host.divf : (⟨S640000x8, .f32⟩ : BufTy).Contents (Elt F) → (⟨S640000x8, .f32⟩ : BufTy).Contents (Elt F) → (⟨S640000x8, .f32⟩ : BufTy).Contents (Elt F)),
    nullary main_cst_6 (constant S_ .f32 0xC1200000#32),
    nullary main_cst_7 (constant S_ .f32 0x41200000#32),
    TRef.unary (TRef.of (T := ⟨S_, .f32⟩) main_cst_6) (TRef.of (T := ⟨S_, .f32⟩) main_call0_v0) id,
    TRef.unary (TRef.of (T := ⟨S_, .f32⟩) main_call0_v0) (TRef.of (T := ⟨S640000x8, .f32⟩) main_call0_v1) (broadcastInDim S640000x8 ![] bcast_S_S640000x8),
    TRef.binary (TRef.of (T := ⟨S640000x8, .f32⟩) main_call0_v1) (TRef.of (T := ⟨S640000x8, .f32⟩) main_v44) (TRef.of (T := ⟨S640000x8, .f32⟩) main_call0_v2) maximumf,
    TRef.unary (TRef.of (T := ⟨S_, .f32⟩) main_cst_7) (TRef.of (T := ⟨S_, .f32⟩) main_call0_v3) id,
    TRef.unary (TRef.of (T := ⟨S_, .f32⟩) main_call0_v3) (TRef.of (T := ⟨S640000x8, .f32⟩) main_call0_v4) (broadcastInDim S640000x8 ![] bcast_S_S640000x8),
    TRef.binary (TRef.of (T := ⟨S640000x8, .f32⟩) main_call0_v4) (TRef.of (T := ⟨S640000x8, .f32⟩) main_call0_v2) (TRef.of (T := ⟨S640000x8, .f32⟩) main_v45) minimumf,
    unary main_v45 main_v46 (Host.exp : (⟨S640000x8, .f32⟩ : BufTy).Contents (Elt F) → (⟨S640000x8, .f32⟩ : BufTy).Contents (Elt F)),
    nullary main_c_8 (constantI S_ 32 0#32),
    unary main_c_8 main_v47 (broadcastInDim S640000 ![] bcast_S_S640000 : (⟨S_, .i32⟩ : BufTy).Contents (Elt F) → (⟨S640000, .i32⟩ : BufTy).Contents (Elt F)),
    binary main_arg17 main_v47 main_v48 (cmpi .slt : (⟨S640000, .i32⟩ : BufTy).Contents (Elt F) → (⟨S640000, .i32⟩ : BufTy).Contents (Elt F) → (⟨S640000, .i1⟩ : BufTy).Contents (Elt F)),
    nullary main_c_9 (constantI S_ 32 20000#32),
    unary main_c_9 main_v49 (broadcastInDim S640000 ![] bcast_S_S640000 : (⟨S_, .i32⟩ : BufTy).Contents (Elt F) → (⟨S640000, .i32⟩ : BufTy).Contents (Elt F)),
    binary main_arg17 main_v49 main_v50 (addi : (⟨S640000, .i32⟩ : BufTy).Contents (Elt F) → (⟨S640000, .i32⟩ : BufTy).Contents (Elt F) → (⟨S640000, .i32⟩ : BufTy).Contents (Elt F)),
    ternary main_v48 main_v50 main_arg17 main_v51 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v51 main_v52 (broadcastInDim S640000x1 ![0] bcast_S640000_S640000x1_0 : (⟨S640000, .i32⟩ : BufTy).Contents (Elt F) → (⟨S640000x1, .i32⟩ : BufTy).Contents (Elt F)),
    binary main_v24 main_v52 main_v53 ((fun x i => Host.gather gather_S20000x8x32_S640000x1_S640000x8x32_12_0_n_n_0_1_1832 x i) : (⟨S20000x8x32, .f32⟩ : BufTy).Contents (Elt F) → (⟨S640000x1, .i32⟩ : BufTy).Contents (Elt F) → (⟨S640000x8x32, .f32⟩ : BufTy).Contents (Elt F)),
    unary main_v7 main_v54 (broadcastInDim S640000x8x32 ![0, 1, 2] bcast_S640000x1x32_S640000x8x32_0_1_2 : (⟨S640000x1x32, .f32⟩ : BufTy).Contents (Elt F) → (⟨S640000x8x32, .f32⟩ : BufTy).Contents (Elt F)),
    binary main_v53 main_v54 main_v55 (addf : (⟨S640000x8x32, .f32⟩ : BufTy).Contents (Elt F) → (⟨S640000x8x32, .f32⟩ : BufTy).Contents (Elt F) → (⟨S640000x8x32, .f32⟩ : BufTy).Contents (Elt F)),
    unary main_v46 main_v56 (broadcastInDim S640000x8x1 ![0, 1] bcast_S640000x8_S640000x8x1_0_1 : (⟨S640000x8, .f32⟩ : BufTy).Contents (Elt F) → (⟨S640000x8x1, .f32⟩ : BufTy).Contents (Elt F)),
    unary main_v56 main_v57 (broadcastInDim S640000x8x32 ![0, 1, 2] bcast_S640000x8x1_S640000x8x32_0_1_2 : (⟨S640000x8x1, .f32⟩ : BufTy).Contents (Elt F) → (⟨S640000x8x32, .f32⟩ : BufTy).Contents (Elt F)),
    binary main_v55 main_v57 main_v58 (mulf : (⟨S640000x8x32, .f32⟩ : BufTy).Contents (Elt F) → (⟨S640000x8x32, .f32⟩ : BufTy).Contents (Elt F) → (⟨S640000x8x32, .f32⟩ : BufTy).Contents (Elt F)),
    nullary main_cst_10 (constant S_ .f32 0x00000000#32),
    unary main_cst_10 main_v59 (broadcastInDim S20000x8x32 ![] bcast_S_S20000x8x32 : (⟨S_, .f32⟩ : BufTy).Contents (Elt F) → (⟨S20000x8x32, .f32⟩ : BufTy).Contents (Elt F)),
    unary main_arg18 main_v60 (broadcastInDim S640000x1 ![0] bcast_S640000_S640000x1_0 : (⟨S640000, .i32⟩ : BufTy).Contents (Elt F) → (⟨S640000x1, .i32⟩ : BufTy).Contents (Elt F)),
    ternary main_v59 main_v60 main_v58 main_v61 ((fun x i u => Host.scatterAdd scatter_S20000x8x32_S640000x1_S640000x8x32_12_0_0_1 x i u) : (⟨S20000x8x32, .f32⟩ : BufTy).Contents (Elt F) → (⟨S640000x1, .i32⟩ : BufTy).Contents (Elt F) → (⟨S640000x8x32, .f32⟩ : BufTy).Contents (Elt F) → (⟨S20000x8x32, .f32⟩ : BufTy).Contents (Elt F)),
    nullary main_cst_11 (constant S_ .f32 0x00000000#32),
    unary main_cst_11 main_v62 (broadcastInDim S20000x8 ![] bcast_S_S20000x8 : (⟨S_, .f32⟩ : BufTy).Contents (Elt F) → (⟨S20000x8, .f32⟩ : BufTy).Contents (Elt F)),
    unary main_arg18 main_v63 (broadcastInDim S640000x1 ![0] bcast_S640000_S640000x1_0 : (⟨S640000, .i32⟩ : BufTy).Contents (Elt F) → (⟨S640000x1, .i32⟩ : BufTy).Contents (Elt F)),
    ternary main_v62 main_v63 main_v46 main_v64 ((fun x i u => Host.scatterAdd scatter_S20000x8_S640000x1_S640000x8_1_0_0_1 x i u) : (⟨S20000x8, .f32⟩ : BufTy).Contents (Elt F) → (⟨S640000x1, .i32⟩ : BufTy).Contents (Elt F) → (⟨S640000x8, .f32⟩ : BufTy).Contents (Elt F) → (⟨S20000x8, .f32⟩ : BufTy).Contents (Elt F)),
    nullary main_cst_12 (constant S_ .f32 0x322BCC77#32),
    unary main_cst_12 main_v65 (broadcastInDim S20000x8 ![] bcast_S_S20000x8 : (⟨S_, .f32⟩ : BufTy).Contents (Elt F) → (⟨S20000x8, .f32⟩ : BufTy).Contents (Elt F)),
    binary main_v64 main_v65 main_v66 (maximumf : (⟨S20000x8, .f32⟩ : BufTy).Contents (Elt F) → (⟨S20000x8, .f32⟩ : BufTy).Contents (Elt F) → (⟨S20000x8, .f32⟩ : BufTy).Contents (Elt F)),
    unary main_v66 main_v67 (broadcastInDim S20000x8x1 ![0, 1] bcast_S20000x8_S20000x8x1_0_1 : (⟨S20000x8, .f32⟩ : BufTy).Contents (Elt F) → (⟨S20000x8x1, .f32⟩ : BufTy).Contents (Elt F)),
    unary main_v67 main_v68 (broadcastInDim S20000x8x32 ![0, 1, 2] bcast_S20000x8x1_S20000x8x32_0_1_2 : (⟨S20000x8x1, .f32⟩ : BufTy).Contents (Elt F) → (⟨S20000x8x32, .f32⟩ : BufTy).Contents (Elt F)),
    binary main_v61 main_v68 main_v69 (Host.divf : (⟨S20000x8x32, .f32⟩ : BufTy).Contents (Elt F) → (⟨S20000x8x32, .f32⟩ : BufTy).Contents (Elt F) → (⟨S20000x8x32, .f32⟩ : BufTy).Contents (Elt F)),
    reshape main_v69 main_v70 rfl shapeCasts_S20000x8x32_S20000x256 ]

/-- The buffers segment 1 writes, operation by operation. -/
abbrev seg1W : List (Ref sig .tc) := [main_c, main_v0, main_v1, main_c_0, main_v2, main_v3, main_v4, main_v5, main_v6, main_v7, main_v8, main_v9, main_v10, main_v11, main_v12, main_v13, main_v14, main_v15, main_v16, main_v17, main_v18, main_v19, main_v20, main_v21, main_v22, main_v23, main_v24, main_c_1, main_v25, main_v26, main_c_2, main_v27, main_v28, main_v29, main_v30, main_v31, main_v32, main_v33, main_c_3, main_v34, main_v35, main_c_4, main_v36, main_v37, main_v38, main_v39, main_v40, main_v41, main_cst, main_v42, main_cst_5, main_v43, main_v44, main_cst_6, main_cst_7, main_call0_v0, main_call0_v1, main_call0_v2, main_call0_v3, main_call0_v4, main_v45, main_v46, main_c_8, main_v47, main_v48, main_c_9, main_v49, main_v50, main_v51, main_v52, main_v53, main_v54, main_v55, main_v56, main_v57, main_v58, main_cst_10, main_v59, main_v60, main_v61, main_cst_11, main_v62, main_v63, main_v64, main_cst_12, main_v65, main_v66, main_v67, main_v68, main_v69, main_v70]

set_option maxRecDepth 65536 in
theorem hW1 : (seg1 : List (HloOp τ sig (Elt F))).Forall fun op => op.writes ⊆ (seg1W.map (Proc.devRef (τ := τ) .tc)).toFinset :=
  ⟨sub_of_mem (y := main_c) (by decide),
   sub_of_mem (y := main_v0) (by decide),
   sub_of_mem (y := main_v1) (by decide),
   sub_of_mem (y := main_c_0) (by decide),
   sub_of_mem (y := main_v2) (by decide),
   sub_of_mem (y := main_v3) (by decide),
   sub_of_mem (y := main_v4) (by decide),
   sub_of_mem (y := main_v5) (by decide),
   sub_of_mem (y := main_v6) (by decide),
   sub_of_mem (y := main_v7) (by decide),
   sub_of_mem (y := main_v8) (by decide),
   sub_of_mem (y := main_v9) (by decide),
   sub_of_mem (y := main_v10) (by decide),
   sub_of_mem (y := main_v11) (by decide),
   sub_of_mem (y := main_v12) (by decide),
   sub_of_mem (y := main_v13) (by decide),
   sub_of_mem (y := main_v14) (by decide),
   sub_of_mem (y := main_v15) (by decide),
   sub_of_mem (y := main_v16) (by decide),
   sub_of_mem (y := main_v17) (by decide),
   sub_of_mem (y := main_v18) (by decide),
   sub_of_mem (y := main_v19) (by decide),
   sub_of_mem (y := main_v20) (by decide),
   sub_of_mem (y := main_v21) (by decide),
   sub_of_mem (y := main_v22) (by decide),
   sub_of_mem (y := main_v23) (by decide),
   sub_of_mem (y := main_v24) (by decide),
   sub_of_mem (y := main_c_1) (by decide),
   sub_of_mem (y := main_v25) (by decide),
   sub_of_mem (y := main_v26) (by decide),
   sub_of_mem (y := main_c_2) (by decide),
   sub_of_mem (y := main_v27) (by decide),
   sub_of_mem (y := main_v28) (by decide),
   sub_of_mem (y := main_v29) (by decide),
   sub_of_mem (y := main_v30) (by decide),
   sub_of_mem (y := main_v31) (by decide),
   sub_of_mem (y := main_v32) (by decide),
   sub_of_mem (y := main_v33) (by decide),
   sub_of_mem (y := main_c_3) (by decide),
   sub_of_mem (y := main_v34) (by decide),
   sub_of_mem (y := main_v35) (by decide),
   sub_of_mem (y := main_c_4) (by decide),
   sub_of_mem (y := main_v36) (by decide),
   sub_of_mem (y := main_v37) (by decide),
   sub_of_mem (y := main_v38) (by decide),
   sub_of_mem (y := main_v39) (by decide),
   sub_of_mem (y := main_v40) (by decide),
   sub_of_mem (y := main_v41) (by decide),
   sub_of_mem (y := main_cst) (by decide),
   sub_of_mem (y := main_v42) (by decide),
   sub_of_mem (y := main_cst_5) (by decide),
   sub_of_mem (y := main_v43) (by decide),
   sub_of_mem (y := main_v44) (by decide),
   sub_of_mem (y := main_cst_6) (by decide),
   sub_of_mem (y := main_cst_7) (by decide),
   sub_of_mem (y := main_call0_v0) (by decide),
   sub_of_mem (y := main_call0_v1) (by decide),
   sub_of_mem (y := main_call0_v2) (by decide),
   sub_of_mem (y := main_call0_v3) (by decide),
   sub_of_mem (y := main_call0_v4) (by decide),
   sub_of_mem (y := main_v45) (by decide),
   sub_of_mem (y := main_v46) (by decide),
   sub_of_mem (y := main_c_8) (by decide),
   sub_of_mem (y := main_v47) (by decide),
   sub_of_mem (y := main_v48) (by decide),
   sub_of_mem (y := main_c_9) (by decide),
   sub_of_mem (y := main_v49) (by decide),
   sub_of_mem (y := main_v50) (by decide),
   sub_of_mem (y := main_v51) (by decide),
   sub_of_mem (y := main_v52) (by decide),
   sub_of_mem (y := main_v53) (by decide),
   sub_of_mem (y := main_v54) (by decide),
   sub_of_mem (y := main_v55) (by decide),
   sub_of_mem (y := main_v56) (by decide),
   sub_of_mem (y := main_v57) (by decide),
   sub_of_mem (y := main_v58) (by decide),
   sub_of_mem (y := main_cst_10) (by decide),
   sub_of_mem (y := main_v59) (by decide),
   sub_of_mem (y := main_v60) (by decide),
   sub_of_mem (y := main_v61) (by decide),
   sub_of_mem (y := main_cst_11) (by decide),
   sub_of_mem (y := main_v62) (by decide),
   sub_of_mem (y := main_v63) (by decide),
   sub_of_mem (y := main_v64) (by decide),
   sub_of_mem (y := main_cst_12) (by decide),
   sub_of_mem (y := main_v65) (by decide),
   sub_of_mem (y := main_v66) (by decide),
   sub_of_mem (y := main_v67) (by decide),
   sub_of_mem (y := main_v68) (by decide),
   sub_of_mem (y := main_v69) (by decide),
   sub_of_mem (y := main_v70) (by decide)⟩

/-- A buffer segment 1 does not write keeps its contents through it. -/
theorem keepSeg1 (V : Valuation τ sig (Elt F)) (r : Ref sig .tc) (hr : r ∉ seg1W) :
    after seg1 V (Proc.devRef .tc r) = V (Proc.devRef .tc r) :=
  after_of_writes_sub seg1 V hW1 hr

/-- Segment 2: operations 92 … 216 of the line. -/
abbrev seg2 : List (HloOp τ sig (Elt F)) :=
  [ unary main_arg6 main_v71 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v71 main_v72 rfl shapeCasts_S1x256x256_S256x256,
    binary main_v70 main_v72 main_v73 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    binary main_arg0 main_v73 main_v74 (addf : (⟨S20000x256, .f32⟩ : BufTy).Contents (Elt F) → (⟨S20000x256, .f32⟩ : BufTy).Contents (Elt F) → (⟨S20000x256, .f32⟩ : BufTy).Contents (Elt F)),
    unary main_arg7 main_v75 ((extractStridedSlice S1x256 ![0, 0] · slices_S2x256_S1x256_0_0) : (⟨S2x256, .f32⟩ : BufTy).Contents (Elt F) → (⟨S1x256, .f32⟩ : BufTy).Contents (Elt F)),
    reshape main_v75 main_v76 rfl shapeCasts_S1x256_S256,
    unary main_v76 main_v77 (broadcastInDim S1x256 ![1] bcast_S256_S1x256_1 : (⟨S256, .f32⟩ : BufTy).Contents (Elt F) → (⟨S1x256, .f32⟩ : BufTy).Contents (Elt F)),
    unary main_v77 main_v78 (broadcastInDim S20000x256 ![0, 1] bcast_S1x256_S20000x256_0_1 : (⟨S1x256, .f32⟩ : BufTy).Contents (Elt F) → (⟨S20000x256, .f32⟩ : BufTy).Contents (Elt F)),
    binary main_v74 main_v78 main_v79 (addf : (⟨S20000x256, .f32⟩ : BufTy).Contents (Elt F) → (⟨S20000x256, .f32⟩ : BufTy).Contents (Elt F) → (⟨S20000x256, .f32⟩ : BufTy).Contents (Elt F)),
    unary main_arg8 main_v80 ((extractStridedSlice S1x256 ![0, 0] · slices_S2x256_S1x256_0_0) : (⟨S2x256, .f32⟩ : BufTy).Contents (Elt F) → (⟨S1x256, .f32⟩ : BufTy).Contents (Elt F)),
    reshape main_v80 main_v81 rfl shapeCasts_S1x256_S256,
    unary main_arg9 main_v82 ((extractStridedSlice S1x256 ![0, 0] · slices_S2x256_S1x256_0_0) : (⟨S2x256, .f32⟩ : BufTy).Contents (Elt F) → (⟨S1x256, .f32⟩ : BufTy).Contents (Elt F)),
    reshape main_v82 main_v83 rfl shapeCasts_S1x256_S256,
    nullary main_cst_13 (constant S_ .f32 0x00000000#32),
    binary main_v79 main_cst_13 main_v84 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v84 main_v85 (broadcastInDim S20000x1 ![0] bcast_S20000_S20000x1_0 : (⟨S20000, .f32⟩ : BufTy).Contents (Elt F) → (⟨S20000x1, .f32⟩ : BufTy).Contents (Elt F)),
    nullary main_cst_14 (constant S_ .f32 0x43800000#32),
    unary main_cst_14 main_v86 (broadcastInDim S20000x1 ![] bcast_S_S20000x1 : (⟨S_, .f32⟩ : BufTy).Contents (Elt F) → (⟨S20000x1, .f32⟩ : BufTy).Contents (Elt F)),
    binary main_v85 main_v86 main_v87 (Host.divf : (⟨S20000x1, .f32⟩ : BufTy).Contents (Elt F) → (⟨S20000x1, .f32⟩ : BufTy).Contents (Elt F) → (⟨S20000x1, .f32⟩ : BufTy).Contents (Elt F)),
    nullary main_c_15 (constantI S_ 32 0#32),
    TRef.nullary (TRef.of (T := ⟨S_, .f32⟩) main_call1_cst) (constant S_ .f32 0x00000000#32),
    TRef.binary (TRef.of (T := ⟨S20000x256, .f32⟩) main_v79) (TRef.of (T := ⟨S_, .f32⟩) main_call1_cst) (TRef.of (T := ⟨S20000, .f32⟩) main_call1_v0) (fun x v => Host.reduceAdd x v reducesTo_S20000x256_S20000_d1 h_S_),
    TRef.unary (TRef.of (T := ⟨S20000, .f32⟩) main_call1_v0) (TRef.of (T := ⟨S20000x1, .f32⟩) main_call1_v1) (broadcastInDim S20000x1 ![0] bcast_S20000_S20000x1_0),
    TRef.nullary (TRef.of (T := ⟨S_, .f32⟩) main_call1_cst_0) (constant S_ .f32 0x43800000#32),
    TRef.unary (TRef.of (T := ⟨S_, .f32⟩) main_call1_cst_0) (TRef.of (T := ⟨S20000x1, .f32⟩) main_call1_v2) (broadcastInDim S20000x1 ![] bcast_S_S20000x1),
    TRef.binary (TRef.of (T := ⟨S20000x1, .f32⟩) main_call1_v1) (TRef.of (T := ⟨S20000x1, .f32⟩) main_call1_v2) (TRef.of (T := ⟨S20000x1, .f32⟩) main_call1_v3) Host.divf,
    TRef.unary (TRef.of (T := ⟨S20000x1, .f32⟩) main_call1_v3) (TRef.of (T := ⟨S20000x256, .f32⟩) main_call1_v4) (broadcastInDim S20000x256 ![0, 1] bcast_S20000x1_S20000x256_0_1),
    TRef.binary (TRef.of (T := ⟨S20000x256, .f32⟩) main_v79) (TRef.of (T := ⟨S20000x256, .f32⟩) main_call1_v4) (TRef.of (T := ⟨S20000x256, .f32⟩) main_call1_v5) subf,
    TRef.binary (TRef.of (T := ⟨S20000x256, .f32⟩) main_call1_v5) (TRef.of (T := ⟨S20000x256, .f32⟩) main_call1_v5) (TRef.of (T := ⟨S20000x256, .f32⟩) main_call1_v6) mulf,
    TRef.unary (TRef.of (T := ⟨S_, .i32⟩) main_c_15) (TRef.of (T := ⟨S_, .f32⟩) main_call1_v7) (sitofp .f32),
    TRef.nullary (TRef.of (T := ⟨S_, .f32⟩) main_call1_cst_1) (constant S_ .f32 0x43800000#32),
    TRef.binary (TRef.of (T := ⟨S_, .f32⟩) main_call1_cst_1) (TRef.of (T := ⟨S_, .f32⟩) main_call1_v7) (TRef.of (T := ⟨S_, .f32⟩) main_call1_v8) subf,
    TRef.nullary (TRef.of (T := ⟨S_, .f32⟩) main_call1_cst_2) (constant S_ .f32 0x00000000#32),
    TRef.binary (TRef.of (T := ⟨S20000x256, .f32⟩) main_call1_v6) (TRef.of (T := ⟨S_, .f32⟩) main_call1_cst_2) (TRef.of (T := ⟨S20000, .f32⟩) main_call1_v9) (fun x v => Host.reduceAdd x v reducesTo_S20000x256_S20000_d1 h_S_),
    TRef.unary (TRef.of (T := ⟨S20000, .f32⟩) main_call1_v9) (TRef.of (T := ⟨S20000x1, .f32⟩) main_call1_v10) (broadcastInDim S20000x1 ![0] bcast_S20000_S20000x1_0),
    TRef.unary (TRef.of (T := ⟨S_, .f32⟩) main_call1_v8) (TRef.of (T := ⟨S20000x1, .f32⟩) main_call1_v11) (broadcastInDim S20000x1 ![] bcast_S_S20000x1),
    TRef.binary (TRef.of (T := ⟨S20000x1, .f32⟩) main_call1_v10) (TRef.of (T := ⟨S20000x1, .f32⟩) main_call1_v11) (TRef.of (T := ⟨S20000x1, .f32⟩) main_call1_v12) Host.divf,
    TRef.nullary (TRef.of (T := ⟨S_, .f32⟩) main_call1_cst_3) (constant S_ .f32 0x00000000#32),
    TRef.binary (TRef.of (T := ⟨S_, .f32⟩) main_call1_v8) (TRef.of (T := ⟨S_, .f32⟩) main_call1_cst_3) (TRef.of (T := ⟨S_, .i1⟩) main_call1_v13) (cmpf .ogt),
    TRef.nullary (TRef.of (T := ⟨S_, .f32⟩) main_call1_cst_4) (constant S_ .f32 0x7FC00000#32),
    TRef.unary (TRef.of (T := ⟨S_, .f32⟩) main_call1_cst_4) (TRef.of (T := ⟨S_, .f32⟩) main_call1_call0_v0) id,
    TRef.unary (TRef.of (T := ⟨S_, .f32⟩) main_call1_call0_v0) (TRef.of (T := ⟨S20000x1, .f32⟩) main_call1_call0_v1) (broadcastInDim S20000x1 ![] bcast_S_S20000x1),
    TRef.ternary (TRef.of (T := ⟨S_, .i1⟩) main_call1_v13) (TRef.of (T := ⟨S20000x1, .f32⟩) main_call1_v12) (TRef.of (T := ⟨S20000x1, .f32⟩) main_call1_call0_v1) (TRef.of (T := ⟨S20000x1, .f32⟩) main_v88) (fun p a b => select (broadcastInDim S20000x1 ![] bcast_S_S20000x1 p) a b),
    unary main_v87 main_v89 (broadcastInDim S20000x256 ![0, 1] bcast_S20000x1_S20000x256_0_1 : (⟨S20000x1, .f32⟩ : BufTy).Contents (Elt F) → (⟨S20000x256, .f32⟩ : BufTy).Contents (Elt F)),
    binary main_v79 main_v89 main_v90 (subf : (⟨S20000x256, .f32⟩ : BufTy).Contents (Elt F) → (⟨S20000x256, .f32⟩ : BufTy).Contents (Elt F) → (⟨S20000x256, .f32⟩ : BufTy).Contents (Elt F)),
    nullary main_cst_16 (constant S_ .f32 0x3727C5AC#32),
    unary main_cst_16 main_v91 (broadcastInDim S20000x1 ![] bcast_S_S20000x1 : (⟨S_, .f32⟩ : BufTy).Contents (Elt F) → (⟨S20000x1, .f32⟩ : BufTy).Contents (Elt F)),
    binary main_v88 main_v91 main_v92 (addf : (⟨S20000x1, .f32⟩ : BufTy).Contents (Elt F) → (⟨S20000x1, .f32⟩ : BufTy).Contents (Elt F) → (⟨S20000x1, .f32⟩ : BufTy).Contents (Elt F)),
    unary main_v92 main_v93 (Host.rsqrt : (⟨S20000x1, .f32⟩ : BufTy).Contents (Elt F) → (⟨S20000x1, .f32⟩ : BufTy).Contents (Elt F)),
    unary main_v93 main_v94 (broadcastInDim S20000x256 ![0, 1] bcast_S20000x1_S20000x256_0_1 : (⟨S20000x1, .f32⟩ : BufTy).Contents (Elt F) → (⟨S20000x256, .f32⟩ : BufTy).Contents (Elt F)),
    binary main_v90 main_v94 main_v95 (mulf : (⟨S20000x256, .f32⟩ : BufTy).Contents (Elt F) → (⟨S20000x256, .f32⟩ : BufTy).Contents (Elt F) → (⟨S20000x256, .f32⟩ : BufTy).Contents (Elt F)),
    unary main_v81 main_v96 (broadcastInDim S1x256 ![1] bcast_S256_S1x256_1 : (⟨S256, .f32⟩ : BufTy).Contents (Elt F) → (⟨S1x256, .f32⟩ : BufTy).Contents (Elt F)),
    unary main_v96 main_v97 (broadcastInDim S20000x256 ![0, 1] bcast_S1x256_S20000x256_0_1 : (⟨S1x256, .f32⟩ : BufTy).Contents (Elt F) → (⟨S20000x256, .f32⟩ : BufTy).Contents (Elt F)),
    binary main_v95 main_v97 main_v98 (mulf : (⟨S20000x256, .f32⟩ : BufTy).Contents (Elt F) → (⟨S20000x256, .f32⟩ : BufTy).Contents (Elt F) → (⟨S20000x256, .f32⟩ : BufTy).Contents (Elt F)),
    unary main_v83 main_v99 (broadcastInDim S1x256 ![1] bcast_S256_S1x256_1 : (⟨S256, .f32⟩ : BufTy).Contents (Elt F) → (⟨S1x256, .f32⟩ : BufTy).Contents (Elt F)),
    unary main_v99 main_v100 (broadcastInDim S20000x256 ![0, 1] bcast_S1x256_S20000x256_0_1 : (⟨S1x256, .f32⟩ : BufTy).Contents (Elt F) → (⟨S20000x256, .f32⟩ : BufTy).Contents (Elt F)),
    binary main_v98 main_v100 main_v101 (addf : (⟨S20000x256, .f32⟩ : BufTy).Contents (Elt F) → (⟨S20000x256, .f32⟩ : BufTy).Contents (Elt F) → (⟨S20000x256, .f32⟩ : BufTy).Contents (Elt F)),
    unary main_arg10 main_v102 ((extractStridedSlice S1x256x1024 ![0, 0, 0] · slices_S2x256x1024_S1x256x1024_0_0_0) : (⟨S2x256x1024, .f32⟩ : BufTy).Contents (Elt F) → (⟨S1x256x1024, .f32⟩ : BufTy).Contents (Elt F)),
    reshape main_v102 main_v103 rfl shapeCasts_S1x256x1024_S256x1024,
    binary main_v101 main_v103 main_v104 ((fun l r => Host.dotGeneral dot_S20000x256_S256x1024_S20000x1024_1_0_0_1_n_n none l r) : (⟨S20000x256, .f32⟩ : BufTy).Contents (Elt F) → (⟨S256x1024, .f32⟩ : BufTy).Contents (Elt F) → (⟨S20000x1024, .f32⟩ : BufTy).Contents (Elt F)),
    unary main_arg11 main_v105 ((extractStridedSlice S1x1024 ![0, 0] · slices_S2x1024_S1x1024_0_0) : (⟨S2x1024, .f32⟩ : BufTy).Contents (Elt F) → (⟨S1x1024, .f32⟩ : BufTy).Contents (Elt F)),
    reshape main_v105 main_v106 rfl shapeCasts_S1x1024_S1024,
    unary main_v106 main_v107 (broadcastInDim S1x1024 ![1] bcast_S1024_S1x1024_1 : (⟨S1024, .f32⟩ : BufTy).Contents (Elt F) → (⟨S1x1024, .f32⟩ : BufTy).Contents (Elt F)),
    unary main_v107 main_v108 (broadcastInDim S20000x1024 ![0, 1] bcast_S1x1024_S20000x1024_0_1 : (⟨S1x1024, .f32⟩ : BufTy).Contents (Elt F) → (⟨S20000x1024, .f32⟩ : BufTy).Contents (Elt F)),
    binary main_v104 main_v108 main_v109 (addf : (⟨S20000x1024, .f32⟩ : BufTy).Contents (Elt F) → (⟨S20000x1024, .f32⟩ : BufTy).Contents (Elt F) → (⟨S20000x1024, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S20000x1024, .f32⟩) main_call2_v0) (broadcastInDim S20000x1024 ![] bcast_S_S20000x1024),
    TRef.binary (TRef.of (T := ⟨S20000x1024, .f32⟩) main_v109) (TRef.of (T := ⟨S20000x1024, .f32⟩) main_call2_v0) (TRef.of (T := ⟨S20000x1024, .f32⟩) main_v110) maximumf,
    unary main_arg12 main_v111 ((extractStridedSlice S1x1024x256 ![0, 0, 0] · slices_S2x1024x256_S1x1024x256_0_0_0) : (⟨S2x1024x256, .f32⟩ : BufTy).Contents (Elt F) → (⟨S1x1024x256, .f32⟩ : BufTy).Contents (Elt F)),
    reshape main_v111 main_v112 rfl shapeCasts_S1x1024x256_S1024x256,
    binary main_v110 main_v112 main_v113 ((fun l r => Host.dotGeneral dot_S20000x1024_S1024x256_S20000x256_1_0_0_1_n_n none l r) : (⟨S20000x1024, .f32⟩ : BufTy).Contents (Elt F) → (⟨S1024x256, .f32⟩ : BufTy).Contents (Elt F) → (⟨S20000x256, .f32⟩ : BufTy).Contents (Elt F)),
    binary main_v101 main_v113 main_v114 (addf : (⟨S20000x256, .f32⟩ : BufTy).Contents (Elt F) → (⟨S20000x256, .f32⟩ : BufTy).Contents (Elt F) → (⟨S20000x256, .f32⟩ : BufTy).Contents (Elt F)),
    unary main_arg13 main_v115 ((extractStridedSlice S1x256 ![0, 0] · slices_S2x256_S1x256_0_0) : (⟨S2x256, .f32⟩ : BufTy).Contents (Elt F) → (⟨S1x256, .f32⟩ : BufTy).Contents (Elt F)),
    reshape main_v115 main_v116 rfl shapeCasts_S1x256_S256,
    unary main_v116 main_v117 (broadcastInDim S1x256 ![1] bcast_S256_S1x256_1 : (⟨S256, .f32⟩ : BufTy).Contents (Elt F) → (⟨S1x256, .f32⟩ : BufTy).Contents (Elt F)),
    unary main_v117 main_v118 (broadcastInDim S20000x256 ![0, 1] bcast_S1x256_S20000x256_0_1 : (⟨S1x256, .f32⟩ : BufTy).Contents (Elt F) → (⟨S20000x256, .f32⟩ : BufTy).Contents (Elt F)),
    binary main_v114 main_v118 main_v119 (addf : (⟨S20000x256, .f32⟩ : BufTy).Contents (Elt F) → (⟨S20000x256, .f32⟩ : BufTy).Contents (Elt F) → (⟨S20000x256, .f32⟩ : BufTy).Contents (Elt F)),
    unary main_arg14 main_v120 ((extractStridedSlice S1x256 ![0, 0] · slices_S2x256_S1x256_0_0) : (⟨S2x256, .f32⟩ : BufTy).Contents (Elt F) → (⟨S1x256, .f32⟩ : BufTy).Contents (Elt F)),
    reshape main_v120 main_v121 rfl shapeCasts_S1x256_S256,
    unary main_arg15 main_v122 ((extractStridedSlice S1x256 ![0, 0] · slices_S2x256_S1x256_0_0) : (⟨S2x256, .f32⟩ : BufTy).Contents (Elt F) → (⟨S1x256, .f32⟩ : BufTy).Contents (Elt F)),
    reshape main_v122 main_v123 rfl shapeCasts_S1x256_S256,
    nullary main_cst_17 (constant S_ .f32 0x00000000#32),
    binary main_v119 main_cst_17 main_v124 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v124 main_v125 (broadcastInDim S20000x1 ![0] bcast_S20000_S20000x1_0 : (⟨S20000, .f32⟩ : BufTy).Contents (Elt F) → (⟨S20000x1, .f32⟩ : BufTy).Contents (Elt F)),
    nullary main_cst_18 (constant S_ .f32 0x43800000#32),
    unary main_cst_18 main_v126 (broadcastInDim S20000x1 ![] bcast_S_S20000x1 : (⟨S_, .f32⟩ : BufTy).Contents (Elt F) → (⟨S20000x1, .f32⟩ : BufTy).Contents (Elt F)),
    binary main_v125 main_v126 main_v127 (Host.divf : (⟨S20000x1, .f32⟩ : BufTy).Contents (Elt F) → (⟨S20000x1, .f32⟩ : BufTy).Contents (Elt F) → (⟨S20000x1, .f32⟩ : BufTy).Contents (Elt F)),
    nullary main_c_19 (constantI S_ 32 0#32),
    TRef.nullary (TRef.of (T := ⟨S_, .f32⟩) main_call3_cst) (constant S_ .f32 0x00000000#32),
    TRef.binary (TRef.of (T := ⟨S20000x256, .f32⟩) main_v119) (TRef.of (T := ⟨S_, .f32⟩) main_call3_cst) (TRef.of (T := ⟨S20000, .f32⟩) main_call3_v0) (fun x v => Host.reduceAdd x v reducesTo_S20000x256_S20000_d1 h_S_),
    TRef.unary (TRef.of (T := ⟨S20000, .f32⟩) main_call3_v0) (TRef.of (T := ⟨S20000x1, .f32⟩) main_call3_v1) (broadcastInDim S20000x1 ![0] bcast_S20000_S20000x1_0),
    TRef.nullary (TRef.of (T := ⟨S_, .f32⟩) main_call3_cst_0) (constant S_ .f32 0x43800000#32),
    TRef.unary (TRef.of (T := ⟨S_, .f32⟩) main_call3_cst_0) (TRef.of (T := ⟨S20000x1, .f32⟩) main_call3_v2) (broadcastInDim S20000x1 ![] bcast_S_S20000x1),
    TRef.binary (TRef.of (T := ⟨S20000x1, .f32⟩) main_call3_v1) (TRef.of (T := ⟨S20000x1, .f32⟩) main_call3_v2) (TRef.of (T := ⟨S20000x1, .f32⟩) main_call3_v3) Host.divf,
    TRef.unary (TRef.of (T := ⟨S20000x1, .f32⟩) main_call3_v3) (TRef.of (T := ⟨S20000x256, .f32⟩) main_call3_v4) (broadcastInDim S20000x256 ![0, 1] bcast_S20000x1_S20000x256_0_1),
    TRef.binary (TRef.of (T := ⟨S20000x256, .f32⟩) main_v119) (TRef.of (T := ⟨S20000x256, .f32⟩) main_call3_v4) (TRef.of (T := ⟨S20000x256, .f32⟩) main_call3_v5) subf,
    TRef.binary (TRef.of (T := ⟨S20000x256, .f32⟩) main_call3_v5) (TRef.of (T := ⟨S20000x256, .f32⟩) main_call3_v5) (TRef.of (T := ⟨S20000x256, .f32⟩) main_call3_v6) mulf,
    TRef.unary (TRef.of (T := ⟨S_, .i32⟩) main_c_19) (TRef.of (T := ⟨S_, .f32⟩) main_call3_v7) (sitofp .f32),
    TRef.nullary (TRef.of (T := ⟨S_, .f32⟩) main_call3_cst_1) (constant S_ .f32 0x43800000#32),
    TRef.binary (TRef.of (T := ⟨S_, .f32⟩) main_call3_cst_1) (TRef.of (T := ⟨S_, .f32⟩) main_call3_v7) (TRef.of (T := ⟨S_, .f32⟩) main_call3_v8) subf,
    TRef.nullary (TRef.of (T := ⟨S_, .f32⟩) main_call3_cst_2) (constant S_ .f32 0x00000000#32),
    TRef.binary (TRef.of (T := ⟨S20000x256, .f32⟩) main_call3_v6) (TRef.of (T := ⟨S_, .f32⟩) main_call3_cst_2) (TRef.of (T := ⟨S20000, .f32⟩) main_call3_v9) (fun x v => Host.reduceAdd x v reducesTo_S20000x256_S20000_d1 h_S_),
    TRef.unary (TRef.of (T := ⟨S20000, .f32⟩) main_call3_v9) (TRef.of (T := ⟨S20000x1, .f32⟩) main_call3_v10) (broadcastInDim S20000x1 ![0] bcast_S20000_S20000x1_0),
    TRef.unary (TRef.of (T := ⟨S_, .f32⟩) main_call3_v8) (TRef.of (T := ⟨S20000x1, .f32⟩) main_call3_v11) (broadcastInDim S20000x1 ![] bcast_S_S20000x1),
    TRef.binary (TRef.of (T := ⟨S20000x1, .f32⟩) main_call3_v10) (TRef.of (T := ⟨S20000x1, .f32⟩) main_call3_v11) (TRef.of (T := ⟨S20000x1, .f32⟩) main_call3_v12) Host.divf,
    TRef.nullary (TRef.of (T := ⟨S_, .f32⟩) main_call3_cst_3) (constant S_ .f32 0x00000000#32),
    TRef.binary (TRef.of (T := ⟨S_, .f32⟩) main_call3_v8) (TRef.of (T := ⟨S_, .f32⟩) main_call3_cst_3) (TRef.of (T := ⟨S_, .i1⟩) main_call3_v13) (cmpf .ogt),
    TRef.nullary (TRef.of (T := ⟨S_, .f32⟩) main_call3_cst_4) (constant S_ .f32 0x7FC00000#32),
    TRef.unary (TRef.of (T := ⟨S_, .f32⟩) main_call3_cst_4) (TRef.of (T := ⟨S_, .f32⟩) main_call3_call0_v0) id,
    TRef.unary (TRef.of (T := ⟨S_, .f32⟩) main_call3_call0_v0) (TRef.of (T := ⟨S20000x1, .f32⟩) main_call3_call0_v1) (broadcastInDim S20000x1 ![] bcast_S_S20000x1),
    TRef.ternary (TRef.of (T := ⟨S_, .i1⟩) main_call3_v13) (TRef.of (T := ⟨S20000x1, .f32⟩) main_call3_v12) (TRef.of (T := ⟨S20000x1, .f32⟩) main_call3_call0_v1) (TRef.of (T := ⟨S20000x1, .f32⟩) main_v128) (fun p a b => select (broadcastInDim S20000x1 ![] bcast_S_S20000x1 p) a b),
    unary main_v127 main_v129 (broadcastInDim S20000x256 ![0, 1] bcast_S20000x1_S20000x256_0_1 : (⟨S20000x1, .f32⟩ : BufTy).Contents (Elt F) → (⟨S20000x256, .f32⟩ : BufTy).Contents (Elt F)),
    binary main_v119 main_v129 main_v130 (subf : (⟨S20000x256, .f32⟩ : BufTy).Contents (Elt F) → (⟨S20000x256, .f32⟩ : BufTy).Contents (Elt F) → (⟨S20000x256, .f32⟩ : BufTy).Contents (Elt F)),
    nullary main_cst_20 (constant S_ .f32 0x3727C5AC#32),
    unary main_cst_20 main_v131 (broadcastInDim S20000x1 ![] bcast_S_S20000x1 : (⟨S_, .f32⟩ : BufTy).Contents (Elt F) → (⟨S20000x1, .f32⟩ : BufTy).Contents (Elt F)),
    binary main_v128 main_v131 main_v132 (addf : (⟨S20000x1, .f32⟩ : BufTy).Contents (Elt F) → (⟨S20000x1, .f32⟩ : BufTy).Contents (Elt F) → (⟨S20000x1, .f32⟩ : BufTy).Contents (Elt F)),
    unary main_v132 main_v133 (Host.rsqrt : (⟨S20000x1, .f32⟩ : BufTy).Contents (Elt F) → (⟨S20000x1, .f32⟩ : BufTy).Contents (Elt F)),
    unary main_v133 main_v134 (broadcastInDim S20000x256 ![0, 1] bcast_S20000x1_S20000x256_0_1 : (⟨S20000x1, .f32⟩ : BufTy).Contents (Elt F) → (⟨S20000x256, .f32⟩ : BufTy).Contents (Elt F)),
    binary main_v130 main_v134 main_v135 (mulf : (⟨S20000x256, .f32⟩ : BufTy).Contents (Elt F) → (⟨S20000x256, .f32⟩ : BufTy).Contents (Elt F) → (⟨S20000x256, .f32⟩ : BufTy).Contents (Elt F)),
    unary main_v121 main_v136 (broadcastInDim S1x256 ![1] bcast_S256_S1x256_1 : (⟨S256, .f32⟩ : BufTy).Contents (Elt F) → (⟨S1x256, .f32⟩ : BufTy).Contents (Elt F)),
    unary main_v136 main_v137 (broadcastInDim S20000x256 ![0, 1] bcast_S1x256_S20000x256_0_1 : (⟨S1x256, .f32⟩ : BufTy).Contents (Elt F) → (⟨S20000x256, .f32⟩ : BufTy).Contents (Elt F)),
    binary main_v135 main_v137 main_v138 (mulf : (⟨S20000x256, .f32⟩ : BufTy).Contents (Elt F) → (⟨S20000x256, .f32⟩ : BufTy).Contents (Elt F) → (⟨S20000x256, .f32⟩ : BufTy).Contents (Elt F)),
    unary main_v123 main_v139 (broadcastInDim S1x256 ![1] bcast_S256_S1x256_1 : (⟨S256, .f32⟩ : BufTy).Contents (Elt F) → (⟨S1x256, .f32⟩ : BufTy).Contents (Elt F)),
    unary main_v139 main_v140 (broadcastInDim S20000x256 ![0, 1] bcast_S1x256_S20000x256_0_1 : (⟨S1x256, .f32⟩ : BufTy).Contents (Elt F) → (⟨S20000x256, .f32⟩ : BufTy).Contents (Elt F)),
    binary main_v138 main_v140 main_v141 (addf : (⟨S20000x256, .f32⟩ : BufTy).Contents (Elt F) → (⟨S20000x256, .f32⟩ : BufTy).Contents (Elt F) → (⟨S20000x256, .f32⟩ : BufTy).Contents (Elt F)) ]

/-- The buffers segment 2 writes, operation by operation. -/
abbrev seg2W : List (Ref sig .tc) := [main_v71, main_v72, main_v73, main_v74, main_v75, main_v76, main_v77, main_v78, main_v79, main_v80, main_v81, main_v82, main_v83, main_cst_13, main_v84, main_v85, main_cst_14, main_v86, main_v87, main_c_15, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v88, main_v89, main_v90, main_cst_16, main_v91, main_v92, main_v93, main_v94, main_v95, main_v96, main_v97, main_v98, main_v99, main_v100, main_v101, main_v102, main_v103, main_v104, main_v105, main_v106, main_v107, main_v108, main_v109, main_call2_cst, main_call2_v0, main_v110, main_v111, main_v112, main_v113, main_v114, main_v115, main_v116, main_v117, main_v118, main_v119, main_v120, main_v121, main_v122, main_v123, main_cst_17, main_v124, main_v125, main_cst_18, main_v126, main_v127, main_c_19, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v128, main_v129, main_v130, main_cst_20, main_v131, main_v132, main_v133, main_v134, main_v135, main_v136, main_v137, main_v138, main_v139, main_v140, main_v141]

set_option maxRecDepth 65536 in
theorem hW2 : (seg2 : List (HloOp τ sig (Elt F))).Forall fun op => op.writes ⊆ (seg2W.map (Proc.devRef (τ := τ) .tc)).toFinset :=
  ⟨sub_of_mem (y := main_v71) (by decide),
   sub_of_mem (y := main_v72) (by decide),
   sub_of_mem (y := main_v73) (by decide),
   sub_of_mem (y := main_v74) (by decide),
   sub_of_mem (y := main_v75) (by decide),
   sub_of_mem (y := main_v76) (by decide),
   sub_of_mem (y := main_v77) (by decide),
   sub_of_mem (y := main_v78) (by decide),
   sub_of_mem (y := main_v79) (by decide),
   sub_of_mem (y := main_v80) (by decide),
   sub_of_mem (y := main_v81) (by decide),
   sub_of_mem (y := main_v82) (by decide),
   sub_of_mem (y := main_v83) (by decide),
   sub_of_mem (y := main_cst_13) (by decide),
   sub_of_mem (y := main_v84) (by decide),
   sub_of_mem (y := main_v85) (by decide),
   sub_of_mem (y := main_cst_14) (by decide),
   sub_of_mem (y := main_v86) (by decide),
   sub_of_mem (y := main_v87) (by decide),
   sub_of_mem (y := main_c_15) (by decide),
   sub_of_mem (y := main_call1_cst) (by decide),
   sub_of_mem (y := main_call1_v0) (by decide),
   sub_of_mem (y := main_call1_v1) (by decide),
   sub_of_mem (y := main_call1_cst_0) (by decide),
   sub_of_mem (y := main_call1_v2) (by decide),
   sub_of_mem (y := main_call1_v3) (by decide),
   sub_of_mem (y := main_call1_v4) (by decide),
   sub_of_mem (y := main_call1_v5) (by decide),
   sub_of_mem (y := main_call1_v6) (by decide),
   sub_of_mem (y := main_call1_v7) (by decide),
   sub_of_mem (y := main_call1_cst_1) (by decide),
   sub_of_mem (y := main_call1_v8) (by decide),
   sub_of_mem (y := main_call1_cst_2) (by decide),
   sub_of_mem (y := main_call1_v9) (by decide),
   sub_of_mem (y := main_call1_v10) (by decide),
   sub_of_mem (y := main_call1_v11) (by decide),
   sub_of_mem (y := main_call1_v12) (by decide),
   sub_of_mem (y := main_call1_cst_3) (by decide),
   sub_of_mem (y := main_call1_v13) (by decide),
   sub_of_mem (y := main_call1_cst_4) (by decide),
   sub_of_mem (y := main_call1_call0_v0) (by decide),
   sub_of_mem (y := main_call1_call0_v1) (by decide),
   sub_of_mem (y := main_v88) (by decide),
   sub_of_mem (y := main_v89) (by decide),
   sub_of_mem (y := main_v90) (by decide),
   sub_of_mem (y := main_cst_16) (by decide),
   sub_of_mem (y := main_v91) (by decide),
   sub_of_mem (y := main_v92) (by decide),
   sub_of_mem (y := main_v93) (by decide),
   sub_of_mem (y := main_v94) (by decide),
   sub_of_mem (y := main_v95) (by decide),
   sub_of_mem (y := main_v96) (by decide),
   sub_of_mem (y := main_v97) (by decide),
   sub_of_mem (y := main_v98) (by decide),
   sub_of_mem (y := main_v99) (by decide),
   sub_of_mem (y := main_v100) (by decide),
   sub_of_mem (y := main_v101) (by decide),
   sub_of_mem (y := main_v102) (by decide),
   sub_of_mem (y := main_v103) (by decide),
   sub_of_mem (y := main_v104) (by decide),
   sub_of_mem (y := main_v105) (by decide),
   sub_of_mem (y := main_v106) (by decide),
   sub_of_mem (y := main_v107) (by decide),
   sub_of_mem (y := main_v108) (by decide),
   sub_of_mem (y := main_v109) (by decide),
   sub_of_mem (y := main_call2_cst) (by decide),
   sub_of_mem (y := main_call2_v0) (by decide),
   sub_of_mem (y := main_v110) (by decide),
   sub_of_mem (y := main_v111) (by decide),
   sub_of_mem (y := main_v112) (by decide),
   sub_of_mem (y := main_v113) (by decide),
   sub_of_mem (y := main_v114) (by decide),
   sub_of_mem (y := main_v115) (by decide),
   sub_of_mem (y := main_v116) (by decide),
   sub_of_mem (y := main_v117) (by decide),
   sub_of_mem (y := main_v118) (by decide),
   sub_of_mem (y := main_v119) (by decide),
   sub_of_mem (y := main_v120) (by decide),
   sub_of_mem (y := main_v121) (by decide),
   sub_of_mem (y := main_v122) (by decide),
   sub_of_mem (y := main_v123) (by decide),
   sub_of_mem (y := main_cst_17) (by decide),
   sub_of_mem (y := main_v124) (by decide),
   sub_of_mem (y := main_v125) (by decide),
   sub_of_mem (y := main_cst_18) (by decide),
   sub_of_mem (y := main_v126) (by decide),
   sub_of_mem (y := main_v127) (by decide),
   sub_of_mem (y := main_c_19) (by decide),
   sub_of_mem (y := main_call3_cst) (by decide),
   sub_of_mem (y := main_call3_v0) (by decide),
   sub_of_mem (y := main_call3_v1) (by decide),
   sub_of_mem (y := main_call3_cst_0) (by decide),
   sub_of_mem (y := main_call3_v2) (by decide),
   sub_of_mem (y := main_call3_v3) (by decide),
   sub_of_mem (y := main_call3_v4) (by decide),
   sub_of_mem (y := main_call3_v5) (by decide),
   sub_of_mem (y := main_call3_v6) (by decide),
   sub_of_mem (y := main_call3_v7) (by decide),
   sub_of_mem (y := main_call3_cst_1) (by decide),
   sub_of_mem (y := main_call3_v8) (by decide),
   sub_of_mem (y := main_call3_cst_2) (by decide),
   sub_of_mem (y := main_call3_v9) (by decide),
   sub_of_mem (y := main_call3_v10) (by decide),
   sub_of_mem (y := main_call3_v11) (by decide),
   sub_of_mem (y := main_call3_v12) (by decide),
   sub_of_mem (y := main_call3_cst_3) (by decide),
   sub_of_mem (y := main_call3_v13) (by decide),
   sub_of_mem (y := main_call3_cst_4) (by decide),
   sub_of_mem (y := main_call3_call0_v0) (by decide),
   sub_of_mem (y := main_call3_call0_v1) (by decide),
   sub_of_mem (y := main_v128) (by decide),
   sub_of_mem (y := main_v129) (by decide),
   sub_of_mem (y := main_v130) (by decide),
   sub_of_mem (y := main_cst_20) (by decide),
   sub_of_mem (y := main_v131) (by decide),
   sub_of_mem (y := main_v132) (by decide),
   sub_of_mem (y := main_v133) (by decide),
   sub_of_mem (y := main_v134) (by decide),
   sub_of_mem (y := main_v135) (by decide),
   sub_of_mem (y := main_v136) (by decide),
   sub_of_mem (y := main_v137) (by decide),
   sub_of_mem (y := main_v138) (by decide),
   sub_of_mem (y := main_v139) (by decide),
   sub_of_mem (y := main_v140) (by decide),
   sub_of_mem (y := main_v141) (by decide)⟩

/-- A buffer segment 2 does not write keeps its contents through it. -/
theorem keepSeg2 (V : Valuation τ sig (Elt F)) (r : Ref sig .tc) (hr : r ∉ seg2W) :
    after seg2 V (Proc.devRef .tc r) = V (Proc.devRef .tc r) :=
  after_of_writes_sub seg2 V hW2 hr

/-- Segment 3: operations 217 … 297 of the line. -/
abbrev seg3 : List (HloOp τ sig (Elt F)) :=
  [ unary main_arg2 main_v142 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v142 main_v143 rfl shapeCasts_S1x256x256_S256x256,
    binary main_v141 main_v143 main_v144 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg3 main_v145 ((extractStridedSlice S1x256 ![1, 0] · slices_S2x256_S1x256_1_0) : (⟨S2x256, .f32⟩ : BufTy).Contents (Elt F) → (⟨S1x256, .f32⟩ : BufTy).Contents (Elt F)),
    reshape main_v145 main_v146 rfl shapeCasts_S1x256_S256,
    unary main_v146 main_v147 (broadcastInDim S1x256 ![1] bcast_S256_S1x256_1 : (⟨S256, .f32⟩ : BufTy).Contents (Elt F) → (⟨S1x256, .f32⟩ : BufTy).Contents (Elt F)),
    unary main_v147 main_v148 (broadcastInDim S20000x256 ![0, 1] bcast_S1x256_S20000x256_0_1 : (⟨S1x256, .f32⟩ : BufTy).Contents (Elt F) → (⟨S20000x256, .f32⟩ : BufTy).Contents (Elt F)),
    binary main_v144 main_v148 main_v149 (addf : (⟨S20000x256, .f32⟩ : BufTy).Contents (Elt F) → (⟨S20000x256, .f32⟩ : BufTy).Contents (Elt F) → (⟨S20000x256, .f32⟩ : BufTy).Contents (Elt F)),
    reshape main_v149 main_v150 rfl shapeCasts_S20000x256_S20000x8x32,
    unary main_arg4 main_v151 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v151 main_v152 rfl shapeCasts_S1x256x256_S256x256,
    binary main_v141 main_v152 main_v153 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    reshape main_v153 main_v154 rfl shapeCasts_S20000x256_S20000x8x32,
    unary main_arg5 main_v155 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v155 main_v156 rfl shapeCasts_S1x256x256_S256x256,
    binary main_v141 main_v156 main_v157 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    reshape main_v157 main_v158 rfl shapeCasts_S20000x256_S20000x8x32,
    nullary main_c_21 (constantI S_ 32 0#32),
    unary main_c_21 main_v159 (broadcastInDim S640000 ![] bcast_S_S640000 : (⟨S_, .i32⟩ : BufTy).Contents (Elt F) → (⟨S640000, .i32⟩ : BufTy).Contents (Elt F)),
    binary main_arg17 main_v159 main_v160 (cmpi .slt : (⟨S640000, .i32⟩ : BufTy).Contents (Elt F) → (⟨S640000, .i32⟩ : BufTy).Contents (Elt F) → (⟨S640000, .i1⟩ : BufTy).Contents (Elt F)),
    nullary main_c_22 (constantI S_ 32 20000#32),
    unary main_c_22 main_v161 (broadcastInDim S640000 ![] bcast_S_S640000 : (⟨S_, .i32⟩ : BufTy).Contents (Elt F) → (⟨S640000, .i32⟩ : BufTy).Contents (Elt F)),
    binary main_arg17 main_v161 main_v162 (addi : (⟨S640000, .i32⟩ : BufTy).Contents (Elt F) → (⟨S640000, .i32⟩ : BufTy).Contents (Elt F) → (⟨S640000, .i32⟩ : BufTy).Contents (Elt F)),
    ternary main_v160 main_v162 main_arg17 main_v163 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v163 main_v164 (broadcastInDim S640000x1 ![0] bcast_S640000_S640000x1_0 : (⟨S640000, .i32⟩ : BufTy).Contents (Elt F) → (⟨S640000x1, .i32⟩ : BufTy).Contents (Elt F)),
    binary main_v154 main_v164 main_v165 ((fun x i => Host.gather gather_S20000x8x32_S640000x1_S640000x8x32_12_0_n_n_0_1_1832 x i) : (⟨S20000x8x32, .f32⟩ : BufTy).Contents (Elt F) → (⟨S640000x1, .i32⟩ : BufTy).Contents (Elt F) → (⟨S640000x8x32, .f32⟩ : BufTy).Contents (Elt F)),
    unary main_v7 main_v166 (broadcastInDim S640000x8x32 ![0, 1, 2] bcast_S640000x1x32_S640000x8x32_0_1_2 : (⟨S640000x1x32, .f32⟩ : BufTy).Contents (Elt F) → (⟨S640000x8x32, .f32⟩ : BufTy).Contents (Elt F)),
    binary main_v165 main_v166 main_v167 (addf : (⟨S640000x8x32, .f32⟩ : BufTy).Contents (Elt F) → (⟨S640000x8x32, .f32⟩ : BufTy).Contents (Elt F) → (⟨S640000x8x32, .f32⟩ : BufTy).Contents (Elt F)),
    nullary main_c_23 (constantI S_ 32 0#32),
    unary main_c_23 main_v168 (broadcastInDim S640000 ![] bcast_S_S640000 : (⟨S_, .i32⟩ : BufTy).Contents (Elt F) → (⟨S640000, .i32⟩ : BufTy).Contents (Elt F)),
    binary main_arg18 main_v168 main_v169 (cmpi .slt : (⟨S640000, .i32⟩ : BufTy).Contents (Elt F) → (⟨S640000, .i32⟩ : BufTy).Contents (Elt F) → (⟨S640000, .i1⟩ : BufTy).Contents (Elt F)),
    nullary main_c_24 (constantI S_ 32 20000#32),
    unary main_c_24 main_v170 (broadcastInDim S640000 ![] bcast_S_S640000 : (⟨S_, .i32⟩ : BufTy).Contents (Elt F) → (⟨S640000, .i32⟩ : BufTy).Contents (Elt F)),
    binary main_arg18 main_v170 main_v171 (addi : (⟨S640000, .i32⟩ : BufTy).Contents (Elt F) → (⟨S640000, .i32⟩ : BufTy).Contents (Elt F) → (⟨S640000, .i32⟩ : BufTy).Contents (Elt F)),
    ternary main_v169 main_v171 main_arg18 main_v172 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v172 main_v173 (broadcastInDim S640000x1 ![0] bcast_S640000_S640000x1_0 : (⟨S640000, .i32⟩ : BufTy).Contents (Elt F) → (⟨S640000x1, .i32⟩ : BufTy).Contents (Elt F)),
    binary main_v150 main_v173 main_v174 ((fun x i => Host.gather gather_S20000x8x32_S640000x1_S640000x8x32_12_0_n_n_0_1_1832 x i) : (⟨S20000x8x32, .f32⟩ : BufTy).Contents (Elt F) → (⟨S640000x1, .i32⟩ : BufTy).Contents (Elt F) → (⟨S640000x8x32, .f32⟩ : BufTy).Contents (Elt F)),
    binary main_v167 main_v174 main_v175 (mulf : (⟨S640000x8x32, .f32⟩ : BufTy).Contents (Elt F) → (⟨S640000x8x32, .f32⟩ : BufTy).Contents (Elt F) → (⟨S640000x8x32, .f32⟩ : BufTy).Contents (Elt F)),
    nullary main_cst_25 (constant S_ .f32 0x00000000#32),
    binary main_v175 main_cst_25 main_v176 ((fun x v => Host.reduceAdd x v reducesTo_S640000x8x32_S640000x8_d2 h_S_) : (⟨S640000x8x32, .f32⟩ : BufTy).Contents (Elt F) → (⟨S_, .f32⟩ : BufTy).Contents (Elt F) → (⟨S640000x8, .f32⟩ : BufTy).Contents (Elt F)),
    nullary main_cst_26 (constant S_ .f32 0x40B504F3#32),
    unary main_cst_26 main_v177 (broadcastInDim S640000x8 ![] bcast_S_S640000x8 : (⟨S_, .f32⟩ : BufTy).Contents (Elt F) → (⟨S640000x8, .f32⟩ : BufTy).Contents (Elt F)),
    binary main_v176 main_v177 main_v178 (Host.divf : (⟨S640000x8, .f32⟩ : BufTy).Contents (Elt F) → (⟨S640000x8, .f32⟩ : BufTy).Contents (Elt F) → (⟨S640000x8, .f32⟩ : BufTy).Contents (Elt F)),
    nullary main_cst_27 (constant S_ .f32 0xC1200000#32),
    nullary main_cst_28 (constant S_ .f32 0x41200000#32),
    TRef.unary (TRef.of (T := ⟨S_, .f32⟩) main_cst_27) (TRef.of (T := ⟨S_, .f32⟩) main_call4_v0) id,
    TRef.unary (TRef.of (T := ⟨S_, .f32⟩) main_call4_v0) (TRef.of (T := ⟨S640000x8, .f32⟩) main_call4_v1) (broadcastInDim S640000x8 ![] bcast_S_S640000x8),
    TRef.binary (TRef.of (T := ⟨S640000x8, .f32⟩) main_call4_v1) (TRef.of (T := ⟨S640000x8, .f32⟩) main_v178) (TRef.of (T := ⟨S640000x8, .f32⟩) main_call4_v2) maximumf,
    TRef.unary (TRef.of (T := ⟨S_, .f32⟩) main_cst_28) (TRef.of (T := ⟨S_, .f32⟩) main_call4_v3) id,
    TRef.unary (TRef.of (T := ⟨S_, .f32⟩) main_call4_v3) (TRef.of (T := ⟨S640000x8, .f32⟩) main_call4_v4) (broadcastInDim S640000x8 ![] bcast_S_S640000x8),
    TRef.binary (TRef.of (T := ⟨S640000x8, .f32⟩) main_call4_v4) (TRef.of (T := ⟨S640000x8, .f32⟩) main_call4_v2) (TRef.of (T := ⟨S640000x8, .f32⟩) main_v179) minimumf,
    unary main_v179 main_v180 (Host.exp : (⟨S640000x8, .f32⟩ : BufTy).Contents (Elt F) → (⟨S640000x8, .f32⟩ : BufTy).Contents (Elt F)),
    nullary main_c_29 (constantI S_ 32 0#32),
    unary main_c_29 main_v181 (broadcastInDim S640000 ![] bcast_S_S640000 : (⟨S_, .i32⟩ : BufTy).Contents (Elt F) → (⟨S640000, .i32⟩ : BufTy).Contents (Elt F)),
    binary main_arg17 main_v181 main_v182 (cmpi .slt : (⟨S640000, .i32⟩ : BufTy).Contents (Elt F) → (⟨S640000, .i32⟩ : BufTy).Contents (Elt F) → (⟨S640000, .i1⟩ : BufTy).Contents (Elt F)),
    nullary main_c_30 (constantI S_ 32 20000#32),
    unary main_c_30 main_v183 (broadcastInDim S640000 ![] bcast_S_S640000 : (⟨S_, .i32⟩ : BufTy).Contents (Elt F) → (⟨S640000, .i32⟩ : BufTy).Contents (Elt F)),
    binary main_arg17 main_v183 main_v184 (addi : (⟨S640000, .i32⟩ : BufTy).Contents (Elt F) → (⟨S640000, .i32⟩ : BufTy).Contents (Elt F) → (⟨S640000, .i32⟩ : BufTy).Contents (Elt F)),
    ternary main_v182 main_v184 main_arg17 main_v185 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v185 main_v186 (broadcastInDim S640000x1 ![0] bcast_S640000_S640000x1_0 : (⟨S640000, .i32⟩ : BufTy).Contents (Elt F) → (⟨S640000x1, .i32⟩ : BufTy).Contents (Elt F)),
    binary main_v158 main_v186 main_v187 ((fun x i => Host.gather gather_S20000x8x32_S640000x1_S640000x8x32_12_0_n_n_0_1_1832 x i) : (⟨S20000x8x32, .f32⟩ : BufTy).Contents (Elt F) → (⟨S640000x1, .i32⟩ : BufTy).Contents (Elt F) → (⟨S640000x8x32, .f32⟩ : BufTy).Contents (Elt F)),
    unary main_v7 main_v188 (broadcastInDim S640000x8x32 ![0, 1, 2] bcast_S640000x1x32_S640000x8x32_0_1_2 : (⟨S640000x1x32, .f32⟩ : BufTy).Contents (Elt F) → (⟨S640000x8x32, .f32⟩ : BufTy).Contents (Elt F)),
    binary main_v187 main_v188 main_v189 (addf : (⟨S640000x8x32, .f32⟩ : BufTy).Contents (Elt F) → (⟨S640000x8x32, .f32⟩ : BufTy).Contents (Elt F) → (⟨S640000x8x32, .f32⟩ : BufTy).Contents (Elt F)),
    unary main_v180 main_v190 (broadcastInDim S640000x8x1 ![0, 1] bcast_S640000x8_S640000x8x1_0_1 : (⟨S640000x8, .f32⟩ : BufTy).Contents (Elt F) → (⟨S640000x8x1, .f32⟩ : BufTy).Contents (Elt F)),
    unary main_v190 main_v191 (broadcastInDim S640000x8x32 ![0, 1, 2] bcast_S640000x8x1_S640000x8x32_0_1_2 : (⟨S640000x8x1, .f32⟩ : BufTy).Contents (Elt F) → (⟨S640000x8x32, .f32⟩ : BufTy).Contents (Elt F)),
    binary main_v189 main_v191 main_v192 (mulf : (⟨S640000x8x32, .f32⟩ : BufTy).Contents (Elt F) → (⟨S640000x8x32, .f32⟩ : BufTy).Contents (Elt F) → (⟨S640000x8x32, .f32⟩ : BufTy).Contents (Elt F)),
    nullary main_cst_31 (constant S_ .f32 0x00000000#32),
    unary main_cst_31 main_v193 (broadcastInDim S20000x8x32 ![] bcast_S_S20000x8x32 : (⟨S_, .f32⟩ : BufTy).Contents (Elt F) → (⟨S20000x8x32, .f32⟩ : BufTy).Contents (Elt F)),
    unary main_arg18 main_v194 (broadcastInDim S640000x1 ![0] bcast_S640000_S640000x1_0 : (⟨S640000, .i32⟩ : BufTy).Contents (Elt F) → (⟨S640000x1, .i32⟩ : BufTy).Contents (Elt F)),
    ternary main_v193 main_v194 main_v192 main_v195 ((fun x i u => Host.scatterAdd scatter_S20000x8x32_S640000x1_S640000x8x32_12_0_0_1 x i u) : (⟨S20000x8x32, .f32⟩ : BufTy).Contents (Elt F) → (⟨S640000x1, .i32⟩ : BufTy).Contents (Elt F) → (⟨S640000x8x32, .f32⟩ : BufTy).Contents (Elt F) → (⟨S20000x8x32, .f32⟩ : BufTy).Contents (Elt F)),
    nullary main_cst_32 (constant S_ .f32 0x00000000#32),
    unary main_cst_32 main_v196 (broadcastInDim S20000x8 ![] bcast_S_S20000x8 : (⟨S_, .f32⟩ : BufTy).Contents (Elt F) → (⟨S20000x8, .f32⟩ : BufTy).Contents (Elt F)),
    unary main_arg18 main_v197 (broadcastInDim S640000x1 ![0] bcast_S640000_S640000x1_0 : (⟨S640000, .i32⟩ : BufTy).Contents (Elt F) → (⟨S640000x1, .i32⟩ : BufTy).Contents (Elt F)),
    ternary main_v196 main_v197 main_v180 main_v198 ((fun x i u => Host.scatterAdd scatter_S20000x8_S640000x1_S640000x8_1_0_0_1 x i u) : (⟨S20000x8, .f32⟩ : BufTy).Contents (Elt F) → (⟨S640000x1, .i32⟩ : BufTy).Contents (Elt F) → (⟨S640000x8, .f32⟩ : BufTy).Contents (Elt F) → (⟨S20000x8, .f32⟩ : BufTy).Contents (Elt F)),
    nullary main_cst_33 (constant S_ .f32 0x322BCC77#32),
    unary main_cst_33 main_v199 (broadcastInDim S20000x8 ![] bcast_S_S20000x8 : (⟨S_, .f32⟩ : BufTy).Contents (Elt F) → (⟨S20000x8, .f32⟩ : BufTy).Contents (Elt F)),
    binary main_v198 main_v199 main_v200 (maximumf : (⟨S20000x8, .f32⟩ : BufTy).Contents (Elt F) → (⟨S20000x8, .f32⟩ : BufTy).Contents (Elt F) → (⟨S20000x8, .f32⟩ : BufTy).Contents (Elt F)),
    unary main_v200 main_v201 (broadcastInDim S20000x8x1 ![0, 1] bcast_S20000x8_S20000x8x1_0_1 : (⟨S20000x8, .f32⟩ : BufTy).Contents (Elt F) → (⟨S20000x8x1, .f32⟩ : BufTy).Contents (Elt F)),
    unary main_v201 main_v202 (broadcastInDim S20000x8x32 ![0, 1, 2] bcast_S20000x8x1_S20000x8x32_0_1_2 : (⟨S20000x8x1, .f32⟩ : BufTy).Contents (Elt F) → (⟨S20000x8x32, .f32⟩ : BufTy).Contents (Elt F)),
    binary main_v195 main_v202 main_v203 (Host.divf : (⟨S20000x8x32, .f32⟩ : BufTy).Contents (Elt F) → (⟨S20000x8x32, .f32⟩ : BufTy).Contents (Elt F) → (⟨S20000x8x32, .f32⟩ : BufTy).Contents (Elt F)),
    reshape main_v203 main_v204 rfl shapeCasts_S20000x8x32_S20000x256 ]

/-- The buffers segment 3 writes, operation by operation. -/
abbrev seg3W : List (Ref sig .tc) := [main_v142, main_v143, main_v144, main_v145, main_v146, main_v147, main_v148, main_v149, main_v150, main_v151, main_v152, main_v153, main_v154, main_v155, main_v156, main_v157, main_v158, main_c_21, main_v159, main_v160, main_c_22, main_v161, main_v162, main_v163, main_v164, main_v165, main_v166, main_v167, main_c_23, main_v168, main_v169, main_c_24, main_v170, main_v171, main_v172, main_v173, main_v174, main_v175, main_cst_25, main_v176, main_cst_26, main_v177, main_v178, main_cst_27, main_cst_28, main_call4_v0, main_call4_v1, main_call4_v2, main_call4_v3, main_call4_v4, main_v179, main_v180, main_c_29, main_v181, main_v182, main_c_30, main_v183, main_v184, main_v185, main_v186, main_v187, main_v188, main_v189, main_v190, main_v191, main_v192, main_cst_31, main_v193, main_v194, main_v195, main_cst_32, main_v196, main_v197, main_v198, main_cst_33, main_v199, main_v200, main_v201, main_v202, main_v203, main_v204]

set_option maxRecDepth 65536 in
theorem hW3 : (seg3 : List (HloOp τ sig (Elt F))).Forall fun op => op.writes ⊆ (seg3W.map (Proc.devRef (τ := τ) .tc)).toFinset :=
  ⟨sub_of_mem (y := main_v142) (by decide),
   sub_of_mem (y := main_v143) (by decide),
   sub_of_mem (y := main_v144) (by decide),
   sub_of_mem (y := main_v145) (by decide),
   sub_of_mem (y := main_v146) (by decide),
   sub_of_mem (y := main_v147) (by decide),
   sub_of_mem (y := main_v148) (by decide),
   sub_of_mem (y := main_v149) (by decide),
   sub_of_mem (y := main_v150) (by decide),
   sub_of_mem (y := main_v151) (by decide),
   sub_of_mem (y := main_v152) (by decide),
   sub_of_mem (y := main_v153) (by decide),
   sub_of_mem (y := main_v154) (by decide),
   sub_of_mem (y := main_v155) (by decide),
   sub_of_mem (y := main_v156) (by decide),
   sub_of_mem (y := main_v157) (by decide),
   sub_of_mem (y := main_v158) (by decide),
   sub_of_mem (y := main_c_21) (by decide),
   sub_of_mem (y := main_v159) (by decide),
   sub_of_mem (y := main_v160) (by decide),
   sub_of_mem (y := main_c_22) (by decide),
   sub_of_mem (y := main_v161) (by decide),
   sub_of_mem (y := main_v162) (by decide),
   sub_of_mem (y := main_v163) (by decide),
   sub_of_mem (y := main_v164) (by decide),
   sub_of_mem (y := main_v165) (by decide),
   sub_of_mem (y := main_v166) (by decide),
   sub_of_mem (y := main_v167) (by decide),
   sub_of_mem (y := main_c_23) (by decide),
   sub_of_mem (y := main_v168) (by decide),
   sub_of_mem (y := main_v169) (by decide),
   sub_of_mem (y := main_c_24) (by decide),
   sub_of_mem (y := main_v170) (by decide),
   sub_of_mem (y := main_v171) (by decide),
   sub_of_mem (y := main_v172) (by decide),
   sub_of_mem (y := main_v173) (by decide),
   sub_of_mem (y := main_v174) (by decide),
   sub_of_mem (y := main_v175) (by decide),
   sub_of_mem (y := main_cst_25) (by decide),
   sub_of_mem (y := main_v176) (by decide),
   sub_of_mem (y := main_cst_26) (by decide),
   sub_of_mem (y := main_v177) (by decide),
   sub_of_mem (y := main_v178) (by decide),
   sub_of_mem (y := main_cst_27) (by decide),
   sub_of_mem (y := main_cst_28) (by decide),
   sub_of_mem (y := main_call4_v0) (by decide),
   sub_of_mem (y := main_call4_v1) (by decide),
   sub_of_mem (y := main_call4_v2) (by decide),
   sub_of_mem (y := main_call4_v3) (by decide),
   sub_of_mem (y := main_call4_v4) (by decide),
   sub_of_mem (y := main_v179) (by decide),
   sub_of_mem (y := main_v180) (by decide),
   sub_of_mem (y := main_c_29) (by decide),
   sub_of_mem (y := main_v181) (by decide),
   sub_of_mem (y := main_v182) (by decide),
   sub_of_mem (y := main_c_30) (by decide),
   sub_of_mem (y := main_v183) (by decide),
   sub_of_mem (y := main_v184) (by decide),
   sub_of_mem (y := main_v185) (by decide),
   sub_of_mem (y := main_v186) (by decide),
   sub_of_mem (y := main_v187) (by decide),
   sub_of_mem (y := main_v188) (by decide),
   sub_of_mem (y := main_v189) (by decide),
   sub_of_mem (y := main_v190) (by decide),
   sub_of_mem (y := main_v191) (by decide),
   sub_of_mem (y := main_v192) (by decide),
   sub_of_mem (y := main_cst_31) (by decide),
   sub_of_mem (y := main_v193) (by decide),
   sub_of_mem (y := main_v194) (by decide),
   sub_of_mem (y := main_v195) (by decide),
   sub_of_mem (y := main_cst_32) (by decide),
   sub_of_mem (y := main_v196) (by decide),
   sub_of_mem (y := main_v197) (by decide),
   sub_of_mem (y := main_v198) (by decide),
   sub_of_mem (y := main_cst_33) (by decide),
   sub_of_mem (y := main_v199) (by decide),
   sub_of_mem (y := main_v200) (by decide),
   sub_of_mem (y := main_v201) (by decide),
   sub_of_mem (y := main_v202) (by decide),
   sub_of_mem (y := main_v203) (by decide),
   sub_of_mem (y := main_v204) (by decide)⟩

/-- A buffer segment 3 does not write keeps its contents through it. -/
theorem keepSeg3 (V : Valuation τ sig (Elt F)) (r : Ref sig .tc) (hr : r ∉ seg3W) :
    after seg3 V (Proc.devRef .tc r) = V (Proc.devRef .tc r) :=
  after_of_writes_sub seg3 V hW3 hr

/-- Segment 4: operations 298 … 422 of the line. -/
abbrev seg4 : List (HloOp τ sig (Elt F)) :=
  [ unary main_arg6 main_v205 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v205 main_v206 rfl shapeCasts_S1x256x256_S256x256,
    binary main_v204 main_v206 main_v207 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    binary main_v141 main_v207 main_v208 (addf : (⟨S20000x256, .f32⟩ : BufTy).Contents (Elt F) → (⟨S20000x256, .f32⟩ : BufTy).Contents (Elt F) → (⟨S20000x256, .f32⟩ : BufTy).Contents (Elt F)),
    unary main_arg7 main_v209 ((extractStridedSlice S1x256 ![1, 0] · slices_S2x256_S1x256_1_0) : (⟨S2x256, .f32⟩ : BufTy).Contents (Elt F) → (⟨S1x256, .f32⟩ : BufTy).Contents (Elt F)),
    reshape main_v209 main_v210 rfl shapeCasts_S1x256_S256,
    unary main_v210 main_v211 (broadcastInDim S1x256 ![1] bcast_S256_S1x256_1 : (⟨S256, .f32⟩ : BufTy).Contents (Elt F) → (⟨S1x256, .f32⟩ : BufTy).Contents (Elt F)),
    unary main_v211 main_v212 (broadcastInDim S20000x256 ![0, 1] bcast_S1x256_S20000x256_0_1 : (⟨S1x256, .f32⟩ : BufTy).Contents (Elt F) → (⟨S20000x256, .f32⟩ : BufTy).Contents (Elt F)),
    binary main_v208 main_v212 main_v213 (addf : (⟨S20000x256, .f32⟩ : BufTy).Contents (Elt F) → (⟨S20000x256, .f32⟩ : BufTy).Contents (Elt F) → (⟨S20000x256, .f32⟩ : BufTy).Contents (Elt F)),
    unary main_arg8 main_v214 ((extractStridedSlice S1x256 ![1, 0] · slices_S2x256_S1x256_1_0) : (⟨S2x256, .f32⟩ : BufTy).Contents (Elt F) → (⟨S1x256, .f32⟩ : BufTy).Contents (Elt F)),
    reshape main_v214 main_v215 rfl shapeCasts_S1x256_S256,
    unary main_arg9 main_v216 ((extractStridedSlice S1x256 ![1, 0] · slices_S2x256_S1x256_1_0) : (⟨S2x256, .f32⟩ : BufTy).Contents (Elt F) → (⟨S1x256, .f32⟩ : BufTy).Contents (Elt F)),
    reshape main_v216 main_v217 rfl shapeCasts_S1x256_S256,
    nullary main_cst_34 (constant S_ .f32 0x00000000#32),
    binary main_v213 main_cst_34 main_v218 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v218 main_v219 (broadcastInDim S20000x1 ![0] bcast_S20000_S20000x1_0 : (⟨S20000, .f32⟩ : BufTy).Contents (Elt F) → (⟨S20000x1, .f32⟩ : BufTy).Contents (Elt F)),
    nullary main_cst_35 (constant S_ .f32 0x43800000#32),
    unary main_cst_35 main_v220 (broadcastInDim S20000x1 ![] bcast_S_S20000x1 : (⟨S_, .f32⟩ : BufTy).Contents (Elt F) → (⟨S20000x1, .f32⟩ : BufTy).Contents (Elt F)),
    binary main_v219 main_v220 main_v221 (Host.divf : (⟨S20000x1, .f32⟩ : BufTy).Contents (Elt F) → (⟨S20000x1, .f32⟩ : BufTy).Contents (Elt F) → (⟨S20000x1, .f32⟩ : BufTy).Contents (Elt F)),
    nullary main_c_36 (constantI S_ 32 0#32),
    TRef.nullary (TRef.of (T := ⟨S_, .f32⟩) main_call5_cst) (constant S_ .f32 0x00000000#32),
    TRef.binary (TRef.of (T := ⟨S20000x256, .f32⟩) main_v213) (TRef.of (T := ⟨S_, .f32⟩) main_call5_cst) (TRef.of (T := ⟨S20000, .f32⟩) main_call5_v0) (fun x v => Host.reduceAdd x v reducesTo_S20000x256_S20000_d1 h_S_),
    TRef.unary (TRef.of (T := ⟨S20000, .f32⟩) main_call5_v0) (TRef.of (T := ⟨S20000x1, .f32⟩) main_call5_v1) (broadcastInDim S20000x1 ![0] bcast_S20000_S20000x1_0),
    TRef.nullary (TRef.of (T := ⟨S_, .f32⟩) main_call5_cst_0) (constant S_ .f32 0x43800000#32),
    TRef.unary (TRef.of (T := ⟨S_, .f32⟩) main_call5_cst_0) (TRef.of (T := ⟨S20000x1, .f32⟩) main_call5_v2) (broadcastInDim S20000x1 ![] bcast_S_S20000x1),
    TRef.binary (TRef.of (T := ⟨S20000x1, .f32⟩) main_call5_v1) (TRef.of (T := ⟨S20000x1, .f32⟩) main_call5_v2) (TRef.of (T := ⟨S20000x1, .f32⟩) main_call5_v3) Host.divf,
    TRef.unary (TRef.of (T := ⟨S20000x1, .f32⟩) main_call5_v3) (TRef.of (T := ⟨S20000x256, .f32⟩) main_call5_v4) (broadcastInDim S20000x256 ![0, 1] bcast_S20000x1_S20000x256_0_1),
    TRef.binary (TRef.of (T := ⟨S20000x256, .f32⟩) main_v213) (TRef.of (T := ⟨S20000x256, .f32⟩) main_call5_v4) (TRef.of (T := ⟨S20000x256, .f32⟩) main_call5_v5) subf,
    TRef.binary (TRef.of (T := ⟨S20000x256, .f32⟩) main_call5_v5) (TRef.of (T := ⟨S20000x256, .f32⟩) main_call5_v5) (TRef.of (T := ⟨S20000x256, .f32⟩) main_call5_v6) mulf,
    TRef.unary (TRef.of (T := ⟨S_, .i32⟩) main_c_36) (TRef.of (T := ⟨S_, .f32⟩) main_call5_v7) (sitofp .f32),
    TRef.nullary (TRef.of (T := ⟨S_, .f32⟩) main_call5_cst_1) (constant S_ .f32 0x43800000#32),
    TRef.binary (TRef.of (T := ⟨S_, .f32⟩) main_call5_cst_1) (TRef.of (T := ⟨S_, .f32⟩) main_call5_v7) (TRef.of (T := ⟨S_, .f32⟩) main_call5_v8) subf,
    TRef.nullary (TRef.of (T := ⟨S_, .f32⟩) main_call5_cst_2) (constant S_ .f32 0x00000000#32),
    TRef.binary (TRef.of (T := ⟨S20000x256, .f32⟩) main_call5_v6) (TRef.of (T := ⟨S_, .f32⟩) main_call5_cst_2) (TRef.of (T := ⟨S20000, .f32⟩) main_call5_v9) (fun x v => Host.reduceAdd x v reducesTo_S20000x256_S20000_d1 h_S_),
    TRef.unary (TRef.of (T := ⟨S20000, .f32⟩) main_call5_v9) (TRef.of (T := ⟨S20000x1, .f32⟩) main_call5_v10) (broadcastInDim S20000x1 ![0] bcast_S20000_S20000x1_0),
    TRef.unary (TRef.of (T := ⟨S_, .f32⟩) main_call5_v8) (TRef.of (T := ⟨S20000x1, .f32⟩) main_call5_v11) (broadcastInDim S20000x1 ![] bcast_S_S20000x1),
    TRef.binary (TRef.of (T := ⟨S20000x1, .f32⟩) main_call5_v10) (TRef.of (T := ⟨S20000x1, .f32⟩) main_call5_v11) (TRef.of (T := ⟨S20000x1, .f32⟩) main_call5_v12) Host.divf,
    TRef.nullary (TRef.of (T := ⟨S_, .f32⟩) main_call5_cst_3) (constant S_ .f32 0x00000000#32),
    TRef.binary (TRef.of (T := ⟨S_, .f32⟩) main_call5_v8) (TRef.of (T := ⟨S_, .f32⟩) main_call5_cst_3) (TRef.of (T := ⟨S_, .i1⟩) main_call5_v13) (cmpf .ogt),
    TRef.nullary (TRef.of (T := ⟨S_, .f32⟩) main_call5_cst_4) (constant S_ .f32 0x7FC00000#32),
    TRef.unary (TRef.of (T := ⟨S_, .f32⟩) main_call5_cst_4) (TRef.of (T := ⟨S_, .f32⟩) main_call5_call0_v0) id,
    TRef.unary (TRef.of (T := ⟨S_, .f32⟩) main_call5_call0_v0) (TRef.of (T := ⟨S20000x1, .f32⟩) main_call5_call0_v1) (broadcastInDim S20000x1 ![] bcast_S_S20000x1),
    TRef.ternary (TRef.of (T := ⟨S_, .i1⟩) main_call5_v13) (TRef.of (T := ⟨S20000x1, .f32⟩) main_call5_v12) (TRef.of (T := ⟨S20000x1, .f32⟩) main_call5_call0_v1) (TRef.of (T := ⟨S20000x1, .f32⟩) main_v222) (fun p a b => select (broadcastInDim S20000x1 ![] bcast_S_S20000x1 p) a b),
    unary main_v221 main_v223 (broadcastInDim S20000x256 ![0, 1] bcast_S20000x1_S20000x256_0_1 : (⟨S20000x1, .f32⟩ : BufTy).Contents (Elt F) → (⟨S20000x256, .f32⟩ : BufTy).Contents (Elt F)),
    binary main_v213 main_v223 main_v224 (subf : (⟨S20000x256, .f32⟩ : BufTy).Contents (Elt F) → (⟨S20000x256, .f32⟩ : BufTy).Contents (Elt F) → (⟨S20000x256, .f32⟩ : BufTy).Contents (Elt F)),
    nullary main_cst_37 (constant S_ .f32 0x3727C5AC#32),
    unary main_cst_37 main_v225 (broadcastInDim S20000x1 ![] bcast_S_S20000x1 : (⟨S_, .f32⟩ : BufTy).Contents (Elt F) → (⟨S20000x1, .f32⟩ : BufTy).Contents (Elt F)),
    binary main_v222 main_v225 main_v226 (addf : (⟨S20000x1, .f32⟩ : BufTy).Contents (Elt F) → (⟨S20000x1, .f32⟩ : BufTy).Contents (Elt F) → (⟨S20000x1, .f32⟩ : BufTy).Contents (Elt F)),
    unary main_v226 main_v227 (Host.rsqrt : (⟨S20000x1, .f32⟩ : BufTy).Contents (Elt F) → (⟨S20000x1, .f32⟩ : BufTy).Contents (Elt F)),
    unary main_v227 main_v228 (broadcastInDim S20000x256 ![0, 1] bcast_S20000x1_S20000x256_0_1 : (⟨S20000x1, .f32⟩ : BufTy).Contents (Elt F) → (⟨S20000x256, .f32⟩ : BufTy).Contents (Elt F)),
    binary main_v224 main_v228 main_v229 (mulf : (⟨S20000x256, .f32⟩ : BufTy).Contents (Elt F) → (⟨S20000x256, .f32⟩ : BufTy).Contents (Elt F) → (⟨S20000x256, .f32⟩ : BufTy).Contents (Elt F)),
    unary main_v215 main_v230 (broadcastInDim S1x256 ![1] bcast_S256_S1x256_1 : (⟨S256, .f32⟩ : BufTy).Contents (Elt F) → (⟨S1x256, .f32⟩ : BufTy).Contents (Elt F)),
    unary main_v230 main_v231 (broadcastInDim S20000x256 ![0, 1] bcast_S1x256_S20000x256_0_1 : (⟨S1x256, .f32⟩ : BufTy).Contents (Elt F) → (⟨S20000x256, .f32⟩ : BufTy).Contents (Elt F)),
    binary main_v229 main_v231 main_v232 (mulf : (⟨S20000x256, .f32⟩ : BufTy).Contents (Elt F) → (⟨S20000x256, .f32⟩ : BufTy).Contents (Elt F) → (⟨S20000x256, .f32⟩ : BufTy).Contents (Elt F)),
    unary main_v217 main_v233 (broadcastInDim S1x256 ![1] bcast_S256_S1x256_1 : (⟨S256, .f32⟩ : BufTy).Contents (Elt F) → (⟨S1x256, .f32⟩ : BufTy).Contents (Elt F)),
    unary main_v233 main_v234 (broadcastInDim S20000x256 ![0, 1] bcast_S1x256_S20000x256_0_1 : (⟨S1x256, .f32⟩ : BufTy).Contents (Elt F) → (⟨S20000x256, .f32⟩ : BufTy).Contents (Elt F)),
    binary main_v232 main_v234 main_v235 (addf : (⟨S20000x256, .f32⟩ : BufTy).Contents (Elt F) → (⟨S20000x256, .f32⟩ : BufTy).Contents (Elt F) → (⟨S20000x256, .f32⟩ : BufTy).Contents (Elt F)),
    unary main_arg10 main_v236 ((extractStridedSlice S1x256x1024 ![1, 0, 0] · slices_S2x256x1024_S1x256x1024_1_0_0) : (⟨S2x256x1024, .f32⟩ : BufTy).Contents (Elt F) → (⟨S1x256x1024, .f32⟩ : BufTy).Contents (Elt F)),
    reshape main_v236 main_v237 rfl shapeCasts_S1x256x1024_S256x1024,
    binary main_v235 main_v237 main_v238 ((fun l r => Host.dotGeneral dot_S20000x256_S256x1024_S20000x1024_1_0_0_1_n_n none l r) : (⟨S20000x256, .f32⟩ : BufTy).Contents (Elt F) → (⟨S256x1024, .f32⟩ : BufTy).Contents (Elt F) → (⟨S20000x1024, .f32⟩ : BufTy).Contents (Elt F)),
    unary main_arg11 main_v239 ((extractStridedSlice S1x1024 ![1, 0] · slices_S2x1024_S1x1024_1_0) : (⟨S2x1024, .f32⟩ : BufTy).Contents (Elt F) → (⟨S1x1024, .f32⟩ : BufTy).Contents (Elt F)),
    reshape main_v239 main_v240 rfl shapeCasts_S1x1024_S1024,
    unary main_v240 main_v241 (broadcastInDim S1x1024 ![1] bcast_S1024_S1x1024_1 : (⟨S1024, .f32⟩ : BufTy).Contents (Elt F) → (⟨S1x1024, .f32⟩ : BufTy).Contents (Elt F)),
    unary main_v241 main_v242 (broadcastInDim S20000x1024 ![0, 1] bcast_S1x1024_S20000x1024_0_1 : (⟨S1x1024, .f32⟩ : BufTy).Contents (Elt F) → (⟨S20000x1024, .f32⟩ : BufTy).Contents (Elt F)),
    binary main_v238 main_v242 main_v243 (addf : (⟨S20000x1024, .f32⟩ : BufTy).Contents (Elt F) → (⟨S20000x1024, .f32⟩ : BufTy).Contents (Elt F) → (⟨S20000x1024, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S20000x1024, .f32⟩) main_call6_v0) (broadcastInDim S20000x1024 ![] bcast_S_S20000x1024),
    TRef.binary (TRef.of (T := ⟨S20000x1024, .f32⟩) main_v243) (TRef.of (T := ⟨S20000x1024, .f32⟩) main_call6_v0) (TRef.of (T := ⟨S20000x1024, .f32⟩) main_v244) maximumf,
    unary main_arg12 main_v245 ((extractStridedSlice S1x1024x256 ![1, 0, 0] · slices_S2x1024x256_S1x1024x256_1_0_0) : (⟨S2x1024x256, .f32⟩ : BufTy).Contents (Elt F) → (⟨S1x1024x256, .f32⟩ : BufTy).Contents (Elt F)),
    reshape main_v245 main_v246 rfl shapeCasts_S1x1024x256_S1024x256,
    binary main_v244 main_v246 main_v247 ((fun l r => Host.dotGeneral dot_S20000x1024_S1024x256_S20000x256_1_0_0_1_n_n none l r) : (⟨S20000x1024, .f32⟩ : BufTy).Contents (Elt F) → (⟨S1024x256, .f32⟩ : BufTy).Contents (Elt F) → (⟨S20000x256, .f32⟩ : BufTy).Contents (Elt F)),
    binary main_v235 main_v247 main_v248 (addf : (⟨S20000x256, .f32⟩ : BufTy).Contents (Elt F) → (⟨S20000x256, .f32⟩ : BufTy).Contents (Elt F) → (⟨S20000x256, .f32⟩ : BufTy).Contents (Elt F)),
    unary main_arg13 main_v249 ((extractStridedSlice S1x256 ![1, 0] · slices_S2x256_S1x256_1_0) : (⟨S2x256, .f32⟩ : BufTy).Contents (Elt F) → (⟨S1x256, .f32⟩ : BufTy).Contents (Elt F)),
    reshape main_v249 main_v250 rfl shapeCasts_S1x256_S256,
    unary main_v250 main_v251 (broadcastInDim S1x256 ![1] bcast_S256_S1x256_1 : (⟨S256, .f32⟩ : BufTy).Contents (Elt F) → (⟨S1x256, .f32⟩ : BufTy).Contents (Elt F)),
    unary main_v251 main_v252 (broadcastInDim S20000x256 ![0, 1] bcast_S1x256_S20000x256_0_1 : (⟨S1x256, .f32⟩ : BufTy).Contents (Elt F) → (⟨S20000x256, .f32⟩ : BufTy).Contents (Elt F)),
    binary main_v248 main_v252 main_v253 (addf : (⟨S20000x256, .f32⟩ : BufTy).Contents (Elt F) → (⟨S20000x256, .f32⟩ : BufTy).Contents (Elt F) → (⟨S20000x256, .f32⟩ : BufTy).Contents (Elt F)),
    unary main_arg14 main_v254 ((extractStridedSlice S1x256 ![1, 0] · slices_S2x256_S1x256_1_0) : (⟨S2x256, .f32⟩ : BufTy).Contents (Elt F) → (⟨S1x256, .f32⟩ : BufTy).Contents (Elt F)),
    reshape main_v254 main_v255 rfl shapeCasts_S1x256_S256,
    unary main_arg15 main_v256 ((extractStridedSlice S1x256 ![1, 0] · slices_S2x256_S1x256_1_0) : (⟨S2x256, .f32⟩ : BufTy).Contents (Elt F) → (⟨S1x256, .f32⟩ : BufTy).Contents (Elt F)),
    reshape main_v256 main_v257 rfl shapeCasts_S1x256_S256,
    nullary main_cst_38 (constant S_ .f32 0x00000000#32),
    binary main_v253 main_cst_38 main_v258 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v258 main_v259 (broadcastInDim S20000x1 ![0] bcast_S20000_S20000x1_0 : (⟨S20000, .f32⟩ : BufTy).Contents (Elt F) → (⟨S20000x1, .f32⟩ : BufTy).Contents (Elt F)),
    nullary main_cst_39 (constant S_ .f32 0x43800000#32),
    unary main_cst_39 main_v260 (broadcastInDim S20000x1 ![] bcast_S_S20000x1 : (⟨S_, .f32⟩ : BufTy).Contents (Elt F) → (⟨S20000x1, .f32⟩ : BufTy).Contents (Elt F)),
    binary main_v259 main_v260 main_v261 (Host.divf : (⟨S20000x1, .f32⟩ : BufTy).Contents (Elt F) → (⟨S20000x1, .f32⟩ : BufTy).Contents (Elt F) → (⟨S20000x1, .f32⟩ : BufTy).Contents (Elt F)),
    nullary main_c_40 (constantI S_ 32 0#32),
    TRef.nullary (TRef.of (T := ⟨S_, .f32⟩) main_call7_cst) (constant S_ .f32 0x00000000#32),
    TRef.binary (TRef.of (T := ⟨S20000x256, .f32⟩) main_v253) (TRef.of (T := ⟨S_, .f32⟩) main_call7_cst) (TRef.of (T := ⟨S20000, .f32⟩) main_call7_v0) (fun x v => Host.reduceAdd x v reducesTo_S20000x256_S20000_d1 h_S_),
    TRef.unary (TRef.of (T := ⟨S20000, .f32⟩) main_call7_v0) (TRef.of (T := ⟨S20000x1, .f32⟩) main_call7_v1) (broadcastInDim S20000x1 ![0] bcast_S20000_S20000x1_0),
    TRef.nullary (TRef.of (T := ⟨S_, .f32⟩) main_call7_cst_0) (constant S_ .f32 0x43800000#32),
    TRef.unary (TRef.of (T := ⟨S_, .f32⟩) main_call7_cst_0) (TRef.of (T := ⟨S20000x1, .f32⟩) main_call7_v2) (broadcastInDim S20000x1 ![] bcast_S_S20000x1),
    TRef.binary (TRef.of (T := ⟨S20000x1, .f32⟩) main_call7_v1) (TRef.of (T := ⟨S20000x1, .f32⟩) main_call7_v2) (TRef.of (T := ⟨S20000x1, .f32⟩) main_call7_v3) Host.divf,
    TRef.unary (TRef.of (T := ⟨S20000x1, .f32⟩) main_call7_v3) (TRef.of (T := ⟨S20000x256, .f32⟩) main_call7_v4) (broadcastInDim S20000x256 ![0, 1] bcast_S20000x1_S20000x256_0_1),
    TRef.binary (TRef.of (T := ⟨S20000x256, .f32⟩) main_v253) (TRef.of (T := ⟨S20000x256, .f32⟩) main_call7_v4) (TRef.of (T := ⟨S20000x256, .f32⟩) main_call7_v5) subf,
    TRef.binary (TRef.of (T := ⟨S20000x256, .f32⟩) main_call7_v5) (TRef.of (T := ⟨S20000x256, .f32⟩) main_call7_v5) (TRef.of (T := ⟨S20000x256, .f32⟩) main_call7_v6) mulf,
    TRef.unary (TRef.of (T := ⟨S_, .i32⟩) main_c_40) (TRef.of (T := ⟨S_, .f32⟩) main_call7_v7) (sitofp .f32),
    TRef.nullary (TRef.of (T := ⟨S_, .f32⟩) main_call7_cst_1) (constant S_ .f32 0x43800000#32),
    TRef.binary (TRef.of (T := ⟨S_, .f32⟩) main_call7_cst_1) (TRef.of (T := ⟨S_, .f32⟩) main_call7_v7) (TRef.of (T := ⟨S_, .f32⟩) main_call7_v8) subf,
    TRef.nullary (TRef.of (T := ⟨S_, .f32⟩) main_call7_cst_2) (constant S_ .f32 0x00000000#32),
    TRef.binary (TRef.of (T := ⟨S20000x256, .f32⟩) main_call7_v6) (TRef.of (T := ⟨S_, .f32⟩) main_call7_cst_2) (TRef.of (T := ⟨S20000, .f32⟩) main_call7_v9) (fun x v => Host.reduceAdd x v reducesTo_S20000x256_S20000_d1 h_S_),
    TRef.unary (TRef.of (T := ⟨S20000, .f32⟩) main_call7_v9) (TRef.of (T := ⟨S20000x1, .f32⟩) main_call7_v10) (broadcastInDim S20000x1 ![0] bcast_S20000_S20000x1_0),
    TRef.unary (TRef.of (T := ⟨S_, .f32⟩) main_call7_v8) (TRef.of (T := ⟨S20000x1, .f32⟩) main_call7_v11) (broadcastInDim S20000x1 ![] bcast_S_S20000x1),
    TRef.binary (TRef.of (T := ⟨S20000x1, .f32⟩) main_call7_v10) (TRef.of (T := ⟨S20000x1, .f32⟩) main_call7_v11) (TRef.of (T := ⟨S20000x1, .f32⟩) main_call7_v12) Host.divf,
    TRef.nullary (TRef.of (T := ⟨S_, .f32⟩) main_call7_cst_3) (constant S_ .f32 0x00000000#32),
    TRef.binary (TRef.of (T := ⟨S_, .f32⟩) main_call7_v8) (TRef.of (T := ⟨S_, .f32⟩) main_call7_cst_3) (TRef.of (T := ⟨S_, .i1⟩) main_call7_v13) (cmpf .ogt),
    TRef.nullary (TRef.of (T := ⟨S_, .f32⟩) main_call7_cst_4) (constant S_ .f32 0x7FC00000#32),
    TRef.unary (TRef.of (T := ⟨S_, .f32⟩) main_call7_cst_4) (TRef.of (T := ⟨S_, .f32⟩) main_call7_call0_v0) id,
    TRef.unary (TRef.of (T := ⟨S_, .f32⟩) main_call7_call0_v0) (TRef.of (T := ⟨S20000x1, .f32⟩) main_call7_call0_v1) (broadcastInDim S20000x1 ![] bcast_S_S20000x1),
    TRef.ternary (TRef.of (T := ⟨S_, .i1⟩) main_call7_v13) (TRef.of (T := ⟨S20000x1, .f32⟩) main_call7_v12) (TRef.of (T := ⟨S20000x1, .f32⟩) main_call7_call0_v1) (TRef.of (T := ⟨S20000x1, .f32⟩) main_v262) (fun p a b => select (broadcastInDim S20000x1 ![] bcast_S_S20000x1 p) a b),
    unary main_v261 main_v263 (broadcastInDim S20000x256 ![0, 1] bcast_S20000x1_S20000x256_0_1 : (⟨S20000x1, .f32⟩ : BufTy).Contents (Elt F) → (⟨S20000x256, .f32⟩ : BufTy).Contents (Elt F)),
    binary main_v253 main_v263 main_v264 (subf : (⟨S20000x256, .f32⟩ : BufTy).Contents (Elt F) → (⟨S20000x256, .f32⟩ : BufTy).Contents (Elt F) → (⟨S20000x256, .f32⟩ : BufTy).Contents (Elt F)),
    nullary main_cst_41 (constant S_ .f32 0x3727C5AC#32),
    unary main_cst_41 main_v265 (broadcastInDim S20000x1 ![] bcast_S_S20000x1 : (⟨S_, .f32⟩ : BufTy).Contents (Elt F) → (⟨S20000x1, .f32⟩ : BufTy).Contents (Elt F)),
    binary main_v262 main_v265 main_v266 (addf : (⟨S20000x1, .f32⟩ : BufTy).Contents (Elt F) → (⟨S20000x1, .f32⟩ : BufTy).Contents (Elt F) → (⟨S20000x1, .f32⟩ : BufTy).Contents (Elt F)),
    unary main_v266 main_v267 (Host.rsqrt : (⟨S20000x1, .f32⟩ : BufTy).Contents (Elt F) → (⟨S20000x1, .f32⟩ : BufTy).Contents (Elt F)),
    unary main_v267 main_v268 (broadcastInDim S20000x256 ![0, 1] bcast_S20000x1_S20000x256_0_1 : (⟨S20000x1, .f32⟩ : BufTy).Contents (Elt F) → (⟨S20000x256, .f32⟩ : BufTy).Contents (Elt F)),
    binary main_v264 main_v268 main_v269 (mulf : (⟨S20000x256, .f32⟩ : BufTy).Contents (Elt F) → (⟨S20000x256, .f32⟩ : BufTy).Contents (Elt F) → (⟨S20000x256, .f32⟩ : BufTy).Contents (Elt F)),
    unary main_v255 main_v270 (broadcastInDim S1x256 ![1] bcast_S256_S1x256_1 : (⟨S256, .f32⟩ : BufTy).Contents (Elt F) → (⟨S1x256, .f32⟩ : BufTy).Contents (Elt F)),
    unary main_v270 main_v271 (broadcastInDim S20000x256 ![0, 1] bcast_S1x256_S20000x256_0_1 : (⟨S1x256, .f32⟩ : BufTy).Contents (Elt F) → (⟨S20000x256, .f32⟩ : BufTy).Contents (Elt F)),
    binary main_v269 main_v271 main_v272 (mulf : (⟨S20000x256, .f32⟩ : BufTy).Contents (Elt F) → (⟨S20000x256, .f32⟩ : BufTy).Contents (Elt F) → (⟨S20000x256, .f32⟩ : BufTy).Contents (Elt F)),
    unary main_v257 main_v273 (broadcastInDim S1x256 ![1] bcast_S256_S1x256_1 : (⟨S256, .f32⟩ : BufTy).Contents (Elt F) → (⟨S1x256, .f32⟩ : BufTy).Contents (Elt F)),
    unary main_v273 main_v274 (broadcastInDim S20000x256 ![0, 1] bcast_S1x256_S20000x256_0_1 : (⟨S1x256, .f32⟩ : BufTy).Contents (Elt F) → (⟨S20000x256, .f32⟩ : BufTy).Contents (Elt F)),
    binary main_v272 main_v274 main_v275 (addf : (⟨S20000x256, .f32⟩ : BufTy).Contents (Elt F) → (⟨S20000x256, .f32⟩ : BufTy).Contents (Elt F) → (⟨S20000x256, .f32⟩ : BufTy).Contents (Elt F)) ]

/-- The buffers segment 4 writes, operation by operation. -/
abbrev seg4W : List (Ref sig .tc) := [main_v205, main_v206, main_v207, main_v208, main_v209, main_v210, main_v211, main_v212, main_v213, main_v214, main_v215, main_v216, main_v217, main_cst_34, main_v218, main_v219, main_cst_35, main_v220, main_v221, main_c_36, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v222, main_v223, main_v224, main_cst_37, main_v225, main_v226, main_v227, main_v228, main_v229, main_v230, main_v231, main_v232, main_v233, main_v234, main_v235, main_v236, main_v237, main_v238, main_v239, main_v240, main_v241, main_v242, main_v243, main_call6_cst, main_call6_v0, main_v244, main_v245, main_v246, main_v247, main_v248, main_v249, main_v250, main_v251, main_v252, main_v253, main_v254, main_v255, main_v256, main_v257, main_cst_38, main_v258, main_v259, main_cst_39, main_v260, main_v261, main_c_40, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v262, main_v263, main_v264, main_cst_41, main_v265, main_v266, main_v267, main_v268, main_v269, main_v270, main_v271, main_v272, main_v273, main_v274, main_v275]

set_option maxRecDepth 65536 in
theorem hW4 : (seg4 : List (HloOp τ sig (Elt F))).Forall fun op => op.writes ⊆ (seg4W.map (Proc.devRef (τ := τ) .tc)).toFinset :=
  ⟨sub_of_mem (y := main_v205) (by decide),
   sub_of_mem (y := main_v206) (by decide),
   sub_of_mem (y := main_v207) (by decide),
   sub_of_mem (y := main_v208) (by decide),
   sub_of_mem (y := main_v209) (by decide),
   sub_of_mem (y := main_v210) (by decide),
   sub_of_mem (y := main_v211) (by decide),
   sub_of_mem (y := main_v212) (by decide),
   sub_of_mem (y := main_v213) (by decide),
   sub_of_mem (y := main_v214) (by decide),
   sub_of_mem (y := main_v215) (by decide),
   sub_of_mem (y := main_v216) (by decide),
   sub_of_mem (y := main_v217) (by decide),
   sub_of_mem (y := main_cst_34) (by decide),
   sub_of_mem (y := main_v218) (by decide),
   sub_of_mem (y := main_v219) (by decide),
   sub_of_mem (y := main_cst_35) (by decide),
   sub_of_mem (y := main_v220) (by decide),
   sub_of_mem (y := main_v221) (by decide),
   sub_of_mem (y := main_c_36) (by decide),
   sub_of_mem (y := main_call5_cst) (by decide),
   sub_of_mem (y := main_call5_v0) (by decide),
   sub_of_mem (y := main_call5_v1) (by decide),
   sub_of_mem (y := main_call5_cst_0) (by decide),
   sub_of_mem (y := main_call5_v2) (by decide),
   sub_of_mem (y := main_call5_v3) (by decide),
   sub_of_mem (y := main_call5_v4) (by decide),
   sub_of_mem (y := main_call5_v5) (by decide),
   sub_of_mem (y := main_call5_v6) (by decide),
   sub_of_mem (y := main_call5_v7) (by decide),
   sub_of_mem (y := main_call5_cst_1) (by decide),
   sub_of_mem (y := main_call5_v8) (by decide),
   sub_of_mem (y := main_call5_cst_2) (by decide),
   sub_of_mem (y := main_call5_v9) (by decide),
   sub_of_mem (y := main_call5_v10) (by decide),
   sub_of_mem (y := main_call5_v11) (by decide),
   sub_of_mem (y := main_call5_v12) (by decide),
   sub_of_mem (y := main_call5_cst_3) (by decide),
   sub_of_mem (y := main_call5_v13) (by decide),
   sub_of_mem (y := main_call5_cst_4) (by decide),
   sub_of_mem (y := main_call5_call0_v0) (by decide),
   sub_of_mem (y := main_call5_call0_v1) (by decide),
   sub_of_mem (y := main_v222) (by decide),
   sub_of_mem (y := main_v223) (by decide),
   sub_of_mem (y := main_v224) (by decide),
   sub_of_mem (y := main_cst_37) (by decide),
   sub_of_mem (y := main_v225) (by decide),
   sub_of_mem (y := main_v226) (by decide),
   sub_of_mem (y := main_v227) (by decide),
   sub_of_mem (y := main_v228) (by decide),
   sub_of_mem (y := main_v229) (by decide),
   sub_of_mem (y := main_v230) (by decide),
   sub_of_mem (y := main_v231) (by decide),
   sub_of_mem (y := main_v232) (by decide),
   sub_of_mem (y := main_v233) (by decide),
   sub_of_mem (y := main_v234) (by decide),
   sub_of_mem (y := main_v235) (by decide),
   sub_of_mem (y := main_v236) (by decide),
   sub_of_mem (y := main_v237) (by decide),
   sub_of_mem (y := main_v238) (by decide),
   sub_of_mem (y := main_v239) (by decide),
   sub_of_mem (y := main_v240) (by decide),
   sub_of_mem (y := main_v241) (by decide),
   sub_of_mem (y := main_v242) (by decide),
   sub_of_mem (y := main_v243) (by decide),
   sub_of_mem (y := main_call6_cst) (by decide),
   sub_of_mem (y := main_call6_v0) (by decide),
   sub_of_mem (y := main_v244) (by decide),
   sub_of_mem (y := main_v245) (by decide),
   sub_of_mem (y := main_v246) (by decide),
   sub_of_mem (y := main_v247) (by decide),
   sub_of_mem (y := main_v248) (by decide),
   sub_of_mem (y := main_v249) (by decide),
   sub_of_mem (y := main_v250) (by decide),
   sub_of_mem (y := main_v251) (by decide),
   sub_of_mem (y := main_v252) (by decide),
   sub_of_mem (y := main_v253) (by decide),
   sub_of_mem (y := main_v254) (by decide),
   sub_of_mem (y := main_v255) (by decide),
   sub_of_mem (y := main_v256) (by decide),
   sub_of_mem (y := main_v257) (by decide),
   sub_of_mem (y := main_cst_38) (by decide),
   sub_of_mem (y := main_v258) (by decide),
   sub_of_mem (y := main_v259) (by decide),
   sub_of_mem (y := main_cst_39) (by decide),
   sub_of_mem (y := main_v260) (by decide),
   sub_of_mem (y := main_v261) (by decide),
   sub_of_mem (y := main_c_40) (by decide),
   sub_of_mem (y := main_call7_cst) (by decide),
   sub_of_mem (y := main_call7_v0) (by decide),
   sub_of_mem (y := main_call7_v1) (by decide),
   sub_of_mem (y := main_call7_cst_0) (by decide),
   sub_of_mem (y := main_call7_v2) (by decide),
   sub_of_mem (y := main_call7_v3) (by decide),
   sub_of_mem (y := main_call7_v4) (by decide),
   sub_of_mem (y := main_call7_v5) (by decide),
   sub_of_mem (y := main_call7_v6) (by decide),
   sub_of_mem (y := main_call7_v7) (by decide),
   sub_of_mem (y := main_call7_cst_1) (by decide),
   sub_of_mem (y := main_call7_v8) (by decide),
   sub_of_mem (y := main_call7_cst_2) (by decide),
   sub_of_mem (y := main_call7_v9) (by decide),
   sub_of_mem (y := main_call7_v10) (by decide),
   sub_of_mem (y := main_call7_v11) (by decide),
   sub_of_mem (y := main_call7_v12) (by decide),
   sub_of_mem (y := main_call7_cst_3) (by decide),
   sub_of_mem (y := main_call7_v13) (by decide),
   sub_of_mem (y := main_call7_cst_4) (by decide),
   sub_of_mem (y := main_call7_call0_v0) (by decide),
   sub_of_mem (y := main_call7_call0_v1) (by decide),
   sub_of_mem (y := main_v262) (by decide),
   sub_of_mem (y := main_v263) (by decide),
   sub_of_mem (y := main_v264) (by decide),
   sub_of_mem (y := main_cst_41) (by decide),
   sub_of_mem (y := main_v265) (by decide),
   sub_of_mem (y := main_v266) (by decide),
   sub_of_mem (y := main_v267) (by decide),
   sub_of_mem (y := main_v268) (by decide),
   sub_of_mem (y := main_v269) (by decide),
   sub_of_mem (y := main_v270) (by decide),
   sub_of_mem (y := main_v271) (by decide),
   sub_of_mem (y := main_v272) (by decide),
   sub_of_mem (y := main_v273) (by decide),
   sub_of_mem (y := main_v274) (by decide),
   sub_of_mem (y := main_v275) (by decide)⟩

/-- A buffer segment 4 does not write keeps its contents through it. -/
theorem keepSeg4 (V : Valuation τ sig (Elt F)) (r : Ref sig .tc) (hr : r ∉ seg4W) :
    after seg4 V (Proc.devRef .tc r) = V (Proc.devRef .tc r) :=
  after_of_writes_sub seg4 V hW4 hr

set_option maxRecDepth 65536 in
/-- The line is the four segments one after the other. -/
theorem ops_eq : (ops : List (HloOp τ sig (Elt F))) = seg1 ++ (seg2 ++ (seg3 ++ seg4)) := rfl

/-- The contents after the whole line: segment by segment. -/
theorem after_ops (V : Valuation τ sig (Elt F)) : after ops V = after seg4 (after seg3 (after seg2 (after seg1 V))) := by
  rw [ops_eq, after_append, after_append, after_append]

end Cert.ReferenceIdeal.RefCut

end
-- ==== Proof.RDefs.lean ====
/-
  The reference program's pieces as functions of its argument arrays: the index columns the gathers and the scatters
  read, and each layer's weights as slices of the stacked weight arrays.
-/
import proofs.«175432_j21457656611019_1_alg».proof.ReferenceIdeal
import proofs.«175432_j21457656611019_1_alg».proof.Proof.Gen.ReferenceIdeal
import Idealize.ShloMosaic.PureOps.Ideal
import proofs.«175432_j21457656611019_1_alg».proof.Proof.Spec

noncomputable section

namespace Cert.ReferenceIdeal.RDefs

open Idealize.ShloMosaic Idealize.ShloMosaic.TcCoe Idealize.SL.Sem
open Cert.ReferenceIdeal Cert.ReferenceIdeal.Gen

/-- A gather's start-index column from an index array: a negative word wrapped by the table's length `N`, the array
    as a column. -/
def normCol (N : BitVec 32) (a : IVec S640000 32) : IVec S640000x1 32 :=
  broadcastInDim S640000x1 ![0] bcast_S640000_S640000x1_0
    (select (cmpi CmpIPredicate.slt a (broadcastInDim S640000 ![] bcast_S_S640000 (constantI S_ 32 0#32)))
      (addi a (broadcastInDim S640000 ![] bcast_S_S640000 (constantI S_ 32 N))) a)

/-- A scatter's index column: the index array as a column, as it is. -/
def rawCol (a : IVec S640000 32) : IVec S640000x1 32 := broadcastInDim S640000x1 ![0] bcast_S640000_S640000x1_0 a

/-- Layer 0's [256, 256] slice of a stacked weight array. -/
def m0 (a : FVec Ideal S2x256x256 .f32) : FVec Ideal S256x256 .f32 :=
  shapeCast S256x256 (extractStridedSlice S1x256x256 ![0, 0, 0] a slices_S2x256x256_S1x256x256_0_0_0) shapeCasts_S1x256x256_S256x256
/-- Layer 1's. -/
def m1 (a : FVec Ideal S2x256x256 .f32) : FVec Ideal S256x256 .f32 :=
  shapeCast S256x256 (extractStridedSlice S1x256x256 ![1, 0, 0] a slices_S2x256x256_S1x256x256_1_0_0) shapeCasts_S1x256x256_S256x256
/-- Layer 0's [256] slice of a stacked vector array. -/
def v0 (a : FVec Ideal S2x256 .f32) : FVec Ideal S256 .f32 :=
  shapeCast S256 (extractStridedSlice S1x256 ![0, 0] a slices_S2x256_S1x256_0_0) shapeCasts_S1x256_S256
/-- Layer 1's. -/
def v1 (a : FVec Ideal S2x256 .f32) : FVec Ideal S256 .f32 :=
  shapeCast S256 (extractStridedSlice S1x256 ![1, 0] a slices_S2x256_S1x256_1_0) shapeCasts_S1x256_S256
/-- Layer 0's [256, 1024] slice. -/
def u0 (a : FVec Ideal S2x256x1024 .f32) : FVec Ideal S256x1024 .f32 :=
  shapeCast S256x1024 (extractStridedSlice S1x256x1024 ![0, 0, 0] a slices_S2x256x1024_S1x256x1024_0_0_0) shapeCasts_S1x256x1024_S256x1024
/-- Layer 1's. -/
def u1 (a : FVec Ideal S2x256x1024 .f32) : FVec Ideal S256x1024 .f32 :=
  shapeCast S256x1024 (extractStridedSlice S1x256x1024 ![1, 0, 0] a slices_S2x256x1024_S1x256x1024_1_0_0) shapeCasts_S1x256x1024_S256x1024
/-- Layer 0's [1024] slice. -/
def w0 (a : FVec Ideal S2x1024 .f32) : FVec Ideal S1024 .f32 :=
  shapeCast S1024 (extractStridedSlice S1x1024 ![0, 0] a slices_S2x1024_S1x1024_0_0) shapeCasts_S1x1024_S1024
/-- Layer 1's. -/
def w1 (a : FVec Ideal S2x1024 .f32) : FVec Ideal S1024 .f32 :=
  shapeCast S1024 (extractStridedSlice S1x1024 ![1, 0] a slices_S2x1024_S1x1024_1_0) shapeCasts_S1x1024_S1024
/-- Layer 0's [1024, 256] slice. -/
def d0 (a : FVec Ideal S2x1024x256 .f32) : FVec Ideal S1024x256 .f32 :=
  shapeCast S1024x256 (extractStridedSlice S1x1024x256 ![0, 0, 0] a slices_S2x1024x256_S1x1024x256_0_0_0) shapeCasts_S1x1024x256_S1024x256
/-- Layer 1's. -/
def d1 (a : FVec Ideal S2x1024x256 .f32) : FVec Ideal S1024x256 .f32 :=
  shapeCast S1024x256 (extractStridedSlice S1x1024x256 ![1, 0, 0] a slices_S2x1024x256_S1x1024x256_1_0_0) shapeCasts_S1x1024x256_S1024x256

variable (m : (ℓ : Loc nD τ sig) → Buf (Elt Ideal) ℓ)

/-- Argument array `b` on core `c` as launched. -/
abbrev A (c : Dev nD) (b : Ref sig .tc) : Buf (Elt Ideal) ((c : Thread nD τ).loc b) := m ((c : Thread nD τ).loc b)

/-- The relation table and the index columns. -/
def G (c : Dev nD) : Cert.Spec.Graph where
  rel := A m c main_arg1
  relI := normCol 100#32 (A m c main_arg16)
  srcI := normCol 20000#32 (A m c main_arg17)
  dstI := normCol 20000#32 (A m c main_arg18)
  dstS := rawCol (A m c main_arg18)

/-- Layer 0's weights. -/
def P0 (c : Dev nD) : Cert.Spec.Params where
  Wq := m0 (A m c main_arg2)
  bq := v0 (A m c main_arg3)
  Wk := m0 (A m c main_arg4)
  Wv := m0 (A m c main_arg5)
  Wo := m0 (A m c main_arg6)
  bo := v0 (A m c main_arg7)
  g1 := v0 (A m c main_arg8)
  b1 := v0 (A m c main_arg9)
  W1 := u0 (A m c main_arg10)
  c1 := w0 (A m c main_arg11)
  W2 := d0 (A m c main_arg12)
  c2 := v0 (A m c main_arg13)
  g2 := v0 (A m c main_arg14)
  b2 := v0 (A m c main_arg15)

/-- Layer 1's weights. -/
def P1 (c : Dev nD) : Cert.Spec.Params where
  Wq := m1 (A m c main_arg2)
  bq := v1 (A m c main_arg3)
  Wk := m1 (A m c main_arg4)
  Wv := m1 (A m c main_arg5)
  Wo := m1 (A m c main_arg6)
  bo := v1 (A m c main_arg7)
  g1 := v1 (A m c main_arg8)
  b1 := v1 (A m c main_arg9)
  W1 := u1 (A m c main_arg10)
  c1 := w1 (A m c main_arg11)
  W2 := d1 (A m c main_arg12)
  c2 := v1 (A m c main_arg13)
  g2 := v1 (A m c main_arg14)
  b2 := v1 (A m c main_arg15)

end Cert.ReferenceIdeal.RDefs

end
-- ==== Proof.RefAttnDefs.lean ====
/-
  The attention half of one layer of the reference, as one term.

  Each definition below is one stretch of the reference's host operations, written with the same function
  constants, dimension records and side conditions as the program: the three linear maps of the node features
  (the query map with its bias) cut into eight heads of width 32; the rows the edges read of them and of the
  relation table; per edge and head the clamped, scaled, exponentiated score; the messages; and the two segment
  sums over the destination column with their quotient, laid back out as 256 columns.
-/
import proofs.«175432_j21457656611019_1_alg».proof.ReferenceIdeal
import Idealize.ShloMosaic.PureOps.Ideal

noncomputable section

namespace Cert.ReferenceIdeal.RefAttn

open Idealize.ShloMosaic Cert.ReferenceIdeal Cert.ReferenceIdeal.Facts₀

variable [Facts]

/-- The node features times one weight matrix. -/
def linRef (x : FVec Ideal S20000x256 .f32) (W : FVec Ideal S256x256 .f32) : FVec Ideal S20000x256 .f32 :=
  Host.dotGeneral dot_S20000x256_S256x256_S20000x256_1_0_0_1_n_n none x W

/-- A bias row repeated over the 20000 nodes. -/
def biasRef (b : FVec Ideal S256 .f32) : FVec Ideal S20000x256 .f32 :=
  broadcastInDim S20000x256 ![0, 1] bcast_S1x256_S20000x256_0_1 (broadcastInDim S1x256 ![1] bcast_S256_S1x256_1 b)

/-- A node table of 256 columns cut into eight heads of width 32. -/
def headsRef (y : FVec Ideal S20000x256 .f32) : FVec Ideal S20000x8x32 .f32 :=
  shapeCast S20000x8x32 y shapeCasts_S20000x256_S20000x8x32

/-- The query table: the biased linear map, by heads. -/
def qRef (x : FVec Ideal S20000x256 .f32) (Wq : FVec Ideal S256x256 .f32) (bq : FVec Ideal S256 .f32) :
    FVec Ideal S20000x8x32 .f32 :=
  headsRef (addf (linRef x Wq) (biasRef bq))

/-- The key (or value) table: the linear map, by heads. -/
def kvRef (x : FVec Ideal S20000x256 .f32) (W : FVec Ideal S256x256 .f32) : FVec Ideal S20000x8x32 .f32 :=
  headsRef (linRef x W)

/-- The rows of a node table by heads that the edges read. -/
def gathRef (T : FVec Ideal S20000x8x32 .f32) (I : IVec S640000x1 32) : FVec Ideal S640000x8x32 .f32 :=
  Host.gather gather_S20000x8x32_S640000x1_S640000x8x32_12_0_n_n_0_1_1832 T I

/-- Each edge's relation row, repeated over the eight heads. -/
def relRef (rel : FVec Ideal S100x32 .f32) (relI : IVec S640000x1 32) : FVec Ideal S640000x8x32 .f32 :=
  broadcastInDim S640000x8x32 ![0, 1, 2] bcast_S640000x1x32_S640000x8x32_0_1_2
    (broadcastInDim S640000x1x32 ![0, 2] bcast_S640000x32_S640000x1x32_0_2
      (Host.gather gather_S100x32_S640000x1_S640000x32_1_0_n_n_0_1_132 rel relI))

/-- Per edge and head, the sum over the lanes of (key + relation) · query, divided by the scale constant. -/
def scoreRef (kg qg eg : FVec Ideal S640000x8x32 .f32) : FVec Ideal S640000x8 .f32 :=
  Host.divf
    (Host.reduceAdd (mulf (addf kg eg) qg) (constant (F := Ideal) S_ .f32 0x00000000#32)
      reducesTo_S640000x8x32_S640000x8_d2 h_S_)
    (broadcastInDim S640000x8 ![] bcast_S_S640000x8 (constant (F := Ideal) S_ .f32 0x40B504F3#32))

/-- The edge weights: the score clamped between the two bounds and exponentiated. -/
def sRef (sc : FVec Ideal S640000x8 .f32) : FVec Ideal S640000x8 .f32 :=
  Host.exp
    (minimumf (broadcastInDim S640000x8 ![] bcast_S_S640000x8 (id (constant (F := Ideal) S_ .f32 0x41200000#32)))
      (maximumf (broadcastInDim S640000x8 ![] bcast_S_S640000x8 (id (constant (F := Ideal) S_ .f32 0xC1200000#32)))
        sc))

/-- The edge messages: (value + relation) times the head's weight repeated over its lanes. -/
def msgRef (vg eg : FVec Ideal S640000x8x32 .f32) (s : FVec Ideal S640000x8 .f32) : FVec Ideal S640000x8x32 .f32 :=
  mulf (addf vg eg)
    (broadcastInDim S640000x8x32 ![0, 1, 2] bcast_S640000x8x1_S640000x8x32_0_1_2
      (broadcastInDim S640000x8x1 ![0, 1] bcast_S640000x8_S640000x8x1_0_1 s))

/-- The segment sum of the messages over the destination column, from zero. -/
def aggMsgRef (msg : FVec Ideal S640000x8x32 .f32) (dstS : IVec S640000x1 32) : FVec Ideal S20000x8x32 .f32 :=
  Host.scatterAdd scatter_S20000x8x32_S640000x1_S640000x8x32_12_0_0_1
    (broadcastInDim S20000x8x32 ![] bcast_S_S20000x8x32 (constant (F := Ideal) S_ .f32 0x00000000#32)) dstS msg

/-- The segment sum of the weights over the destination column, from zero. -/
def aggWRef (s : FVec Ideal S640000x8 .f32) (dstS : IVec S640000x1 32) : FVec Ideal S20000x8 .f32 :=
  Host.scatterAdd scatter_S20000x8_S640000x1_S640000x8_1_0_0_1
    (broadcastInDim S20000x8 ![] bcast_S_S20000x8 (constant (F := Ideal) S_ .f32 0x00000000#32)) dstS s

/-- The aggregated messages over the aggregated weights bounded below, each head's weight repeated over its lanes,
    laid back out as 256 columns. -/
def quotRef (am : FVec Ideal S20000x8x32 .f32) (aw : FVec Ideal S20000x8 .f32) : FVec Ideal S20000x256 .f32 :=
  shapeCast S20000x256
    (Host.divf am
      (broadcastInDim S20000x8x32 ![0, 1, 2] bcast_S20000x8x1_S20000x8x32_0_1_2
        (broadcastInDim S20000x8x1 ![0, 1] bcast_S20000x8_S20000x8x1_0_1
          (maximumf aw
            (broadcastInDim S20000x8 ![] bcast_S_S20000x8 (constant (F := Ideal) S_ .f32 0x322BCC77#32))))))
    shapeCasts_S20000x8x32_S20000x256

/-- THE ATTENTION HALF OF ONE LAYER: from the node features, the three weight matrices and the query bias, the
    relation table and the four index columns, the aggregated attention output [20000, 256]. -/
def attnRef (x : FVec Ideal S20000x256 .f32) (Wq : FVec Ideal S256x256 .f32) (bq : FVec Ideal S256 .f32)
    (Wk Wv : FVec Ideal S256x256 .f32) (rel : FVec Ideal S100x32 .f32) (relI srcI dstI dstS : IVec S640000x1 32) :
    FVec Ideal S20000x256 .f32 :=
  quotRef
    (aggMsgRef
      (msgRef (gathRef (kvRef x Wv) srcI) (relRef rel relI)
        (sRef (scoreRef (gathRef (kvRef x Wk) srcI) (gathRef (qRef x Wq bq) dstI) (relRef rel relI))))
      dstS)
    (aggWRef (sRef (scoreRef (gathRef (kvRef x Wk) srcI) (gathRef (qRef x Wq bq) dstI) (relRef rel relI))) dstS)

end Cert.ReferenceIdeal.RefAttn

end
-- ==== Proof.RefPostDefs.lean ====
/-
  The feed-forward half of one layer of the reference, as one term.

  After the attention quotient o the reference projects it, adds the residual and a bias, normalises each row over
  its 256 columns, applies a two-layer perceptron with a rectifier, adds the residual and a bias, and normalises
  again.  Each definition below writes the operations of one stretch in the order and with the operation
  constants, dimension records and side-condition proofs the program prints them with; nothing is simplified.
  The two normalisations are the same operations of different operands: one function of the row array, the scale
  and the shift.
-/
import proofs.«175432_j21457656611019_1_alg».proof.ReferenceIdeal
import Idealize.ShloMosaic.PureOps.Ideal

noncomputable section

namespace Cert.ReferenceIdeal.RefPost

open Idealize.ShloMosaic Cert.ReferenceIdeal
open Facts₀ Facts

variable [Facts]

/-- A vector of 256 column values as a one-row array, then repeated down the 20000 rows. -/
def rows256 (b : FVec Ideal S256 .f32) : FVec Ideal S20000x256 .f32 :=
  broadcastInDim S20000x256 ![0, 1] bcast_S1x256_S20000x256_0_1
    (broadcastInDim S1x256 ![1] bcast_S256_S1x256_1 b : FVec Ideal S1x256 .f32)

/-- A vector of 1024 column values as a one-row array, then repeated down the 20000 rows. -/
def rows1024 (b : FVec Ideal S1024 .f32) : FVec Ideal S20000x1024 .f32 :=
  broadcastInDim S20000x1024 ![0, 1] bcast_S1x1024_S20000x1024_0_1
    (broadcastInDim S1x1024 ![1] bcast_S1024_S1x1024_1 b : FVec Ideal S1x1024 .f32)

/-- A column of 20000 row values repeated across the 256 columns. -/
def cols256 (c : FVec Ideal S20000x1 .f32) : FVec Ideal S20000x256 .f32 :=
  broadcastInDim S20000x256 ![0, 1] bcast_S20000x1_S20000x256_0_1 c

/-- A scalar repeated down a column of 20000 rows. -/
def colOf {α : Type} (c : S_.Idx → α) : S20000x1.Idx → α :=
  broadcastInDim S20000x1 ![] bcast_S_S20000x1 c

/-- The row sums from the zero pattern, kept as a column. -/
def rowSum (a : FVec Ideal S20000x256 .f32) : FVec Ideal S20000x1 .f32 :=
  broadcastInDim S20000x1 ![0] bcast_S20000_S20000x1_0
    (Host.reduceAdd a (constant (F := Ideal) S_ .f32 0x00000000#32) reducesTo_S20000x256_S20000_d1 h_S_
      : FVec Ideal S20000 .f32)

/-- The row means: the row sums over the pattern of 256. -/
def meanRef (a : FVec Ideal S20000x256 .f32) : FVec Ideal S20000x1 .f32 :=
  Host.divf (rowSum a) (colOf (constant (F := Ideal) S_ .f32 0x43800000#32))

/-- The count the variance divides by: the pattern of 256 less the correction word as a float. -/
def cntRef (c : IVec S_ 32) : FVec Ideal S_ .f32 :=
  subf (constant (F := Ideal) S_ .f32 0x43800000#32) (sitofp .f32 c)

/-- The row variances as the outlined function computes them: the row sums of the squared deviations from the
    row means over the count where the count is positive, the pattern 0x7FC00000 otherwise. -/
def varRef (a : FVec Ideal S20000x256 .f32) (c : IVec S_ 32) : FVec Ideal S20000x1 .f32 :=
  select (colOf (cmpf .ogt (cntRef c) (constant (F := Ideal) S_ .f32 0x00000000#32)))
    (Host.divf
      (rowSum (mulf (subf a (cols256 (meanRef a))) (subf a (cols256 (meanRef a)))))
      (colOf (cntRef c)))
    (colOf (id (constant (F := Ideal) S_ .f32 0x7FC00000#32)))

/-- One normalisation: the deviations from the row means, times the inverse square root of the row variance plus
    a constant, times the scale, plus the shift. -/
def lnRef (a : FVec Ideal S20000x256 .f32) (g b : FVec Ideal S256 .f32) : FVec Ideal S20000x256 .f32 :=
  addf
    (mulf
      (mulf (subf a (cols256 (meanRef a)))
        (cols256 (Host.rsqrt (addf (varRef a (constantI S_ 32 0#32))
          (colOf (constant (F := Ideal) S_ .f32 0x3727C5AC#32))))))
      (rows256 g))
    (rows256 b)

/-- The projection of o with the residual and the bias: (x + o · Wo) + bo. -/
def projRef (x o : FVec Ideal S20000x256 .f32) (Wo : FVec Ideal S256x256 .f32) (bo : FVec Ideal S256 .f32) :
    FVec Ideal S20000x256 .f32 :=
  addf (addf x (Host.dotGeneral dot_S20000x256_S256x256_S20000x256_1_0_0_1_n_n none o Wo)) (rows256 bo)

/-- The rectified hidden layer: max(h · W1 + c1, 0), the zero a broadcast zero pattern. -/
def hiddenRef (h : FVec Ideal S20000x256 .f32) (W1 : FVec Ideal S256x1024 .f32) (c1 : FVec Ideal S1024 .f32) :
    FVec Ideal S20000x1024 .f32 :=
  maximumf
    (addf (Host.dotGeneral dot_S20000x256_S256x1024_S20000x1024_1_0_0_1_n_n none h W1) (rows1024 c1))
    (broadcastInDim S20000x1024 ![] bcast_S_S20000x1024 (constant (F := Ideal) S_ .f32 0x00000000#32))

/-- The perceptron with the residual and the bias: (h + hidden · W2) + c2. -/
def mlpRef (h : FVec Ideal S20000x256 .f32) (W1 : FVec Ideal S256x1024 .f32) (c1 : FVec Ideal S1024 .f32)
    (W2 : FVec Ideal S1024x256 .f32) (c2 : FVec Ideal S256 .f32) : FVec Ideal S20000x256 .f32 :=
  addf (addf h (Host.dotGeneral dot_S20000x1024_S1024x256_S20000x256_1_0_0_1_n_n none (hiddenRef h W1 c1) W2))
    (rows256 c2)

/-- Everything the reference computes after the attention quotient o, in one layer. -/
def postRef (x o : FVec Ideal S20000x256 .f32) (Wo : FVec Ideal S256x256 .f32) (bo g1 b1 : FVec Ideal S256 .f32)
    (W1 : FVec Ideal S256x1024 .f32) (c1 : FVec Ideal S1024 .f32) (W2 : FVec Ideal S1024x256 .f32)
    (c2 g2 b2 : FVec Ideal S256 .f32) : FVec Ideal S20000x256 .f32 :=
  lnRef (mlpRef (lnRef (projRef x o Wo bo) g1 b1) W1 c1 W2 c2) g2 b2

end Cert.ReferenceIdeal.RefPost

end
-- ==== Proof.RefCut1.lean ====
/-
  Layer 1's attention segment read as one term of the contents it starts from.
-/
import proofs.«175432_j21457656611019_1_alg».proof.Proof.RefCutSegs
import proofs.«175432_j21457656611019_1_alg».proof.Proof.RDefs
import proofs.«175432_j21457656611019_1_alg».proof.Proof.RefAttnDefs
import proofs.«175432_j21457656611019_1_alg».proof.Proof.RefPostDefs
import Idealize.ShloMosaic.Lib.StableHlo.Run

set_option maxRecDepth 16384

noncomputable section

namespace Cert.ReferenceIdeal.RefCut

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.RDefs Cert.ReferenceIdeal.RefAttn Cert.ReferenceIdeal.RefPost

set_option maxHeartbeats 16000000

/-- The relation rows before the repetition over heads, as segment 1 leaves them. -/
theorem rel7 (V : Valuation τ sig (Elt Ideal)) :
    after seg1 V (Proc.devRef .tc main_v7)
      = broadcastInDim S640000x1x32 ![0, 2] bcast_S640000x32_S640000x1x32_0_2
          (Host.gather gather_S100x32_S640000x1_S640000x32_1_0_n_n_0_1_132 (V (Proc.devRef .tc main_arg1)) (normCol 100#32 (V (Proc.devRef .tc main_arg16)))) := by
  dsimp only [seg1]; after_results_simp
  rfl

/-- Layer 1's attention output. -/
theorem attn1 (V : Valuation τ sig (Elt Ideal)) :
    after seg1 V (Proc.devRef .tc main_v70)
      = attnRef (V (Proc.devRef .tc main_arg0)) (m0 (V (Proc.devRef .tc main_arg2))) (v0 (V (Proc.devRef .tc main_arg3))) (m0 (V (Proc.devRef .tc main_arg4))) (m0 (V (Proc.devRef .tc main_arg5)))
          (V (Proc.devRef .tc main_arg1)) (normCol 100#32 (V (Proc.devRef .tc main_arg16))) (normCol 20000#32 (V (Proc.devRef .tc main_arg17)))
          (normCol 20000#32 (V (Proc.devRef .tc main_arg18))) (rawCol (V (Proc.devRef .tc main_arg18))) := by
  dsimp only [seg1]; after_results_simp
  rfl

end Cert.ReferenceIdeal.RefCut

end
-- ==== Proof.RefCut2.lean ====
/-
  Layer 1's tail segment read as one term of the contents it starts from.
-/
import proofs.«175432_j21457656611019_1_alg».proof.Proof.RefCutSegs
import proofs.«175432_j21457656611019_1_alg».proof.Proof.RDefs
import proofs.«175432_j21457656611019_1_alg».proof.Proof.RefAttnDefs
import proofs.«175432_j21457656611019_1_alg».proof.Proof.RefPostDefs
import Idealize.ShloMosaic.Lib.StableHlo.Run

set_option maxRecDepth 16384

noncomputable section

namespace Cert.ReferenceIdeal.RefCut

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.RDefs Cert.ReferenceIdeal.RefAttn Cert.ReferenceIdeal.RefPost

set_option maxHeartbeats 16000000

/-- Layer 1's result. -/
theorem post1 (V : Valuation τ sig (Elt Ideal)) :
    after seg2 V (Proc.devRef .tc main_v141)
      = postRef (V (Proc.devRef .tc main_arg0)) (V (Proc.devRef .tc main_v70)) (m0 (V (Proc.devRef .tc main_arg6))) (v0 (V (Proc.devRef .tc main_arg7))) (v0 (V (Proc.devRef .tc main_arg8))) (v0 (V (Proc.devRef .tc main_arg9)))
          (u0 (V (Proc.devRef .tc main_arg10))) (w0 (V (Proc.devRef .tc main_arg11))) (d0 (V (Proc.devRef .tc main_arg12))) (v0 (V (Proc.devRef .tc main_arg13)))
          (v0 (V (Proc.devRef .tc main_arg14))) (v0 (V (Proc.devRef .tc main_arg15))) := by
  dsimp only [seg2]; after_results_simp
  rfl

end Cert.ReferenceIdeal.RefCut

end
-- ==== Proof.RefCut3.lean ====
/-
  Layer 2's attention segment read as one term of the contents it starts from; it reads the relation rows layer 1
  built.
-/
import proofs.«175432_j21457656611019_1_alg».proof.Proof.RefCutSegs
import proofs.«175432_j21457656611019_1_alg».proof.Proof.RDefs
import proofs.«175432_j21457656611019_1_alg».proof.Proof.RefAttnDefs
import proofs.«175432_j21457656611019_1_alg».proof.Proof.RefPostDefs
import Idealize.ShloMosaic.Lib.StableHlo.Run

set_option maxRecDepth 16384

noncomputable section

namespace Cert.ReferenceIdeal.RefCut

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.RDefs Cert.ReferenceIdeal.RefAttn Cert.ReferenceIdeal.RefPost

set_option maxHeartbeats 16000000

/-- Layer 2's attention output. -/
theorem attn2 (V : Valuation τ sig (Elt Ideal)) (rel : FVec Ideal S100x32 .f32) (relI : IVec S640000x1 32)
    (h7 : V (Proc.devRef .tc main_v7) = broadcastInDim S640000x1x32 ![0, 2] bcast_S640000x32_S640000x1x32_0_2
          (Host.gather gather_S100x32_S640000x1_S640000x32_1_0_n_n_0_1_132 rel relI)) :
    after seg3 V (Proc.devRef .tc main_v204)
      = attnRef (V (Proc.devRef .tc main_v141)) (m1 (V (Proc.devRef .tc main_arg2))) (v1 (V (Proc.devRef .tc main_arg3))) (m1 (V (Proc.devRef .tc main_arg4))) (m1 (V (Proc.devRef .tc main_arg5)))
          rel relI (normCol 20000#32 (V (Proc.devRef .tc main_arg17)))
          (normCol 20000#32 (V (Proc.devRef .tc main_arg18))) (rawCol (V (Proc.devRef .tc main_arg18))) := by
  dsimp only [seg3]; after_results_simp
  rw [h7]
  rfl

end Cert.ReferenceIdeal.RefCut

end
-- ==== Proof.RefCut4.lean ====
/-
  Layer 2's tail segment read as one term of the contents it starts from.
-/
import proofs.«175432_j21457656611019_1_alg».proof.Proof.RefCutSegs
import proofs.«175432_j21457656611019_1_alg».proof.Proof.RDefs
import proofs.«175432_j21457656611019_1_alg».proof.Proof.RefAttnDefs
import proofs.«175432_j21457656611019_1_alg».proof.Proof.RefPostDefs
import Idealize.ShloMosaic.Lib.StableHlo.Run

set_option maxRecDepth 16384

noncomputable section

namespace Cert.ReferenceIdeal.RefCut

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.RDefs Cert.ReferenceIdeal.RefAttn Cert.ReferenceIdeal.RefPost

set_option maxHeartbeats 16000000

/-- The program's result. -/
theorem post2 (V : Valuation τ sig (Elt Ideal)) :
    after seg4 V (Proc.devRef .tc main_v275)
      = postRef (V (Proc.devRef .tc main_v141)) (V (Proc.devRef .tc main_v204)) (m1 (V (Proc.devRef .tc main_arg6))) (v1 (V (Proc.devRef .tc main_arg7))) (v1 (V (Proc.devRef .tc main_arg8))) (v1 (V (Proc.devRef .tc main_arg9)))
          (u1 (V (Proc.devRef .tc main_arg10))) (w1 (V (Proc.devRef .tc main_arg11))) (d1 (V (Proc.devRef .tc main_arg12))) (v1 (V (Proc.devRef .tc main_arg13)))
          (v1 (V (Proc.devRef .tc main_arg14))) (v1 (V (Proc.devRef .tc main_arg15))) := by
  dsimp only [seg4]; after_results_simp
  rfl

end Cert.ReferenceIdeal.RefCut

end
-- ==== Proof.RefPostRead.lean ====
/-
  The reference's layout operations, row sums and matrix products read at an index.

  A vector of column values broadcast to a one-row array and then down the rows reads, at (n, j), the vector at j; a
  column of row values broadcast across the columns reads the column at n; a scalar broadcast down a column reads
  the scalar.  The host's sum over the second axis from the zero pattern is, at row n, the finite sum of the row's
  256 entries in the extended reals.  Each of the three matrix products contracts the left operand's second axis
  with the right operand's first and has no batch axis, so at (n, j) it is the sum over k of l[n, k] · r[k, j].
-/
import proofs.«175432_j21457656611019_1_alg».proof.Proof.RefPostDefs
import proofs.«175432_j21457656611019_1_alg».proof.Proof.LibPlainMatmul
import Idealize.ShloMosaic.Lib.IdealHost
import Idealize.ShloMosaic.Lib.Pipeline.Value

noncomputable section

open scoped BigOperators

namespace Cert.ReferenceIdeal.RefPost

open Idealize.ShloMosaic Idealize.ShloMosaic.ValueIdx Cert.ReferenceIdeal
open Facts₀ Facts

variable [Facts]

/-! ## Broadcasts -/

theorem rows256_apply (b : FVec Ideal S256 .f32) (n : Fin 20000) (j : Fin 256) :
    rows256 b (ix2 n j) = b (ix1 j) := by
  unfold rows256
  refine (broadcastInDim_apply ![0, 1] bcast_S1x256_S20000x256_0_1 _ (ix2 n j) (ix2 (0 : Fin 1) j)
    (fun c => by match c with | ⟨0, _⟩ => rfl | ⟨1, _⟩ => rfl)).trans ?_
  exact broadcastInDim_apply ![1] bcast_S256_S1x256_1 b (ix2 (0 : Fin 1) j) (ix1 j)
    (fun c => by match c with | ⟨0, _⟩ => rfl)

theorem rows1024_apply (b : FVec Ideal S1024 .f32) (n : Fin 20000) (j : Fin 1024) :
    rows1024 b (ix2 n j) = b (ix1 j) := by
  unfold rows1024
  refine (broadcastInDim_apply ![0, 1] bcast_S1x1024_S20000x1024_0_1 _ (ix2 n j) (ix2 (0 : Fin 1) j)
    (fun c => by match c with | ⟨0, _⟩ => rfl | ⟨1, _⟩ => rfl)).trans ?_
  exact broadcastInDim_apply ![1] bcast_S1024_S1x1024_1 b (ix2 (0 : Fin 1) j) (ix1 j)
    (fun c => by match c with | ⟨0, _⟩ => rfl)

theorem cols256_apply (c : FVec Ideal S20000x1 .f32) (n : Fin 20000) (j : Fin 256) :
    cols256 c (ix2 n j) = c (ix2 n (0 : Fin 1)) := by
  unfold cols256
  exact broadcastInDim_apply ![0, 1] bcast_S20000x1_S20000x256_0_1 c (ix2 n j) (ix2 n (0 : Fin 1))
    (fun a => by match a with | ⟨0, _⟩ => rfl | ⟨1, _⟩ => rfl)

theorem colOf_apply {α : Type} (c : S_.Idx → α) (i : S20000x1.Idx) : colOf c i = c ix0 := by
  unfold colOf
  exact broadcastInDim_scalar_apply bcast_S_S20000x1 c i

/-! ## Row sums -/

/-- A vector of row values kept as a column reads, at row n, the vector at n. -/
theorem keepCol_apply (v : FVec Ideal S20000 .f32) (n : Fin 20000) :
    broadcastInDim S20000x1 ![0] bcast_S20000_S20000x1_0 v (ix2 n (0 : Fin 1)) = v (ix1 n) :=
  broadcastInDim_apply ![0] bcast_S20000_S20000x1_0 v (ix2 n (0 : Fin 1)) (ix1 n)
    (fun c => by match c with | ⟨0, _⟩ => rfl)

/-- The host's sum over the second axis from the zero pattern, at row n: the sum of the row's entries. -/
theorem reduceRow_apply (a : FVec Ideal S20000x256 .f32) (n : Fin 20000) :
    (Host.reduceAdd a (constant (F := Ideal) S_ .f32 0x00000000#32) reducesTo_S20000x256_S20000_d1 h_S_
      : FVec Ideal S20000 .f32) (ix1 n) = ∑ t : Fin 256, a (ix2 n t) := by
  refine (hostReduceAdd_apply a _ reducesTo_S20000x256_S20000_d1 h_S_ (ix1 n)).trans ?_
  refine (Ideal.hostReduceAdd_single reducesTo_S20000x256_S20000_d1
    (by decide : S20000x256.Reduces [1] S20000) a _ (ix1 n)).trans ?_
  rw [constant_apply, Ideal.ofBits_zero_f32, zero_add]
  exact Finset.sum_congr rfl fun k _ => congrArg a
    (funext fun c => Fin.ext (by match c with | ⟨0, _⟩ => rfl | ⟨1, _⟩ => rfl))

/-- The row sum kept as a column, at row n. -/
theorem rowSum_apply (a : FVec Ideal S20000x256 .f32) (n : Fin 20000) :
    rowSum a (ix2 n (0 : Fin 1)) = ∑ t : Fin 256, a (ix2 n t) := by
  unfold rowSum
  exact (keepCol_apply _ n).trans (reduceRow_apply a n)

/-! ## The three matrix products -/

theorem dotWo_apply (o : FVec Ideal S20000x256 .f32) (Wo : FVec Ideal S256x256 .f32) (n : Fin 20000) (j : Fin 256) :
    Host.dotGeneral (F := Ideal) dot_S20000x256_S256x256_S20000x256_1_0_0_1_n_n none o Wo (ix2 n j)
      = ∑ k : Fin 256, o (ix2 n k) * Wo (ix2 k j) :=
  (Ideal.dotGeneral_apply dot_S20000x256_S256x256_S20000x256_1_0_0_1_n_n none .single o Wo (ix2 n j)).trans
    (PlainMatmul.contr_sum dot_S20000x256_S256x256_S20000x256_1_0_0_1_n_n rfl rfl
      (fun _ _ => rfl) (fun _ _ => rfl) (fun _ _ => rfl) (fun _ _ => rfl) o Wo n j)

theorem dotW1_apply (h : FVec Ideal S20000x256 .f32) (W1 : FVec Ideal S256x1024 .f32) (n : Fin 20000) (t : Fin 1024) :
    Host.dotGeneral (F := Ideal) dot_S20000x256_S256x1024_S20000x1024_1_0_0_1_n_n none h W1 (ix2 n t)
      = ∑ k : Fin 256, h (ix2 n k) * W1 (ix2 k t) :=
  (Ideal.dotGeneral_apply dot_S20000x256_S256x1024_S20000x1024_1_0_0_1_n_n none .single h W1 (ix2 n t)).trans
    (PlainMatmul.contr_sum dot_S20000x256_S256x1024_S20000x1024_1_0_0_1_n_n rfl rfl
      (fun _ _ => rfl) (fun _ _ => rfl) (fun _ _ => rfl) (fun _ _ => rfl) h W1 n t)

theorem dotW2_apply (u : FVec Ideal S20000x1024 .f32) (W2 : FVec Ideal S1024x256 .f32) (n : Fin 20000) (j : Fin 256) :
    Host.dotGeneral (F := Ideal) dot_S20000x1024_S1024x256_S20000x256_1_0_0_1_n_n none u W2 (ix2 n j)
      = ∑ t : Fin 1024, u (ix2 n t) * W2 (ix2 t j) :=
  (Ideal.dotGeneral_apply dot_S20000x1024_S1024x256_S20000x256_1_0_0_1_n_n none .single u W2 (ix2 n j)).trans
    (PlainMatmul.contr_sum dot_S20000x1024_S1024x256_S20000x256_1_0_0_1_n_n rfl rfl
      (fun _ _ => rfl) (fun _ _ => rfl) (fun _ _ => rfl) (fun _ _ => rfl) u W2 n j)

end Cert.ReferenceIdeal.RefPost

end
-- ==== Proof.RefPostNorm.lean ====
/-
  One normalisation of the reference, read at an index, is the specification's.

  The row mean is the row sum over the pattern of 256.  The outlined variance divides the row sum of the squared
  deviations by the pattern of 256 less the float of the zero word, under a selection on that count being positive:
  the pattern of 256 denotes the real 256, the zero word converts to 0, x - 0 = x and 0 < 256, so the selection
  takes the quotient and the divisor is the pattern of 256 itself.  The outlined function recomputes the row mean of
  its operand by the same operations, so its deviations are the outer ones.  With the inverse square root, the scale
  and the shift read at (n, j), the normalised entry is the specification's expression in the row t ↦ a[n, t].
-/
import proofs.«175432_j21457656611019_1_alg».proof.Proof.RefPostRead
import proofs.«175432_j21457656611019_1_alg».proof.Proof.Spec

noncomputable section

open scoped BigOperators

namespace Cert.ReferenceIdeal.RefPost

open Idealize.ShloMosaic Idealize.ShloMosaic.ValueIdx Cert.ReferenceIdeal
open Facts₀ Facts

variable [Facts]

/-- The pattern 0x43800000 denotes the real 256. -/
theorem ofBits_256 : Ideal.ofBits .f32 0x43800000#32 = ((256 : ℝ) : EReal) := by
  simp [Ideal.ofBits, Ideal.ieee, -EReal.coe_mul]; norm_num

/-- The host's inverse square root at an index. -/
theorem hostRsqrt_apply {s : Shape} {φ : FTy} (a : FVec Ideal s φ) (i : s.Idx) :
    Host.rsqrt a i = Ideal.rsqrt (a i) := rfl

/-- The row mean at row n. -/
theorem meanRef_apply (a : FVec Ideal S20000x256 .f32) (n : Fin 20000) :
    meanRef a (ix2 n (0 : Fin 1))
      = Ideal.div (∑ t : Fin 256, a (ix2 n t)) (Ideal.ofBits .f32 0x43800000#32) := by
  unfold meanRef
  rw [hostDivf_apply, rowSum_apply, colOf_apply, constant_apply]

/-- The count with the zero correction word is the pattern of 256. -/
theorem cntRef_zero : cntRef (constantI S_ 32 0#32) ix0 = Ideal.ofBits .f32 0x43800000#32 := by
  show Ideal.ofBits .f32 0x43800000#32 - ((((0#32 : BitVec 32).toInt : ℤ) : ℝ) : EReal) = _
  have h0 : (0#32 : BitVec 32).toInt = 0 := by decide
  rw [h0, Int.cast_zero, EReal.coe_zero, sub_zero]

/-- The selection's condition holds: the count is positive. -/
theorem cnt_pos :
    cmpf .ogt (cntRef (constantI S_ 32 0#32)) (constant (F := Ideal) S_ .f32 0x00000000#32) ix0 = 1#1 := by
  show Ideal.cmp .ogt (cntRef (constantI S_ 32 0#32) ix0) (Ideal.ofBits .f32 0x00000000#32) = 1#1
  rw [cntRef_zero, Ideal.ofBits_zero_f32, ofBits_256]
  have hpos : (0 : EReal) < ((256 : ℝ) : EReal) := EReal.coe_pos.mpr (by norm_num)
  show BitVec.ofBool (decide ((0 : EReal) < ((256 : ℝ) : EReal))) = 1#1
  rw [decide_eq_true hpos]; rfl

/-- The outlined variance at row n: the sum of the squared deviations from the row mean over the pattern of 256. -/
theorem varRef_apply (a : FVec Ideal S20000x256 .f32) (n : Fin 20000) :
    varRef a (constantI S_ 32 0#32) (ix2 n (0 : Fin 1))
      = Ideal.div (∑ t : Fin 256,
          (a (ix2 n t) - Ideal.div (∑ t : Fin 256, a (ix2 n t)) (Ideal.ofBits .f32 0x43800000#32))
            * (a (ix2 n t) - Ideal.div (∑ t : Fin 256, a (ix2 n t)) (Ideal.ofBits .f32 0x43800000#32)))
          (Ideal.ofBits .f32 0x43800000#32) := by
  unfold varRef
  rw [select_apply, colOf_apply, cnt_pos, select_one, hostDivf_apply, rowSum_apply, colOf_apply, cntRef_zero]
  refine congrArg (fun s => Ideal.div s (Ideal.ofBits .f32 0x43800000#32)) ?_
  refine Finset.sum_congr rfl fun t _ => ?_
  rw [mulf_apply, subf_apply, cols256_apply, meanRef_apply]

/-- One normalisation at (n, j) is the specification's normalisation of the row t ↦ a[n, t] at column j. -/
theorem lnRef_apply (a : FVec Ideal S20000x256 .f32) (g b : FVec Ideal S256 .f32) (n : Fin 20000) (j : Fin 256) :
    lnRef a g b (ix2 n j) = Cert.Spec.norm (fun t => a (ix2 n t)) g b j := by
  unfold lnRef Cert.Spec.norm
  rw [addf_apply, mulf_apply, mulf_apply, subf_apply, rows256_apply, rows256_apply, cols256_apply, cols256_apply,
    meanRef_apply, hostRsqrt_apply, addf_apply, varRef_apply, colOf_apply, constant_apply]

end Cert.ReferenceIdeal.RefPost

end
-- ==== Proof.RefPost.lean ====
/-
  The feed-forward half of the reference is the specification's.

  Read at (n, j): the projection with its residual and bias is (x + Σ_k o[n, k] · Wo[k, j]) + bo[j], which is the
  specification's x + (Σ + bo) by associativity of addition in the extended reals (an additive commutative monoid:
  no entry needs to be finite); its normalisation is the specification's first normalised row; the rectified hidden
  layer is max(Σ_k h[n, k] · W1[k, t] + c1[t], 0), the rectifier's zero being the zero pattern; the perceptron with
  its residual and bias is again regrouped by associativity; the second normalisation gives the result.
-/
import proofs.«175432_j21457656611019_1_alg».proof.Proof.RefPostNorm

noncomputable section

open scoped BigOperators

namespace Cert.ReferenceIdeal.RefPost

open Idealize.ShloMosaic Idealize.ShloMosaic.ValueIdx Cert.ReferenceIdeal
open Facts₀ Facts

variable [Facts]

/-- The projection with its residual and bias at (n, j). -/
theorem projRef_apply (x o : FVec Ideal S20000x256 .f32) (Wo : FVec Ideal S256x256 .f32) (bo : FVec Ideal S256 .f32)
    (n : Fin 20000) (j : Fin 256) :
    projRef x o Wo bo (ix2 n j) = (x (ix2 n j) + ∑ k : Fin 256, o (ix2 n k) * Wo (ix2 k j)) + bo (ix1 j) := by
  unfold projRef
  rw [addf_apply, addf_apply, dotWo_apply, rows256_apply]

/-- The rectified hidden layer at (n, t). -/
theorem hiddenRef_apply (h : FVec Ideal S20000x256 .f32) (W1 : FVec Ideal S256x1024 .f32) (c1 : FVec Ideal S1024 .f32)
    (n : Fin 20000) (t : Fin 1024) :
    hiddenRef h W1 c1 (ix2 n t) = max ((∑ k : Fin 256, h (ix2 n k) * W1 (ix2 k t)) + c1 (ix1 t)) 0 := by
  unfold hiddenRef
  rw [maximumf_apply, addf_apply, dotW1_apply, rows1024_apply, broadcastInDim_scalar_apply, constant_apply,
    Ideal.ofBits_zero_f32]

/-- The perceptron with its residual and bias at (n, j). -/
theorem mlpRef_apply (h : FVec Ideal S20000x256 .f32) (W1 : FVec Ideal S256x1024 .f32) (c1 : FVec Ideal S1024 .f32)
    (W2 : FVec Ideal S1024x256 .f32) (c2 : FVec Ideal S256 .f32) (n : Fin 20000) (j : Fin 256) :
    mlpRef h W1 c1 W2 c2 (ix2 n j)
      = (h (ix2 n j) + ∑ t : Fin 1024, hiddenRef h W1 c1 (ix2 n t) * W2 (ix2 t j)) + c2 (ix1 j) := by
  unfold mlpRef
  rw [addf_apply, addf_apply, dotW2_apply, rows256_apply]

/-- The first normalised array is the specification's, entry by entry. -/
theorem h1_apply (x o : FVec Ideal S20000x256 .f32) (P : Cert.Spec.Params) (n : Fin 20000) (t : Fin 256) :
    lnRef (projRef x o P.Wo P.bo) P.g1 P.b1 (ix2 n t) = Cert.Spec.h1 x o P n t := by
  rw [lnRef_apply]
  unfold Cert.Spec.h1
  exact congrArg (fun f => Cert.Spec.norm f P.g1 P.b1 t) (funext fun s => by
    rw [projRef_apply]; unfold Cert.Spec.hpre; exact add_assoc _ _ _)

/-- The rectified hidden layer is the specification's, entry by entry. -/
theorem up_apply (x o : FVec Ideal S20000x256 .f32) (P : Cert.Spec.Params) (n : Fin 20000) (t : Fin 1024) :
    hiddenRef (lnRef (projRef x o P.Wo P.bo) P.g1 P.b1) P.W1 P.c1 (ix2 n t) = Cert.Spec.up x o P n t := by
  rw [hiddenRef_apply]
  unfold Cert.Spec.up
  simp only [h1_apply]

/-- The array before the second normalisation is the specification's, entry by entry. -/
theorem ypre_apply (x o : FVec Ideal S20000x256 .f32) (P : Cert.Spec.Params) (n : Fin 20000) (j : Fin 256) :
    mlpRef (lnRef (projRef x o P.Wo P.bo) P.g1 P.b1) P.W1 P.c1 P.W2 P.c2 (ix2 n j) = Cert.Spec.ypre x o P n j := by
  rw [mlpRef_apply]
  unfold Cert.Spec.ypre
  simp only [h1_apply, up_apply]
  exact add_assoc _ _ _

/-- The feed-forward half at (n, j). -/
theorem postRef_apply (x o : FVec Ideal S20000x256 .f32) (P : Cert.Spec.Params) (n : Fin 20000) (j : Fin 256) :
    postRef x o P.Wo P.bo P.g1 P.b1 P.W1 P.c1 P.W2 P.c2 P.g2 P.b2 (ix2 n j) = Cert.Spec.postO x o P (ix2 n j) := by
  unfold postRef
  rw [lnRef_apply]
  show _ = Cert.Spec.norm (Cert.Spec.ypre x o P n) P.g2 P.b2 j
  exact congrArg (fun f => Cert.Spec.norm f P.g2 P.b2 j) (funext fun s => ypre_apply x o P n s)

/-- The feed-forward half of the reference is the specification's, for any parameter record. -/
theorem postRef_eq (x o : FVec Ideal S20000x256 .f32) (P : Cert.Spec.Params) :
    postRef x o P.Wo P.bo P.g1 P.b1 P.W1 P.c1 P.W2 P.c2 P.g2 P.b2 = Cert.Spec.postO x o P := by
  funext i
  obtain ⟨n, j, rfl⟩ : ∃ (n : Fin 20000) (j : Fin 256), i = ix2 n j := ⟨i 0, i 1, eq_ix2 i⟩
  exact postRef_apply x o P n j

/-- The same with the weights as separate arrays; the three attention maps and the query bias, which this half does
    not read, are zero in the record. -/
theorem postRef_eq_postO (x o : FVec Ideal S20000x256 .f32) (Wo : FVec Ideal S256x256 .f32)
    (bo g1 b1 : FVec Ideal S256 .f32) (W1 : FVec Ideal S256x1024 .f32) (c1 : FVec Ideal S1024 .f32)
    (W2 : FVec Ideal S1024x256 .f32) (c2 g2 b2 : FVec Ideal S256 .f32) :
    postRef x o Wo bo g1 b1 W1 c1 W2 c2 g2 b2
      = Cert.Spec.postO x o {
          Wq := fun _ => 0, Wk := fun _ => 0, Wv := fun _ => 0, bq := fun _ => 0, Wo := Wo, bo := bo,
          g1 := g1, b1 := b1, W1 := W1, c1 := c1, W2 := W2, c2 := c2, g2 := g2, b2 := b2 } :=
  postRef_eq x o {
    Wq := fun _ => 0, Wk := fun _ => 0, Wv := fun _ => 0, bq := fun _ => 0, Wo := Wo, bo := bo,
    g1 := g1, b1 := b1, W1 := W1, c1 := c1, W2 := W2, c2 := c2, g2 := g2, b2 := b2 }

end Cert.ReferenceIdeal.RefPost

end
-- ==== Proof.RefAttnLin.lean ====
/-
  The linear maps of the reference's attention half, read at an index.

  The host's contraction of the node features with a weight matrix is, at (n, j), the sum over k of
  x[n, k] · W[k, j]; the bias row, broadcast first to one row and then over the nodes, reads b[j]; and cutting the
  256 columns into eight heads of width 32 reads column 32·h + d at (n, h, d), since both layouts are row-major.
  So the key and value tables by heads are the specification's linear map at column 32·h + d, and the query table
  is the biased one.
-/
import proofs.«175432_j21457656611019_1_alg».proof.Proof.RefAttnDefs
import proofs.«175432_j21457656611019_1_alg».proof.Proof.Spec
import proofs.«175432_j21457656611019_1_alg».proof.Proof.LibPlainMatmul
import Idealize.ShloMosaic.Lib.Pipeline.Value
import Idealize.ShloMosaic.Lib.IdealHost

noncomputable section

open scoped BigOperators

namespace Cert.ReferenceIdeal.RefAttn

open Idealize.ShloMosaic Idealize.ShloMosaic.ValueIdx Cert.ReferenceIdeal Cert.ReferenceIdeal.Facts₀

variable [Facts]

/-- The contraction at (n, j): the sum over the 256 shared coordinates. -/
theorem linRef_apply (x : FVec Ideal S20000x256 .f32) (W : FVec Ideal S256x256 .f32) (n : Fin 20000) (j : Fin 256) :
    linRef x W (ix2 n j) = ∑ k : Fin 256, x (ix2 n k) * W (ix2 k j) := by
  unfold linRef
  exact (Ideal.dotGeneral_apply dot_S20000x256_S256x256_S20000x256_1_0_0_1_n_n none .single x W (ix2 n j)).trans
    (PlainMatmul.contr_sum dot_S20000x256_S256x256_S20000x256_1_0_0_1_n_n rfl rfl
      (fun _ _ => rfl) (fun _ _ => rfl) (fun _ _ => rfl) (fun _ _ => rfl) x W n j)

/-- The contraction is the specification's linear map. -/
theorem linRef_eq (x : FVec Ideal S20000x256 .f32) (W : FVec Ideal S256x256 .f32) (n : Fin 20000) (j : Fin 256) :
    linRef x W (ix2 n j) = Cert.Spec.linArr x W (ix2 n j) :=
  linRef_apply x W n j

/-- The broadcast bias at (n, j) is b[j]. -/
theorem biasRef_apply (b : FVec Ideal S256 .f32) (n : Fin 20000) (j : Fin 256) : biasRef b (ix2 n j) = b (ix1 j) := by
  unfold biasRef
  refine (broadcastInDim_apply _ _ _ (ix2 n j) (ix2 (0 : Fin 1) j) (fun a => ?_)).trans ?_
  · match a with
    | ⟨0, _⟩ => rfl
    | ⟨1, _⟩ => rfl
  · refine broadcastInDim_apply _ _ _ (ix2 (0 : Fin 1) j) (ix1 j) (fun a => ?_)
    match a with
    | ⟨0, _⟩ => rfl

/-- Cutting the columns into heads: (n, h, d) reads column 32·h + d. -/
theorem headsRef_apply (y : FVec Ideal S20000x256 .f32) (n : Fin 20000) (h : Fin 8) (d : Fin 32) :
    headsRef y (ix3 n h d) = y (ix2 n (Cert.Spec.col h d)) := by
  unfold headsRef
  refine shapeCast_apply y _ (ix3 n h d) (ix2 n (Cert.Spec.col h d)) ?_
  rw [Shape.rowMajor_val_two, Shape.rowMajor_val_three]
  show n.val * 256 + (32 * h.val + d.val) = (n.val * 8 + h.val) * 32 + d.val
  omega

/-- The key (or value) table by heads is the specification's linear map at column 32·h + d. -/
theorem kvRef_apply (x : FVec Ideal S20000x256 .f32) (W : FVec Ideal S256x256 .f32) (n : Fin 20000) (h : Fin 8)
    (d : Fin 32) : kvRef x W (ix3 n h d) = Cert.Spec.linArr x W (ix2 n (Cert.Spec.col h d)) := by
  unfold kvRef
  rw [headsRef_apply]
  exact linRef_apply x W n _

/-- The query table by heads is the specification's biased linear map at column 32·h + d. -/
theorem qRef_apply (x : FVec Ideal S20000x256 .f32) (Wq : FVec Ideal S256x256 .f32) (bq : FVec Ideal S256 .f32)
    (n : Fin 20000) (h : Fin 8) (d : Fin 32) :
    qRef x Wq bq (ix3 n h d) = Cert.Spec.linBiasArr x Wq bq (ix2 n (Cert.Spec.col h d)) := by
  unfold qRef
  rw [headsRef_apply]
  show linRef x Wq (ix2 n (Cert.Spec.col h d)) + biasRef bq (ix2 n (Cert.Spec.col h d)) = _
  rw [linRef_apply, biasRef_apply]
  rfl

end Cert.ReferenceIdeal.RefAttn

end
-- ==== Proof.LibGatherRows3.lean ====
/-
  A row gather of a rank-three table read at an index.

  `x[idx]` of a table `x : [N, H, D]` at a vector of row numbers lowers to a gather whose start indices are the
  column `idx : [E, 1]`, with the row axis collapsed, the two other axes the offset axes, and slices of one whole
  row.  Result element `(e, h, d)` is `x` at row `idx[e, 0]` — read as a signed integer and clamped into
  `[0, N − 1]`, as the gather clamps every start index — and at `(h, d)` inside the row.
-/
import Idealize.ShloMosaic.PureOps.ShapeOps
import Idealize.ShloMosaic.Lib.ValueIdx

noncomputable section

namespace Idealize.ShloMosaic.GatherRows3

open Idealize.ShloMosaic Idealize.ShloMosaic.ValueIdx

variable {α : Type}

/-- The dimension numbers of a row gather for an operand `[N, H, D]`, start indices `[E, 1]` and result
    `[E, H, D]`; their conditions `wf` are decided on a program's literal shapes. -/
abbrev rowsDims (N H D E : Nat)
    (wf : GatherDims.WF ⟨3, ![N, H, D]⟩ ⟨2, ![E, 1]⟩ ⟨3, ![E, H, D]⟩ [1, 2] [0] [] [0] [] 1 ![1, H, D]) :
    GatherDims ⟨3, ![N, H, D]⟩ ⟨2, ![E, 1]⟩ ⟨3, ![E, H, D]⟩ where
  offsetDims := [1, 2]
  collapsedSliceDims := [0]
  operandBatchingDims := []
  startIndicesBatchingDims := []
  startIndexMap := [0]
  indexVectorDim := 1
  sliceSizes := ![1, H, D]
  wf := wf

/-- THE ROW GATHER READ AT `(e, h, d)`: the operand at the row `idx[e, 0]`, read signed and clamped into
    `[0, N − 1]`, and at `(h, d)` inside it. -/
theorem gather_rows_apply {N H D E w : Nat} (hN : 0 < N)
    (wf : GatherDims.WF ⟨3, ![N, H, D]⟩ ⟨2, ![E, 1]⟩ ⟨3, ![E, H, D]⟩ [1, 2] [0] [] [0] [] 1 ![1, H, D])
    (x : (⟨3, ![N, H, D]⟩ : Shape).Idx → α) (idx : IVec ⟨2, ![E, 1]⟩ w) (e : Fin E) (h : Fin H) (d : Fin D) :
    Host.gather (rowsDims N H D E wf) x idx (ix3 e h d)
      = x (ix3 ⟨min (idx (ix2 e (0 : Fin 1))).toInt.toNat (N - 1), by omega⟩ h d) := by
  have h0 : ((rowsDims N H D E wf).operandIdx (ix3 e h d) idx (0 : Fin 3)).val
      = min (idx (ix2 e (0 : Fin 1))).toInt.toNat (N - 1) := by
    show (rowsDims N H D E wf).start (ix3 e h d) idx (0 : Fin 3)
        + (rowsDims N H D E wf).batchCoord (ix3 e h d) (0 : Fin 3)
        + (rowsDims N H D E wf).offCoord (ix3 e h d) (0 : Fin 3) = _
    rw [GatherDims.batchCoord_eq_zero _ _ _ List.not_mem_nil, Nat.add_zero,
      GatherDims.offCoord_eq_zero _ _ _ (fun hm => ((GatherDims.mem_sKept _ _).mp hm).1 (List.mem_singleton.mpr rfl)),
      Nat.add_zero]
    unfold GatherDims.start
    rw [dif_pos (show (0 : Fin 3) ∈ (rowsDims N H D E wf).startIndexMap from List.mem_singleton.mpr rfl)]
    have hsi : (rowsDims N H D E wf).siIdx (ix3 e h d)
        ⟨List.idxOf (0 : Fin 3) (rowsDims N H D E wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : ((rowsDims N H D E wf).operandIdx (ix3 e h d) idx (1 : Fin 3)).val = h.val := by
    show (rowsDims N H D E wf).start (ix3 e h d) idx (1 : Fin 3)
        + (rowsDims N H D E wf).batchCoord (ix3 e h d) (1 : Fin 3)
        + (rowsDims N H D E wf).offCoord (ix3 e h d) (1 : Fin 3) = _
    have hs : (rowsDims N H D E wf).start (ix3 e h d) idx (1 : Fin 3) = 0 := by
      unfold GatherDims.start
      rw [dif_neg (show ¬ (1 : Fin 3) ∈ ([0] : List (Fin 3)) by decide)]
    have hk : (1 : Fin 3) ∈ (rowsDims N H D E wf).sKept :=
      (GatherDims.mem_sKept _ _).mpr ⟨(show ¬ (1 : Fin 3) ∈ ([0] : List (Fin 3)) by decide), List.not_mem_nil⟩
    rw [hs, GatherDims.batchCoord_eq_zero _ _ _ List.not_mem_nil, Nat.add_zero, Nat.zero_add]
    unfold GatherDims.offCoord
    rw [dif_pos hk]
    rfl
  have h2 : ((rowsDims N H D E wf).operandIdx (ix3 e h d) idx (2 : Fin 3)).val = d.val := by
    show (rowsDims N H D E wf).start (ix3 e h d) idx (2 : Fin 3)
        + (rowsDims N H D E wf).batchCoord (ix3 e h d) (2 : Fin 3)
        + (rowsDims N H D E wf).offCoord (ix3 e h d) (2 : Fin 3) = _
    have hs : (rowsDims N H D E wf).start (ix3 e h d) idx (2 : Fin 3) = 0 := by
      unfold GatherDims.start
      rw [dif_neg (show ¬ (2 : Fin 3) ∈ ([0] : List (Fin 3)) by decide)]
    have hk : (2 : Fin 3) ∈ (rowsDims N H D E wf).sKept :=
      (GatherDims.mem_sKept _ _).mpr ⟨(show ¬ (2 : Fin 3) ∈ ([0] : List (Fin 3)) by decide), List.not_mem_nil⟩
    rw [hs, GatherDims.batchCoord_eq_zero _ _ _ List.not_mem_nil, Nat.add_zero, Nat.zero_add]
    unfold GatherDims.offCoord
    rw [dif_pos hk]
    rfl
  unfold Host.gather
  congr 1
  funext a
  refine Fin.ext ?_
  match a with
  | ⟨0, _⟩ => exact h0
  | ⟨1, _⟩ => exact h1
  | ⟨2, _⟩ => exact h2

end Idealize.ShloMosaic.GatherRows3

end
-- ==== Proof.RefAttnGather.lean ====
/-
  The rows the edges read, at an index.

  An edge reads the key and value rows of its source node and the query row of its destination node: the gather
  reads its start index signed and clamps it into the table, and hands over the whole row, so entry (e, h, d) of
  the result is the table at (row(e), h, d).  The relation row of an edge is read the same way from the relation
  table and then repeated over the eight heads: entry (e, h, d) is the relation table at (row(e), d), whatever h.
-/
import proofs.«175432_j21457656611019_1_alg».proof.Proof.RefAttnDefs
import proofs.«175432_j21457656611019_1_alg».proof.Proof.Spec
import proofs.«175432_j21457656611019_1_alg».proof.Proof.LibGatherRows
import proofs.«175432_j21457656611019_1_alg».proof.Proof.LibGatherRows3
import Idealize.ShloMosaic.Lib.Pipeline.Value

noncomputable section

namespace Cert.ReferenceIdeal.RefAttn

open Idealize.ShloMosaic Idealize.ShloMosaic.ValueIdx Cert.ReferenceIdeal Cert.ReferenceIdeal.Facts₀

variable [Facts]

/-- A gathered node table at (e, h, d): the table at the clamped row of edge e. -/
theorem gathRef_apply (T : FVec Ideal S20000x8x32 .f32) (I : IVec S640000x1 32) (e : Fin 640000) (h : Fin 8)
    (d : Fin 32) : gathRef T I (ix3 e h d) = T (ix3 (Cert.Spec.row 20000 (by omega) I e) h d) := by
  unfold gathRef
  exact GatherRows3.gather_rows_apply (N := 20000) (H := 8) (D := 32) (E := 640000) (by omega)
    gather_S20000x8x32_S640000x1_S640000x8x32_12_0_n_n_0_1_1832_wf T I e h d

/-- The repeated relation rows at (e, h, d): the relation table at the clamped row of edge e, lane d. -/
theorem relRef_apply (rel : FVec Ideal S100x32 .f32) (relI : IVec S640000x1 32) (e : Fin 640000) (h : Fin 8)
    (d : Fin 32) : relRef rel relI (ix3 e h d) = rel (ix2 (Cert.Spec.row 100 (by omega) relI e) d) := by
  unfold relRef
  refine (broadcastInDim_apply _ _ _ (ix3 e h d) (ix3 e (0 : Fin 1) d) (fun a => ?_)).trans ?_
  · match a with
    | ⟨0, _⟩ => rfl
    | ⟨1, _⟩ => rfl
    | ⟨2, _⟩ => rfl
  · refine (broadcastInDim_apply _ _ _ (ix3 e (0 : Fin 1) d) (ix2 e d) (fun a => ?_)).trans ?_
    · match a with
      | ⟨0, _⟩ => rfl
      | ⟨1, _⟩ => rfl
    · exact GatherRows.gather_rows_apply (N := 100) (C := 32) (E := 640000) (by omega)
        gather_S100x32_S640000x1_S640000x32_1_0_n_n_0_1_132_wf rel relI e d

/-- The repeated relation rows are the specification's, at column 32·h + d. -/
theorem relRef_eq (rel : FVec Ideal S100x32 .f32) (relI : IVec S640000x1 32) (e : Fin 640000) (h : Fin 8)
    (d : Fin 32) : relRef rel relI (ix3 e h d) = Cert.Spec.relRows rel relI (ix2 e (Cert.Spec.col h d)) := by
  rw [relRef_apply]
  simp only [Cert.Spec.relRows, Cert.Spec.r0_ix2, Cert.Spec.r1_ix2, Cert.Spec.lane_col]

/-- A gathered table whose entries are a two-axis array's at column 32·h + d is the specification's row gather of
    that array. -/
theorem gathRef_eq (T : FVec Ideal S20000x8x32 .f32) (A : Cert.Spec.Arr2 20000 256) (I : IVec S640000x1 32)
    (hT : ∀ (n : Fin 20000) (h : Fin 8) (d : Fin 32), T (ix3 n h d) = A (ix2 n (Cert.Spec.col h d)))
    (e : Fin 640000) (h : Fin 8) (d : Fin 32) :
    gathRef T I (ix3 e h d) = Cert.Spec.gathRows A I (ix2 e (Cert.Spec.col h d)) := by
  rw [gathRef_apply, hT]
  simp only [Cert.Spec.gathRows, Cert.Spec.r0_ix2, Cert.Spec.r1_ix2]

end Cert.ReferenceIdeal.RefAttn

end
-- ==== Proof.RefAttnScore.lean ====
/-
  The edge weights and messages, at an index.

  Per edge e and head h the score is the sum over the head's 32 lanes of (key + relation) · query — the host's sum
  over the last axis from the initial value zero —, divided by the scale constant; it is clamped from below and then
  from above by the two broadcast bounds and exponentiated.  The message at (e, h, d) is (value + relation) times
  that weight, which the two broadcasts repeat over the lanes.
-/
import proofs.«175432_j21457656611019_1_alg».proof.Proof.RefAttnDefs
import Idealize.ShloMosaic.Lib.Pipeline.Value
import Idealize.ShloMosaic.Lib.IdealHost

noncomputable section

open scoped BigOperators

namespace Cert.ReferenceIdeal.RefAttn

open Idealize.ShloMosaic Idealize.ShloMosaic.ValueIdx Cert.ReferenceIdeal Cert.ReferenceIdeal.Facts₀

variable [Facts]

/-- Dropping the lane axis of [640000, 8, 32] leaves [640000, 8]. -/
theorem reduces_lanes : Shape.Reduces S640000x8x32 [2] S640000x8 := by decide

/-- The host's sum over the lane axis from zero, at (e, h): the sum over the 32 lanes. -/
theorem laneSum_apply (X : FVec Ideal S640000x8x32 .f32) (e : Fin 640000) (h : Fin 8) :
    Host.reduceAdd X (constant (F := Ideal) S_ .f32 0x00000000#32) reducesTo_S640000x8x32_S640000x8_d2 h_S_ (ix2 e h)
      = ∑ d : Fin 32, X (ix3 e h d) := by
  rw [hostReduceAdd_apply]
  refine (Ideal.hostReduceAdd_single reducesTo_S640000x8x32_S640000x8_d2 reduces_lanes X _ (ix2 e h)).trans ?_
  rw [constant_apply, Ideal.ofBits_zero_f32, zero_add]
  show ∑ d : Fin 32, X (reduces_lanes.lift (ix2 e h) d) = _
  refine Finset.sum_congr rfl fun d _ => congrArg X (funext fun a => Fin.ext ?_)
  match a with
  | ⟨0, _⟩ => rfl
  | ⟨1, _⟩ => rfl
  | ⟨2, _⟩ => rfl

/-- The scaled score at (e, h). -/
theorem scoreRef_apply (kg qg eg : FVec Ideal S640000x8x32 .f32) (e : Fin 640000) (h : Fin 8) :
    scoreRef kg qg eg (ix2 e h)
      = Ideal.div (∑ d : Fin 32, (kg (ix3 e h d) + eg (ix3 e h d)) * qg (ix3 e h d))
          (Ideal.ofBits .f32 0x40B504F3#32) := by
  unfold scoreRef
  show Ideal.div
      (Host.reduceAdd (mulf (addf kg eg) qg) (constant (F := Ideal) S_ .f32 0x00000000#32)
        reducesTo_S640000x8x32_S640000x8_d2 h_S_ (ix2 e h))
      (broadcastInDim S640000x8 ![] bcast_S_S640000x8 (constant (F := Ideal) S_ .f32 0x40B504F3#32) (ix2 e h)) = _
  rw [laneSum_apply, broadcastInDim_scalar_apply]
  rfl

/-- The weight at (e, h): the exponential of the score clamped between the two bounds. -/
theorem sRef_apply (sc : FVec Ideal S640000x8 .f32) (e : Fin 640000) (h : Fin 8) :
    sRef sc (ix2 e h)
      = Ideal.exp (min (Ideal.ofBits .f32 0x41200000#32) (max (Ideal.ofBits .f32 0xC1200000#32) (sc (ix2 e h)))) := by
  unfold sRef
  show Ideal.exp
      (min (broadcastInDim S640000x8 ![] bcast_S_S640000x8 (id (constant (F := Ideal) S_ .f32 0x41200000#32)) (ix2 e h))
        (max (broadcastInDim S640000x8 ![] bcast_S_S640000x8 (id (constant (F := Ideal) S_ .f32 0xC1200000#32)) (ix2 e h))
          (sc (ix2 e h)))) = _
  rw [broadcastInDim_scalar_apply, broadcastInDim_scalar_apply]
  rfl

/-- The message at (e, h, d): (value + relation) times the head's weight. -/
theorem msgRef_apply (vg eg : FVec Ideal S640000x8x32 .f32) (s : FVec Ideal S640000x8 .f32) (e : Fin 640000)
    (h : Fin 8) (d : Fin 32) :
    msgRef vg eg s (ix3 e h d) = (vg (ix3 e h d) + eg (ix3 e h d)) * s (ix2 e h) := by
  unfold msgRef
  show (vg (ix3 e h d) + eg (ix3 e h d))
      * (broadcastInDim S640000x8x32 ![0, 1, 2] bcast_S640000x8x1_S640000x8x32_0_1_2
          (broadcastInDim S640000x8x1 ![0, 1] bcast_S640000x8_S640000x8x1_0_1 s) (ix3 e h d)) = _
  refine congrArg (fun z => (vg (ix3 e h d) + eg (ix3 e h d)) * z) ?_
  refine (broadcastInDim_apply _ _ _ (ix3 e h d) (ix3 e h (0 : Fin 1)) (fun a => ?_)).trans ?_
  · match a with
    | ⟨0, _⟩ => rfl
    | ⟨1, _⟩ => rfl
    | ⟨2, _⟩ => rfl
  · refine broadcastInDim_apply _ _ _ (ix3 e h (0 : Fin 1)) (ix2 e h) (fun a => ?_)
    match a with
    | ⟨0, _⟩ => rfl
    | ⟨1, _⟩ => rfl

end Cert.ReferenceIdeal.RefAttn

end
-- ==== Proof.LibScatterRows3.lean ====
/-
  An accumulating row scatter of a rank-three operand read at an index.

  A segment sum of updates `u : [E, H, D]` into an operand `x : [N, H, D]` at a column of row numbers
  `idx : [E, 1]` lowers to a scatter whose one scattered axis is the row axis (inserted, named by the index
  vector's one component) and whose two other axes are window axes.  Update element `(e, h, d)` lands on operand
  element `(n, h', d')` exactly when the index word of `e`, read as a signed integer and not clamped, is `n`,
  and `h = h'`, `d = d'`; an update whose word is outside `[0, N)` lands nowhere.  At the exact-real instance
  the result at `(n, h, d)` is therefore the operand's entry plus the sum, over the edges `e` whose word is
  `n`, of `u[e, h, d]`.

  The first lemma is the general fact behind it, for any scatter with one scattered axis `a₀`: if on `a₀` the
  window starts at a word and has no window coordinate, and on every other axis it starts at zero, then an update
  lands on `i` exactly when the word is `i`'s coordinate on `a₀` and the update's window coordinates are
  `i`'s other coordinates.
-/
import Idealize.ShloMosaic.PureOps.Ideal
import Idealize.ShloMosaic.PureOps.Contract
import Idealize.ShloMosaic.Lib.ValueIdx

noncomputable section

open scoped BigOperators

namespace Idealize.ShloMosaic.ScatterRows3

open Idealize.ShloMosaic Idealize.ShloMosaic.ValueIdx

/-- WHERE AN UPDATE LANDS, ONE SCATTERED AXIS. If on the axis `a₀` the window of update `j` starts at `word`
    and has no window coordinate, and on every other axis it starts at zero, then `j` lands on `i` exactly
    when `word` is `i`'s coordinate on `a₀` and, on every other axis, `j`'s window coordinate is `i`'s. -/
theorem resultIdx?_eq_some_iff_of_axis {s si su : Shape} (d : ScatterDims s si su) {w : Nat} (idx : IVec si w)
    (j : su.Idx) (i : s.Idx) (a0 : Fin s.rank) (word : Int)
    (hs0 : d.start j idx a0 = word) (hw0 : d.window j a0 = 0)
    (hs : ∀ a, a ≠ a0 → d.start j idx a = 0) :
    d.resultIdx? j idx = some i ↔ (word = ((i a0).val : Int) ∧ ∀ a, a ≠ a0 → d.window j a = (i a).val) := by
  unfold ScatterDims.resultIdx?
  constructor
  · intro h
    split at h
    · rename_i hb
      have hi := Option.some.inj h
      refine ⟨?_, fun a ha => ?_⟩
      · have h1 := congrArg (fun f => (f a0).val) hi
        simp only [hs0, hw0] at h1
        have h2 := (hb a0).1
        rw [hs0, hw0] at h2
        omega
      · have h1 := congrArg (fun f => (f a).val) hi
        simp only [hs a ha] at h1
        omega
    · exact absurd h (by simp)
  · rintro ⟨h0, hr⟩
    have hb : ∀ a, 0 ≤ d.start j idx a + d.window j a ∧ d.start j idx a + d.window j a < s.size a := by
      intro a
      by_cases ha : a = a0
      · subst ha
        rw [hs0, hw0, h0]
        have := (i a).isLt
        constructor <;> omega
      · rw [hs a ha, hr a ha]
        have := (i a).isLt
        constructor <;> omega
    rw [dif_pos hb]
    refine congrArg some ?_
    funext a
    refine Fin.ext ?_
    show (d.start j idx a + d.window j a).toNat = (i a).val
    by_cases ha : a = a0
    · subst ha
      rw [hs0, hw0, h0]; omega
    · rw [hs a ha, hr a ha]; omega

/-- Of the three axes, the two that are not the inserted row axis are kept: the row axis is not among them … -/
theorem kept_row : ¬ (0 : Fin 3) ∈ (List.finRange 3).filter (· ∉ ([0] : List (Fin 3))) := by decide
/-- … the second axis is … -/
theorem kept_head : (1 : Fin 3) ∈ (List.finRange 3).filter (· ∉ ([0] : List (Fin 3))) := by decide
/-- … and so is the third. -/
theorem kept_lane : (2 : Fin 3) ∈ (List.finRange 3).filter (· ∉ ([0] : List (Fin 3))) := by decide
/-- The second axis is not the row axis … -/
theorem head_ne_row : (1 : Fin 3) ≠ 0 := by decide
/-- … nor is the third. -/
theorem lane_ne_row : (2 : Fin 3) ≠ 0 := by decide

/-- The dimension numbers of a row scatter for an operand `[N, H, D]`, scatter indices `[E, 1]` and updates
    `[E, H, D]`; their conditions `wf` are decided on a program's literal shapes. -/
abbrev rowsDims (N H D E : Nat)
    (wf : ScatterDims.WF ⟨3, ![N, H, D]⟩ ⟨2, ![E, 1]⟩ ⟨3, ![E, H, D]⟩ [1, 2] [0] [0] 1) :
    ScatterDims ⟨3, ![N, H, D]⟩ ⟨2, ![E, 1]⟩ ⟨3, ![E, H, D]⟩ where
  updateWindowDims := [1, 2]
  insertedWindowDims := [0]
  scatterDimsToOperandDims := [0]
  indexVectorDim := 1
  wf := wf

variable {N H D E w : Nat} (wf : ScatterDims.WF ⟨3, ![N, H, D]⟩ ⟨2, ![E, 1]⟩ ⟨3, ![E, H, D]⟩ [1, 2] [0] [0] 1)

/-- On the row axis the window of update `(e, h, d)` starts at the index word of `e`, read signed. -/
theorem start_row (idx : IVec ⟨2, ![E, 1]⟩ w) (e : Fin E) (h : Fin H) (d : Fin D) :
    (rowsDims N H D E wf).start (ix3 e h d) idx (0 : Fin 3) = (idx (ix2 e (0 : Fin 1))).toInt := by
  unfold ScatterDims.start
  rw [dif_pos (show (0 : Fin 3) ∈ (rowsDims N H D E wf).scatterDimsToOperandDims from List.mem_singleton.mpr rfl)]
  have hsi : (rowsDims N H D E wf).siIdx (ix3 e h d)
      ⟨List.idxOf (0 : Fin 3) (rowsDims N H D E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the second axis the window starts at zero. -/
theorem start_head (idx : IVec ⟨2, ![E, 1]⟩ w) (e : Fin E) (h : Fin H) (d : Fin D) :
    (rowsDims N H D E wf).start (ix3 e h d) idx (1 : Fin 3) = 0 := by
  unfold ScatterDims.start
  rw [dif_neg (show ¬ (1 : Fin 3) ∈ ([0] : List (Fin 3)) by decide)]

/-- On the third axis the window starts at zero. -/
theorem start_lane (idx : IVec ⟨2, ![E, 1]⟩ w) (e : Fin E) (h : Fin H) (d : Fin D) :
    (rowsDims N H D E wf).start (ix3 e h d) idx (2 : Fin 3) = 0 := by
  unfold ScatterDims.start
  rw [dif_neg (show ¬ (2 : Fin 3) ∈ ([0] : List (Fin 3)) by decide)]

/-- The row axis is inserted: no window coordinate. -/
theorem window_row (e : Fin E) (h : Fin H) (d : Fin D) :
    (rowsDims N H D E wf).window (ix3 e h d) (0 : Fin 3) = 0 := by
  unfold ScatterDims.window
  rw [dif_neg (show ¬ (0 : Fin 3) ∈ (rowsDims N H D E wf).sKept from kept_row)]

/-- The second axis is the first window axis: the update's own second coordinate. -/
theorem window_head (e : Fin E) (h : Fin H) (d : Fin D) :
    (rowsDims N H D E wf).window (ix3 e h d) (1 : Fin 3) = h.val := by
  unfold ScatterDims.window
  rw [dif_pos (show (1 : Fin 3) ∈ (rowsDims N H D E wf).sKept from kept_head)]
  rfl

/-- The third axis is the second window axis: the update's own third coordinate. -/
theorem window_lane (e : Fin E) (h : Fin H) (d : Fin D) :
    (rowsDims N H D E wf).window (ix3 e h d) (2 : Fin 3) = d.val := by
  unfold ScatterDims.window
  rw [dif_pos (show (2 : Fin 3) ∈ (rowsDims N H D E wf).sKept from kept_lane)]
  rfl

/-- WHERE AN UPDATE LANDS: update `(e, h, d)` lands on `(n, h', d')` exactly when the index word of `e`, read
    signed, is `n`, and `h = h'`, `d = d'`. -/
theorem resultIdx?_eq_some_iff (idx : IVec ⟨2, ![E, 1]⟩ w) (e : Fin E) (h h' : Fin H) (d d' : Fin D) (n : Fin N) :
    (rowsDims N H D E wf).resultIdx? (ix3 e h d) idx = some (ix3 n h' d')
      ↔ (idx (ix2 e (0 : Fin 1))).toInt = (n.val : Int) ∧ h = h' ∧ d = d' := by
  have hs : ∀ a : Fin 3, a ≠ 0 → (rowsDims N H D E wf).start (ix3 e h d) idx a = 0 := by
    intro a ha
    match a, ha with
    | ⟨0, _⟩, ha => exact absurd (Fin.ext rfl) ha
    | ⟨1, _⟩, _ => exact start_head wf idx e h d
    | ⟨2, _⟩, _ => exact start_lane wf idx e h d
  refine (resultIdx?_eq_some_iff_of_axis (rowsDims N H D E wf) idx (ix3 e h d) (ix3 n h' d') (0 : Fin 3) _
    (start_row wf idx e h d) (window_row wf e h d) hs).trans ?_
  constructor
  · rintro ⟨h0, hr⟩
    have h1 := hr (1 : Fin 3) head_ne_row
    have h2 := hr (2 : Fin 3) lane_ne_row
    rw [window_head] at h1
    rw [window_lane] at h2
    exact ⟨h0, Fin.ext h1, Fin.ext h2⟩
  · rintro ⟨h0, rfl, rfl⟩
    refine ⟨h0, fun a ha => ?_⟩
    match a, ha with
    | ⟨0, _⟩, ha => exact absurd (Fin.ext rfl) ha
    | ⟨1, _⟩, _ => exact window_head wf e h d
    | ⟨2, _⟩, _ => exact window_lane wf e h d

/-- THE ACCUMULATING ROW SCATTER READ AT `(n, h, d)`: the operand's entry plus the sum of entry `(h, d)` of the
    updates whose index word, read signed, is `n`. -/
theorem hostScatterAdd_rows_apply (x : (⟨3, ![N, H, D]⟩ : Shape).Idx → EReal) (idx : IVec ⟨2, ![E, 1]⟩ w)
    (upd : (⟨3, ![E, H, D]⟩ : Shape).Idx → EReal) (n : Fin N) (h : Fin H) (d : Fin D) :
    Ideal.hostScatterAdd (rowsDims N H D E wf) x idx upd (ix3 n h d)
      = x (ix3 n h d) + ∑ e ∈ Finset.univ.filter (fun e : Fin E => (idx (ix2 e (0 : Fin 1))).toInt = (n.val : Int)),
          upd (ix3 e h d) := by
  unfold Ideal.hostScatterAdd
  refine congrArg (x (ix3 n h d) + ·) (Eq.symm ?_)
  refine Finset.sum_bij (fun e _ => ix3 e h d) ?_ ?_ ?_ ?_
  · intro e he
    rw [Finset.mem_filter] at he ⊢
    exact ⟨Finset.mem_univ _, (resultIdx?_eq_some_iff wf idx e h h d d n).mpr ⟨he.2, rfl, rfl⟩⟩
  · intro e₁ _ e₂ _ hh
    exact Fin.ext (congrArg (fun f => (f (0 : Fin 3)).val) hh)
  · intro j hj
    rw [Finset.mem_filter] at hj
    obtain ⟨e, h'', d'', rfl⟩ : ∃ (e : Fin E) (h'' : Fin H) (d'' : Fin D), j = ix3 e h'' d'' :=
      ⟨j 0, j 1, j 2, eq_ix3 j⟩
    obtain ⟨hn, hh, hd⟩ := (resultIdx?_eq_some_iff wf idx e h'' h d'' d n).mp hj.2
    subst hh; subst hd
    exact ⟨e, Finset.mem_filter.mpr ⟨Finset.mem_univ _, hn⟩, rfl⟩
  · intro e _; rfl

end Idealize.ShloMosaic.ScatterRows3

end
-- ==== Proof.RefAttnAggMsg.lean ====
/-
  The segment sum of the messages, at an index.

  The accumulating scatter starts from zero and reads the destination column signed: an edge whose word is n adds
  its update to node n, an edge whose word is outside [0, 20000) adds nothing.  So the aggregated messages at
  (n, h, d) are the sum, over the edges that land on n, of the messages at (e, h, d).
-/
import proofs.«175432_j21457656611019_1_alg».proof.Proof.RefAttnDefs
import proofs.«175432_j21457656611019_1_alg».proof.Proof.LibScatterRows3
import Idealize.ShloMosaic.Lib.IdealHost

noncomputable section

open scoped BigOperators

namespace Cert.ReferenceIdeal.RefAttn

open Idealize.ShloMosaic Idealize.ShloMosaic.ValueIdx Cert.ReferenceIdeal Cert.ReferenceIdeal.Facts₀

variable [Facts]

/-- The segment sum of the messages is the exact accumulating row scatter, from the zero array. -/
theorem aggMsgRef_fn (msg : FVec Ideal S640000x8x32 .f32) (dstS : IVec S640000x1 32) :
    aggMsgRef msg dstS
      = Ideal.hostScatterAdd (ScatterRows3.rowsDims 20000 8 32 640000 scatter_S20000x8x32_S640000x1_S640000x8x32_12_0_0_1_wf)
          (broadcastInDim S20000x8x32 ![] bcast_S_S20000x8x32 (constant (F := Ideal) S_ .f32 0x00000000#32)) dstS msg := rfl

/-- The zero array reads zero. -/
theorem zero3_apply (n : Fin 20000) (h : Fin 8) (d : Fin 32) :
    (broadcastInDim S20000x8x32 ![] bcast_S_S20000x8x32 (constant (F := Ideal) S_ .f32 0x00000000#32)) (ix3 n h d) = 0 := by
  rw [broadcastInDim_scalar_apply, constant_apply, Ideal.ofBits_zero_f32]

/-- The aggregated messages at (n, h, d): the sum over the edges whose destination word is n. -/
theorem aggMsgRef_apply (msg : FVec Ideal S640000x8x32 .f32) (dstS : IVec S640000x1 32) (n : Fin 20000) (h : Fin 8)
    (d : Fin 32) :
    aggMsgRef msg dstS (ix3 n h d)
      = ∑ e ∈ Finset.univ.filter (fun e : Fin 640000 => (dstS (ix2 e (0 : Fin 1))).toInt = (n.val : Int)),
          msg (ix3 e h d) :=
  (congrFun (aggMsgRef_fn msg dstS) (ix3 n h d)).trans
    ((ScatterRows3.hostScatterAdd_rows_apply scatter_S20000x8x32_S640000x1_S640000x8x32_12_0_0_1_wf (broadcastInDim S20000x8x32 ![] bcast_S_S20000x8x32 (constant (F := Ideal) S_ .f32 0x00000000#32)) dstS msg n h d).trans
      ((congrArg (fun z : EReal => z + ∑ e ∈ Finset.univ.filter
          (fun e : Fin 640000 => (dstS (ix2 e (0 : Fin 1))).toInt = (n.val : Int)), msg (ix3 e h d))
        (zero3_apply n h d)).trans (zero_add _)))

end Cert.ReferenceIdeal.RefAttn

end
-- ==== Proof.RefAttnAggW.lean ====
/-
  The segment sum of the weights, at an index, and the specification's segment sum with its condition spelt out.

  As for the messages: the aggregated weights at (n, h) are the sum, over the edges whose destination word read
  signed is n, of the weights at (e, h).
-/
import proofs.«175432_j21457656611019_1_alg».proof.Proof.RefAttnDefs
import proofs.«175432_j21457656611019_1_alg».proof.Proof.Spec
import proofs.«175432_j21457656611019_1_alg».proof.Proof.LibScatterRows
import Idealize.ShloMosaic.Lib.IdealHost

noncomputable section

open scoped BigOperators

namespace Cert.ReferenceIdeal.RefAttn

open Idealize.ShloMosaic Idealize.ShloMosaic.ValueIdx Cert.ReferenceIdeal Cert.ReferenceIdeal.Facts₀

variable [Facts]

/-- The segment sum of the weights is the exact accumulating row scatter, from the zero array. -/
theorem aggWRef_fn (s : FVec Ideal S640000x8 .f32) (dstS : IVec S640000x1 32) :
    aggWRef s dstS
      = Ideal.hostScatterAdd (ScatterRows.rowsDims 20000 8 640000 scatter_S20000x8_S640000x1_S640000x8_1_0_0_1_wf)
          (broadcastInDim S20000x8 ![] bcast_S_S20000x8 (constant (F := Ideal) S_ .f32 0x00000000#32)) dstS s := rfl

/-- The zero array reads zero. -/
theorem zero2_apply (n : Fin 20000) (h : Fin 8) :
    (broadcastInDim S20000x8 ![] bcast_S_S20000x8 (constant (F := Ideal) S_ .f32 0x00000000#32)) (ix2 n h) = 0 := by
  rw [broadcastInDim_scalar_apply, constant_apply, Ideal.ofBits_zero_f32]

/-- The aggregated weights at (n, h): the sum over the edges whose destination word is n. -/
theorem aggWRef_apply (s : FVec Ideal S640000x8 .f32) (dstS : IVec S640000x1 32) (n : Fin 20000) (h : Fin 8) :
    aggWRef s dstS (ix2 n h)
      = ∑ e ∈ Finset.univ.filter (fun e : Fin 640000 => (dstS (ix2 e (0 : Fin 1))).toInt = (n.val : Int)),
          s (ix2 e h) :=
  (congrFun (aggWRef_fn s dstS) (ix2 n h)).trans
    ((ScatterRows.hostScatterAdd_rows_apply scatter_S20000x8_S640000x1_S640000x8_1_0_0_1_wf (broadcastInDim S20000x8 ![] bcast_S_S20000x8 (constant (F := Ideal) S_ .f32 0x00000000#32)) dstS s n h).trans
      ((congrArg (fun z : EReal => z + ∑ e ∈ Finset.univ.filter
          (fun e : Fin 640000 => (dstS (ix2 e (0 : Fin 1))).toInt = (n.val : Int)), s (ix2 e h))
        (zero2_apply n h)).trans (zero_add _)))

/-- The specification's segment sum at (n, c), its condition spelt out. -/
theorem scat_apply {C : Nat} (U : Cert.Spec.Arr2 640000 C) (I : Cert.Spec.IdxCol) (n : Fin 20000) (c : Fin C) :
    Cert.Spec.scat U I (ix2 n c)
      = ∑ e ∈ Finset.univ.filter (fun e : Fin 640000 => (I (ix2 e (0 : Fin 1))).toInt = (n.val : Int)),
          U (ix2 e c) :=
  Finset.sum_congr (Finset.filter_congr fun e _ => Iff.rfl) fun e _ => rfl

end Cert.ReferenceIdeal.RefAttn

end
-- ==== Proof.RefAttnQuot.lean ====
/-
  The quotient of the two segment sums, at an index.

  The aggregated messages are divided by the aggregated weights bounded below by the small constant, each head's
  bound repeated over its lanes; laid back out as 256 columns — both layouts row-major — column j reads head j / 32
  and lane j mod 32.
-/
import proofs.«175432_j21457656611019_1_alg».proof.Proof.RefAttnDefs
import proofs.«175432_j21457656611019_1_alg».proof.Proof.Spec
import Idealize.ShloMosaic.Lib.Pipeline.Value
import Idealize.ShloMosaic.Lib.IdealHost

noncomputable section

open scoped BigOperators

namespace Cert.ReferenceIdeal.RefAttn

open Idealize.ShloMosaic Idealize.ShloMosaic.ValueIdx Cert.ReferenceIdeal Cert.ReferenceIdeal.Facts₀

variable [Facts]

/-- The bounded weights repeated over the lanes, at (n, h, d): the weight at (n, h) or the bound. -/
theorem bound_apply (aw : FVec Ideal S20000x8 .f32) (n : Fin 20000) (h : Fin 8) (d : Fin 32) :
    broadcastInDim S20000x8x32 ![0, 1, 2] bcast_S20000x8x1_S20000x8x32_0_1_2
        (broadcastInDim S20000x8x1 ![0, 1] bcast_S20000x8_S20000x8x1_0_1
          (maximumf aw
            (broadcastInDim S20000x8 ![] bcast_S_S20000x8 (constant (F := Ideal) S_ .f32 0x322BCC77#32))))
        (ix3 n h d)
      = max (aw (ix2 n h)) (Ideal.ofBits .f32 0x322BCC77#32) := by
  refine (broadcastInDim_apply _ _ _ (ix3 n h d) (ix3 n h (0 : Fin 1)) (fun a => ?_)).trans ?_
  · match a with
    | ⟨0, _⟩ => rfl
    | ⟨1, _⟩ => rfl
    | ⟨2, _⟩ => rfl
  · refine (broadcastInDim_apply _ _ _ (ix3 n h (0 : Fin 1)) (ix2 n h) (fun a => ?_)).trans ?_
    · match a with
      | ⟨0, _⟩ => rfl
      | ⟨1, _⟩ => rfl
    · show max (aw (ix2 n h))
          (broadcastInDim S20000x8 ![] bcast_S_S20000x8 (constant (F := Ideal) S_ .f32 0x322BCC77#32) (ix2 n h)) = _
      rw [broadcastInDim_scalar_apply]
      rfl

/-- The quotient at (n, j): the aggregated message of head j / 32, lane j mod 32, over that head's aggregated
    weight bounded below. -/
theorem quotRef_apply (am : FVec Ideal S20000x8x32 .f32) (aw : FVec Ideal S20000x8 .f32) (n : Fin 20000)
    (j : Fin 256) :
    quotRef am aw (ix2 n j)
      = Ideal.div (am (ix3 n (Cert.Spec.hd j) (Cert.Spec.lane j)))
          (max (aw (ix2 n (Cert.Spec.hd j))) (Ideal.ofBits .f32 0x322BCC77#32)) := by
  unfold quotRef
  refine (shapeCast_apply _ _ (ix2 n j) (ix3 n (Cert.Spec.hd j) (Cert.Spec.lane j)) ?_).trans ?_
  · rw [Shape.rowMajor_val_two, Shape.rowMajor_val_three]
    show (n.val * 8 + j.val / 32) * 32 + j.val % 32 = n.val * 256 + j.val
    omega
  · rw [hostDivf_apply, bound_apply]

end Cert.ReferenceIdeal.RefAttn

end
-- ==== Proof.RefAttn.lean ====
/-
  The attention half of the reference is the specification's.

  Stage by stage: the three tables by heads are the specification's linear maps at column 32·h + d, so the rows the
  edges read of them are the specification's row gathers there; the repeated relation rows are the specification's;
  hence the clamped exponentiated scores are the specification's weights and the messages its messages; the two
  segment sums over the destination column are its segment sums; and the quotient, read at column j as head j / 32
  and lane j mod 32, is its quotient.
-/
import proofs.«175432_j21457656611019_1_alg».proof.Proof.RefAttnDefs
import proofs.«175432_j21457656611019_1_alg».proof.Proof.Spec
import proofs.«175432_j21457656611019_1_alg».proof.Proof.RefAttnLin
import proofs.«175432_j21457656611019_1_alg».proof.Proof.RefAttnGather
import proofs.«175432_j21457656611019_1_alg».proof.Proof.RefAttnScore
import proofs.«175432_j21457656611019_1_alg».proof.Proof.RefAttnAggMsg
import proofs.«175432_j21457656611019_1_alg».proof.Proof.RefAttnAggW
import proofs.«175432_j21457656611019_1_alg».proof.Proof.RefAttnQuot

noncomputable section

open scoped BigOperators

namespace Cert.ReferenceIdeal.RefAttn

open Idealize.ShloMosaic Idealize.ShloMosaic.ValueIdx Cert.ReferenceIdeal Cert.ReferenceIdeal.Facts₀

variable [Facts]

/-- If the gathered key, query and relation tables are two-axis arrays at column 32·h + d, the weight of edge e in
    head h is the specification's over those arrays. -/
theorem sRef_eq (kg qg eg : FVec Ideal S640000x8x32 .f32) (ks qd eh : Cert.Spec.Arr2 640000 256)
    (hk : ∀ (e : Fin 640000) (h : Fin 8) (d : Fin 32), kg (ix3 e h d) = ks (ix2 e (Cert.Spec.col h d)))
    (hq : ∀ (e : Fin 640000) (h : Fin 8) (d : Fin 32), qg (ix3 e h d) = qd (ix2 e (Cert.Spec.col h d)))
    (he : ∀ (e : Fin 640000) (h : Fin 8) (d : Fin 32), eg (ix3 e h d) = eh (ix2 e (Cert.Spec.col h d)))
    (e : Fin 640000) (h : Fin 8) :
    sRef (scoreRef kg qg eg) (ix2 e h) = Cert.Spec.sAt ks qd eh e h := by
  rw [sRef_apply, scoreRef_apply]
  unfold Cert.Spec.sAt
  simp only [hk, hq, he]

/-- Likewise the message at (e, h, d) is the specification's at column 32·h + d. -/
theorem msgRef_eq (vg eg : FVec Ideal S640000x8x32 .f32) (s : FVec Ideal S640000x8 .f32)
    (ks vs qd eh : Cert.Spec.Arr2 640000 256)
    (hv : ∀ (e : Fin 640000) (h : Fin 8) (d : Fin 32), vg (ix3 e h d) = vs (ix2 e (Cert.Spec.col h d)))
    (he : ∀ (e : Fin 640000) (h : Fin 8) (d : Fin 32), eg (ix3 e h d) = eh (ix2 e (Cert.Spec.col h d)))
    (hs : ∀ (e : Fin 640000) (h : Fin 8), s (ix2 e h) = Cert.Spec.sAt ks qd eh e h)
    (e : Fin 640000) (h : Fin 8) (d : Fin 32) :
    msgRef vg eg s (ix3 e h d) = Cert.Spec.msgArr ks vs qd eh (ix2 e (Cert.Spec.col h d)) := by
  rw [msgRef_apply, hv, he, hs]
  simp only [Cert.Spec.msgArr, Cert.Spec.r0_ix2, Cert.Spec.r1_ix2, Cert.Spec.hd_col]

/-- The aggregated messages at head j / 32, lane j mod 32 are the specification's segment sum at column j. -/
theorem aggMsgRef_eq (msg : FVec Ideal S640000x8x32 .f32) (U : Cert.Spec.Arr2 640000 256) (dstS : IVec S640000x1 32)
    (hU : ∀ (e : Fin 640000) (h : Fin 8) (d : Fin 32), msg (ix3 e h d) = U (ix2 e (Cert.Spec.col h d)))
    (n : Fin 20000) (j : Fin 256) :
    aggMsgRef msg dstS (ix3 n (Cert.Spec.hd j) (Cert.Spec.lane j)) = Cert.Spec.scat U dstS (ix2 n j) := by
  rw [aggMsgRef_apply, scat_apply]
  refine Finset.sum_congr rfl fun e _ => ?_
  rw [hU, Cert.Spec.col_hd_lane]

/-- The aggregated weights are the specification's segment sum. -/
theorem aggWRef_eq (s : FVec Ideal S640000x8 .f32) (Z : Cert.Spec.Arr2 640000 8) (dstS : IVec S640000x1 32)
    (hZ : ∀ (e : Fin 640000) (h : Fin 8), s (ix2 e h) = Z (ix2 e h)) (n : Fin 20000) (h : Fin 8) :
    aggWRef s dstS (ix2 n h) = Cert.Spec.scat Z dstS (ix2 n h) := by
  rw [aggWRef_apply, scat_apply]
  exact Finset.sum_congr rfl fun e _ => hZ e h

/-- THE ATTENTION HALF OF THE REFERENCE IS THE SPECIFICATION'S: the aggregated messages over the aggregated
    weights, over the specification's gathered linear maps and relation rows. -/
theorem attnRef_eq (x : FVec Ideal S20000x256 .f32) (Wq : FVec Ideal S256x256 .f32) (bq : FVec Ideal S256 .f32)
    (Wk Wv : FVec Ideal S256x256 .f32) (rel : FVec Ideal S100x32 .f32) (relI srcI dstI dstS : IVec S640000x1 32) :
    attnRef x Wq bq Wk Wv rel relI srcI dstI dstS
      = Cert.Spec.oOf
          (Cert.Spec.scat (Cert.Spec.msgArr (Cert.Spec.gathRows (Cert.Spec.linArr x Wk) srcI) (Cert.Spec.gathRows (Cert.Spec.linArr x Wv) srcI) (Cert.Spec.gathRows (Cert.Spec.linBiasArr x Wq bq) dstI) (Cert.Spec.relRows rel relI)) dstS)
          (Cert.Spec.scat (Cert.Spec.sArr (Cert.Spec.gathRows (Cert.Spec.linArr x Wk) srcI) (Cert.Spec.gathRows (Cert.Spec.linBiasArr x Wq bq) dstI) (Cert.Spec.relRows rel relI)) dstS) := by
  funext i
  obtain ⟨n, j, rfl⟩ : ∃ (n : Fin 20000) (j : Fin 256), i = ix2 n j := ⟨i 0, i 1, eq_ix2 i⟩
  have hk := gathRef_eq (kvRef x Wk) (Cert.Spec.linArr x Wk) srcI (kvRef_apply x Wk)
  have hv := gathRef_eq (kvRef x Wv) (Cert.Spec.linArr x Wv) srcI (kvRef_apply x Wv)
  have hq := gathRef_eq (qRef x Wq bq) (Cert.Spec.linBiasArr x Wq bq) dstI (qRef_apply x Wq bq)
  have he := relRef_eq rel relI
  have hs := sRef_eq (gathRef (kvRef x Wk) srcI) (gathRef (qRef x Wq bq) dstI) (relRef rel relI) (Cert.Spec.gathRows (Cert.Spec.linArr x Wk) srcI) (Cert.Spec.gathRows (Cert.Spec.linBiasArr x Wq bq) dstI) (Cert.Spec.relRows rel relI) hk hq he
  have hm := msgRef_eq (gathRef (kvRef x Wv) srcI) (relRef rel relI) (sRef (scoreRef (gathRef (kvRef x Wk) srcI) (gathRef (qRef x Wq bq) dstI) (relRef rel relI))) (Cert.Spec.gathRows (Cert.Spec.linArr x Wk) srcI) (Cert.Spec.gathRows (Cert.Spec.linArr x Wv) srcI) (Cert.Spec.gathRows (Cert.Spec.linBiasArr x Wq bq) dstI) (Cert.Spec.relRows rel relI) hv he hs
  unfold attnRef
  rw [quotRef_apply,
    aggMsgRef_eq (msgRef (gathRef (kvRef x Wv) srcI) (relRef rel relI) (sRef (scoreRef (gathRef (kvRef x Wk) srcI) (gathRef (qRef x Wq bq) dstI) (relRef rel relI)))) (Cert.Spec.msgArr (Cert.Spec.gathRows (Cert.Spec.linArr x Wk) srcI) (Cert.Spec.gathRows (Cert.Spec.linArr x Wv) srcI) (Cert.Spec.gathRows (Cert.Spec.linBiasArr x Wq bq) dstI) (Cert.Spec.relRows rel relI)) dstS hm n j,
    aggWRef_eq (sRef (scoreRef (gathRef (kvRef x Wk) srcI) (gathRef (qRef x Wq bq) dstI) (relRef rel relI))) (Cert.Spec.sArr (Cert.Spec.gathRows (Cert.Spec.linArr x Wk) srcI) (Cert.Spec.gathRows (Cert.Spec.linBiasArr x Wq bq) dstI) (Cert.Spec.relRows rel relI)) dstS hs n (Cert.Spec.hd j)]
  rfl

end Cert.ReferenceIdeal.RefAttn

end
-- ==== Proof.RefLayer.lean ====
/-
  One layer of the reference is the specification's layer.

  A layer of the reference is its feed-forward half applied to the node features and to its attention half of the
  same features.  The feed-forward half is the specification's post-attention stage, for any weights; the
  attention half is the specification's attention quotient over the gathered linear maps and relation rows.  The
  specification's layer is the first applied to the second: the two sides are the same term.
-/
import proofs.«175432_j21457656611019_1_alg».proof.Proof.RefPost
import proofs.«175432_j21457656611019_1_alg».proof.Proof.RefAttn
import proofs.«175432_j21457656611019_1_alg».proof.Proof.Gen.ReferenceIdeal

noncomputable section

namespace Cert.ReferenceIdeal.RefVal

open Idealize.ShloMosaic Cert.ReferenceIdeal Cert.ReferenceIdeal.Gen
open Cert.ReferenceIdeal.RefPost Cert.ReferenceIdeal.RefAttn

/-- The feed-forward half over the attention half is the specification's layer, for any weights and any relation
    table and index columns. -/
theorem layer_eq (x : FVec Ideal S20000x256 .f32) (P : Cert.Spec.Params) (G : Cert.Spec.Graph) :
    postRef x (attnRef x P.Wq P.bq P.Wk P.Wv G.rel G.relI G.srcI G.dstI G.dstS) P.Wo P.bo P.g1 P.b1 P.W1 P.c1 P.W2 P.c2 P.g2 P.b2
      = Cert.Spec.layer x P G := by
  rw [postRef_eq, attnRef_eq]
  rfl

end Cert.ReferenceIdeal.RefVal

end
-- ==== Proof.RefCutVal.lean ====
/-
  The reference's result, assembled from its four segments: the specification's two layers of the node features.
-/
import proofs.«175432_j21457656611019_1_alg».proof.Proof.RefCut1
import proofs.«175432_j21457656611019_1_alg».proof.Proof.RefCut2
import proofs.«175432_j21457656611019_1_alg».proof.Proof.RefCut3
import proofs.«175432_j21457656611019_1_alg».proof.Proof.RefCut4
import proofs.«175432_j21457656611019_1_alg».proof.Proof.RefLayer
import proofs.«175432_j21457656611019_1_alg».proof.Proof.RDefs
import Idealize.ShloMosaic.Lib.StableHlo.Run

set_option maxRecDepth 16384

noncomputable section

namespace Cert.ReferenceIdeal.RefCut

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.RDefs Cert.ReferenceIdeal.RefAttn Cert.ReferenceIdeal.RefPost

set_option maxHeartbeats 4000000

/-- A buffer the first two segments do not write. -/
theorem keep12 (V0 : Valuation τ sig (Elt Ideal)) (b : Ref sig .tc) (h1 : b ∉ seg1W) (h2 : b ∉ seg2W) :
    after seg2 (after seg1 V0) (Proc.devRef .tc b) = V0 (Proc.devRef .tc b) :=
  (keepSeg2 _ b h2).trans (keepSeg1 V0 b h1)

/-- A buffer the first three segments do not write. -/
theorem keep123 (V0 : Valuation τ sig (Elt Ideal)) (b : Ref sig .tc) (h1 : b ∉ seg1W) (h2 : b ∉ seg2W) (h3 : b ∉ seg3W) :
    after seg3 (after seg2 (after seg1 V0)) (Proc.devRef .tc b) = V0 (Proc.devRef .tc b) :=
  (keepSeg3 _ b h3).trans (keep12 V0 b h1 h2)

variable (m : (ℓ : Loc nD τ sig) → Buf (Elt Ideal) ℓ) (c : Dev nD)

/-- LAYER 1: after the first two segments the buffer of layer 1's result holds the specification's layer. -/
theorem value1 : after seg2 (after seg1 (fun b => m (c, b))) (Proc.devRef .tc main_v141)
    = Cert.Spec.layer (A m c main_arg0) (P0 m c) (G m c) := by
  generalize hV : (fun b => m (c, b) : Valuation τ sig (Elt Ideal)) = V0
  have e : ∀ b : Ref sig .tc, V0 (Proc.devRef .tc b) = A m c b := fun b => by rw [← hV]
  rw [post1 (after seg1 V0), keepSeg1 V0 main_arg0 (by decide), keepSeg1 V0 main_arg6 (by decide), keepSeg1 V0 main_arg7 (by decide), keepSeg1 V0 main_arg8 (by decide), keepSeg1 V0 main_arg9 (by decide), keepSeg1 V0 main_arg10 (by decide), keepSeg1 V0 main_arg11 (by decide), keepSeg1 V0 main_arg12 (by decide), keepSeg1 V0 main_arg13 (by decide), keepSeg1 V0 main_arg14 (by decide), keepSeg1 V0 main_arg15 (by decide), attn1 V0]
  simp only [e]
  exact Cert.ReferenceIdeal.RefVal.layer_eq (A m c main_arg0) (P0 m c) (G m c)

/-- THE RESULT: the specification's two layers. -/
theorem value : after ops (fun b => m (c, b)) (Proc.devRef .tc main_v275)
    = Cert.Spec.layer (Cert.Spec.layer (A m c main_arg0) (P0 m c) (G m c)) (P1 m c) (G m c) := by
  have h1 := value1 m c
  rw [after_ops]
  generalize hV : (fun b => m (c, b) : Valuation τ sig (Elt Ideal)) = V0 at h1 ⊢
  have e : ∀ b : Ref sig .tc, V0 (Proc.devRef .tc b) = A m c b := fun b => by rw [← hV]
  have h7 : (after seg2 (after seg1 V0)) (Proc.devRef .tc main_v7) = broadcastInDim S640000x1x32 ![0, 2] bcast_S640000x32_S640000x1x32_0_2
      (Host.gather gather_S100x32_S640000x1_S640000x32_1_0_n_n_0_1_132 (V0 (Proc.devRef .tc main_arg1)) (normCol 100#32 (V0 (Proc.devRef .tc main_arg16)))) :=
    (keepSeg2 _ main_v7 (by decide)).trans (rel7 V0)
  rw [post2 (after seg3 (after seg2 (after seg1 V0))), keep123 V0 main_arg6 (by decide) (by decide) (by decide), keep123 V0 main_arg7 (by decide) (by decide) (by decide), keep123 V0 main_arg8 (by decide) (by decide) (by decide), keep123 V0 main_arg9 (by decide) (by decide) (by decide), keep123 V0 main_arg10 (by decide) (by decide) (by decide), keep123 V0 main_arg11 (by decide) (by decide) (by decide), keep123 V0 main_arg12 (by decide) (by decide) (by decide), keep123 V0 main_arg13 (by decide) (by decide) (by decide), keep123 V0 main_arg14 (by decide) (by decide) (by decide), keep123 V0 main_arg15 (by decide) (by decide) (by decide),
    keepSeg3 (after seg2 (after seg1 V0)) main_v141 (by decide),
    attn2 (after seg2 (after seg1 V0)) _ _ h7, keep12 V0 main_arg2 (by decide) (by decide), keep12 V0 main_arg3 (by decide) (by decide), keep12 V0 main_arg4 (by decide) (by decide), keep12 V0 main_arg5 (by decide) (by decide), keep12 V0 main_arg17 (by decide) (by decide), keep12 V0 main_arg18 (by decide) (by decide), h1]
  simp only [e]
  exact Cert.ReferenceIdeal.RefVal.layer_eq _ (P1 m c) (G m c)

end Cert.ReferenceIdeal.RefCut

end
-- ==== Proof.Cross.lean ====
/-
  The two programs' pieces agree when their argument arrays do: the index columns, the relation table and each
  layer's weight slices are the same host operations of the same arrays.
-/
import proofs.«175432_j21457656611019_1_alg».proof.Proof.KDefs
import proofs.«175432_j21457656611019_1_alg».proof.Proof.RDefs

noncomputable section

namespace Cert.Cross

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem G_eq (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.RDefs.G m' c = Cert.KernelIdeal.KDefs.G m c := by
  unfold Cert.ReferenceIdeal.RDefs.G Cert.KernelIdeal.KDefs.G Cert.ReferenceIdeal.RDefs.A Cert.KernelIdeal.KDefs.A
  rw [h1, h16, h17, h18]
  rfl

theorem P0_eq (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.RDefs.P0 m' c = Cert.KernelIdeal.KDefs.P0 m c := by
  unfold Cert.ReferenceIdeal.RDefs.P0 Cert.KernelIdeal.KDefs.P0 Cert.ReferenceIdeal.RDefs.A Cert.KernelIdeal.KDefs.A
  rw [h2, h3, h4, h5, h6, h7, h8, h9, h10, h11, h12, h13, h14, h15]
  rfl

theorem P1_eq (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.RDefs.P1 m' c = Cert.KernelIdeal.KDefs.P1 m c := by
  unfold Cert.ReferenceIdeal.RDefs.P1 Cert.KernelIdeal.KDefs.P1 Cert.ReferenceIdeal.RDefs.A Cert.KernelIdeal.KDefs.A
  rw [h2, h3, h4, h5, h6, h7, h8, h9, h10, h11, h12, h13, h14, h15]
  rfl

end Cert.Cross

end
-- ==== Proof.lean ====
/-
  A two-layer graph-attention network: tiled kernels against one array program.

  Each layer projects the node features to queries, keys and values; every edge reads the key and value rows of its
  source node, the query row of its destination node and its relation's row; per edge and head the score
  Σ_d (k + r)·q over the head's 32 lanes is scaled, clamped and exponentiated, and the message is (v + r) times
  that weight; per node the messages and the weights of the edges that land on it are summed and divided; the
  quotient is projected and added to the features, normalised, passed through a rectified perceptron with a second
  residual and normalised again.

  The kernel program computes a layer in three tiled regions (projections by row blocks; messages by edge blocks;
  the node-wise tail by row blocks) with gathers and accumulating scatters between them on arrays [·, 256]; the
  reference computes it with whole-array operations on arrays [·, 8, 32].  Over the extended reals both are the
  specification's layer (Spec.lean), applied twice: tiling does not change a matrix product or a row sum, a change
  of float format is the identity, the two layouts index the same sums, and the reference's (x + a) + b is the
  kernel's x + (a + b) because addition of extended reals is associative.  No finiteness of the inputs is used.
  The programs' argument arrays are never written, which gives the three frames; the idealization rewrote no
  operation, so it preserves the kernel trivially.
-/
import proofs.«175432_j21457656611019_1_alg».proof.Defs
import proofs.«175432_j21457656611019_1_alg».proof.Proof.Gen.Kernel
import proofs.«175432_j21457656611019_1_alg».proof.Proof.Gen.Kernel.Frame
import proofs.«175432_j21457656611019_1_alg».proof.Proof.Gen.KernelIdeal
import proofs.«175432_j21457656611019_1_alg».proof.Proof.Gen.KernelIdeal.Frame
import proofs.«175432_j21457656611019_1_alg».proof.Proof.Gen.ReferenceIdeal
import proofs.«175432_j21457656611019_1_alg».proof.Proof.Gen.Pre_finite_inputs
import proofs.«175432_j21457656611019_1_alg».proof.Proof.KRun
import proofs.«175432_j21457656611019_1_alg».proof.Proof.KVal2
import proofs.«175432_j21457656611019_1_alg».proof.Proof.RefRunFrame
import proofs.«175432_j21457656611019_1_alg».proof.Proof.RefCutVal
import proofs.«175432_j21457656611019_1_alg».proof.Proof.Cross

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference. -/
theorem frame_ri : Cert.frame_ReferenceIdeal := Cert.ReferenceIdeal.RefRun.frame_ri

/-- The idealization rewrote nothing. -/
theorem preserves : Cert.preserves_Kernel_KernelIdeal := trivial

/-- From memories that agree on the arguments both programs end with the specification's two layers of the node
    features. -/
theorem algebraic : Cert.algebraic_KernelIdeal_ReferenceIdeal := by
  intro m ρ m' ρ' _ hagree
  refine ⟨fun c => Cert.Spec.layer (Cert.Spec.layer (Cert.KernelIdeal.KDefs.A m c Cert.KernelIdeal.main_arg0)
      (Cert.KernelIdeal.KDefs.P0 m c) (Cert.KernelIdeal.KDefs.G m c)) (Cert.KernelIdeal.KDefs.P1 m c)
      (Cert.KernelIdeal.KDefs.G m c), ?_, ?_⟩
  · exact (θ_run Cert.KernelIdeal.defs _ _).mono
      (fun r h c => ⟨(h c).1.trans (Cert.KernelIdeal.KVal2.layer2 m ρ c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7, h8, h9, h10, h11, h12, h13, h14, h15, h16, h17, h18⟩ := hagree c
    rw [Cert.ReferenceIdeal.RefCut.value m' c,
      Cert.Cross.G_eq m m' c h1 h16 h17 h18,
      Cert.Cross.P0_eq m m' c h2 h3 h4 h5 h6 h7 h8 h9 h10 h11 h12 h13 h14 h15,
      Cert.Cross.P1_eq m m' c h2 h3 h4 h5 h6 h7 h8 h9 h10 h11 h12 h13 h14 h15]
    exact congrArg (fun x => Cert.Spec.layer (Cert.Spec.layer x (Cert.KernelIdeal.KDefs.P0 m c) (Cert.KernelIdeal.KDefs.G m c))
      (Cert.KernelIdeal.KDefs.P1 m c) (Cert.KernelIdeal.KDefs.G m c)) h0

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
